-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_50" .f32 0x3CA3D70A#32 ((1 / 50 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x50 : Shape := ⟨2, ![1024, 50]⟩
abbrev S100000x70 : Shape := ⟨2, ![100000, 70]⟩
abbrev S100000 : Shape := ⟨1, ![100000]⟩
abbrev S_ : Shape := ⟨0, ![]⟩

class Facts : Prop where
  bcast_S_S100000x70 : S_.BroadcastsInDim S100000x70 (![] : Fin 0 → Fin S100000x70.rank)
  reducesTo_S100000x70_S_d0_1 : S100000x70.ReducesTo [0, 1] S_
  h_S_ : 0 < S_.numel
  bcast_S_S100000 : S_.BroadcastsInDim S100000 (![] : Fin 0 → Fin S100000.rank)
  reducesTo_S100000_S_d0 : S100000.ReducesTo [0] S_
  bcast_S_S1024x50 : S_.BroadcastsInDim S1024x50 (![] : Fin 0 → Fin S1024x50.rank)
  reducesTo_S1024x50_S_d0_1 : S1024x50.ReducesTo [0, 1] S_

variable [Facts]

def fn_part1 {F : FTy → Type} [FloatOps F] (main_arg0 : IVec S1024x50 32) (main_v13 : IVec S_ 1) (main_v15 : IVec S1024x50 1) (main_c_5 : IVec S_ 32) : IVec S_ 1 :=
  let main_v16 : IVec S1024x50 32 := broadcastInDim S1024x50 ![] bcast_S_S1024x50 main_c_5
  let main_v17 : IVec S1024x50 1 := cmpi .sle main_arg0 main_v16
  let main_v18 : IVec S1024x50 1 := andi main_v15 main_v17
  let main_c_6 : IVec S_ 1 := constantI S_ 1 1#1
  let main_v19 : IVec S_ 1 := (fun x v => Host.reduce IntOp.andi x v reducesTo_S1024x50_S_d0_1 h_S_) main_v18 main_c_6
  let main_v20 : IVec S_ 1 := andi main_v13 main_v19
  main_v20

def fn {F : FTy → Type} [FloatOps F] (main_arg0 : IVec S1024x50 32) (main_arg1 : FVec F S100000x70 .f32) (main_arg2 : FVec F S100000x70 .f32) (main_arg3 : FVec F S100000 .f32) : IVec S_ 1 :=
  let main_v0 : FVec F S100000x70 .f32 := Host.absf main_arg1
  let main_cst : FVec F S_ .f32 := constant S_ .f32 0x7F800000#32
  let main_v1 : FVec F S100000x70 .f32 := broadcastInDim S100000x70 ![] bcast_S_S100000x70 main_cst
  let main_v2 : IVec S100000x70 1 := cmpf .olt main_v0 main_v1
  let main_c : IVec S_ 1 := constantI S_ 1 1#1
  let main_v3 : IVec S_ 1 := (fun x v => Host.reduce IntOp.andi x v reducesTo_S100000x70_S_d0_1 h_S_) main_v2 main_c
  let main_v4 : FVec F S100000x70 .f32 := Host.absf main_arg2
  let main_cst_0 : FVec F S_ .f32 := constant S_ .f32 0x7F800000#32
  let main_v5 : FVec F S100000x70 .f32 := broadcastInDim S100000x70 ![] bcast_S_S100000x70 main_cst_0
  let main_v6 : IVec S100000x70 1 := cmpf .olt main_v4 main_v5
  let main_c_1 : IVec S_ 1 := constantI S_ 1 1#1
  let main_v7 : IVec S_ 1 := (fun x v => Host.reduce IntOp.andi x v reducesTo_S100000x70_S_d0_1 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_c_4 : IVec S_ 32 := constantI S_ 32 0#32
  let main_v14 : IVec S1024x50 32 := broadcastInDim S1024x50 ![] bcast_S_S1024x50 main_c_4
  let main_v15 : IVec S1024x50 1 := cmpi .sge main_arg0 main_v14
  let main_c_5 : IVec S_ 32 := constantI S_ 32 99999#32
  fn_part1 (F := F) main_arg0 main_v13 main_v15 main_c_5
-- ==== Kernel.lean ====
abbrev S1024x50 : Shape := ⟨2, ![1024, 50]⟩
abbrev S100000x70 : Shape := ⟨2, ![100000, 70]⟩
abbrev S100000 : Shape := ⟨1, ![100000]⟩
abbrev S51200 : Shape := ⟨1, ![51200]⟩
abbrev S70x100000 : Shape := ⟨2, ![70, 100000]⟩
abbrev S100000x128 : Shape := ⟨2, ![100000, 128]⟩
abbrev S70x2048 : Shape := ⟨2, ![70, 2048]⟩
abbrev S2048x128 : Shape := ⟨2, ![2048, 128]⟩
abbrev S2048x70 : Shape := ⟨2, ![2048, 70]⟩
abbrev S1024x128 : Shape := ⟨2, ![1024, 128]⟩
abbrev S1600 : Shape := ⟨1, ![1600]⟩
abbrev S2x200x128 : Shape := ⟨3, ![2, 200, 128]⟩
abbrev S32x128 : Shape := ⟨2, ![32, 128]⟩
abbrev S_ : Shape := ⟨0, ![]⟩
abbrev S1x200x128 : Shape := ⟨3, ![1, 200, 128]⟩
abbrev S200x128 : Shape := ⟨2, ![200, 128]⟩
abbrev S200 : Shape := ⟨1, ![200]⟩
abbrev S16 : Shape := ⟨1, ![16]⟩
abbrev S1x1x16 : Shape := ⟨3, ![1, 1, 16]⟩
abbrev S1x16 : Shape := ⟨2, ![1, 16]⟩
abbrev S1x100000 : Shape := ⟨2, ![1, 100000]⟩
abbrev S100000x1024 : Shape := ⟨2, ![100000, 1024]⟩
abbrev S70x4096 : Shape := ⟨2, ![70, 4096]⟩
abbrev S1x4096 : Shape := ⟨2, ![1, 4096]⟩
abbrev S4096x1024 : Shape := ⟨2, ![4096, 1024]⟩
abbrev S1024x70 : Shape := ⟨2, ![1024, 70]⟩
abbrev S4096x1 : Shape := ⟨2, ![4096, 1]⟩
abbrev S1024x100000 : Shape := ⟨2, ![1024, 100000]⟩

abbrev nBuf : Table → Nat
  | .hbm => 12
  | .local .tc .vmem => 11
  | .local .scVector .vmem => 3
  | _ => 0

abbrev bufTy : (tb : Table) → Fin (nBuf tb) → BufTy
  | .hbm, ⟨0, _⟩ => ⟨S1024x50, .i32⟩
  | .hbm, ⟨1, _⟩ => ⟨S100000x70, .f32⟩
  | .hbm, ⟨2, _⟩ => ⟨S100000x70, .f32⟩
  | .hbm, ⟨3, _⟩ => ⟨S100000, .f32⟩
  | .hbm, ⟨4, _⟩ => ⟨S51200, .i32⟩
  | .hbm, ⟨5, _⟩ => ⟨S70x100000, .f32⟩
  | .hbm, ⟨6, _⟩ => ⟨S100000x128, .f32⟩
  | .hbm, ⟨7, _⟩ => ⟨S1024x128, .f32⟩
  | .hbm, ⟨8, _⟩ => ⟨S70x100000, .f32⟩
  | .hbm, ⟨9, _⟩ => ⟨S1x100000, .f32⟩
  | .hbm, ⟨10, _⟩ => ⟨S100000x1024, .f32⟩
  | .hbm, ⟨11, _⟩ => ⟨S1024x100000, .f32⟩
  | .local .tc .vmem, ⟨0, _⟩ => ⟨S70x2048, .f32⟩
  | .local .tc .vmem, ⟨1, _⟩ => ⟨S70x2048, .f32⟩
  | .local .tc .vmem, ⟨2, _⟩ => ⟨S2048x128, .f32⟩
  | .local .tc .vmem, ⟨3, _⟩ => ⟨S2048x128, .f32⟩
  | .local .tc .vmem, ⟨4, _⟩ => ⟨S70x4096, .f32⟩
  | .local .tc .vmem, ⟨5, _⟩ => ⟨S70x4096, .f32⟩
  | .local .tc .vmem, ⟨6, _⟩ => ⟨S1024x128, .f32⟩
  | .local .tc .vmem, ⟨7, _⟩ => ⟨S1x4096, .f32⟩
  | .local .tc .vmem, ⟨8, _⟩ => ⟨S1x4096, .f32⟩
  | .local .tc .vmem, ⟨9, _⟩ => ⟨S4096x1024, .f32⟩
  | .local .tc .vmem, ⟨10, _⟩ => ⟨S4096x1024, .f32⟩
  | .local .scVector .vmem, ⟨0, _⟩ => ⟨S1600, .i32⟩
  | .local .scVector .vmem, ⟨1, _⟩ => ⟨S2x200x128, .f32⟩
  | .local .scVector .vmem, ⟨2, _⟩ => ⟨S32x128, .f32⟩
  | _, _ => ⟨S1024x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v0_scv : Ref sig .scVector := ⟨.hbm, 4, rfl⟩
abbrev main_v2_scv : Ref sig .scVector := ⟨.hbm, 6, rfl⟩
abbrev main_v3_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg2_1 : Ref sig .tc := ⟨.vmem, 8, rfl⟩
abbrev cc2_stg3_0 : Ref sig .tc := ⟨.vmem, 9, rfl⟩
abbrev cc2_stg3_1 : Ref sig .tc := ⟨.vmem, 10, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc2_sem3_0 : DmaSem sig := 13
abbrev cc2_sem3_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S70x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  ![v2.toNat]
@[reducible] def k1_t1_loop : Scf.Loop 32 :=
  let c0_i32_15 : BitVec 32 := 0#32
  let c50_i32 : BitVec 32 := 50#32
  let v16 : BitVec 32 := Scalar.addi c0_i32_15 c50_i32
  let c1_i32_16 : BitVec 32 := 1#32
  ⟨c0_i32_15, v16, c1_i32_16⟩
def k1_off2 (k1_t1 : Fin k1_t1_loop.trips) : Fin 3 → Nat :=
  let c0_i32_501 : BitVec 32 := 0#32
  let v774 : Index := Scalar.indexCast c0_i32_501
  let c0_i32_500 : BitVec 32 := 0#32
  let c0_i32_15 : BitVec 32 := 0#32
  let c1_i32_16 : BitVec 32 := 1#32
  let arg10 : BitVec 32 := Scf.iv c0_i32_15 c1_i32_16 k1_t1
  let v773 : BitVec 32 := Scalar.addi c0_i32_500 arg10
  let v775 : Index := Scalar.indexCast v773
  let c0_502 : Index := 0#32
  ![0, v775.toNat, 0]
def k1_off3 (k1_t1 : Fin k1_t1_loop.trips) : Fin 3 → Nat :=
  let c0_i32_503 : BitVec 32 := 0#32
  let v779 : Index := Scalar.indexCast c0_i32_503
  let c0_i32_500 : BitVec 32 := 0#32
  let c0_i32_15 : BitVec 32 := 0#32
  let c1_i32_16 : BitVec 32 := 1#32
  let arg10 : BitVec 32 := Scf.iv c0_i32_15 c1_i32_16 k1_t1
  let v773 : BitVec 32 := Scalar.addi c0_i32_500 arg10
  let v780 : Index := Scalar.indexCast v773
  let c16_504 : Index := 16#32
  ![0, v780.toNat, 16]
def k1_off4 (k1_t1 : Fin k1_t1_loop.trips) : Fin 3 → Nat :=
  let c0_i32_505 : BitVec 32 := 0#32
  let v784 : Index := Scalar.indexCast c0_i32_505
  let c0_i32_500 : BitVec 32 := 0#32
  let c0_i32_15 : BitVec 32 := 0#32
  let c1_i32_16 : BitVec 32 := 1#32
  let arg10 : BitVec 32 := Scf.iv c0_i32_15 c1_i32_16 k1_t1
  let v773 : BitVec 32 := Scalar.addi c0_i32_500 arg10
  let v785 : Index := Scalar.indexCast v773
  let c32_506 : Index := 32#32
  ![0, v785.toNat, 32]
def k1_off5 (k1_t1 : Fin k1_t1_loop.trips) : Fin 3 → Nat :=
  let c0_i32_507 : BitVec 32 := 0#32
  let v789 : Index := Scalar.indexCast c0_i32_507
  let c0_i32_500 : BitVec 32 := 0#32
  let c0_i32_15 : BitVec 32 := 0#32
  let c1_i32_16 : BitVec 32 := 1#32
  let arg10 : BitVec 32 := Scf.iv c0_i32_15 c1_i32_16 k1_t1
  let v773 : BitVec 32 := Scalar.addi c0_i32_500 arg10
  let v790 : Index := Scalar.indexCast v773
  let c48_508 : Index := 48#32
  ![0, v790.toNat, 48]
def k1_off6 (k1_t1 : Fin k1_t1_loop.trips) : Fin 3 → Nat :=
  let c0_i32_509 : BitVec 32 := 0#32
  let v794 : Index := Scalar.indexCast c0_i32_509
  let c0_i32_500 : BitVec 32 := 0#32
  let c0_i32_15 : BitVec 32 := 0#32
  let c1_i32_16 : BitVec 32 := 1#32
  let arg10 : BitVec 32 := Scf.iv c0_i32_15 c1_i32_16 k1_t1
  let v773 : BitVec 32 := Scalar.addi c0_i32_500 arg10
  let v795 : Index := Scalar.indexCast v773
  let c54_510 : Index := 54#32
  ![0, v795.toNat, 54]
@[reducible] def k1_t2_loop : Scf.Loop 32 :=
  let c0_i32_23 : BitVec 32 := 0#32
  let c50_i32_24 : BitVec 32 := 50#32
  let v38 : BitVec 32 := Scalar.addi c0_i32_23 c50_i32_24
  let c1_i32_25 : BitVec 32 := 1#32
  ⟨c0_i32_23, v38, c1_i32_25⟩
def k1_off7 (k1_t2 : Fin k1_t2_loop.trips) : Fin 3 → Nat :=
  let c0_i32_501 : BitVec 32 := 0#32
  let v774 : Index := Scalar.indexCast c0_i32_501
  let c50_i32_500 : BitVec 32 := 50#32
  let c0_i32_23 : BitVec 32 := 0#32
  let c1_i32_25 : BitVec 32 := 1#32
  let arg10 : BitVec 32 := Scf.iv c0_i32_23 c1_i32_25 k1_t2
  let v773 : BitVec 32 := Scalar.addi c50_i32_500 arg10
  let v775 : Index := Scalar.indexCast v773
  let c0_502 : Index := 0#32
  ![0, v775.toNat, 0]
def k1_off8 (k1_t2 : Fin k1_t2_loop.trips) : Fin 3 → Nat :=
  let c0_i32_503 : BitVec 32 := 0#32
  let v779 : Index := Scalar.indexCast c0_i32_503
  let c50_i32_500 : BitVec 32 := 50#32
  let c0_i32_23 : BitVec 32 := 0#32
  let c1_i32_25 : BitVec 32 := 1#32
  let arg10 : BitVec 32 := Scf.iv c0_i32_23 c1_i32_25 k1_t2
  let v773 : BitVec 32 := Scalar.addi c50_i32_500 arg10
  let v780 : Index := Scalar.indexCast v773
  let c16_504 : Index := 16#32
  ![0, v780.toNat, 16]
def k1_off9 (k1_t2 : Fin k1_t2_loop.trips) : Fin 3 → Nat :=
  let c0_i32_505 : BitVec 32 := 0#32
  let v784 : Index := Scalar.indexCast c0_i32_505
  let c50_i32_500 : BitVec 32 := 50#32
  let c0_i32_23 : BitVec 32 := 0#32
  let c1_i32_25 : BitVec 32 := 1#32
  let arg10 : BitVec 32 := Scf.iv c0_i32_23 c1_i32_25 k1_t2
  let v773 : BitVec 32 := Scalar.addi c50_i32_500 arg10
  let v785 : Index := Scalar.indexCast v773
  let c32_506 : Index := 32#32
  ![0, v785.toNat, 32]
def k1_off10 (k1_t2 : Fin k1_t2_loop.trips) : Fin 3 → Nat :=
  let c0_i32_507 : BitVec 32 := 0#32
  let v789 : Index := Scalar.indexCast c0_i32_507
  let c50_i32_500 : BitVec 32 := 50#32
  let c0_i32_23 : BitVec 32 := 0#32
  let c1_i32_25 : BitVec 32 := 1#32
  let arg10 : BitVec 32 := Scf.iv c0_i32_23 c1_i32_25 k1_t2
  let v773 : BitVec 32 := Scalar.addi c50_i32_500 arg10
  let v790 : Index := Scalar.indexCast v773
  let c48_508 : Index := 48#32
  ![0, v790.toNat, 48]
def k1_off11 (k1_t2 : Fin k1_t2_loop.trips) : Fin 3 → Nat :=
  let c0_i32_509 : BitVec 32 := 0#32
  let v794 : Index := Scalar.indexCast c0_i32_509
  let c50_i32_500 : BitVec 32 := 50#32
  let c0_i32_23 : BitVec 32 := 0#32
  let c1_i32_25 : BitVec 32 := 1#32
  let arg10 : BitVec 32 := Scf.iv c0_i32_23 c1_i32_25 k1_t2
  let v773 : BitVec 32 := Scalar.addi c50_i32_500 arg10
  let v795 : Index := Scalar.indexCast v773
  let c54_510 : Index := 54#32
  ![0, v795.toNat, 54]
@[reducible] def k1_t3_loop : Scf.Loop 32 :=
  let c0_i32_37 : BitVec 32 := 0#32
  let c50_i32_38 : BitVec 32 := 50#32
  let v60 : BitVec 32 := Scalar.addi c0_i32_37 c50_i32_38
  let c1_i32_39 : BitVec 32 := 1#32
  ⟨c0_i32_37, v60, c1_i32_39⟩
def k1_off12 (k1_t3 : Fin k1_t3_loop.trips) : Fin 3 → Nat :=
  let c0_i32_500 : BitVec 32 := 0#32
  let v774 : Index := Scalar.indexCast c0_i32_500
  let c100_i32 : BitVec 32 := 100#32
  let c0_i32_37 : BitVec 32 := 0#32
  let c1_i32_39 : BitVec 32 := 1#32
  let arg10 : BitVec 32 := Scf.iv c0_i32_37 c1_i32_39 k1_t3
  let v773 : BitVec 32 := Scalar.addi c100_i32 arg10
  let v775 : Index := Scalar.indexCast v773
  let c0_501 : Index := 0#32
  ![0, v775.toNat, 0]
def k1_off13 (k1_t3 : Fin k1_t3_loop.trips) : Fin 3 → Nat :=
  let c0_i32_502 : BitVec 32 := 0#32
  let v779 : Index := Scalar.indexCast c0_i32_502
  let c100_i32 : BitVec 32 := 100#32
  let c0_i32_37 : BitVec 32 := 0#32
  let c1_i32_39 : BitVec 32 := 1#32
  let arg10 : BitVec 32 := Scf.iv c0_i32_37 c1_i32_39 k1_t3
  let v773 : BitVec 32 := Scalar.addi c100_i32 arg10
  let v780 : Index := Scalar.indexCast v773
  let c16_503 : Index := 16#32
  ![0, v780.toNat, 16]
def k1_off14 (k1_t3 : Fin k1_t3_loop.trips) : Fin 3 → Nat :=
  let c0_i32_504 : BitVec 32 := 0#32
  let v784 : Index := Scalar.indexCast c0_i32_504
  let c100_i32 : BitVec 32 := 100#32
  let c0_i32_37 : BitVec 32 := 0#32
  let c1_i32_39 : BitVec 32 := 1#32
  let arg10 : BitVec 32 := Scf.iv c0_i32_37 c1_i32_39 k1_t3
  let v773 : BitVec 32 := Scalar.addi c100_i32 arg10
  let v785 : Index := Scalar.indexCast v773
  let c32_505 : Index := 32#32
  ![0, v785.toNat, 32]
def k1_off15 (k1_t3 : Fin k1_t3_loop.trips) : Fin 3 → Nat :=
  let c0_i32_506 : BitVec 32 := 0#32
  let v789 : Index := Scalar.indexCast c0_i32_506
  let c100_i32 : BitVec 32 := 100#32
  let c0_i32_37 : BitVec 32 := 0#32
  let c1_i32_39 : BitVec 32 := 1#32
  let arg10 : BitVec 32 := Scf.iv c0_i32_37 c1_i32_39 k1_t3
  let v773 : BitVec 32 := Scalar.addi c100_i32 arg10
  let v790 : Index := Scalar.indexCast v773
  let c48_507 : Index := 48#32
  ![0, v790.toNat, 48]
def k1_off16 (k1_t3 : Fin k1_t3_loop.trips) : Fin 3 → Nat :=
  let c0_i32_508 : BitVec 32 := 0#32
  let v794 : Index := Scalar.indexCast c0_i32_508
  let c100_i32 : BitVec 32 := 100#32
  let c0_i32_37 : BitVec 32 := 0#32
  let c1_i32_39 : BitVec 32 := 1#32
  let arg10 : BitVec 32 := Scf.iv c0_i32_37 c1_i32_39 k1_t3
  let v773 : BitVec 32 := Scalar.addi c100_i32 arg10
  let v795 : Index := Scalar.indexCast v773
  let c54_509 : Index := 54#32
  ![0, v795.toNat, 54]
@[reducible] def k1_t4_loop : Scf.Loop 32 :=
  let c0_i32_51 : BitVec 32 := 0#32
  let c50_i32_52 : BitVec 32 := 50#32
  let v82 : BitVec 32 := Scalar.addi c0_i32_51 c50_i32_52
  let c1_i32_53 : BitVec 32 := 1#32
  ⟨c0_i32_51, v82, c1_i32_53⟩
def k1_off17 (k1_t4 : Fin k1_t4_loop.trips) : Fin 3 → Nat :=
  let c0_i32_500 : BitVec 32 := 0#32
  let v774 : Index := Scalar.indexCast c0_i32_500
  let c150_i32 : BitVec 32 := 150#32
  let c0_i32_51 : BitVec 32 := 0#32
  let c1_i32_53 : BitVec 32 := 1#32
  let arg10 : BitVec 32 := Scf.iv c0_i32_51 c1_i32_53 k1_t4
  let v773 : BitVec 32 := Scalar.addi c150_i32 arg10
  let v775 : Index := Scalar.indexCast v773
  let c0_501 : Index := 0#32
  ![0, v775.toNat, 0]
def k1_off18 (k1_t4 : Fin k1_t4_loop.trips) : Fin 3 → Nat :=
  let c0_i32_502 : BitVec 32 := 0#32
  let v779 : Index := Scalar.indexCast c0_i32_502
  let c150_i32 : BitVec 32 := 150#32
  let c0_i32_51 : BitVec 32 := 0#32
  let c1_i32_53 : BitVec 32 := 1#32
  let arg10 : BitVec 32 := Scf.iv c0_i32_51 c1_i32_53 k1_t4
  let v773 : BitVec 32 := Scalar.addi c150_i32 arg10
  let v780 : Index := Scalar.indexCast v773
  let c16_503 : Index := 16#32
  ![0, v780.toNat, 16]
def k1_off19 (k1_t4 : Fin k1_t4_loop.trips) : Fin 3 → Nat :=
  let c0_i32_504 : BitVec 32 := 0#32
  let v784 : Index := Scalar.indexCast c0_i32_504
  let c150_i32 : BitVec 32 := 150#32
  let c0_i32_51 : BitVec 32 := 0#32
  let c1_i32_53 : BitVec 32 := 1#32
  let arg10 : BitVec 32 := Scf.iv c0_i32_51 c1_i32_53 k1_t4
  let v773 : BitVec 32 := Scalar.addi c150_i32 arg10
  let v785 : Index := Scalar.indexCast v773
  let c32_505 : Index := 32#32
  ![0, v785.toNat, 32]
def k1_off20 (k1_t4 : Fin k1_t4_loop.trips) : Fin 3 → Nat :=
  let c0_i32_506 : BitVec 32 := 0#32
  let v789 : Index := Scalar.indexCast c0_i32_506
  let c150_i32 : BitVec 32 := 150#32
  let c0_i32_51 : BitVec 32 := 0#32
  let c1_i32_53 : BitVec 32 := 1#32
  let arg10 : BitVec 32 := Scf.iv c0_i32_51 c1_i32_53 k1_t4
  let v773 : BitVec 32 := Scalar.addi c150_i32 arg10
  let v790 : Index := Scalar.indexCast v773
  let c48_507 : Index := 48#32
  ![0, v790.toNat, 48]
def k1_off21 (k1_t4 : Fin k1_t4_loop.trips) : Fin 3 → Nat :=
  let c0_i32_508 : BitVec 32 := 0#32
  let v794 : Index := Scalar.indexCast c0_i32_508
  let c150_i32 : BitVec 32 := 150#32
  let c0_i32_51 : BitVec 32 := 0#32
  let c1_i32_53 : BitVec 32 := 1#32
  let arg10 : BitVec 32 := Scf.iv c0_i32_51 c1_i32_53 k1_t4
  let v773 : BitVec 32 := Scalar.addi c150_i32 arg10
  let v795 : Index := Scalar.indexCast v773
  let c54_509 : Index := 54#32
  ![0, v795.toNat, 54]
@[reducible] def k1_t5_loop : Scf.Loop 32 :=
  let c0_i32_75 : BitVec 32 := 0#32
  let c50_i32_76 : BitVec 32 := 50#32
  let v112 : BitVec 32 := Scalar.addi c0_i32_75 c50_i32_76
  let c1_i32_77 : BitVec 32 := 1#32
  ⟨c0_i32_75, v112, c1_i32_77⟩
def k1_off22 (k1_t5 : Fin k1_t5_loop.trips) : Fin 3 → Nat :=
  let c1_i32_501 : BitVec 32 := 1#32
  let v774 : Index := Scalar.indexCast c1_i32_501
  let c0_i32_500 : BitVec 32 := 0#32
  let c0_i32_75 : BitVec 32 := 0#32
  let c1_i32_77 : BitVec 32 := 1#32
  let arg10 : BitVec 32 := Scf.iv c0_i32_75 c1_i32_77 k1_t5
  let v773 : BitVec 32 := Scalar.addi c0_i32_500 arg10
  let v775 : Index := Scalar.indexCast v773
  let c0_502 : Index := 0#32
  ![1, v775.toNat, 0]
def k1_off23 (k1_t5 : Fin k1_t5_loop.trips) : Fin 3 → Nat :=
  let c1_i32_503 : BitVec 32 := 1#32
  let v779 : Index := Scalar.indexCast c1_i32_503
  let c0_i32_500 : BitVec 32 := 0#32
  let c0_i32_75 : BitVec 32 := 0#32
  let c1_i32_77 : BitVec 32 := 1#32
  let arg10 : BitVec 32 := Scf.iv c0_i32_75 c1_i32_77 k1_t5
  let v773 : BitVec 32 := Scalar.addi c0_i32_500 arg10
  let v780 : Index := Scalar.indexCast v773
  let c16_504 : Index := 16#32
  ![1, v780.toNat, 16]
def k1_off24 (k1_t5 : Fin k1_t5_loop.trips) : Fin 3 → Nat :=
  let c1_i32_505 : BitVec 32 := 1#32
  let v784 : Index := Scalar.indexCast c1_i32_505
  let c0_i32_500 : BitVec 32 := 0#32
  let c0_i32_75 : BitVec 32 := 0#32
  let c1_i32_77 : BitVec 32 := 1#32
  let arg10 : BitVec 32 := Scf.iv c0_i32_75 c1_i32_77 k1_t5
  let v773 : BitVec 32 := Scalar.addi c0_i32_500 arg10
  let v785 : Index := Scalar.indexCast v773
  let c32_506 : Index := 32#32
  ![1, v785.toNat, 32]
def k1_off25 (k1_t5 : Fin k1_t5_loop.trips) : Fin 3 → Nat :=
  let c1_i32_507 : BitVec 32 := 1#32
  let v789 : Index := Scalar.indexCast c1_i32_507
  let c0_i32_500 : BitVec 32 := 0#32
  let c0_i32_75 : BitVec 32 := 0#32
  let c1_i32_77 : BitVec 32 := 1#32
  let arg10 : BitVec 32 := Scf.iv c0_i32_75 c1_i32_77 k1_t5
  let v773 : BitVec 32 := Scalar.addi c0_i32_500 arg10
  let v790 : Index := Scalar.indexCast v773
  let c48_508 : Index := 48#32
  ![1, v790.toNat, 48]
def k1_off26 (k1_t5 : Fin k1_t5_loop.trips) : Fin 3 → Nat :=
  let c1_i32_509 : BitVec 32 := 1#32
  let v794 : Index := Scalar.indexCast c1_i32_509
  let c0_i32_500 : BitVec 32 := 0#32
  let c0_i32_75 : BitVec 32 := 0#32
  let c1_i32_77 : BitVec 32 := 1#32
  let arg10 : BitVec 32 := Scf.iv c0_i32_75 c1_i32_77 k1_t5
  let v773 : BitVec 32 := Scalar.addi c0_i32_500 arg10
  let v795 : Index := Scalar.indexCast v773
  let c54_510 : Index := 54#32
  ![1, v795.toNat, 54]
@[reducible] def k1_t6_loop : Scf.Loop 32 :=
  let c0_i32_88 : BitVec 32 := 0#32
  let c50_i32_89 : BitVec 32 := 50#32
  let v134 : BitVec 32 := Scalar.addi c0_i32_88 c50_i32_89
  let c1_i32_90 : BitVec 32 := 1#32
  ⟨c0_i32_88, v134, c1_i32_90⟩
def k1_off27 (k1_t6 : Fin k1_t6_loop.trips) : Fin 3 → Nat :=
  let c1_i32_501 : BitVec 32 := 1#32
  let v774 : Index := Scalar.indexCast c1_i32_501
  let c50_i32_500 : BitVec 32 := 50#32
  let c0_i32_88 : BitVec 32 := 0#32
  let c1_i32_90 : BitVec 32 := 1#32
  let arg10 : BitVec 32 := Scf.iv c0_i32_88 c1_i32_90 k1_t6
  let v773 : BitVec 32 := Scalar.addi c50_i32_500 arg10
  let v775 : Index := Scalar.indexCast v773
  let c0_502 : Index := 0#32
  ![1, v775.toNat, 0]
def k1_off28 (k1_t6 : Fin k1_t6_loop.trips) : Fin 3 → Nat :=
  let c1_i32_503 : BitVec 32 := 1#32
  let v779 : Index := Scalar.indexCast c1_i32_503
  let c50_i32_500 : BitVec 32 := 50#32
  let c0_i32_88 : BitVec 32 := 0#32
  let c1_i32_90 : BitVec 32 := 1#32
  let arg10 : BitVec 32 := Scf.iv c0_i32_88 c1_i32_90 k1_t6
  let v773 : BitVec 32 := Scalar.addi c50_i32_500 arg10
  let v780 : Index := Scalar.indexCast v773
  let c16_504 : Index := 16#32
  ![1, v780.toNat, 16]
def k1_off29 (k1_t6 : Fin k1_t6_loop.trips) : Fin 3 → Nat :=
  let c1_i32_505 : BitVec 32 := 1#32
  let v784 : Index := Scalar.indexCast c1_i32_505
  let c50_i32_500 : BitVec 32 := 50#32
  let c0_i32_88 : BitVec 32 := 0#32
  let c1_i32_90 : BitVec 32 := 1#32
  let arg10 : BitVec 32 := Scf.iv c0_i32_88 c1_i32_90 k1_t6
  let v773 : BitVec 32 := Scalar.addi c50_i32_500 arg10
  let v785 : Index := Scalar.indexCast v773
  let c32_506 : Index := 32#32
  ![1, v785.toNat, 32]
def k1_off30 (k1_t6 : Fin k1_t6_loop.trips) : Fin 3 → Nat :=
  let c1_i32_507 : BitVec 32 := 1#32
  let v789 : Index := Scalar.indexCast c1_i32_507
  let c50_i32_500 : BitVec 32 := 50#32
  let c0_i32_88 : BitVec 32 := 0#32
  let c1_i32_90 : BitVec 32 := 1#32
  let arg10 : BitVec 32 := Scf.iv c0_i32_88 c1_i32_90 k1_t6
  let v773 : BitVec 32 := Scalar.addi c50_i32_500 arg10
  let v790 : Index := Scalar.indexCast v773
  let c48_508 : Index := 48#32
  ![1, v790.toNat, 48]
def k1_off31 (k1_t6 : Fin k1_t6_loop.trips) : Fin 3 → Nat :=
  let c1_i32_509 : BitVec 32 := 1#32
  let v794 : Index := Scalar.indexCast c1_i32_509
  let c50_i32_500 : BitVec 32 := 50#32
  let c0_i32_88 : BitVec 32 := 0#32
  let c1_i32_90 : BitVec 32 := 1#32
  let arg10 : BitVec 32 := Scf.iv c0_i32_88 c1_i32_90 k1_t6
  let v773 : BitVec 32 := Scalar.addi c50_i32_500 arg10
  let v795 : Index := Scalar.indexCast v773
  let c54_510 : Index := 54#32
  ![1, v795.toNat, 54]
@[reducible] def k1_t7_loop : Scf.Loop 32 :=
  let c0_i32_101 : BitVec 32 := 0#32
  let c50_i32_102 : BitVec 32 := 50#32
  let v156 : BitVec 32 := Scalar.addi c0_i32_101 c50_i32_102
  let c1_i32_103 : BitVec 32 := 1#32
  ⟨c0_i32_101, v156, c1_i32_103⟩
def k1_off32 (k1_t7 : Fin k1_t7_loop.trips) : Fin 3 → Nat :=
  let c1_i32_500 : BitVec 32 := 1#32
  let v774 : Index := Scalar.indexCast c1_i32_500
  let c100_i32 : BitVec 32 := 100#32
  let c0_i32_101 : BitVec 32 := 0#32
  let c1_i32_103 : BitVec 32 := 1#32
  let arg10 : BitVec 32 := Scf.iv c0_i32_101 c1_i32_103 k1_t7
  let v773 : BitVec 32 := Scalar.addi c100_i32 arg10
  let v775 : Index := Scalar.indexCast v773
  let c0_501 : Index := 0#32
  ![1, v775.toNat, 0]
def k1_off33 (k1_t7 : Fin k1_t7_loop.trips) : Fin 3 → Nat :=
  let c1_i32_502 : BitVec 32 := 1#32
  let v779 : Index := Scalar.indexCast c1_i32_502
  let c100_i32 : BitVec 32 := 100#32
  let c0_i32_101 : BitVec 32 := 0#32
  let c1_i32_103 : BitVec 32 := 1#32
  let arg10 : BitVec 32 := Scf.iv c0_i32_101 c1_i32_103 k1_t7
  let v773 : BitVec 32 := Scalar.addi c100_i32 arg10
  let v780 : Index := Scalar.indexCast v773
  let c16_503 : Index := 16#32
  ![1, v780.toNat, 16]
def k1_off34 (k1_t7 : Fin k1_t7_loop.trips) : Fin 3 → Nat :=
  let c1_i32_504 : BitVec 32 := 1#32
  let v784 : Index := Scalar.indexCast c1_i32_504
  let c100_i32 : BitVec 32 := 100#32
  let c0_i32_101 : BitVec 32 := 0#32
  let c1_i32_103 : BitVec 32 := 1#32
  let arg10 : BitVec 32 := Scf.iv c0_i32_101 c1_i32_103 k1_t7
  let v773 : BitVec 32 := Scalar.addi c100_i32 arg10
  let v785 : Index := Scalar.indexCast v773
  let c32_505 : Index := 32#32
  ![1, v785.toNat, 32]
def k1_off35 (k1_t7 : Fin k1_t7_loop.trips) : Fin 3 → Nat :=
  let c1_i32_506 : BitVec 32 := 1#32
  let v789 : Index := Scalar.indexCast c1_i32_506
  let c100_i32 : BitVec 32 := 100#32
  let c0_i32_101 : BitVec 32 := 0#32
  let c1_i32_103 : BitVec 32 := 1#32
  let arg10 : BitVec 32 := Scf.iv c0_i32_101 c1_i32_103 k1_t7
  let v773 : BitVec 32 := Scalar.addi c100_i32 arg10
  let v790 : Index := Scalar.indexCast v773
  let c48_507 : Index := 48#32
  ![1, v790.toNat, 48]
def k1_off36 (k1_t7 : Fin k1_t7_loop.trips) : Fin 3 → Nat :=
  let c1_i32_508 : BitVec 32 := 1#32
  let v794 : Index := Scalar.indexCast c1_i32_508
  let c100_i32 : BitVec 32 := 100#32
  let c0_i32_101 : BitVec 32 := 0#32
  let c1_i32_103 : BitVec 32 := 1#32
  let arg10 : BitVec 32 := Scf.iv c0_i32_101 c1_i32_103 k1_t7
  let v773 : BitVec 32 := Scalar.addi c100_i32 arg10
  let v795 : Index := Scalar.indexCast v773
  let c54_509 : Index := 54#32
  ![1, v795.toNat, 54]
@[reducible] def k1_t8_loop : Scf.Loop 32 :=
  let c0_i32_114 : BitVec 32 := 0#32
  let c50_i32_115 : BitVec 32 := 50#32
  let v178 : BitVec 32 := Scalar.addi c0_i32_114 c50_i32_115
  let c1_i32_116 : BitVec 32 := 1#32
  ⟨c0_i32_114, v178, c1_i32_116⟩
def k1_off37 (k1_t8 : Fin k1_t8_loop.trips) : Fin 3 → Nat :=
  let c1_i32_500 : BitVec 32 := 1#32
  let v774 : Index := Scalar.indexCast c1_i32_500
  let c150_i32 : BitVec 32 := 150#32
  let c0_i32_114 : BitVec 32 := 0#32
  let c1_i32_116 : BitVec 32 := 1#32
  let arg10 : BitVec 32 := Scf.iv c0_i32_114 c1_i32_116 k1_t8
  let v773 : BitVec 32 := Scalar.addi c150_i32 arg10
  let v775 : Index := Scalar.indexCast v773
  let c0_501 : Index := 0#32
  ![1, v775.toNat, 0]
def k1_off38 (k1_t8 : Fin k1_t8_loop.trips) : Fin 3 → Nat :=
  let c1_i32_502 : BitVec 32 := 1#32
  let v779 : Index := Scalar.indexCast c1_i32_502
  let c150_i32 : BitVec 32 := 150#32
  let c0_i32_114 : BitVec 32 := 0#32
  let c1_i32_116 : BitVec 32 := 1#32
  let arg10 : BitVec 32 := Scf.iv c0_i32_114 c1_i32_116 k1_t8
  let v773 : BitVec 32 := Scalar.addi c150_i32 arg10
  let v780 : Index := Scalar.indexCast v773
  let c16_503 : Index := 16#32
  ![1, v780.toNat, 16]
def k1_off39 (k1_t8 : Fin k1_t8_loop.trips) : Fin 3 → Nat :=
  let c1_i32_504 : BitVec 32 := 1#32
  let v784 : Index := Scalar.indexCast c1_i32_504
  let c150_i32 : BitVec 32 := 150#32
  let c0_i32_114 : BitVec 32 := 0#32
  let c1_i32_116 : BitVec 32 := 1#32
  let arg10 : BitVec 32 := Scf.iv c0_i32_114 c1_i32_116 k1_t8
  let v773 : BitVec 32 := Scalar.addi c150_i32 arg10
  let v785 : Index := Scalar.indexCast v773
  let c32_505 : Index := 32#32
  ![1, v785.toNat, 32]
def k1_off40 (k1_t8 : Fin k1_t8_loop.trips) : Fin 3 → Nat :=
  let c1_i32_506 : BitVec 32 := 1#32
  let v789 : Index := Scalar.indexCast c1_i32_506
  let c150_i32 : BitVec 32 := 150#32
  let c0_i32_114 : BitVec 32 := 0#32
  let c1_i32_116 : BitVec 32 := 1#32
  let arg10 : BitVec 32 := Scf.iv c0_i32_114 c1_i32_116 k1_t8
  let v773 : BitVec 32 := Scalar.addi c150_i32 arg10
  let v790 : Index := Scalar.indexCast v773
  let c48_507 : Index := 48#32
  ![1, v790.toNat, 48]
def k1_off41 (k1_t8 : Fin k1_t8_loop.trips) : Fin 3 → Nat :=
  let c1_i32_508 : BitVec 32 := 1#32
  let v794 : Index := Scalar.indexCast c1_i32_508
  let c150_i32 : BitVec 32 := 150#32
  let c0_i32_114 : BitVec 32 := 0#32
  let c1_i32_116 : BitVec 32 := 1#32
  let arg10 : BitVec 32 := Scf.iv c0_i32_114 c1_i32_116 k1_t8
  let v773 : BitVec 32 := Scalar.addi c150_i32 arg10
  let v795 : Index := Scalar.indexCast v773
  let c54_509 : Index := 54#32
  ![1, v795.toNat, 54]
@[reducible] def k1_t9_loop : Scf.Loop 32 :=
  let c0_i32_138 : BitVec 32 := 0#32
  let c50_i32_139 : BitVec 32 := 50#32
  let v208 : BitVec 32 := Scalar.addi c0_i32_138 c50_i32_139
  let c1_i32_140 : BitVec 32 := 1#32
  ⟨c0_i32_138, v208, c1_i32_140⟩
def k1_off42 (k1_t9 : Fin k1_t9_loop.trips) : Fin 3 → Nat :=
  let c0_i32_501 : BitVec 32 := 0#32
  let v774 : Index := Scalar.indexCast c0_i32_501
  let c0_i32_500 : BitVec 32 := 0#32
  let c0_i32_138 : BitVec 32 := 0#32
  let c1_i32_140 : BitVec 32 := 1#32
  let arg10 : BitVec 32 := Scf.iv c0_i32_138 c1_i32_140 k1_t9
  let v773 : BitVec 32 := Scalar.addi c0_i32_500 arg10
  let v775 : Index := Scalar.indexCast v773
  let c0_502 : Index := 0#32
  ![0, v775.toNat, 0]
def k1_off43 (k1_t9 : Fin k1_t9_loop.trips) : Fin 3 → Nat :=
  let c0_i32_503 : BitVec 32 := 0#32
  let v779 : Index := Scalar.indexCast c0_i32_503
  let c0_i32_500 : BitVec 32 := 0#32
  let c0_i32_138 : BitVec 32 := 0#32
  let c1_i32_140 : BitVec 32 := 1#32
  let arg10 : BitVec 32 := Scf.iv c0_i32_138 c1_i32_140 k1_t9
  let v773 : BitVec 32 := Scalar.addi c0_i32_500 arg10
  let v780 : Index := Scalar.indexCast v773
  let c16_504 : Index := 16#32
  ![0, v780.toNat, 16]
def k1_off44 (k1_t9 : Fin k1_t9_loop.trips) : Fin 3 → Nat :=
  let c0_i32_505 : BitVec 32 := 0#32
  let v784 : Index := Scalar.indexCast c0_i32_505
  let c0_i32_500 : BitVec 32 := 0#32
  let c0_i32_138 : BitVec 32 := 0#32
  let c1_i32_140 : BitVec 32 := 1#32
  let arg10 : BitVec 32 := Scf.iv c0_i32_138 c1_i32_140 k1_t9
  let v773 : BitVec 32 := Scalar.addi c0_i32_500 arg10
  let v785 : Index := Scalar.indexCast v773
  let c32_506 : Index := 32#32
  ![0, v785.toNat, 32]
def k1_off45 (k1_t9 : Fin k1_t9_loop.trips) : Fin 3 → Nat :=
  let c0_i32_507 : BitVec 32 := 0#32
  let v789 : Index := Scalar.indexCast c0_i32_507
  let c0_i32_500 : BitVec 32 := 0#32
  let c0_i32_138 : BitVec 32 := 0#32
  let c1_i32_140 : BitVec 32 := 1#32
  let arg10 : BitVec 32 := Scf.iv c0_i32_138 c1_i32_140 k1_t9
  let v773 : BitVec 32 := Scalar.addi c0_i32_500 arg10
  let v790 : Index := Scalar.indexCast v773
  let c48_508 : Index := 48#32
  ![0, v790.toNat, 48]
def k1_off46 (k1_t9 : Fin k1_t9_loop.trips) : Fin 3 → Nat :=
  let c0_i32_509 : BitVec 32 := 0#32
  let v794 : Index := Scalar.indexCast c0_i32_509
  let c0_i32_500 : BitVec 32 := 0#32
  let c0_i32_138 : BitVec 32 := 0#32
  let c1_i32_140 : BitVec 32 := 1#32
  let arg10 : BitVec 32 := Scf.iv c0_i32_138 c1_i32_140 k1_t9
  let v773 : BitVec 32 := Scalar.addi c0_i32_500 arg10
  let v795 : Index := Scalar.indexCast v773
  let c54_510 : Index := 54#32
  ![0, v795.toNat, 54]
@[reducible] def k1_t10_loop : Scf.Loop 32 :=
  let c0_i32_151 : BitVec 32 := 0#32
  let c50_i32_152 : BitVec 32 := 50#32
  let v230 : BitVec 32 := Scalar.addi c0_i32_151 c50_i32_152
  let c1_i32_153 : BitVec 32 := 1#32
  ⟨c0_i32_151, v230, c1_i32_153⟩
def k1_off47 (k1_t10 : Fin k1_t10_loop.trips) : Fin 3 → Nat :=
  let c0_i32_501 : BitVec 32 := 0#32
  let v774 : Index := Scalar.indexCast c0_i32_501
  let c50_i32_500 : BitVec 32 := 50#32
  let c0_i32_151 : BitVec 32 := 0#32
  let c1_i32_153 : BitVec 32 := 1#32
  let arg10 : BitVec 32 := Scf.iv c0_i32_151 c1_i32_153 k1_t10
  let v773 : BitVec 32 := Scalar.addi c50_i32_500 arg10
  let v775 : Index := Scalar.indexCast v773
  let c0_502 : Index := 0#32
  ![0, v775.toNat, 0]
def k1_off48 (k1_t10 : Fin k1_t10_loop.trips) : Fin 3 → Nat :=
  let c0_i32_503 : BitVec 32 := 0#32
  let v779 : Index := Scalar.indexCast c0_i32_503
  let c50_i32_500 : BitVec 32 := 50#32
  let c0_i32_151 : BitVec 32 := 0#32
  let c1_i32_153 : BitVec 32 := 1#32
  let arg10 : BitVec 32 := Scf.iv c0_i32_151 c1_i32_153 k1_t10
  let v773 : BitVec 32 := Scalar.addi c50_i32_500 arg10
  let v780 : Index := Scalar.indexCast v773
  let c16_504 : Index := 16#32
  ![0, v780.toNat, 16]
def k1_off49 (k1_t10 : Fin k1_t10_loop.trips) : Fin 3 → Nat :=
  let c0_i32_505 : BitVec 32 := 0#32
  let v784 : Index := Scalar.indexCast c0_i32_505
  let c50_i32_500 : BitVec 32 := 50#32
  let c0_i32_151 : BitVec 32 := 0#32
  let c1_i32_153 : BitVec 32 := 1#32
  let arg10 : BitVec 32 := Scf.iv c0_i32_151 c1_i32_153 k1_t10
  let v773 : BitVec 32 := Scalar.addi c50_i32_500 arg10
  let v785 : Index := Scalar.indexCast v773
  let c32_506 : Index := 32#32
  ![0, v785.toNat, 32]
def k1_off50 (k1_t10 : Fin k1_t10_loop.trips) : Fin 3 → Nat :=
  let c0_i32_507 : BitVec 32 := 0#32
  let v789 : Index := Scalar.indexCast c0_i32_507
  let c50_i32_500 : BitVec 32 := 50#32
  let c0_i32_151 : BitVec 32 := 0#32
  let c1_i32_153 : BitVec 32 := 1#32
  let arg10 : BitVec 32 := Scf.iv c0_i32_151 c1_i32_153 k1_t10
  let v773 : BitVec 32 := Scalar.addi c50_i32_500 arg10
  let v790 : Index := Scalar.indexCast v773
  let c48_508 : Index := 48#32
  ![0, v790.toNat, 48]
def k1_off51 (k1_t10 : Fin k1_t10_loop.trips) : Fin 3 → Nat :=
  let c0_i32_509 : BitVec 32 := 0#32
  let v794 : Index := Scalar.indexCast c0_i32_509
  let c50_i32_500 : BitVec 32 := 50#32
  let c0_i32_151 : BitVec 32 := 0#32
  let c1_i32_153 : BitVec 32 := 1#32
  let arg10 : BitVec 32 := Scf.iv c0_i32_151 c1_i32_153 k1_t10
  let v773 : BitVec 32 := Scalar.addi c50_i32_500 arg10
  let v795 : Index := Scalar.indexCast v773
  let c54_510 : Index := 54#32
  ![0, v795.toNat, 54]
@[reducible] def k1_t11_loop : Scf.Loop 32 :=
  let c0_i32_164 : BitVec 32 := 0#32
  let c50_i32_165 : BitVec 32 := 50#32
  let v252 : BitVec 32 := Scalar.addi c0_i32_164 c50_i32_165
  let c1_i32_166 : BitVec 32 := 1#32
  ⟨c0_i32_164, v252, c1_i32_166⟩
def k1_off52 (k1_t11 : Fin k1_t11_loop.trips) : Fin 3 → Nat :=
  let c0_i32_500 : BitVec 32 := 0#32
  let v774 : Index := Scalar.indexCast c0_i32_500
  let c100_i32 : BitVec 32 := 100#32
  let c0_i32_164 : BitVec 32 := 0#32
  let c1_i32_166 : BitVec 32 := 1#32
  let arg10 : BitVec 32 := Scf.iv c0_i32_164 c1_i32_166 k1_t11
  let v773 : BitVec 32 := Scalar.addi c100_i32 arg10
  let v775 : Index := Scalar.indexCast v773
  let c0_501 : Index := 0#32
  ![0, v775.toNat, 0]
def k1_off53 (k1_t11 : Fin k1_t11_loop.trips) : Fin 3 → Nat :=
  let c0_i32_502 : BitVec 32 := 0#32
  let v779 : Index := Scalar.indexCast c0_i32_502
  let c100_i32 : BitVec 32 := 100#32
  let c0_i32_164 : BitVec 32 := 0#32
  let c1_i32_166 : BitVec 32 := 1#32
  let arg10 : BitVec 32 := Scf.iv c0_i32_164 c1_i32_166 k1_t11
  let v773 : BitVec 32 := Scalar.addi c100_i32 arg10
  let v780 : Index := Scalar.indexCast v773
  let c16_503 : Index := 16#32
  ![0, v780.toNat, 16]
def k1_off54 (k1_t11 : Fin k1_t11_loop.trips) : Fin 3 → Nat :=
  let c0_i32_504 : BitVec 32 := 0#32
  let v784 : Index := Scalar.indexCast c0_i32_504
  let c100_i32 : BitVec 32 := 100#32
  let c0_i32_164 : BitVec 32 := 0#32
  let c1_i32_166 : BitVec 32 := 1#32
  let arg10 : BitVec 32 := Scf.iv c0_i32_164 c1_i32_166 k1_t11
  let v773 : BitVec 32 := Scalar.addi c100_i32 arg10
  let v785 : Index := Scalar.indexCast v773
  let c32_505 : Index := 32#32
  ![0, v785.toNat, 32]
def k1_off55 (k1_t11 : Fin k1_t11_loop.trips) : Fin 3 → Nat :=
  let c0_i32_506 : BitVec 32 := 0#32
  let v789 : Index := Scalar.indexCast c0_i32_506
  let c100_i32 : BitVec 32 := 100#32
  let c0_i32_164 : BitVec 32 := 0#32
  let c1_i32_166 : BitVec 32 := 1#32
  let arg10 : BitVec 32 := Scf.iv c0_i32_164 c1_i32_166 k1_t11
  let v773 : BitVec 32 := Scalar.addi c100_i32 arg10
  let v790 : Index := Scalar.indexCast v773
  let c48_507 : Index := 48#32
  ![0, v790.toNat, 48]
def k1_off56 (k1_t11 : Fin k1_t11_loop.trips) : Fin 3 → Nat :=
  let c0_i32_508 : BitVec 32 := 0#32
  let v794 : Index := Scalar.indexCast c0_i32_508
  let c100_i32 : BitVec 32 := 100#32
  let c0_i32_164 : BitVec 32 := 0#32
  let c1_i32_166 : BitVec 32 := 1#32
  let arg10 : BitVec 32 := Scf.iv c0_i32_164 c1_i32_166 k1_t11
  let v773 : BitVec 32 := Scalar.addi c100_i32 arg10
  let v795 : Index := Scalar.indexCast v773
  let c54_509 : Index := 54#32
  ![0, v795.toNat, 54]
@[reducible] def k1_t12_loop : Scf.Loop 32 :=
  let c0_i32_177 : BitVec 32 := 0#32
  let c50_i32_178 : BitVec 32 := 50#32
  let v274 : BitVec 32 := Scalar.addi c0_i32_177 c50_i32_178
  let c1_i32_179 : BitVec 32 := 1#32
  ⟨c0_i32_177, v274, c1_i32_179⟩
def k1_off57 (k1_t12 : Fin k1_t12_loop.trips) : Fin 3 → Nat :=
  let c0_i32_500 : BitVec 32 := 0#32
  let v774 : Index := Scalar.indexCast c0_i32_500
  let c150_i32 : BitVec 32 := 150#32
  let c0_i32_177 : BitVec 32 := 0#32
  let c1_i32_179 : BitVec 32 := 1#32
  let arg10 : BitVec 32 := Scf.iv c0_i32_177 c1_i32_179 k1_t12
  let v773 : BitVec 32 := Scalar.addi c150_i32 arg10
  let v775 : Index := Scalar.indexCast v773
  let c0_501 : Index := 0#32
  ![0, v775.toNat, 0]
def k1_off58 (k1_t12 : Fin k1_t12_loop.trips) : Fin 3 → Nat :=
  let c0_i32_502 : BitVec 32 := 0#32
  let v779 : Index := Scalar.indexCast c0_i32_502
  let c150_i32 : BitVec 32 := 150#32
  let c0_i32_177 : BitVec 32 := 0#32
  let c1_i32_179 : BitVec 32 := 1#32
  let arg10 : BitVec 32 := Scf.iv c0_i32_177 c1_i32_179 k1_t12
  let v773 : BitVec 32 := Scalar.addi c150_i32 arg10
  let v780 : Index := Scalar.indexCast v773
  let c16_503 : Index := 16#32
  ![0, v780.toNat, 16]
def k1_off59 (k1_t12 : Fin k1_t12_loop.trips) : Fin 3 → Nat :=
  let c0_i32_504 : BitVec 32 := 0#32
  let v784 : Index := Scalar.indexCast c0_i32_504
  let c150_i32 : BitVec 32 := 150#32
  let c0_i32_177 : BitVec 32 := 0#32
  let c1_i32_179 : BitVec 32 := 1#32
  let arg10 : BitVec 32 := Scf.iv c0_i32_177 c1_i32_179 k1_t12
  let v773 : BitVec 32 := Scalar.addi c150_i32 arg10
  let v785 : Index := Scalar.indexCast v773
  let c32_505 : Index := 32#32
  ![0, v785.toNat, 32]
def k1_off60 (k1_t12 : Fin k1_t12_loop.trips) : Fin 3 → Nat :=
  let c0_i32_506 : BitVec 32 := 0#32
  let v789 : Index := Scalar.indexCast c0_i32_506
  let c150_i32 : BitVec 32 := 150#32
  let c0_i32_177 : BitVec 32 := 0#32
  let c1_i32_179 : BitVec 32 := 1#32
  let arg10 : BitVec 32 := Scf.iv c0_i32_177 c1_i32_179 k1_t12
  let v773 : BitVec 32 := Scalar.addi c150_i32 arg10
  let v790 : Index := Scalar.indexCast v773
  let c48_507 : Index := 48#32
  ![0, v790.toNat, 48]
def k1_off61 (k1_t12 : Fin k1_t12_loop.trips) : Fin 3 → Nat :=
  let c0_i32_508 : BitVec 32 := 0#32
  let v794 : Index := Scalar.indexCast c0_i32_508
  let c150_i32 : BitVec 32 := 150#32
  let c0_i32_177 : BitVec 32 := 0#32
  let c1_i32_179 : BitVec 32 := 1#32
  let arg10 : BitVec 32 := Scf.iv c0_i32_177 c1_i32_179 k1_t12
  let v773 : BitVec 32 := Scalar.addi c150_i32 arg10
  let v795 : Index := Scalar.indexCast v773
  let c54_509 : Index := 54#32
  ![0, v795.toNat, 54]
@[reducible] def k1_t13_loop : Scf.Loop 32 :=
  let c0_i32_201 : BitVec 32 := 0#32
  let c50_i32_202 : BitVec 32 := 50#32
  let v304 : BitVec 32 := Scalar.addi c0_i32_201 c50_i32_202
  let c1_i32_203 : BitVec 32 := 1#32
  ⟨c0_i32_201, v304, c1_i32_203⟩
def k1_off62 (k1_t13 : Fin k1_t13_loop.trips) : Fin 3 → Nat :=
  let c1_i32_501 : BitVec 32 := 1#32
  let v774 : Index := Scalar.indexCast c1_i32_501
  let c0_i32_500 : BitVec 32 := 0#32
  let c0_i32_201 : BitVec 32 := 0#32
  let c1_i32_203 : BitVec 32 := 1#32
  let arg10 : BitVec 32 := Scf.iv c0_i32_201 c1_i32_203 k1_t13
  let v773 : BitVec 32 := Scalar.addi c0_i32_500 arg10
  let v775 : Index := Scalar.indexCast v773
  let c0_502 : Index := 0#32
  ![1, v775.toNat, 0]
def k1_off63 (k1_t13 : Fin k1_t13_loop.trips) : Fin 3 → Nat :=
  let c1_i32_503 : BitVec 32 := 1#32
  let v779 : Index := Scalar.indexCast c1_i32_503
  let c0_i32_500 : BitVec 32 := 0#32
  let c0_i32_201 : BitVec 32 := 0#32
  let c1_i32_203 : BitVec 32 := 1#32
  let arg10 : BitVec 32 := Scf.iv c0_i32_201 c1_i32_203 k1_t13
  let v773 : BitVec 32 := Scalar.addi c0_i32_500 arg10
  let v780 : Index := Scalar.indexCast v773
  let c16_504 : Index := 16#32
  ![1, v780.toNat, 16]
def k1_off64 (k1_t13 : Fin k1_t13_loop.trips) : Fin 3 → Nat :=
  let c1_i32_505 : BitVec 32 := 1#32
  let v784 : Index := Scalar.indexCast c1_i32_505
  let c0_i32_500 : BitVec 32 := 0#32
  let c0_i32_201 : BitVec 32 := 0#32
  let c1_i32_203 : BitVec 32 := 1#32
  let arg10 : BitVec 32 := Scf.iv c0_i32_201 c1_i32_203 k1_t13
  let v773 : BitVec 32 := Scalar.addi c0_i32_500 arg10
  let v785 : Index := Scalar.indexCast v773
  let c32_506 : Index := 32#32
  ![1, v785.toNat, 32]
def k1_off65 (k1_t13 : Fin k1_t13_loop.trips) : Fin 3 → Nat :=
  let c1_i32_507 : BitVec 32 := 1#32
  let v789 : Index := Scalar.indexCast c1_i32_507
  let c0_i32_500 : BitVec 32 := 0#32
  let c0_i32_201 : BitVec 32 := 0#32
  let c1_i32_203 : BitVec 32 := 1#32
  let arg10 : BitVec 32 := Scf.iv c0_i32_201 c1_i32_203 k1_t13
  let v773 : BitVec 32 := Scalar.addi c0_i32_500 arg10
  let v790 : Index := Scalar.indexCast v773
  let c48_508 : Index := 48#32
  ![1, v790.toNat, 48]
def k1_off66 (k1_t13 : Fin k1_t13_loop.trips) : Fin 3 → Nat :=
  let c1_i32_509 : BitVec 32 := 1#32
  let v794 : Index := Scalar.indexCast c1_i32_509
  let c0_i32_500 : BitVec 32 := 0#32
  let c0_i32_201 : BitVec 32 := 0#32
  let c1_i32_203 : BitVec 32 := 1#32
  let arg10 : BitVec 32 := Scf.iv c0_i32_201 c1_i32_203 k1_t13
  let v773 : BitVec 32 := Scalar.addi c0_i32_500 arg10
  let v795 : Index := Scalar.indexCast v773
  let c54_510 : Index := 54#32
  ![1, v795.toNat, 54]
@[reducible] def k1_t14_loop : Scf.Loop 32 :=
  let c0_i32_214 : BitVec 32 := 0#32
  let c50_i32_215 : BitVec 32 := 50#32
  let v326 : BitVec 32 := Scalar.addi c0_i32_214 c50_i32_215
  let c1_i32_216 : BitVec 32 := 1#32
  ⟨c0_i32_214, v326, c1_i32_216⟩
def k1_off67 (k1_t14 : Fin k1_t14_loop.trips) : Fin 3 → Nat :=
  let c1_i32_501 : BitVec 32 := 1#32
  let v774 : Index := Scalar.indexCast c1_i32_501
  let c50_i32_500 : BitVec 32 := 50#32
  let c0_i32_214 : BitVec 32 := 0#32
  let c1_i32_216 : BitVec 32 := 1#32
  let arg10 : BitVec 32 := Scf.iv c0_i32_214 c1_i32_216 k1_t14
  let v773 : BitVec 32 := Scalar.addi c50_i32_500 arg10
  let v775 : Index := Scalar.indexCast v773
  let c0_502 : Index := 0#32
  ![1, v775.toNat, 0]
def k1_off68 (k1_t14 : Fin k1_t14_loop.trips) : Fin 3 → Nat :=
  let c1_i32_503 : BitVec 32 := 1#32
  let v779 : Index := Scalar.indexCast c1_i32_503
  let c50_i32_500 : BitVec 32 := 50#32
  let c0_i32_214 : BitVec 32 := 0#32
  let c1_i32_216 : BitVec 32 := 1#32
  let arg10 : BitVec 32 := Scf.iv c0_i32_214 c1_i32_216 k1_t14
  let v773 : BitVec 32 := Scalar.addi c50_i32_500 arg10
  let v780 : Index := Scalar.indexCast v773
  let c16_504 : Index := 16#32
  ![1, v780.toNat, 16]
def k1_off69 (k1_t14 : Fin k1_t14_loop.trips) : Fin 3 → Nat :=
  let c1_i32_505 : BitVec 32 := 1#32
  let v784 : Index := Scalar.indexCast c1_i32_505
  let c50_i32_500 : BitVec 32 := 50#32
  let c0_i32_214 : BitVec 32 := 0#32
  let c1_i32_216 : BitVec 32 := 1#32
  let arg10 : BitVec 32 := Scf.iv c0_i32_214 c1_i32_216 k1_t14
  let v773 : BitVec 32 := Scalar.addi c50_i32_500 arg10
  let v785 : Index := Scalar.indexCast v773
  let c32_506 : Index := 32#32
  ![1, v785.toNat, 32]
def k1_off70 (k1_t14 : Fin k1_t14_loop.trips) : Fin 3 → Nat :=
  let c1_i32_507 : BitVec 32 := 1#32
  let v789 : Index := Scalar.indexCast c1_i32_507
  let c50_i32_500 : BitVec 32 := 50#32
  let c0_i32_214 : BitVec 32 := 0#32
  let c1_i32_216 : BitVec 32 := 1#32
  let arg10 : BitVec 32 := Scf.iv c0_i32_214 c1_i32_216 k1_t14
  let v773 : BitVec 32 := Scalar.addi c50_i32_500 arg10
  let v790 : Index := Scalar.indexCast v773
  let c48_508 : Index := 48#32
  ![1, v790.toNat, 48]
def k1_off71 (k1_t14 : Fin k1_t14_loop.trips) : Fin 3 → Nat :=
  let c1_i32_509 : BitVec 32 := 1#32
  let v794 : Index := Scalar.indexCast c1_i32_509
  let c50_i32_500 : BitVec 32 := 50#32
  let c0_i32_214 : BitVec 32 := 0#32
  let c1_i32_216 : BitVec 32 := 1#32
  let arg10 : BitVec 32 := Scf.iv c0_i32_214 c1_i32_216 k1_t14
  let v773 : BitVec 32 := Scalar.addi c50_i32_500 arg10
  let v795 : Index := Scalar.indexCast v773
  let c54_510 : Index := 54#32
  ![1, v795.toNat, 54]
@[reducible] def k1_t15_loop : Scf.Loop 32 :=
  let c0_i32_227 : BitVec 32 := 0#32
  let c50_i32_228 : BitVec 32 := 50#32
  let v348 : BitVec 32 := Scalar.addi c0_i32_227 c50_i32_228
  let c1_i32_229 : BitVec 32 := 1#32
  ⟨c0_i32_227, v348, c1_i32_229⟩
def k1_off72 (k1_t15 : Fin k1_t15_loop.trips) : Fin 3 → Nat :=
  let c1_i32_500 : BitVec 32 := 1#32
  let v774 : Index := Scalar.indexCast c1_i32_500
  let c100_i32 : BitVec 32 := 100#32
  let c0_i32_227 : BitVec 32 := 0#32
  let c1_i32_229 : BitVec 32 := 1#32
  let arg10 : BitVec 32 := Scf.iv c0_i32_227 c1_i32_229 k1_t15
  let v773 : BitVec 32 := Scalar.addi c100_i32 arg10
  let v775 : Index := Scalar.indexCast v773
  let c0_501 : Index := 0#32
  ![1, v775.toNat, 0]
def k1_off73 (k1_t15 : Fin k1_t15_loop.trips) : Fin 3 → Nat :=
  let c1_i32_502 : BitVec 32 := 1#32
  let v779 : Index := Scalar.indexCast c1_i32_502
  let c100_i32 : BitVec 32 := 100#32
  let c0_i32_227 : BitVec 32 := 0#32
  let c1_i32_229 : BitVec 32 := 1#32
  let arg10 : BitVec 32 := Scf.iv c0_i32_227 c1_i32_229 k1_t15
  let v773 : BitVec 32 := Scalar.addi c100_i32 arg10
  let v780 : Index := Scalar.indexCast v773
  let c16_503 : Index := 16#32
  ![1, v780.toNat, 16]
def k1_off74 (k1_t15 : Fin k1_t15_loop.trips) : Fin 3 → Nat :=
  let c1_i32_504 : BitVec 32 := 1#32
  let v784 : Index := Scalar.indexCast c1_i32_504
  let c100_i32 : BitVec 32 := 100#32
  let c0_i32_227 : BitVec 32 := 0#32
  let c1_i32_229 : BitVec 32 := 1#32
  let arg10 : BitVec 32 := Scf.iv c0_i32_227 c1_i32_229 k1_t15
  let v773 : BitVec 32 := Scalar.addi c100_i32 arg10
  let v785 : Index := Scalar.indexCast v773
  let c32_505 : Index := 32#32
  ![1, v785.toNat, 32]
def k1_off75 (k1_t15 : Fin k1_t15_loop.trips) : Fin 3 → Nat :=
  let c1_i32_506 : BitVec 32 := 1#32
  let v789 : Index := Scalar.indexCast c1_i32_506
  let c100_i32 : BitVec 32 := 100#32
  let c0_i32_227 : BitVec 32 := 0#32
  let c1_i32_229 : BitVec 32 := 1#32
  let arg10 : BitVec 32 := Scf.iv c0_i32_227 c1_i32_229 k1_t15
  let v773 : BitVec 32 := Scalar.addi c100_i32 arg10
  let v790 : Index := Scalar.indexCast v773
  let c48_507 : Index := 48#32
  ![1, v790.toNat, 48]
def k1_off76 (k1_t15 : Fin k1_t15_loop.trips) : Fin 3 → Nat :=
  let c1_i32_508 : BitVec 32 := 1#32
  let v794 : Index := Scalar.indexCast c1_i32_508
  let c100_i32 : BitVec 32 := 100#32
  let c0_i32_227 : BitVec 32 := 0#32
  let c1_i32_229 : BitVec 32 := 1#32
  let arg10 : BitVec 32 := Scf.iv c0_i32_227 c1_i32_229 k1_t15
  let v773 : BitVec 32 := Scalar.addi c100_i32 arg10
  let v795 : Index := Scalar.indexCast v773
  let c54_509 : Index := 54#32
  ![1, v795.toNat, 54]
@[reducible] def k1_t16_loop : Scf.Loop 32 :=
  let c0_i32_240 : BitVec 32 := 0#32
  let c50_i32_241 : BitVec 32 := 50#32
  let v370 : BitVec 32 := Scalar.addi c0_i32_240 c50_i32_241
  let c1_i32_242 : BitVec 32 := 1#32
  ⟨c0_i32_240, v370, c1_i32_242⟩
def k1_off77 (k1_t16 : Fin k1_t16_loop.trips) : Fin 3 → Nat :=
  let c1_i32_500 : BitVec 32 := 1#32
  let v774 : Index := Scalar.indexCast c1_i32_500
  let c150_i32 : BitVec 32 := 150#32
  let c0_i32_240 : BitVec 32 := 0#32
  let c1_i32_242 : BitVec 32 := 1#32
  let arg10 : BitVec 32 := Scf.iv c0_i32_240 c1_i32_242 k1_t16
  let v773 : BitVec 32 := Scalar.addi c150_i32 arg10
  let v775 : Index := Scalar.indexCast v773
  let c0_501 : Index := 0#32
  ![1, v775.toNat, 0]
def k1_off78 (k1_t16 : Fin k1_t16_loop.trips) : Fin 3 → Nat :=
  let c1_i32_502 : BitVec 32 := 1#32
  let v779 : Index := Scalar.indexCast c1_i32_502
  let c150_i32 : BitVec 32 := 150#32
  let c0_i32_240 : BitVec 32 := 0#32
  let c1_i32_242 : BitVec 32 := 1#32
  let arg10 : BitVec 32 := Scf.iv c0_i32_240 c1_i32_242 k1_t16
  let v773 : BitVec 32 := Scalar.addi c150_i32 arg10
  let v780 : Index := Scalar.indexCast v773
  let c16_503 : Index := 16#32
  ![1, v780.toNat, 16]
def k1_off79 (k1_t16 : Fin k1_t16_loop.trips) : Fin 3 → Nat :=
  let c1_i32_504 : BitVec 32 := 1#32
  let v784 : Index := Scalar.indexCast c1_i32_504
  let c150_i32 : BitVec 32 := 150#32
  let c0_i32_240 : BitVec 32 := 0#32
  let c1_i32_242 : BitVec 32 := 1#32
  let arg10 : BitVec 32 := Scf.iv c0_i32_240 c1_i32_242 k1_t16
  let v773 : BitVec 32 := Scalar.addi c150_i32 arg10
  let v785 : Index := Scalar.indexCast v773
  let c32_505 : Index := 32#32
  ![1, v785.toNat, 32]
def k1_off80 (k1_t16 : Fin k1_t16_loop.trips) : Fin 3 → Nat :=
  let c1_i32_506 : BitVec 32 := 1#32
  let v789 : Index := Scalar.indexCast c1_i32_506
  let c150_i32 : BitVec 32 := 150#32
  let c0_i32_240 : BitVec 32 := 0#32
  let c1_i32_242 : BitVec 32 := 1#32
  let arg10 : BitVec 32 := Scf.iv c0_i32_240 c1_i32_242 k1_t16
  let v773 : BitVec 32 := Scalar.addi c150_i32 arg10
  let v790 : Index := Scalar.indexCast v773
  let c48_507 : Index := 48#32
  ![1, v790.toNat, 48]
def k1_off81 (k1_t16 : Fin k1_t16_loop.trips) : Fin 3 → Nat :=
  let c1_i32_508 : BitVec 32 := 1#32
  let v794 : Index := Scalar.indexCast c1_i32_508
  let c150_i32 : BitVec 32 := 150#32
  let c0_i32_240 : BitVec 32 := 0#32
  let c1_i32_242 : BitVec 32 := 1#32
  let arg10 : BitVec 32 := Scf.iv c0_i32_240 c1_i32_242 k1_t16
  let v773 : BitVec 32 := Scalar.addi c150_i32 arg10
  let v795 : Index := Scalar.indexCast v773
  let c54_509 : Index := 54#32
  ![1, v795.toNat, 54]
@[reducible] def k1_t17_loop : Scf.Loop 32 :=
  let c0_i32_264 : BitVec 32 := 0#32
  let c50_i32_265 : BitVec 32 := 50#32
  let v400 : BitVec 32 := Scalar.addi c0_i32_264 c50_i32_265
  let c1_i32_266 : BitVec 32 := 1#32
  ⟨c0_i32_264, v400, c1_i32_266⟩
def k1_off82 (k1_t17 : Fin k1_t17_loop.trips) : Fin 3 → Nat :=
  let c0_i32_501 : BitVec 32 := 0#32
  let v774 : Index := Scalar.indexCast c0_i32_501
  let c0_i32_500 : BitVec 32 := 0#32
  let c0_i32_264 : BitVec 32 := 0#32
  let c1_i32_266 : BitVec 32 := 1#32
  let arg10 : BitVec 32 := Scf.iv c0_i32_264 c1_i32_266 k1_t17
  let v773 : BitVec 32 := Scalar.addi c0_i32_500 arg10
  let v775 : Index := Scalar.indexCast v773
  let c0_502 : Index := 0#32
  ![0, v775.toNat, 0]
def k1_off83 (k1_t17 : Fin k1_t17_loop.trips) : Fin 3 → Nat :=
  let c0_i32_503 : BitVec 32 := 0#32
  let v779 : Index := Scalar.indexCast c0_i32_503
  let c0_i32_500 : BitVec 32 := 0#32
  let c0_i32_264 : BitVec 32 := 0#32
  let c1_i32_266 : BitVec 32 := 1#32
  let arg10 : BitVec 32 := Scf.iv c0_i32_264 c1_i32_266 k1_t17
  let v773 : BitVec 32 := Scalar.addi c0_i32_500 arg10
  let v780 : Index := Scalar.indexCast v773
  let c16_504 : Index := 16#32
  ![0, v780.toNat, 16]
def k1_off84 (k1_t17 : Fin k1_t17_loop.trips) : Fin 3 → Nat :=
  let c0_i32_505 : BitVec 32 := 0#32
  let v784 : Index := Scalar.indexCast c0_i32_505
  let c0_i32_500 : BitVec 32 := 0#32
  let c0_i32_264 : BitVec 32 := 0#32
  let c1_i32_266 : BitVec 32 := 1#32
  let arg10 : BitVec 32 := Scf.iv c0_i32_264 c1_i32_266 k1_t17
  let v773 : BitVec 32 := Scalar.addi c0_i32_500 arg10
  let v785 : Index := Scalar.indexCast v773
  let c32_506 : Index := 32#32
  ![0, v785.toNat, 32]
def k1_off85 (k1_t17 : Fin k1_t17_loop.trips) : Fin 3 → Nat :=
  let c0_i32_507 : BitVec 32 := 0#32
  let v789 : Index := Scalar.indexCast c0_i32_507
  let c0_i32_500 : BitVec 32 := 0#32
  let c0_i32_264 : BitVec 32 := 0#32
  let c1_i32_266 : BitVec 32 := 1#32
  let arg10 : BitVec 32 := Scf.iv c0_i32_264 c1_i32_266 k1_t17
  let v773 : BitVec 32 := Scalar.addi c0_i32_500 arg10
  let v790 : Index := Scalar.indexCast v773
  let c48_508 : Index := 48#32
  ![0, v790.toNat, 48]
def k1_off86 (k1_t17 : Fin k1_t17_loop.trips) : Fin 3 → Nat :=
  let c0_i32_509 : BitVec 32 := 0#32
  let v794 : Index := Scalar.indexCast c0_i32_509
  let c0_i32_500 : BitVec 32 := 0#32
  let c0_i32_264 : BitVec 32 := 0#32
  let c1_i32_266 : BitVec 32 := 1#32
  let arg10 : BitVec 32 := Scf.iv c0_i32_264 c1_i32_266 k1_t17
  let v773 : BitVec 32 := Scalar.addi c0_i32_500 arg10
  let v795 : Index := Scalar.indexCast v773
  let c54_510 : Index := 54#32
  ![0, v795.toNat, 54]
@[reducible] def k1_t18_loop : Scf.Loop 32 :=
  let c0_i32_277 : BitVec 32 := 0#32
  let c50_i32_278 : BitVec 32 := 50#32
  let v422 : BitVec 32 := Scalar.addi c0_i32_277 c50_i32_278
  let c1_i32_279 : BitVec 32 := 1#32
  ⟨c0_i32_277, v422, c1_i32_279⟩
def k1_off87 (k1_t18 : Fin k1_t18_loop.trips) : Fin 3 → Nat :=
  let c0_i32_501 : BitVec 32 := 0#32
  let v774 : Index := Scalar.indexCast c0_i32_501
  let c50_i32_500 : BitVec 32 := 50#32
  let c0_i32_277 : BitVec 32 := 0#32
  let c1_i32_279 : BitVec 32 := 1#32
  let arg10 : BitVec 32 := Scf.iv c0_i32_277 c1_i32_279 k1_t18
  let v773 : BitVec 32 := Scalar.addi c50_i32_500 arg10
  let v775 : Index := Scalar.indexCast v773
  let c0_502 : Index := 0#32
  ![0, v775.toNat, 0]
def k1_off88 (k1_t18 : Fin k1_t18_loop.trips) : Fin 3 → Nat :=
  let c0_i32_503 : BitVec 32 := 0#32
  let v779 : Index := Scalar.indexCast c0_i32_503
  let c50_i32_500 : BitVec 32 := 50#32
  let c0_i32_277 : BitVec 32 := 0#32
  let c1_i32_279 : BitVec 32 := 1#32
  let arg10 : BitVec 32 := Scf.iv c0_i32_277 c1_i32_279 k1_t18
  let v773 : BitVec 32 := Scalar.addi c50_i32_500 arg10
  let v780 : Index := Scalar.indexCast v773
  let c16_504 : Index := 16#32
  ![0, v780.toNat, 16]
def k1_off89 (k1_t18 : Fin k1_t18_loop.trips) : Fin 3 → Nat :=
  let c0_i32_505 : BitVec 32 := 0#32
  let v784 : Index := Scalar.indexCast c0_i32_505
  let c50_i32_500 : BitVec 32 := 50#32
  let c0_i32_277 : BitVec 32 := 0#32
  let c1_i32_279 : BitVec 32 := 1#32
  let arg10 : BitVec 32 := Scf.iv c0_i32_277 c1_i32_279 k1_t18
  let v773 : BitVec 32 := Scalar.addi c50_i32_500 arg10
  let v785 : Index := Scalar.indexCast v773
  let c32_506 : Index := 32#32
  ![0, v785.toNat, 32]
def k1_off90 (k1_t18 : Fin k1_t18_loop.trips) : Fin 3 → Nat :=
  let c0_i32_507 : BitVec 32 := 0#32
  let v789 : Index := Scalar.indexCast c0_i32_507
  let c50_i32_500 : BitVec 32 := 50#32
  let c0_i32_277 : BitVec 32 := 0#32
  let c1_i32_279 : BitVec 32 := 1#32
  let arg10 : BitVec 32 := Scf.iv c0_i32_277 c1_i32_279 k1_t18
  let v773 : BitVec 32 := Scalar.addi c50_i32_500 arg10
  let v790 : Index := Scalar.indexCast v773
  let c48_508 : Index := 48#32
  ![0, v790.toNat, 48]
def k1_off91 (k1_t18 : Fin k1_t18_loop.trips) : Fin 3 → Nat :=
  let c0_i32_509 : BitVec 32 := 0#32
  let v794 : Index := Scalar.indexCast c0_i32_509
  let c50_i32_500 : BitVec 32 := 50#32
  let c0_i32_277 : BitVec 32 := 0#32
  let c1_i32_279 : BitVec 32 := 1#32
  let arg10 : BitVec 32 := Scf.iv c0_i32_277 c1_i32_279 k1_t18
  let v773 : BitVec 32 := Scalar.addi c50_i32_500 arg10
  let v795 : Index := Scalar.indexCast v773
  let c54_510 : Index := 54#32
  ![0, v795.toNat, 54]
@[reducible] def k1_t19_loop : Scf.Loop 32 :=
  let c0_i32_290 : BitVec 32 := 0#32
  let c50_i32_291 : BitVec 32 := 50#32
  let v444 : BitVec 32 := Scalar.addi c0_i32_290 c50_i32_291
  let c1_i32_292 : BitVec 32 := 1#32
  ⟨c0_i32_290, v444, c1_i32_292⟩
def k1_off92 (k1_t19 : Fin k1_t19_loop.trips) : Fin 3 → Nat :=
  let c0_i32_500 : BitVec 32 := 0#32
  let v774 : Index := Scalar.indexCast c0_i32_500
  let c100_i32 : BitVec 32 := 100#32
  let c0_i32_290 : BitVec 32 := 0#32
  let c1_i32_292 : BitVec 32 := 1#32
  let arg10 : BitVec 32 := Scf.iv c0_i32_290 c1_i32_292 k1_t19
  let v773 : BitVec 32 := Scalar.addi c100_i32 arg10
  let v775 : Index := Scalar.indexCast v773
  let c0_501 : Index := 0#32
  ![0, v775.toNat, 0]
def k1_off93 (k1_t19 : Fin k1_t19_loop.trips) : Fin 3 → Nat :=
  let c0_i32_502 : BitVec 32 := 0#32
  let v779 : Index := Scalar.indexCast c0_i32_502
  let c100_i32 : BitVec 32 := 100#32
  let c0_i32_290 : BitVec 32 := 0#32
  let c1_i32_292 : BitVec 32 := 1#32
  let arg10 : BitVec 32 := Scf.iv c0_i32_290 c1_i32_292 k1_t19
  let v773 : BitVec 32 := Scalar.addi c100_i32 arg10
  let v780 : Index := Scalar.indexCast v773
  let c16_503 : Index := 16#32
  ![0, v780.toNat, 16]
def k1_off94 (k1_t19 : Fin k1_t19_loop.trips) : Fin 3 → Nat :=
  let c0_i32_504 : BitVec 32 := 0#32
  let v784 : Index := Scalar.indexCast c0_i32_504
  let c100_i32 : BitVec 32 := 100#32
  let c0_i32_290 : BitVec 32 := 0#32
  let c1_i32_292 : BitVec 32 := 1#32
  let arg10 : BitVec 32 := Scf.iv c0_i32_290 c1_i32_292 k1_t19
  let v773 : BitVec 32 := Scalar.addi c100_i32 arg10
  let v785 : Index := Scalar.indexCast v773
  let c32_505 : Index := 32#32
  ![0, v785.toNat, 32]
def k1_off95 (k1_t19 : Fin k1_t19_loop.trips) : Fin 3 → Nat :=
  let c0_i32_506 : BitVec 32 := 0#32
  let v789 : Index := Scalar.indexCast c0_i32_506
  let c100_i32 : BitVec 32 := 100#32
  let c0_i32_290 : BitVec 32 := 0#32
  let c1_i32_292 : BitVec 32 := 1#32
  let arg10 : BitVec 32 := Scf.iv c0_i32_290 c1_i32_292 k1_t19
  let v773 : BitVec 32 := Scalar.addi c100_i32 arg10
  let v790 : Index := Scalar.indexCast v773
  let c48_507 : Index := 48#32
  ![0, v790.toNat, 48]
def k1_off96 (k1_t19 : Fin k1_t19_loop.trips) : Fin 3 → Nat :=
  let c0_i32_508 : BitVec 32 := 0#32
  let v794 : Index := Scalar.indexCast c0_i32_508
  let c100_i32 : BitVec 32 := 100#32
  let c0_i32_290 : BitVec 32 := 0#32
  let c1_i32_292 : BitVec 32 := 1#32
  let arg10 : BitVec 32 := Scf.iv c0_i32_290 c1_i32_292 k1_t19
  let v773 : BitVec 32 := Scalar.addi c100_i32 arg10
  let v795 : Index := Scalar.indexCast v773
  let c54_509 : Index := 54#32
  ![0, v795.toNat, 54]
@[reducible] def k1_t20_loop : Scf.Loop 32 :=
  let c0_i32_303 : BitVec 32 := 0#32
  let c50_i32_304 : BitVec 32 := 50#32
  let v466 : BitVec 32 := Scalar.addi c0_i32_303 c50_i32_304
  let c1_i32_305 : BitVec 32 := 1#32
  ⟨c0_i32_303, v466, c1_i32_305⟩
def k1_off97 (k1_t20 : Fin k1_t20_loop.trips) : Fin 3 → Nat :=
  let c0_i32_500 : BitVec 32 := 0#32
  let v774 : Index := Scalar.indexCast c0_i32_500
  let c150_i32 : BitVec 32 := 150#32
  let c0_i32_303 : BitVec 32 := 0#32
  let c1_i32_305 : BitVec 32 := 1#32
  let arg10 : BitVec 32 := Scf.iv c0_i32_303 c1_i32_305 k1_t20
  let v773 : BitVec 32 := Scalar.addi c150_i32 arg10
  let v775 : Index := Scalar.indexCast v773
  let c0_501 : Index := 0#32
  ![0, v775.toNat, 0]
def k1_off98 (k1_t20 : Fin k1_t20_loop.trips) : Fin 3 → Nat :=
  let c0_i32_502 : BitVec 32 := 0#32
  let v779 : Index := Scalar.indexCast c0_i32_502
  let c150_i32 : BitVec 32 := 150#32
  let c0_i32_303 : BitVec 32 := 0#32
  let c1_i32_305 : BitVec 32 := 1#32
  let arg10 : BitVec 32 := Scf.iv c0_i32_303 c1_i32_305 k1_t20
  let v773 : BitVec 32 := Scalar.addi c150_i32 arg10
  let v780 : Index := Scalar.indexCast v773
  let c16_503 : Index := 16#32
  ![0, v780.toNat, 16]
def k1_off99 (k1_t20 : Fin k1_t20_loop.trips) : Fin 3 → Nat :=
  let c0_i32_504 : BitVec 32 := 0#32
  let v784 : Index := Scalar.indexCast c0_i32_504
  let c150_i32 : BitVec 32 := 150#32
  let c0_i32_303 : BitVec 32 := 0#32
  let c1_i32_305 : BitVec 32 := 1#32
  let arg10 : BitVec 32 := Scf.iv c0_i32_303 c1_i32_305 k1_t20
  let v773 : BitVec 32 := Scalar.addi c150_i32 arg10
  let v785 : Index := Scalar.indexCast v773
  let c32_505 : Index := 32#32
  ![0, v785.toNat, 32]
def k1_off100 (k1_t20 : Fin k1_t20_loop.trips) : Fin 3 → Nat :=
  let c0_i32_506 : BitVec 32 := 0#32
  let v789 : Index := Scalar.indexCast c0_i32_506
  let c150_i32 : BitVec 32 := 150#32
  let c0_i32_303 : BitVec 32 := 0#32
  let c1_i32_305 : BitVec 32 := 1#32
  let arg10 : BitVec 32 := Scf.iv c0_i32_303 c1_i32_305 k1_t20
  let v773 : BitVec 32 := Scalar.addi c150_i32 arg10
  let v790 : Index := Scalar.indexCast v773
  let c48_507 : Index := 48#32
  ![0, v790.toNat, 48]
def k1_off101 (k1_t20 : Fin k1_t20_loop.trips) : Fin 3 → Nat :=
  let c0_i32_508 : BitVec 32 := 0#32
  let v794 : Index := Scalar.indexCast c0_i32_508
  let c150_i32 : BitVec 32 := 150#32
  let c0_i32_303 : BitVec 32 := 0#32
  let c1_i32_305 : BitVec 32 := 1#32
  let arg10 : BitVec 32 := Scf.iv c0_i32_303 c1_i32_305 k1_t20
  let v773 : BitVec 32 := Scalar.addi c150_i32 arg10
  let v795 : Index := Scalar.indexCast v773
  let c54_509 : Index := 54#32
  ![0, v795.toNat, 54]
@[reducible] def k1_t21_loop : Scf.Loop 32 :=
  let c0_i32_327 : BitVec 32 := 0#32
  let c50_i32_328 : BitVec 32 := 50#32
  let v496 : BitVec 32 := Scalar.addi c0_i32_327 c50_i32_328
  let c1_i32_329 : BitVec 32 := 1#32
  ⟨c0_i32_327, v496, c1_i32_329⟩
def k1_off102 (k1_t21 : Fin k1_t21_loop.trips) : Fin 3 → Nat :=
  let c1_i32_501 : BitVec 32 := 1#32
  let v774 : Index := Scalar.indexCast c1_i32_501
  let c0_i32_500 : BitVec 32 := 0#32
  let c0_i32_327 : BitVec 32 := 0#32
  let c1_i32_329 : BitVec 32 := 1#32
  let arg10 : BitVec 32 := Scf.iv c0_i32_327 c1_i32_329 k1_t21
  let v773 : BitVec 32 := Scalar.addi c0_i32_500 arg10
  let v775 : Index := Scalar.indexCast v773
  let c0_502 : Index := 0#32
  ![1, v775.toNat, 0]
def k1_off103 (k1_t21 : Fin k1_t21_loop.trips) : Fin 3 → Nat :=
  let c1_i32_503 : BitVec 32 := 1#32
  let v779 : Index := Scalar.indexCast c1_i32_503
  let c0_i32_500 : BitVec 32 := 0#32
  let c0_i32_327 : BitVec 32 := 0#32
  let c1_i32_329 : BitVec 32 := 1#32
  let arg10 : BitVec 32 := Scf.iv c0_i32_327 c1_i32_329 k1_t21
  let v773 : BitVec 32 := Scalar.addi c0_i32_500 arg10
  let v780 : Index := Scalar.indexCast v773
  let c16_504 : Index := 16#32
  ![1, v780.toNat, 16]
def k1_off104 (k1_t21 : Fin k1_t21_loop.trips) : Fin 3 → Nat :=
  let c1_i32_505 : BitVec 32 := 1#32
  let v784 : Index := Scalar.indexCast c1_i32_505
  let c0_i32_500 : BitVec 32 := 0#32
  let c0_i32_327 : BitVec 32 := 0#32
  let c1_i32_329 : BitVec 32 := 1#32
  let arg10 : BitVec 32 := Scf.iv c0_i32_327 c1_i32_329 k1_t21
  let v773 : BitVec 32 := Scalar.addi c0_i32_500 arg10
  let v785 : Index := Scalar.indexCast v773
  let c32_506 : Index := 32#32
  ![1, v785.toNat, 32]
def k1_off105 (k1_t21 : Fin k1_t21_loop.trips) : Fin 3 → Nat :=
  let c1_i32_507 : BitVec 32 := 1#32
  let v789 : Index := Scalar.indexCast c1_i32_507
  let c0_i32_500 : BitVec 32 := 0#32
  let c0_i32_327 : BitVec 32 := 0#32
  let c1_i32_329 : BitVec 32 := 1#32
  let arg10 : BitVec 32 := Scf.iv c0_i32_327 c1_i32_329 k1_t21
  let v773 : BitVec 32 := Scalar.addi c0_i32_500 arg10
  let v790 : Index := Scalar.indexCast v773
  let c48_508 : Index := 48#32
  ![1, v790.toNat, 48]
def k1_off106 (k1_t21 : Fin k1_t21_loop.trips) : Fin 3 → Nat :=
  let c1_i32_509 : BitVec 32 := 1#32
  let v794 : Index := Scalar.indexCast c1_i32_509
  let c0_i32_500 : BitVec 32 := 0#32
  let c0_i32_327 : BitVec 32 := 0#32
  let c1_i32_329 : BitVec 32 := 1#32
  let arg10 : BitVec 32 := Scf.iv c0_i32_327 c1_i32_329 k1_t21
  let v773 : BitVec 32 := Scalar.addi c0_i32_500 arg10
  let v795 : Index := Scalar.indexCast v773
  let c54_510 : Index := 54#32
  ![1, v795.toNat, 54]
@[reducible] def k1_t22_loop : Scf.Loop 32 :=
  let c0_i32_340 : BitVec 32 := 0#32
  let c50_i32_341 : BitVec 32 := 50#32
  let v518 : BitVec 32 := Scalar.addi c0_i32_340 c50_i32_341
  let c1_i32_342 : BitVec 32 := 1#32
  ⟨c0_i32_340, v518, c1_i32_342⟩
def k1_off107 (k1_t22 : Fin k1_t22_loop.trips) : Fin 3 → Nat :=
  let c1_i32_501 : BitVec 32 := 1#32
  let v774 : Index := Scalar.indexCast c1_i32_501
  let c50_i32_500 : BitVec 32 := 50#32
  let c0_i32_340 : BitVec 32 := 0#32
  let c1_i32_342 : BitVec 32 := 1#32
  let arg10 : BitVec 32 := Scf.iv c0_i32_340 c1_i32_342 k1_t22
  let v773 : BitVec 32 := Scalar.addi c50_i32_500 arg10
  let v775 : Index := Scalar.indexCast v773
  let c0_502 : Index := 0#32
  ![1, v775.toNat, 0]
def k1_off108 (k1_t22 : Fin k1_t22_loop.trips) : Fin 3 → Nat :=
  let c1_i32_503 : BitVec 32 := 1#32
  let v779 : Index := Scalar.indexCast c1_i32_503
  let c50_i32_500 : BitVec 32 := 50#32
  let c0_i32_340 : BitVec 32 := 0#32
  let c1_i32_342 : BitVec 32 := 1#32
  let arg10 : BitVec 32 := Scf.iv c0_i32_340 c1_i32_342 k1_t22
  let v773 : BitVec 32 := Scalar.addi c50_i32_500 arg10
  let v780 : Index := Scalar.indexCast v773
  let c16_504 : Index := 16#32
  ![1, v780.toNat, 16]
def k1_off109 (k1_t22 : Fin k1_t22_loop.trips) : Fin 3 → Nat :=
  let c1_i32_505 : BitVec 32 := 1#32
  let v784 : Index := Scalar.indexCast c1_i32_505
  let c50_i32_500 : BitVec 32 := 50#32
  let c0_i32_340 : BitVec 32 := 0#32
  let c1_i32_342 : BitVec 32 := 1#32
  let arg10 : BitVec 32 := Scf.iv c0_i32_340 c1_i32_342 k1_t22
  let v773 : BitVec 32 := Scalar.addi c50_i32_500 arg10
  let v785 : Index := Scalar.indexCast v773
  let c32_506 : Index := 32#32
  ![1, v785.toNat, 32]
def k1_off110 (k1_t22 : Fin k1_t22_loop.trips) : Fin 3 → Nat :=
  let c1_i32_507 : BitVec 32 := 1#32
  let v789 : Index := Scalar.indexCast c1_i32_507
  let c50_i32_500 : BitVec 32 := 50#32
  let c0_i32_340 : BitVec 32 := 0#32
  let c1_i32_342 : BitVec 32 := 1#32
  let arg10 : BitVec 32 := Scf.iv c0_i32_340 c1_i32_342 k1_t22
  let v773 : BitVec 32 := Scalar.addi c50_i32_500 arg10
  let v790 : Index := Scalar.indexCast v773
  let c48_508 : Index := 48#32
  ![1, v790.toNat, 48]
def k1_off111 (k1_t22 : Fin k1_t22_loop.trips) : Fin 3 → Nat :=
  let c1_i32_509 : BitVec 32 := 1#32
  let v794 : Index := Scalar.indexCast c1_i32_509
  let c50_i32_500 : BitVec 32 := 50#32
  let c0_i32_340 : BitVec 32 := 0#32
  let c1_i32_342 : BitVec 32 := 1#32
  let arg10 : BitVec 32 := Scf.iv c0_i32_340 c1_i32_342 k1_t22
  let v773 : BitVec 32 := Scalar.addi c50_i32_500 arg10
  let v795 : Index := Scalar.indexCast v773
  let c54_510 : Index := 54#32
  ![1, v795.toNat, 54]
@[reducible] def k1_t23_loop : Scf.Loop 32 :=
  let c0_i32_353 : BitVec 32 := 0#32
  let c50_i32_354 : BitVec 32 := 50#32
  let v540 : BitVec 32 := Scalar.addi c0_i32_353 c50_i32_354
  let c1_i32_355 : BitVec 32 := 1#32
  ⟨c0_i32_353, v540, c1_i32_355⟩
def k1_off112 (k1_t23 : Fin k1_t23_loop.trips) : Fin 3 → Nat :=
  let c1_i32_500 : BitVec 32 := 1#32
  let v774 : Index := Scalar.indexCast c1_i32_500
  let c100_i32 : BitVec 32 := 100#32
  let c0_i32_353 : BitVec 32 := 0#32
  let c1_i32_355 : BitVec 32 := 1#32
  let arg10 : BitVec 32 := Scf.iv c0_i32_353 c1_i32_355 k1_t23
  let v773 : BitVec 32 := Scalar.addi c100_i32 arg10
  let v775 : Index := Scalar.indexCast v773
  let c0_501 : Index := 0#32
  ![1, v775.toNat, 0]
def k1_off113 (k1_t23 : Fin k1_t23_loop.trips) : Fin 3 → Nat :=
  let c1_i32_502 : BitVec 32 := 1#32
  let v779 : Index := Scalar.indexCast c1_i32_502
  let c100_i32 : BitVec 32 := 100#32
  let c0_i32_353 : BitVec 32 := 0#32
  let c1_i32_355 : BitVec 32 := 1#32
  let arg10 : BitVec 32 := Scf.iv c0_i32_353 c1_i32_355 k1_t23
  let v773 : BitVec 32 := Scalar.addi c100_i32 arg10
  let v780 : Index := Scalar.indexCast v773
  let c16_503 : Index := 16#32
  ![1, v780.toNat, 16]
def k1_off114 (k1_t23 : Fin k1_t23_loop.trips) : Fin 3 → Nat :=
  let c1_i32_504 : BitVec 32 := 1#32
  let v784 : Index := Scalar.indexCast c1_i32_504
  let c100_i32 : BitVec 32 := 100#32
  let c0_i32_353 : BitVec 32 := 0#32
  let c1_i32_355 : BitVec 32 := 1#32
  let arg10 : BitVec 32 := Scf.iv c0_i32_353 c1_i32_355 k1_t23
  let v773 : BitVec 32 := Scalar.addi c100_i32 arg10
  let v785 : Index := Scalar.indexCast v773
  let c32_505 : Index := 32#32
  ![1, v785.toNat, 32]
def k1_off115 (k1_t23 : Fin k1_t23_loop.trips) : Fin 3 → Nat :=
  let c1_i32_506 : BitVec 32 := 1#32
  let v789 : Index := Scalar.indexCast c1_i32_506
  let c100_i32 : BitVec 32 := 100#32
  let c0_i32_353 : BitVec 32 := 0#32
  let c1_i32_355 : BitVec 32 := 1#32
  let arg10 : BitVec 32 := Scf.iv c0_i32_353 c1_i32_355 k1_t23
  let v773 : BitVec 32 := Scalar.addi c100_i32 arg10
  let v790 : Index := Scalar.indexCast v773
  let c48_507 : Index := 48#32
  ![1, v790.toNat, 48]
def k1_off116 (k1_t23 : Fin k1_t23_loop.trips) : Fin 3 → Nat :=
  let c1_i32_508 : BitVec 32 := 1#32
  let v794 : Index := Scalar.indexCast c1_i32_508
  let c100_i32 : BitVec 32 := 100#32
  let c0_i32_353 : BitVec 32 := 0#32
  let c1_i32_355 : BitVec 32 := 1#32
  let arg10 : BitVec 32 := Scf.iv c0_i32_353 c1_i32_355 k1_t23
  let v773 : BitVec 32 := Scalar.addi c100_i32 arg10
  let v795 : Index := Scalar.indexCast v773
  let c54_509 : Index := 54#32
  ![1, v795.toNat, 54]
@[reducible] def k1_t24_loop : Scf.Loop 32 :=
  let c0_i32_366 : BitVec 32 := 0#32
  let c50_i32_367 : BitVec 32 := 50#32
  let v562 : BitVec 32 := Scalar.addi c0_i32_366 c50_i32_367
  let c1_i32_368 : BitVec 32 := 1#32
  ⟨c0_i32_366, v562, c1_i32_368⟩
def k1_off117 (k1_t24 : Fin k1_t24_loop.trips) : Fin 3 → Nat :=
  let c1_i32_500 : BitVec 32 := 1#32
  let v774 : Index := Scalar.indexCast c1_i32_500
  let c150_i32 : BitVec 32 := 150#32
  let c0_i32_366 : BitVec 32 := 0#32
  let c1_i32_368 : BitVec 32 := 1#32
  let arg10 : BitVec 32 := Scf.iv c0_i32_366 c1_i32_368 k1_t24
  let v773 : BitVec 32 := Scalar.addi c150_i32 arg10
  let v775 : Index := Scalar.indexCast v773
  let c0_501 : Index := 0#32
  ![1, v775.toNat, 0]
def k1_off118 (k1_t24 : Fin k1_t24_loop.trips) : Fin 3 → Nat :=
  let c1_i32_502 : BitVec 32 := 1#32
  let v779 : Index := Scalar.indexCast c1_i32_502
  let c150_i32 : BitVec 32 := 150#32
  let c0_i32_366 : BitVec 32 := 0#32
  let c1_i32_368 : BitVec 32 := 1#32
  let arg10 : BitVec 32 := Scf.iv c0_i32_366 c1_i32_368 k1_t24
  let v773 : BitVec 32 := Scalar.addi c150_i32 arg10
  let v780 : Index := Scalar.indexCast v773
  let c16_503 : Index := 16#32
  ![1, v780.toNat, 16]
def k1_off119 (k1_t24 : Fin k1_t24_loop.trips) : Fin 3 → Nat :=
  let c1_i32_504 : BitVec 32 := 1#32
  let v784 : Index := Scalar.indexCast c1_i32_504
  let c150_i32 : BitVec 32 := 150#32
  let c0_i32_366 : BitVec 32 := 0#32
  let c1_i32_368 : BitVec 32 := 1#32
  let arg10 : BitVec 32 := Scf.iv c0_i32_366 c1_i32_368 k1_t24
  let v773 : BitVec 32 := Scalar.addi c150_i32 arg10
  let v785 : Index := Scalar.indexCast v773
  let c32_505 : Index := 32#32
  ![1, v785.toNat, 32]
def k1_off120 (k1_t24 : Fin k1_t24_loop.trips) : Fin 3 → Nat :=
  let c1_i32_506 : BitVec 32 := 1#32
  let v789 : Index := Scalar.indexCast c1_i32_506
  let c150_i32 : BitVec 32 := 150#32
  let c0_i32_366 : BitVec 32 := 0#32
  let c1_i32_368 : BitVec 32 := 1#32
  let arg10 : BitVec 32 := Scf.iv c0_i32_366 c1_i32_368 k1_t24
  let v773 : BitVec 32 := Scalar.addi c150_i32 arg10
  let v790 : Index := Scalar.indexCast v773
  let c48_507 : Index := 48#32
  ![1, v790.toNat, 48]
def k1_off121 (k1_t24 : Fin k1_t24_loop.trips) : Fin 3 → Nat :=
  let c1_i32_508 : BitVec 32 := 1#32
  let v794 : Index := Scalar.indexCast c1_i32_508
  let c150_i32 : BitVec 32 := 150#32
  let c0_i32_366 : BitVec 32 := 0#32
  let c1_i32_368 : BitVec 32 := 1#32
  let arg10 : BitVec 32 := Scf.iv c0_i32_366 c1_i32_368 k1_t24
  let v773 : BitVec 32 := Scalar.addi c150_i32 arg10
  let v795 : Index := Scalar.indexCast v773
  let c54_509 : Index := 54#32
  ![1, v795.toNat, 54]
@[reducible] def k1_t25_loop : Scf.Loop 32 :=
  let c0_i32_390 : BitVec 32 := 0#32
  let c50_i32_391 : BitVec 32 := 50#32
  let v592 : BitVec 32 := Scalar.addi c0_i32_390 c50_i32_391
  let c1_i32_392 : BitVec 32 := 1#32
  ⟨c0_i32_390, v592, c1_i32_392⟩
def k1_off122 (k1_t25 : Fin k1_t25_loop.trips) : Fin 3 → Nat :=
  let c0_i32_501 : BitVec 32 := 0#32
  let v774 : Index := Scalar.indexCast c0_i32_501
  let c0_i32_500 : BitVec 32 := 0#32
  let c0_i32_390 : BitVec 32 := 0#32
  let c1_i32_392 : BitVec 32 := 1#32
  let arg10 : BitVec 32 := Scf.iv c0_i32_390 c1_i32_392 k1_t25
  let v773 : BitVec 32 := Scalar.addi c0_i32_500 arg10
  let v775 : Index := Scalar.indexCast v773
  let c0_502 : Index := 0#32
  ![0, v775.toNat, 0]
def k1_off123 (k1_t25 : Fin k1_t25_loop.trips) : Fin 3 → Nat :=
  let c0_i32_503 : BitVec 32 := 0#32
  let v779 : Index := Scalar.indexCast c0_i32_503
  let c0_i32_500 : BitVec 32 := 0#32
  let c0_i32_390 : BitVec 32 := 0#32
  let c1_i32_392 : BitVec 32 := 1#32
  let arg10 : BitVec 32 := Scf.iv c0_i32_390 c1_i32_392 k1_t25
  let v773 : BitVec 32 := Scalar.addi c0_i32_500 arg10
  let v780 : Index := Scalar.indexCast v773
  let c16_504 : Index := 16#32
  ![0, v780.toNat, 16]
def k1_off124 (k1_t25 : Fin k1_t25_loop.trips) : Fin 3 → Nat :=
  let c0_i32_505 : BitVec 32 := 0#32
  let v784 : Index := Scalar.indexCast c0_i32_505
  let c0_i32_500 : BitVec 32 := 0#32
  let c0_i32_390 : BitVec 32 := 0#32
  let c1_i32_392 : BitVec 32 := 1#32
  let arg10 : BitVec 32 := Scf.iv c0_i32_390 c1_i32_392 k1_t25
  let v773 : BitVec 32 := Scalar.addi c0_i32_500 arg10
  let v785 : Index := Scalar.indexCast v773
  let c32_506 : Index := 32#32
  ![0, v785.toNat, 32]
def k1_off125 (k1_t25 : Fin k1_t25_loop.trips) : Fin 3 → Nat :=
  let c0_i32_507 : BitVec 32 := 0#32
  let v789 : Index := Scalar.indexCast c0_i32_507
  let c0_i32_500 : BitVec 32 := 0#32
  let c0_i32_390 : BitVec 32 := 0#32
  let c1_i32_392 : BitVec 32 := 1#32
  let arg10 : BitVec 32 := Scf.iv c0_i32_390 c1_i32_392 k1_t25
  let v773 : BitVec 32 := Scalar.addi c0_i32_500 arg10
  let v790 : Index := Scalar.indexCast v773
  let c48_508 : Index := 48#32
  ![0, v790.toNat, 48]
def k1_off126 (k1_t25 : Fin k1_t25_loop.trips) : Fin 3 → Nat :=
  let c0_i32_509 : BitVec 32 := 0#32
  let v794 : Index := Scalar.indexCast c0_i32_509
  let c0_i32_500 : BitVec 32 := 0#32
  let c0_i32_390 : BitVec 32 := 0#32
  let c1_i32_392 : BitVec 32 := 1#32
  let arg10 : BitVec 32 := Scf.iv c0_i32_390 c1_i32_392 k1_t25
  let v773 : BitVec 32 := Scalar.addi c0_i32_500 arg10
  let v795 : Index := Scalar.indexCast v773
  let c54_510 : Index := 54#32
  ![0, v795.toNat, 54]
@[reducible] def k1_t26_loop : Scf.Loop 32 :=
  let c0_i32_403 : BitVec 32 := 0#32
  let c50_i32_404 : BitVec 32 := 50#32
  let v614 : BitVec 32 := Scalar.addi c0_i32_403 c50_i32_404
  let c1_i32_405 : BitVec 32 := 1#32
  ⟨c0_i32_403, v614, c1_i32_405⟩
def k1_off127 (k1_t26 : Fin k1_t26_loop.trips) : Fin 3 → Nat :=
  let c0_i32_501 : BitVec 32 := 0#32
  let v774 : Index := Scalar.indexCast c0_i32_501
  let c50_i32_500 : BitVec 32 := 50#32
  let c0_i32_403 : BitVec 32 := 0#32
  let c1_i32_405 : BitVec 32 := 1#32
  let arg10 : BitVec 32 := Scf.iv c0_i32_403 c1_i32_405 k1_t26
  let v773 : BitVec 32 := Scalar.addi c50_i32_500 arg10
  let v775 : Index := Scalar.indexCast v773
  let c0_502 : Index := 0#32
  ![0, v775.toNat, 0]
def k1_off128 (k1_t26 : Fin k1_t26_loop.trips) : Fin 3 → Nat :=
  let c0_i32_503 : BitVec 32 := 0#32
  let v779 : Index := Scalar.indexCast c0_i32_503
  let c50_i32_500 : BitVec 32 := 50#32
  let c0_i32_403 : BitVec 32 := 0#32
  let c1_i32_405 : BitVec 32 := 1#32
  let arg10 : BitVec 32 := Scf.iv c0_i32_403 c1_i32_405 k1_t26
  let v773 : BitVec 32 := Scalar.addi c50_i32_500 arg10
  let v780 : Index := Scalar.indexCast v773
  let c16_504 : Index := 16#32
  ![0, v780.toNat, 16]
def k1_off129 (k1_t26 : Fin k1_t26_loop.trips) : Fin 3 → Nat :=
  let c0_i32_505 : BitVec 32 := 0#32
  let v784 : Index := Scalar.indexCast c0_i32_505
  let c50_i32_500 : BitVec 32 := 50#32
  let c0_i32_403 : BitVec 32 := 0#32
  let c1_i32_405 : BitVec 32 := 1#32
  let arg10 : BitVec 32 := Scf.iv c0_i32_403 c1_i32_405 k1_t26
  let v773 : BitVec 32 := Scalar.addi c50_i32_500 arg10
  let v785 : Index := Scalar.indexCast v773
  let c32_506 : Index := 32#32
  ![0, v785.toNat, 32]
def k1_off130 (k1_t26 : Fin k1_t26_loop.trips) : Fin 3 → Nat :=
  let c0_i32_507 : BitVec 32 := 0#32
  let v789 : Index := Scalar.indexCast c0_i32_507
  let c50_i32_500 : BitVec 32 := 50#32
  let c0_i32_403 : BitVec 32 := 0#32
  let c1_i32_405 : BitVec 32 := 1#32
  let arg10 : BitVec 32 := Scf.iv c0_i32_403 c1_i32_405 k1_t26
  let v773 : BitVec 32 := Scalar.addi c50_i32_500 arg10
  let v790 : Index := Scalar.indexCast v773
  let c48_508 : Index := 48#32
  ![0, v790.toNat, 48]
def k1_off131 (k1_t26 : Fin k1_t26_loop.trips) : Fin 3 → Nat :=
  let c0_i32_509 : BitVec 32 := 0#32
  let v794 : Index := Scalar.indexCast c0_i32_509
  let c50_i32_500 : BitVec 32 := 50#32
  let c0_i32_403 : BitVec 32 := 0#32
  let c1_i32_405 : BitVec 32 := 1#32
  let arg10 : BitVec 32 := Scf.iv c0_i32_403 c1_i32_405 k1_t26
  let v773 : BitVec 32 := Scalar.addi c50_i32_500 arg10
  let v795 : Index := Scalar.indexCast v773
  let c54_510 : Index := 54#32
  ![0, v795.toNat, 54]
@[reducible] def k1_t27_loop : Scf.Loop 32 :=
  let c0_i32_416 : BitVec 32 := 0#32
  let c50_i32_417 : BitVec 32 := 50#32
  let v636 : BitVec 32 := Scalar.addi c0_i32_416 c50_i32_417
  let c1_i32_418 : BitVec 32 := 1#32
  ⟨c0_i32_416, v636, c1_i32_418⟩
def k1_off132 (k1_t27 : Fin k1_t27_loop.trips) : Fin 3 → Nat :=
  let c0_i32_500 : BitVec 32 := 0#32
  let v774 : Index := Scalar.indexCast c0_i32_500
  let c100_i32 : BitVec 32 := 100#32
  let c0_i32_416 : BitVec 32 := 0#32
  let c1_i32_418 : BitVec 32 := 1#32
  let arg10 : BitVec 32 := Scf.iv c0_i32_416 c1_i32_418 k1_t27
  let v773 : BitVec 32 := Scalar.addi c100_i32 arg10
  let v775 : Index := Scalar.indexCast v773
  let c0_501 : Index := 0#32
  ![0, v775.toNat, 0]
def k1_off133 (k1_t27 : Fin k1_t27_loop.trips) : Fin 3 → Nat :=
  let c0_i32_502 : BitVec 32 := 0#32
  let v779 : Index := Scalar.indexCast c0_i32_502
  let c100_i32 : BitVec 32 := 100#32
  let c0_i32_416 : BitVec 32 := 0#32
  let c1_i32_418 : BitVec 32 := 1#32
  let arg10 : BitVec 32 := Scf.iv c0_i32_416 c1_i32_418 k1_t27
  let v773 : BitVec 32 := Scalar.addi c100_i32 arg10
  let v780 : Index := Scalar.indexCast v773
  let c16_503 : Index := 16#32
  ![0, v780.toNat, 16]
def k1_off134 (k1_t27 : Fin k1_t27_loop.trips) : Fin 3 → Nat :=
  let c0_i32_504 : BitVec 32 := 0#32
  let v784 : Index := Scalar.indexCast c0_i32_504
  let c100_i32 : BitVec 32 := 100#32
  let c0_i32_416 : BitVec 32 := 0#32
  let c1_i32_418 : BitVec 32 := 1#32
  let arg10 : BitVec 32 := Scf.iv c0_i32_416 c1_i32_418 k1_t27
  let v773 : BitVec 32 := Scalar.addi c100_i32 arg10
  let v785 : Index := Scalar.indexCast v773
  let c32_505 : Index := 32#32
  ![0, v785.toNat, 32]
def k1_off135 (k1_t27 : Fin k1_t27_loop.trips) : Fin 3 → Nat :=
  let c0_i32_506 : BitVec 32 := 0#32
  let v789 : Index := Scalar.indexCast c0_i32_506
  let c100_i32 : BitVec 32 := 100#32
  let c0_i32_416 : BitVec 32 := 0#32
  let c1_i32_418 : BitVec 32 := 1#32
  let arg10 : BitVec 32 := Scf.iv c0_i32_416 c1_i32_418 k1_t27
  let v773 : BitVec 32 := Scalar.addi c100_i32 arg10
  let v790 : Index := Scalar.indexCast v773
  let c48_507 : Index := 48#32
  ![0, v790.toNat, 48]
def k1_off136 (k1_t27 : Fin k1_t27_loop.trips) : Fin 3 → Nat :=
  let c0_i32_508 : BitVec 32 := 0#32
  let v794 : Index := Scalar.indexCast c0_i32_508
  let c100_i32 : BitVec 32 := 100#32
  let c0_i32_416 : BitVec 32 := 0#32
  let c1_i32_418 : BitVec 32 := 1#32
  let arg10 : BitVec 32 := Scf.iv c0_i32_416 c1_i32_418 k1_t27
  let v773 : BitVec 32 := Scalar.addi c100_i32 arg10
  let v795 : Index := Scalar.indexCast v773
  let c54_509 : Index := 54#32
  ![0, v795.toNat, 54]
@[reducible] def k1_t28_loop : Scf.Loop 32 :=
  let c0_i32_429 : BitVec 32 := 0#32
  let c50_i32_430 : BitVec 32 := 50#32
  let v658 : BitVec 32 := Scalar.addi c0_i32_429 c50_i32_430
  let c1_i32_431 : BitVec 32 := 1#32
  ⟨c0_i32_429, v658, c1_i32_431⟩
def k1_off137 (k1_t28 : Fin k1_t28_loop.trips) : Fin 3 → Nat :=
  let c0_i32_500 : BitVec 32 := 0#32
  let v774 : Index := Scalar.indexCast c0_i32_500
  let c150_i32 : BitVec 32 := 150#32
  let c0_i32_429 : BitVec 32 := 0#32
  let c1_i32_431 : BitVec 32 := 1#32
  let arg10 : BitVec 32 := Scf.iv c0_i32_429 c1_i32_431 k1_t28
  let v773 : BitVec 32 := Scalar.addi c150_i32 arg10
  let v775 : Index := Scalar.indexCast v773
  let c0_501 : Index := 0#32
  ![0, v775.toNat, 0]
def k1_off138 (k1_t28 : Fin k1_t28_loop.trips) : Fin 3 → Nat :=
  let c0_i32_502 : BitVec 32 := 0#32
  let v779 : Index := Scalar.indexCast c0_i32_502
  let c150_i32 : BitVec 32 := 150#32
  let c0_i32_429 : BitVec 32 := 0#32
  let c1_i32_431 : BitVec 32 := 1#32
  let arg10 : BitVec 32 := Scf.iv c0_i32_429 c1_i32_431 k1_t28
  let v773 : BitVec 32 := Scalar.addi c150_i32 arg10
  let v780 : Index := Scalar.indexCast v773
  let c16_503 : Index := 16#32
  ![0, v780.toNat, 16]
def k1_off139 (k1_t28 : Fin k1_t28_loop.trips) : Fin 3 → Nat :=
  let c0_i32_504 : BitVec 32 := 0#32
  let v784 : Index := Scalar.indexCast c0_i32_504
  let c150_i32 : BitVec 32 := 150#32
  let c0_i32_429 : BitVec 32 := 0#32
  let c1_i32_431 : BitVec 32 := 1#32
  let arg10 : BitVec 32 := Scf.iv c0_i32_429 c1_i32_431 k1_t28
  let v773 : BitVec 32 := Scalar.addi c150_i32 arg10
  let v785 : Index := Scalar.indexCast v773
  let c32_505 : Index := 32#32
  ![0, v785.toNat, 32]
def k1_off140 (k1_t28 : Fin k1_t28_loop.trips) : Fin 3 → Nat :=
  let c0_i32_506 : BitVec 32 := 0#32
  let v789 : Index := Scalar.indexCast c0_i32_506
  let c150_i32 : BitVec 32 := 150#32
  let c0_i32_429 : BitVec 32 := 0#32
  let c1_i32_431 : BitVec 32 := 1#32
  let arg10 : BitVec 32 := Scf.iv c0_i32_429 c1_i32_431 k1_t28
  let v773 : BitVec 32 := Scalar.addi c150_i32 arg10
  let v790 : Index := Scalar.indexCast v773
  let c48_507 : Index := 48#32
  ![0, v790.toNat, 48]
def k1_off141 (k1_t28 : Fin k1_t28_loop.trips) : Fin 3 → Nat :=
  let c0_i32_508 : BitVec 32 := 0#32
  let v794 : Index := Scalar.indexCast c0_i32_508
  let c150_i32 : BitVec 32 := 150#32
  let c0_i32_429 : BitVec 32 := 0#32
  let c1_i32_431 : BitVec 32 := 1#32
  let arg10 : BitVec 32 := Scf.iv c0_i32_429 c1_i32_431 k1_t28
  let v773 : BitVec 32 := Scalar.addi c150_i32 arg10
  let v795 : Index := Scalar.indexCast v773
  let c54_509 : Index := 54#32
  ![0, v795.toNat, 54]
@[reducible] def k1_t29_loop : Scf.Loop 32 :=
  let c0_i32_448 : BitVec 32 := 0#32
  let c50_i32_449 : BitVec 32 := 50#32
  let v684 : BitVec 32 := Scalar.addi c0_i32_448 c50_i32_449
  let c1_i32_450 : BitVec 32 := 1#32
  ⟨c0_i32_448, v684, c1_i32_450⟩
def k1_off142 (k1_t29 : Fin k1_t29_loop.trips) : Fin 3 → Nat :=
  let c1_i32_501 : BitVec 32 := 1#32
  let v774 : Index := Scalar.indexCast c1_i32_501
  let c0_i32_500 : BitVec 32 := 0#32
  let c0_i32_448 : BitVec 32 := 0#32
  let c1_i32_450 : BitVec 32 := 1#32
  let arg10 : BitVec 32 := Scf.iv c0_i32_448 c1_i32_450 k1_t29
  let v773 : BitVec 32 := Scalar.addi c0_i32_500 arg10
  let v775 : Index := Scalar.indexCast v773
  let c0_502 : Index := 0#32
  ![1, v775.toNat, 0]
def k1_off143 (k1_t29 : Fin k1_t29_loop.trips) : Fin 3 → Nat :=
  let c1_i32_503 : BitVec 32 := 1#32
  let v779 : Index := Scalar.indexCast c1_i32_503
  let c0_i32_500 : BitVec 32 := 0#32
  let c0_i32_448 : BitVec 32 := 0#32
  let c1_i32_450 : BitVec 32 := 1#32
  let arg10 : BitVec 32 := Scf.iv c0_i32_448 c1_i32_450 k1_t29
  let v773 : BitVec 32 := Scalar.addi c0_i32_500 arg10
  let v780 : Index := Scalar.indexCast v773
  let c16_504 : Index := 16#32
  ![1, v780.toNat, 16]
def k1_off144 (k1_t29 : Fin k1_t29_loop.trips) : Fin 3 → Nat :=
  let c1_i32_505 : BitVec 32 := 1#32
  let v784 : Index := Scalar.indexCast c1_i32_505
  let c0_i32_500 : BitVec 32 := 0#32
  let c0_i32_448 : BitVec 32 := 0#32
  let c1_i32_450 : BitVec 32 := 1#32
  let arg10 : BitVec 32 := Scf.iv c0_i32_448 c1_i32_450 k1_t29
  let v773 : BitVec 32 := Scalar.addi c0_i32_500 arg10
  let v785 : Index := Scalar.indexCast v773
  let c32_506 : Index := 32#32
  ![1, v785.toNat, 32]
def k1_off145 (k1_t29 : Fin k1_t29_loop.trips) : Fin 3 → Nat :=
  let c1_i32_507 : BitVec 32 := 1#32
  let v789 : Index := Scalar.indexCast c1_i32_507
  let c0_i32_500 : BitVec 32 := 0#32
  let c0_i32_448 : BitVec 32 := 0#32
  let c1_i32_450 : BitVec 32 := 1#32
  let arg10 : BitVec 32 := Scf.iv c0_i32_448 c1_i32_450 k1_t29
  let v773 : BitVec 32 := Scalar.addi c0_i32_500 arg10
  let v790 : Index := Scalar.indexCast v773
  let c48_508 : Index := 48#32
  ![1, v790.toNat, 48]
def k1_off146 (k1_t29 : Fin k1_t29_loop.trips) : Fin 3 → Nat :=
  let c1_i32_509 : BitVec 32 := 1#32
  let v794 : Index := Scalar.indexCast c1_i32_509
  let c0_i32_500 : BitVec 32 := 0#32
  let c0_i32_448 : BitVec 32 := 0#32
  let c1_i32_450 : BitVec 32 := 1#32
  let arg10 : BitVec 32 := Scf.iv c0_i32_448 c1_i32_450 k1_t29
  let v773 : BitVec 32 := Scalar.addi c0_i32_500 arg10
  let v795 : Index := Scalar.indexCast v773
  let c54_510 : Index := 54#32
  ![1, v795.toNat, 54]
@[reducible] def k1_t30_loop : Scf.Loop 32 :=
  let c0_i32_461 : BitVec 32 := 0#32
  let c50_i32_462 : BitVec 32 := 50#32
  let v706 : BitVec 32 := Scalar.addi c0_i32_461 c50_i32_462
  let c1_i32_463 : BitVec 32 := 1#32
  ⟨c0_i32_461, v706, c1_i32_463⟩
def k1_off147 (k1_t30 : Fin k1_t30_loop.trips) : Fin 3 → Nat :=
  let c1_i32_501 : BitVec 32 := 1#32
  let v774 : Index := Scalar.indexCast c1_i32_501
  let c50_i32_500 : BitVec 32 := 50#32
  let c0_i32_461 : BitVec 32 := 0#32
  let c1_i32_463 : BitVec 32 := 1#32
  let arg10 : BitVec 32 := Scf.iv c0_i32_461 c1_i32_463 k1_t30
  let v773 : BitVec 32 := Scalar.addi c50_i32_500 arg10
  let v775 : Index := Scalar.indexCast v773
  let c0_502 : Index := 0#32
  ![1, v775.toNat, 0]
def k1_off148 (k1_t30 : Fin k1_t30_loop.trips) : Fin 3 → Nat :=
  let c1_i32_503 : BitVec 32 := 1#32
  let v779 : Index := Scalar.indexCast c1_i32_503
  let c50_i32_500 : BitVec 32 := 50#32
  let c0_i32_461 : BitVec 32 := 0#32
  let c1_i32_463 : BitVec 32 := 1#32
  let arg10 : BitVec 32 := Scf.iv c0_i32_461 c1_i32_463 k1_t30
  let v773 : BitVec 32 := Scalar.addi c50_i32_500 arg10
  let v780 : Index := Scalar.indexCast v773
  let c16_504 : Index := 16#32
  ![1, v780.toNat, 16]
def k1_off149 (k1_t30 : Fin k1_t30_loop.trips) : Fin 3 → Nat :=
  let c1_i32_505 : BitVec 32 := 1#32
  let v784 : Index := Scalar.indexCast c1_i32_505
  let c50_i32_500 : BitVec 32 := 50#32
  let c0_i32_461 : BitVec 32 := 0#32
  let c1_i32_463 : BitVec 32 := 1#32
  let arg10 : BitVec 32 := Scf.iv c0_i32_461 c1_i32_463 k1_t30
  let v773 : BitVec 32 := Scalar.addi c50_i32_500 arg10
  let v785 : Index := Scalar.indexCast v773
  let c32_506 : Index := 32#32
  ![1, v785.toNat, 32]
def k1_off150 (k1_t30 : Fin k1_t30_loop.trips) : Fin 3 → Nat :=
  let c1_i32_507 : BitVec 32 := 1#32
  let v789 : Index := Scalar.indexCast c1_i32_507
  let c50_i32_500 : BitVec 32 := 50#32
  let c0_i32_461 : BitVec 32 := 0#32
  let c1_i32_463 : BitVec 32 := 1#32
  let arg10 : BitVec 32 := Scf.iv c0_i32_461 c1_i32_463 k1_t30
  let v773 : BitVec 32 := Scalar.addi c50_i32_500 arg10
  let v790 : Index := Scalar.indexCast v773
  let c48_508 : Index := 48#32
  ![1, v790.toNat, 48]
def k1_off151 (k1_t30 : Fin k1_t30_loop.trips) : Fin 3 → Nat :=
  let c1_i32_509 : BitVec 32 := 1#32
  let v794 : Index := Scalar.indexCast c1_i32_509
  let c50_i32_500 : BitVec 32 := 50#32
  let c0_i32_461 : BitVec 32 := 0#32
  let c1_i32_463 : BitVec 32 := 1#32
  let arg10 : BitVec 32 := Scf.iv c0_i32_461 c1_i32_463 k1_t30
  let v773 : BitVec 32 := Scalar.addi c50_i32_500 arg10
  let v795 : Index := Scalar.indexCast v773
  let c54_510 : Index := 54#32
  ![1, v795.toNat, 54]
@[reducible] def k1_t31_loop : Scf.Loop 32 :=
  let c0_i32_474 : BitVec 32 := 0#32
  let c50_i32_475 : BitVec 32 := 50#32
  let v728 : BitVec 32 := Scalar.addi c0_i32_474 c50_i32_475
  let c1_i32_476 : BitVec 32 := 1#32
  ⟨c0_i32_474, v728, c1_i32_476⟩
def k1_off152 (k1_t31 : Fin k1_t31_loop.trips) : Fin 3 → Nat :=
  let c1_i32_500 : BitVec 32 := 1#32
  let v774 : Index := Scalar.indexCast c1_i32_500
  let c100_i32 : BitVec 32 := 100#32
  let c0_i32_474 : BitVec 32 := 0#32
  let c1_i32_476 : BitVec 32 := 1#32
  let arg10 : BitVec 32 := Scf.iv c0_i32_474 c1_i32_476 k1_t31
  let v773 : BitVec 32 := Scalar.addi c100_i32 arg10
  let v775 : Index := Scalar.indexCast v773
  let c0_501 : Index := 0#32
  ![1, v775.toNat, 0]
def k1_off153 (k1_t31 : Fin k1_t31_loop.trips) : Fin 3 → Nat :=
  let c1_i32_502 : BitVec 32 := 1#32
  let v779 : Index := Scalar.indexCast c1_i32_502
  let c100_i32 : BitVec 32 := 100#32
  let c0_i32_474 : BitVec 32 := 0#32
  let c1_i32_476 : BitVec 32 := 1#32
  let arg10 : BitVec 32 := Scf.iv c0_i32_474 c1_i32_476 k1_t31
  let v773 : BitVec 32 := Scalar.addi c100_i32 arg10
  let v780 : Index := Scalar.indexCast v773
  let c16_503 : Index := 16#32
  ![1, v780.toNat, 16]
def k1_off154 (k1_t31 : Fin k1_t31_loop.trips) : Fin 3 → Nat :=
  let c1_i32_504 : BitVec 32 := 1#32
  let v784 : Index := Scalar.indexCast c1_i32_504
  let c100_i32 : BitVec 32 := 100#32
  let c0_i32_474 : BitVec 32 := 0#32
  let c1_i32_476 : BitVec 32 := 1#32
  let arg10 : BitVec 32 := Scf.iv c0_i32_474 c1_i32_476 k1_t31
  let v773 : BitVec 32 := Scalar.addi c100_i32 arg10
  let v785 : Index := Scalar.indexCast v773
  let c32_505 : Index := 32#32
  ![1, v785.toNat, 32]
def k1_off155 (k1_t31 : Fin k1_t31_loop.trips) : Fin 3 → Nat :=
  let c1_i32_506 : BitVec 32 := 1#32
  let v789 : Index := Scalar.indexCast c1_i32_506
  let c100_i32 : BitVec 32 := 100#32
  let c0_i32_474 : BitVec 32 := 0#32
  let c1_i32_476 : BitVec 32 := 1#32
  let arg10 : BitVec 32 := Scf.iv c0_i32_474 c1_i32_476 k1_t31
  let v773 : BitVec 32 := Scalar.addi c100_i32 arg10
  let v790 : Index := Scalar.indexCast v773
  let c48_507 : Index := 48#32
  ![1, v790.toNat, 48]
def k1_off156 (k1_t31 : Fin k1_t31_loop.trips) : Fin 3 → Nat :=
  let c1_i32_508 : BitVec 32 := 1#32
  let v794 : Index := Scalar.indexCast c1_i32_508
  let c100_i32 : BitVec 32 := 100#32
  let c0_i32_474 : BitVec 32 := 0#32
  let c1_i32_476 : BitVec 32 := 1#32
  let arg10 : BitVec 32 := Scf.iv c0_i32_474 c1_i32_476 k1_t31
  let v773 : BitVec 32 := Scalar.addi c100_i32 arg10
  let v795 : Index := Scalar.indexCast v773
  let c54_509 : Index := 54#32
  ![1, v795.toNat, 54]
@[reducible] def k1_t32_loop : Scf.Loop 32 :=
  let c0_i32_487 : BitVec 32 := 0#32
  let c50_i32_488 : BitVec 32 := 50#32
  let v750 : BitVec 32 := Scalar.addi c0_i32_487 c50_i32_488
  let c1_i32_489 : BitVec 32 := 1#32
  ⟨c0_i32_487, v750, c1_i32_489⟩
def k1_off157 (k1_t32 : Fin k1_t32_loop.trips) : Fin 3 → Nat :=
  let c1_i32_500 : BitVec 32 := 1#32
  let v774 : Index := Scalar.indexCast c1_i32_500
  let c150_i32 : BitVec 32 := 150#32
  let c0_i32_487 : BitVec 32 := 0#32
  let c1_i32_489 : BitVec 32 := 1#32
  let arg10 : BitVec 32 := Scf.iv c0_i32_487 c1_i32_489 k1_t32
  let v773 : BitVec 32 := Scalar.addi c150_i32 arg10
  let v775 : Index := Scalar.indexCast v773
  let c0_501 : Index := 0#32
  ![1, v775.toNat, 0]
def k1_off158 (k1_t32 : Fin k1_t32_loop.trips) : Fin 3 → Nat :=
  let c1_i32_502 : BitVec 32 := 1#32
  let v779 : Index := Scalar.indexCast c1_i32_502
  let c150_i32 : BitVec 32 := 150#32
  let c0_i32_487 : BitVec 32 := 0#32
  let c1_i32_489 : BitVec 32 := 1#32
  let arg10 : BitVec 32 := Scf.iv c0_i32_487 c1_i32_489 k1_t32
  let v773 : BitVec 32 := Scalar.addi c150_i32 arg10
  let v780 : Index := Scalar.indexCast v773
  let c16_503 : Index := 16#32
  ![1, v780.toNat, 16]
def k1_off159 (k1_t32 : Fin k1_t32_loop.trips) : Fin 3 → Nat :=
  let c1_i32_504 : BitVec 32 := 1#32
  let v784 : Index := Scalar.indexCast c1_i32_504
  let c150_i32 : BitVec 32 := 150#32
  let c0_i32_487 : BitVec 32 := 0#32
  let c1_i32_489 : BitVec 32 := 1#32
  let arg10 : BitVec 32 := Scf.iv c0_i32_487 c1_i32_489 k1_t32
  let v773 : BitVec 32 := Scalar.addi c150_i32 arg10
  let v785 : Index := Scalar.indexCast v773
  let c32_505 : Index := 32#32
  ![1, v785.toNat, 32]
def k1_off160 (k1_t32 : Fin k1_t32_loop.trips) : Fin 3 → Nat :=
  let c1_i32_506 : BitVec 32 := 1#32
  let v789 : Index := Scalar.indexCast c1_i32_506
  let c150_i32 : BitVec 32 := 150#32
  let c0_i32_487 : BitVec 32 := 0#32
  let c1_i32_489 : BitVec 32 := 1#32
  let arg10 : BitVec 32 := Scf.iv c0_i32_487 c1_i32_489 k1_t32
  let v773 : BitVec 32 := Scalar.addi c150_i32 arg10
  let v790 : Index := Scalar.indexCast v773
  let c48_507 : Index := 48#32
  ![1, v790.toNat, 48]
def k1_off161 (k1_t32 : Fin k1_t32_loop.trips) : Fin 3 → Nat :=
  let c1_i32_508 : BitVec 32 := 1#32
  let v794 : Index := Scalar.indexCast c1_i32_508
  let c150_i32 : BitVec 32 := 150#32
  let c0_i32_487 : BitVec 32 := 0#32
  let c1_i32_489 : BitVec 32 := 1#32
  let arg10 : BitVec 32 := Scf.iv c0_i32_487 c1_i32_489 k1_t32
  let v773 : BitVec 32 := Scalar.addi c150_i32 arg10
  let v795 : Index := Scalar.indexCast v773
  let c54_509 : Index := 54#32
  ![1, v795.toNat, 54]
def k1_off162 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v772 : BitVec 32 := Scalar.muli v1 c32_i32
  let c0_i32_500_r1 : BitVec 32 := 0#32
  ![v772.toNat, 0]
abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S70x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1024x50_S51200 : S1024x50.ShapeCasts S51200
  transposes_S100000x70_S70x100000_1_0 : S100000x70.Transposes [1, 0] S70x100000
  inb_S70x2048_S70x2048_0_0 : ∀ a, (![0, 0] : Fin 2 → Nat) a + S70x2048.size a ≤ S70x2048.size a
  h_S70x2048 : 0 < S70x2048.numel
  shapeCasts_S70x2048_S70x2048 : S70x2048.ShapeCasts S70x2048
  transposes_S70x2048_p1_0_S2048x70 : S70x2048.Transposes [1, 0] S2048x70
  inb_S2048x128_S2048x70_0_0 : ∀ a, (![0, 0] : Fin 2 → Nat) a + S2048x70.size a ≤ S2048x128.size a
  h_S2048x70 : 0 < S2048x70.numel
  inb_S2x200x128_S1x200x128_0_0_0 : ∀ a, (![0, 0, 0] : Fin 3 → Nat) a + S1x200x128.size a ≤ S2x200x128.size a
  squeezes_S1x200x128_S200x128 : S1x200x128.Squeezes S200x128
  inb_S1600_S200_0 : ∀ a, (![0] : Fin 1 → Nat) a + S200.size a ≤ S1600.size a
  inb_S100000x128_S100000x128_0_0 : ∀ a, (![0, 0] : Fin 2 → Nat) a + S100000x128.size a ≤ S100000x128.size a
  gathers_S100000x128_S200x128 : S100000x128.Gathers 0 S200x128
  inb_S2x200x128_S1x200x128_1_0_0 : ∀ a, (![1, 0, 0] : Fin 3 → Nat) a + S1x200x128.size a ≤ S2x200x128.size a
  inb_S1600_S200_200 : ∀ a, (![200] : Fin 1 → Nat) a + S200.size a ≤ S1600.size a
  h_S1x1x16 : 0 < S1x1x16.numel
  shapeCasts_S1x1x16_S16 : S1x1x16.ShapeCasts S16
  inb_S32x128_S1x16_0_0 : ∀ a, (![0, 0] : Fin 2 → Nat) a + S1x16.size a ≤ S32x128.size a
  h_S1x16 : 0 < S1x16.numel
  shapeCasts_S1x16_S16 : S1x16.ShapeCasts S16
  shapeCasts_S16_S1x16 : S16.ShapeCasts S1x16
  inb_S32x128_S1x16_0_16 : ∀ a, (![0, 16] : Fin 2 → Nat) a + S1x16.size a ≤ S32x128.size a
  inb_S32x128_S1x16_0_32 : ∀ a, (![0, 32] : Fin 2 → Nat) a + S1x16.size a ≤ S32x128.size a
  inb_S32x128_S1x16_0_48 : ∀ a, (![0, 48] : Fin 2 → Nat) a + S1x16.size a ≤ S32x128.size a
  inb_S32x128_S1x16_0_54 : ∀ a, (![0, 54] : Fin 2 → Nat) a + S1x16.size a ≤ S32x128.size a
  inb_S32x128_S1x16_1_0 : ∀ a, (![1, 0] : Fin 2 → Nat) a + S1x16.size a ≤ S32x128.size a
  inb_S32x128_S1x16_1_16 : ∀ a, (![1, 16] : Fin 2 → Nat) a + S1x16.size a ≤ S32x128.size a
  inb_S32x128_S1x16_1_32 : ∀ a, (![1, 32] : Fin 2 → Nat) a + S1x16.size a ≤ S32x128.size a
  inb_S32x128_S1x16_1_48 : ∀ a, (![1, 48] : Fin 2 → Nat) a + S1x16.size a ≤ S32x128.size a
  inb_S32x128_S1x16_1_54 : ∀ a, (![1, 54] : Fin 2 → Nat) a + S1x16.size a ≤ S32x128.size a
  inb_S32x128_S1x16_2_0 : ∀ a, (![2, 0] : Fin 2 → Nat) a + S1x16.size a ≤ S32x128.size a
  inb_S32x128_S1x16_2_16 : ∀ a, (![2, 16] : Fin 2 → Nat) a + S1x16.size a ≤ S32x128.size a
  inb_S32x128_S1x16_2_32 : ∀ a, (![2, 32] : Fin 2 → Nat) a + S1x16.size a ≤ S32x128.size a
  inb_S32x128_S1x16_2_48 : ∀ a, (![2, 48] : Fin 2 → Nat) a + S1x16.size a ≤ S32x128.size a
  inb_S32x128_S1x16_2_54 : ∀ a, (![2, 54] : Fin 2 → Nat) a + S1x16.size a ≤ S32x128.size a
  inb_S32x128_S1x16_3_0 : ∀ a, (![3, 0] : Fin 2 → Nat) a + S1x16.size a ≤ S32x128.size a
  inb_S32x128_S1x16_3_16 : ∀ a, (![3, 16] : Fin 2 → Nat) a + S1x16.size a ≤ S32x128.size a
  inb_S32x128_S1x16_3_32 : ∀ a, (![3, 32] : Fin 2 → Nat) a + S1x16.size a ≤ S32x128.size a
  inb_S32x128_S1x16_3_48 : ∀ a, (![3, 48] : Fin 2 → Nat) a + S1x16.size a ≤ S32x128.size a
  inb_S32x128_S1x16_3_54 : ∀ a, (![3, 54] : Fin 2 → Nat) a + S1x16.size a ≤ S32x128.size a
  inb_S1600_S200_400 : ∀ a, (![400] : Fin 1 → Nat) a + S200.size a ≤ S1600.size a
  inb_S32x128_S1x16_4_0 : ∀ a, (![4, 0] : Fin 2 → Nat) a + S1x16.size a ≤ S32x128.size a
  inb_S32x128_S1x16_4_16 : ∀ a, (![4, 16] : Fin 2 → Nat) a + S1x16.size a ≤ S32x128.size a
  inb_S32x128_S1x16_4_32 : ∀ a, (![4, 32] : Fin 2 → Nat) a + S1x16.size a ≤ S32x128.size a
  inb_S32x128_S1x16_4_48 : ∀ a, (![4, 48] : Fin 2 → Nat) a + S1x16.size a ≤ S32x128.size a
  inb_S32x128_S1x16_4_54 : ∀ a, (![4, 54] : Fin 2 → Nat) a + S1x16.size a ≤ S32x128.size a
  inb_S32x128_S1x16_5_0 : ∀ a, (![5, 0] : Fin 2 → Nat) a + S1x16.size a ≤ S32x128.size a
  inb_S32x128_S1x16_5_16 : ∀ a, (![5, 16] : Fin 2 → Nat) a + S1x16.size a ≤ S32x128.size a
  inb_S32x128_S1x16_5_32 : ∀ a, (![5, 32] : Fin 2 → Nat) a + S1x16.size a ≤ S32x128.size a
  inb_S32x128_S1x16_5_48 : ∀ a, (![5, 48] : Fin 2 → Nat) a + S1x16.size a ≤ S32x128.size a
  inb_S32x128_S1x16_5_54 : ∀ a, (![5, 54] : Fin 2 → Nat) a + S1x16.size a ≤ S32x128.size a
  inb_S32x128_S1x16_6_0 : ∀ a, (![6, 0] : Fin 2 → Nat) a + S1x16.size a ≤ S32x128.size a
  inb_S32x128_S1x16_6_16 : ∀ a, (![6, 16] : Fin 2 → Nat) a + S1x16.size a ≤ S32x128.size a
  inb_S32x128_S1x16_6_32 : ∀ a, (![6, 32] : Fin 2 → Nat) a + S1x16.size a ≤ S32x128.size a
  inb_S32x128_S1x16_6_48 : ∀ a, (![6, 48] : Fin 2 → Nat) a + S1x16.size a ≤ S32x128.size a
  inb_S32x128_S1x16_6_54 : ∀ a, (![6, 54] : Fin 2 → Nat) a + S1x16.size a ≤ S32x128.size a
  inb_S32x128_S1x16_7_0 : ∀ a, (![7, 0] : Fin 2 → Nat) a + S1x16.size a ≤ S32x128.size a
  inb_S32x128_S1x16_7_16 : ∀ a, (![7, 16] : Fin 2 → Nat) a + S1x16.size a ≤ S32x128.size a
  inb_S32x128_S1x16_7_32 : ∀ a, (![7, 32] : Fin 2 → Nat) a + S1x16.size a ≤ S32x128.size a
  inb_S32x128_S1x16_7_48 : ∀ a, (![7, 48] : Fin 2 → Nat) a + S1x16.size a ≤ S32x128.size a
  inb_S32x128_S1x16_7_54 : ∀ a, (![7, 54] : Fin 2 → Nat) a + S1x16.size a ≤ S32x128.size a
  inb_S1600_S200_600 : ∀ a, (![600] : Fin 1 → Nat) a + S200.size a ≤ S1600.size a
  inb_S32x128_S1x16_8_0 : ∀ a, (![8, 0] : Fin 2 → Nat) a + S1x16.size a ≤ S32x128.size a
  inb_S32x128_S1x16_8_16 : ∀ a, (![8, 16] : Fin 2 → Nat) a + S1x16.size a ≤ S32x128.size a
  inb_S32x128_S1x16_8_32 : ∀ a, (![8, 32] : Fin 2 → Nat) a + S1x16.size a ≤ S32x128.size a
  inb_S32x128_S1x16_8_48 : ∀ a, (![8, 48] : Fin 2 → Nat) a + S1x16.size a ≤ S32x128.size a
  inb_S32x128_S1x16_8_54 : ∀ a, (![8, 54] : Fin 2 → Nat) a + S1x16.size a ≤ S32x128.size a
  inb_S32x128_S1x16_9_0 : ∀ a, (![9, 0] : Fin 2 → Nat) a + S1x16.size a ≤ S32x128.size a
  inb_S32x128_S1x16_9_16 : ∀ a, (![9, 16] : Fin 2 → Nat) a + S1x16.size a ≤ S32x128.size a
  inb_S32x128_S1x16_9_32 : ∀ a, (![9, 32] : Fin 2 → Nat) a + S1x16.size a ≤ S32x128.size a
  inb_S32x128_S1x16_9_48 : ∀ a, (![9, 48] : Fin 2 → Nat) a + S1x16.size a ≤ S32x128.size a
  inb_S32x128_S1x16_9_54 : ∀ a, (![9, 54] : Fin 2 → Nat) a + S1x16.size a ≤ S32x128.size a
  inb_S32x128_S1x16_10_0 : ∀ a, (![10, 0] : Fin 2 → Nat) a + S1x16.size a ≤ S32x128.size a
  inb_S32x128_S1x16_10_16 : ∀ a, (![10, 16] : Fin 2 → Nat) a + S1x16.size a ≤ S32x128.size a
  inb_S32x128_S1x16_10_32 : ∀ a, (![10, 32] : Fin 2 → Nat) a + S1x16.size a ≤ S32x128.size a
  inb_S32x128_S1x16_10_48 : ∀ a, (![10, 48] : Fin 2 → Nat) a + S1x16.size a ≤ S32x128.size a
  inb_S32x128_S1x16_10_54 : ∀ a, (![10, 54] : Fin 2 → Nat) a + S1x16.size a ≤ S32x128.size a
  inb_S32x128_S1x16_11_0 : ∀ a, (![11, 0] : Fin 2 → Nat) a + S1x16.size a ≤ S32x128.size a
  inb_S32x128_S1x16_11_16 : ∀ a, (![11, 16] : Fin 2 → Nat) a + S1x16.size a ≤ S32x128.size a
  inb_S32x128_S1x16_11_32 : ∀ a, (![11, 32] : Fin 2 → Nat) a + S1x16.size a ≤ S32x128.size a
  inb_S32x128_S1x16_11_48 : ∀ a, (![11, 48] : Fin 2 → Nat) a + S1x16.size a ≤ S32x128.size a
  inb_S32x128_S1x16_11_54 : ∀ a, (![11, 54] : Fin 2 → Nat) a + S1x16.size a ≤ S32x128.size a
  inb_S1600_S200_800 : ∀ a, (![800] : Fin 1 → Nat) a + S200.size a ≤ S1600.size a
  inb_S32x128_S1x16_12_0 : ∀ a, (![12, 0] : Fin 2 → Nat) a + S1x16.size a ≤ S32x128.size a
  inb_S32x128_S1x16_12_16 : ∀ a, (![12, 16] : Fin 2 → Nat) a + S1x16.size a ≤ S32x128.size a
  inb_S32x128_S1x16_12_32 : ∀ a, (![12, 32] : Fin 2 → Nat) a + S1x16.size a ≤ S32x128.size a
  inb_S32x128_S1x16_12_48 : ∀ a, (![12, 48] : Fin 2 → Nat) a + S1x16.size a ≤ S32x128.size a
  inb_S32x128_S1x16_12_54 : ∀ a, (![12, 54] : Fin 2 → Nat) a + S1x16.size a ≤ S32x128.size a
  inb_S32x128_S1x16_13_0 : ∀ a, (![13, 0] : Fin 2 → Nat) a + S1x16.size a ≤ S32x128.size a
  inb_S32x128_S1x16_13_16 : ∀ a, (![13, 16] : Fin 2 → Nat) a + S1x16.size a ≤ S32x128.size a
  inb_S32x128_S1x16_13_32 : ∀ a, (![13, 32] : Fin 2 → Nat) a + S1x16.size a ≤ S32x128.size a
  inb_S32x128_S1x16_13_48 : ∀ a, (![13, 48] : Fin 2 → Nat) a + S1x16.size a ≤ S32x128.size a
  inb_S32x128_S1x16_13_54 : ∀ a, (![13, 54] : Fin 2 → Nat) a + S1x16.size a ≤ S32x128.size a
  inb_S32x128_S1x16_14_0 : ∀ a, (![14, 0] : Fin 2 → Nat) a + S1x16.size a ≤ S32x128.size a
  inb_S32x128_S1x16_14_16 : ∀ a, (![14, 16] : Fin 2 → Nat) a + S1x16.size a ≤ S32x128.size a
  inb_S32x128_S1x16_14_32 : ∀ a, (![14, 32] : Fin 2 → Nat) a + S1x16.size a ≤ S32x128.size a
  inb_S32x128_S1x16_14_48 : ∀ a, (![14, 48] : Fin 2 → Nat) a + S1x16.size a ≤ S32x128.size a
  inb_S32x128_S1x16_14_54 : ∀ a, (![14, 54] : Fin 2 → Nat) a + S1x16.size a ≤ S32x128.size a
  inb_S32x128_S1x16_15_0 : ∀ a, (![15, 0] : Fin 2 → Nat) a + S1x16.size a ≤ S32x128.size a
  inb_S32x128_S1x16_15_16 : ∀ a, (![15, 16] : Fin 2 → Nat) a + S1x16.size a ≤ S32x128.size a
  inb_S32x128_S1x16_15_32 : ∀ a, (![15, 32] : Fin 2 → Nat) a + S1x16.size a ≤ S32x128.size a
  inb_S32x128_S1x16_15_48 : ∀ a, (![15, 48] : Fin 2 → Nat) a + S1x16.size a ≤ S32x128.size a
  inb_S32x128_S1x16_15_54 : ∀ a, (![15, 54] : Fin 2 → Nat) a + S1x16.size a ≤ S32x128.size a
  inb_S1600_S200_1000 : ∀ a, (![1000] : Fin 1 → Nat) a + S200.size a ≤ S1600.size a
  inb_S32x128_S1x16_16_0 : ∀ a, (![16, 0] : Fin 2 → Nat) a + S1x16.size a ≤ S32x128.size a
  inb_S32x128_S1x16_16_16 : ∀ a, (![16, 16] : Fin 2 → Nat) a + S1x16.size a ≤ S32x128.size a
  inb_S32x128_S1x16_16_32 : ∀ a, (![16, 32] : Fin 2 → Nat) a + S1x16.size a ≤ S32x128.size a
  inb_S32x128_S1x16_16_48 : ∀ a, (![16, 48] : Fin 2 → Nat) a + S1x16.size a ≤ S32x128.size a
  inb_S32x128_S1x16_16_54 : ∀ a, (![16, 54] : Fin 2 → Nat) a + S1x16.size a ≤ S32x128.size a
  inb_S32x128_S1x16_17_0 : ∀ a, (![17, 0] : Fin 2 → Nat) a + S1x16.size a ≤ S32x128.size a
  inb_S32x128_S1x16_17_16 : ∀ a, (![17, 16] : Fin 2 → Nat) a + S1x16.size a ≤ S32x128.size a
  inb_S32x128_S1x16_17_32 : ∀ a, (![17, 32] : Fin 2 → Nat) a + S1x16.size a ≤ S32x128.size a
  inb_S32x128_S1x16_17_48 : ∀ a, (![17, 48] : Fin 2 → Nat) a + S1x16.size a ≤ S32x128.size a
  inb_S32x128_S1x16_17_54 : ∀ a, (![17, 54] : Fin 2 → Nat) a + S1x16.size a ≤ S32x128.size a
  inb_S32x128_S1x16_18_0 : ∀ a, (![18, 0] : Fin 2 → Nat) a + S1x16.size a ≤ S32x128.size a
  inb_S32x128_S1x16_18_16 : ∀ a, (![18, 16] : Fin 2 → Nat) a + S1x16.size a ≤ S32x128.size a
  inb_S32x128_S1x16_18_32 : ∀ a, (![18, 32] : Fin 2 → Nat) a + S1x16.size a ≤ S32x128.size a
  inb_S32x128_S1x16_18_48 : ∀ a, (![18, 48] : Fin 2 → Nat) a + S1x16.size a ≤ S32x128.size a
  inb_S32x128_S1x16_18_54 : ∀ a, (![18, 54] : Fin 2 → Nat) a + S1x16.size a ≤ S32x128.size a
  inb_S32x128_S1x16_19_0 : ∀ a, (![19, 0] : Fin 2 → Nat) a + S1x16.size a ≤ S32x128.size a
  inb_S32x128_S1x16_19_16 : ∀ a, (![19, 16] : Fin 2 → Nat) a + S1x16.size a ≤ S32x128.size a
  inb_S32x128_S1x16_19_32 : ∀ a, (![19, 32] : Fin 2 → Nat) a + S1x16.size a ≤ S32x128.size a
  inb_S32x128_S1x16_19_48 : ∀ a, (![19, 48] : Fin 2 → Nat) a + S1x16.size a ≤ S32x128.size a
  inb_S32x128_S1x16_19_54 : ∀ a, (![19, 54] : Fin 2 → Nat) a + S1x16.size a ≤ S32x128.size a
  inb_S1600_S200_1200 : ∀ a, (![1200] : Fin 1 → Nat) a + S200.size a ≤ S1600.size a
  inb_S32x128_S1x16_20_0 : ∀ a, (![20, 0] : Fin 2 → Nat) a + S1x16.size a ≤ S32x128.size a
  inb_S32x128_S1x16_20_16 : ∀ a, (![20, 16] : Fin 2 → Nat) a + S1x16.size a ≤ S32x128.size a
  inb_S32x128_S1x16_20_32 : ∀ a, (![20, 32] : Fin 2 → Nat) a + S1x16.size a ≤ S32x128.size a
  inb_S32x128_S1x16_20_48 : ∀ a, (![20, 48] : Fin 2 → Nat) a + S1x16.size a ≤ S32x128.size a
  inb_S32x128_S1x16_20_54 : ∀ a, (![20, 54] : Fin 2 → Nat) a + S1x16.size a ≤ S32x128.size a
  inb_S32x128_S1x16_21_0 : ∀ a, (![21, 0] : Fin 2 → Nat) a + S1x16.size a ≤ S32x128.size a
  inb_S32x128_S1x16_21_16 : ∀ a, (![21, 16] : Fin 2 → Nat) a + S1x16.size a ≤ S32x128.size a
  inb_S32x128_S1x16_21_32 : ∀ a, (![21, 32] : Fin 2 → Nat) a + S1x16.size a ≤ S32x128.size a
  inb_S32x128_S1x16_21_48 : ∀ a, (![21, 48] : Fin 2 → Nat) a + S1x16.size a ≤ S32x128.size a
  inb_S32x128_S1x16_21_54 : ∀ a, (![21, 54] : Fin 2 → Nat) a + S1x16.size a ≤ S32x128.size a
  inb_S32x128_S1x16_22_0 : ∀ a, (![22, 0] : Fin 2 → Nat) a + S1x16.size a ≤ S32x128.size a
  inb_S32x128_S1x16_22_16 : ∀ a, (![22, 16] : Fin 2 → Nat) a + S1x16.size a ≤ S32x128.size a
  inb_S32x128_S1x16_22_32 : ∀ a, (![22, 32] : Fin 2 → Nat) a + S1x16.size a ≤ S32x128.size a
  inb_S32x128_S1x16_22_48 : ∀ a, (![22, 48] : Fin 2 → Nat) a + S1x16.size a ≤ S32x128.size a
  inb_S32x128_S1x16_22_54 : ∀ a, (![22, 54] : Fin 2 → Nat) a + S1x16.size a ≤ S32x128.size a
  inb_S32x128_S1x16_23_0 : ∀ a, (![23, 0] : Fin 2 → Nat) a + S1x16.size a ≤ S32x128.size a
  inb_S32x128_S1x16_23_16 : ∀ a, (![23, 16] : Fin 2 → Nat) a + S1x16.size a ≤ S32x128.size a
  inb_S32x128_S1x16_23_32 : ∀ a, (![23, 32] : Fin 2 → Nat) a + S1x16.size a ≤ S32x128.size a
  inb_S32x128_S1x16_23_48 : ∀ a, (![23, 48] : Fin 2 → Nat) a + S1x16.size a ≤ S32x128.size a
  inb_S32x128_S1x16_23_54 : ∀ a, (![23, 54] : Fin 2 → Nat) a + S1x16.size a ≤ S32x128.size a
  inb_S1600_S200_1400 : ∀ a, (![1400] : Fin 1 → Nat) a + S200.size a ≤ S1600.size a
  inb_S32x128_S1x16_24_0 : ∀ a, (![24, 0] : Fin 2 → Nat) a + S1x16.size a ≤ S32x128.size a
  inb_S32x128_S1x16_24_16 : ∀ a, (![24, 16] : Fin 2 → Nat) a + S1x16.size a ≤ S32x128.size a
  inb_S32x128_S1x16_24_32 : ∀ a, (![24, 32] : Fin 2 → Nat) a + S1x16.size a ≤ S32x128.size a
  inb_S32x128_S1x16_24_48 : ∀ a, (![24, 48] : Fin 2 → Nat) a + S1x16.size a ≤ S32x128.size a
  inb_S32x128_S1x16_24_54 : ∀ a, (![24, 54] : Fin 2 → Nat) a + S1x16.size a ≤ S32x128.size a
  inb_S32x128_S1x16_25_0 : ∀ a, (![25, 0] : Fin 2 → Nat) a + S1x16.size a ≤ S32x128.size a
  inb_S32x128_S1x16_25_16 : ∀ a, (![25, 16] : Fin 2 → Nat) a + S1x16.size a ≤ S32x128.size a
  inb_S32x128_S1x16_25_32 : ∀ a, (![25, 32] : Fin 2 → Nat) a + S1x16.size a ≤ S32x128.size a
  inb_S32x128_S1x16_25_48 : ∀ a, (![25, 48] : Fin 2 → Nat) a + S1x16.size a ≤ S32x128.size a
  inb_S32x128_S1x16_25_54 : ∀ a, (![25, 54] : Fin 2 → Nat) a + S1x16.size a ≤ S32x128.size a
  inb_S32x128_S1x16_26_0 : ∀ a, (![26, 0] : Fin 2 → Nat) a + S1x16.size a ≤ S32x128.size a
  inb_S32x128_S1x16_26_16 : ∀ a, (![26, 16] : Fin 2 → Nat) a + S1x16.size a ≤ S32x128.size a
  inb_S32x128_S1x16_26_32 : ∀ a, (![26, 32] : Fin 2 → Nat) a + S1x16.size a ≤ S32x128.size a
  inb_S32x128_S1x16_26_48 : ∀ a, (![26, 48] : Fin 2 → Nat) a + S1x16.size a ≤ S32x128.size a
  inb_S32x128_S1x16_26_54 : ∀ a, (![26, 54] : Fin 2 → Nat) a + S1x16.size a ≤ S32x128.size a
  inb_S32x128_S1x16_27_0 : ∀ a, (![27, 0] : Fin 2 → Nat) a + S1x16.size a ≤ S32x128.size a
  inb_S32x128_S1x16_27_16 : ∀ a, (![27, 16] : Fin 2 → Nat) a + S1x16.size a ≤ S32x128.size a
  inb_S32x128_S1x16_27_32 : ∀ a, (![27, 32] : Fin 2 → Nat) a + S1x16.size a ≤ S32x128.size a
  inb_S32x128_S1x16_27_48 : ∀ a, (![27, 48] : Fin 2 → Nat) a + S1x16.size a ≤ S32x128.size a
  inb_S32x128_S1x16_27_54 : ∀ a, (![27, 54] : Fin 2 → Nat) a + S1x16.size a ≤ S32x128.size a
  inb_S32x128_S1x16_28_0 : ∀ a, (![28, 0] : Fin 2 → Nat) a + S1x16.size a ≤ S32x128.size a
  inb_S32x128_S1x16_28_16 : ∀ a, (![28, 16] : Fin 2 → Nat) a + S1x16.size a ≤ S32x128.size a
  inb_S32x128_S1x16_28_32 : ∀ a, (![28, 32] : Fin 2 → Nat) a + S1x16.size a ≤ S32x128.size a
  inb_S32x128_S1x16_28_48 : ∀ a, (![28, 48] : Fin 2 → Nat) a + S1x16.size a ≤ S32x128.size a
  inb_S32x128_S1x16_28_54 : ∀ a, (![28, 54] : Fin 2 → Nat) a + S1x16.size a ≤ S32x128.size a
  inb_S32x128_S1x16_29_0 : ∀ a, (![29, 0] : Fin 2 → Nat) a + S1x16.size a ≤ S32x128.size a
  inb_S32x128_S1x16_29_16 : ∀ a, (![29, 16] : Fin 2 → Nat) a + S1x16.size a ≤ S32x128.size a
  inb_S32x128_S1x16_29_32 : ∀ a, (![29, 32] : Fin 2 → Nat) a + S1x16.size a ≤ S32x128.size a
  inb_S32x128_S1x16_29_48 : ∀ a, (![29, 48] : Fin 2 → Nat) a + S1x16.size a ≤ S32x128.size a
  inb_S32x128_S1x16_29_54 : ∀ a, (![29, 54] : Fin 2 → Nat) a + S1x16.size a ≤ S32x128.size a
  inb_S32x128_S1x16_30_0 : ∀ a, (![30, 0] : Fin 2 → Nat) a + S1x16.size a ≤ S32x128.size a
  inb_S32x128_S1x16_30_16 : ∀ a, (![30, 16] : Fin 2 → Nat) a + S1x16.size a ≤ S32x128.size a
  inb_S32x128_S1x16_30_32 : ∀ a, (![30, 32] : Fin 2 → Nat) a + S1x16.size a ≤ S32x128.size a
  inb_S32x128_S1x16_30_48 : ∀ a, (![30, 48] : Fin 2 → Nat) a + S1x16.size a ≤ S32x128.size a
  inb_S32x128_S1x16_30_54 : ∀ a, (![30, 54] : Fin 2 → Nat) a + S1x16.size a ≤ S32x128.size a
  inb_S32x128_S1x16_31_0 : ∀ a, (![31, 0] : Fin 2 → Nat) a + S1x16.size a ≤ S32x128.size a
  inb_S32x128_S1x16_31_16 : ∀ a, (![31, 16] : Fin 2 → Nat) a + S1x16.size a ≤ S32x128.size a
  inb_S32x128_S1x16_31_32 : ∀ a, (![31, 32] : Fin 2 → Nat) a + S1x16.size a ≤ S32x128.size a
  inb_S32x128_S1x16_31_48 : ∀ a, (![31, 48] : Fin 2 → Nat) a + S1x16.size a ≤ S32x128.size a
  inb_S32x128_S1x16_31_54 : ∀ a, (![31, 54] : Fin 2 → Nat) a + S1x16.size a ≤ S32x128.size a
  shapeCasts_S100000_S1x100000 : S100000.ShapeCasts S1x100000
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S1024x128_o0_0_S1024x70 : S1024x128.Slices ![0, 0] S1024x70
  inb_S70x4096_S70x4096_0_0 : ∀ a, (![0, 0] : Fin 2 → Nat) a + S70x4096.size a ≤ S70x4096.size a
  h_S70x4096 : 0 < S70x4096.numel
  shapeCasts_S70x4096_S70x4096 : S70x4096.ShapeCasts S70x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  transposes_S1x4096_p1_0_S4096x1 : S1x4096.Transposes [1, 0] S4096x1
  broadcasts_S4096x1_S4096x1024 : S4096x1.Broadcasts S4096x1024
  inb_S4096x1024_S4096x1024_0_0 : ∀ a, (![0, 0] : Fin 2 → Nat) a + S4096x1024.size a ≤ S4096x1024.size a
  h_S4096x1024 : 0 < S4096x1024.numel
  transposes_S100000x1024_S1024x100000_1_0 : S100000x1024.Transposes [1, 0] S1024x100000
  dot_S70x4096_S1024x70_S4096x1024_0_1_1_0_n_n_wf : DotDims.WF S70x4096 S1024x70 S4096x1024 [0] [1] [1] [0] [] []
  hcc1_scratch3 : 4 + S_.numel ≤ 15
  hcc1_scratch4 : 5 + S_.numel ≤ 15
  hcc1_scoped0 : 6 + S_.numel ≤ 15
  hcc1_scoped1 : 7 + S_.numel ≤ 15
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S70x2048.size a < S70x100000.size a
  hwx0_0 : ∀ i : grid0.Coords, EltTy.bits .f32 = 32 ∨ (Rect.unit (s := S70x100000) (fun a => cc0_transform_0 i a * S70x2048.size a) (fun a => (Pipeline.Clip.of (cc0_transform_0 i a) (S70x2048.size a) (S70x100000.size a)).extent (S70x2048.size a)) fun a => Pipeline.Clip.inb (Pipeline.Clip.ok_of (hstart0_0 i a))).WholeWords (EltTy.packing .f32)
  hwxs0_0 : ∀ i : grid0.Coords, EltTy.bits .f32 = 32 ∨ (Rect.unit (s := S70x2048) (fun _ => 0) (fun a => (Pipeline.Clip.of (cc0_transform_0 i a) (S70x2048.size a) (S70x100000.size a)).extent (S70x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x128.size a < S100000x128.size a
  hwx0_1 : ∀ i : grid0.Coords, EltTy.bits .f32 = 32 ∨ (Rect.unit (s := S100000x128) (fun a => cc0_transform_1 i a * S2048x128.size a) (fun a => (Pipeline.Clip.of (cc0_transform_1 i a) (S2048x128.size a) (S100000x128.size a)).extent (S2048x128.size a)) fun a => Pipeline.Clip.inb (Pipeline.Clip.ok_of (hstart0_1 i a))).WholeWords (EltTy.packing .f32)
  hwxs0_1 : ∀ i : grid0.Coords, EltTy.bits .f32 = 32 ∨ (Rect.unit (s := S2048x128) (fun _ => 0) (fun a => (Pipeline.Clip.of (cc0_transform_1 i a) (S2048x128.size a) (S100000x128.size a)).extent (S2048x128.size a)) fun a => (Nat.zero_add _).trans_le (Pipeline.Clip.extent_le (Pipeline.Clip.ok_of (hstart0_1 i a)))).WholeWords (EltTy.packing .f32)
  hcore1 : grid1.bound 0 ≤ τ.nSC
  hsub1 : grid1.bound 1 ≤ τ.nSub
  k1_off1_inb : ∀ i : grid1.Coords, ∀ a, (k1_off1 i) a + S1600.size a ≤ S51200.size a
  k1_t1_ok : k1_t1_loop.OK
  k1_off2_inb : ∀ k1_t1 : Fin k1_t1_loop.trips, ∀ a, (k1_off2 k1_t1) a + S1x1x16.size a ≤ S2x200x128.size a
  k1_off3_inb : ∀ k1_t1 : Fin k1_t1_loop.trips, ∀ a, (k1_off3 k1_t1) a + S1x1x16.size a ≤ S2x200x128.size a
  k1_off4_inb : ∀ k1_t1 : Fin k1_t1_loop.trips, ∀ a, (k1_off4 k1_t1) a + S1x1x16.size a ≤ S2x200x128.size a
  k1_off5_inb : ∀ k1_t1 : Fin k1_t1_loop.trips, ∀ a, (k1_off5 k1_t1) a + S1x1x16.size a ≤ S2x200x128.size a
  k1_off6_inb : ∀ k1_t1 : Fin k1_t1_loop.trips, ∀ a, (k1_off6 k1_t1) a + S1x1x16.size a ≤ S2x200x128.size a
  k1_t2_ok : k1_t2_loop.OK
  k1_off7_inb : ∀ k1_t2 : Fin k1_t2_loop.trips, ∀ a, (k1_off7 k1_t2) a + S1x1x16.size a ≤ S2x200x128.size a
  k1_off8_inb : ∀ k1_t2 : Fin k1_t2_loop.trips, ∀ a, (k1_off8 k1_t2) a + S1x1x16.size a ≤ S2x200x128.size a
  k1_off9_inb : ∀ k1_t2 : Fin k1_t2_loop.trips, ∀ a, (k1_off9 k1_t2) a + S1x1x16.size a ≤ S2x200x128.size a
  k1_off10_inb : ∀ k1_t2 : Fin k1_t2_loop.trips, ∀ a, (k1_off10 k1_t2) a + S1x1x16.size a ≤ S2x200x128.size a
  k1_off11_inb : ∀ k1_t2 : Fin k1_t2_loop.trips, ∀ a, (k1_off11 k1_t2) a + S1x1x16.size a ≤ S2x200x128.size a
  k1_t3_ok : k1_t3_loop.OK
  k1_off12_inb : ∀ k1_t3 : Fin k1_t3_loop.trips, ∀ a, (k1_off12 k1_t3) a + S1x1x16.size a ≤ S2x200x128.size a
  k1_off13_inb : ∀ k1_t3 : Fin k1_t3_loop.trips, ∀ a, (k1_off13 k1_t3) a + S1x1x16.size a ≤ S2x200x128.size a
  k1_off14_inb : ∀ k1_t3 : Fin k1_t3_loop.trips, ∀ a, (k1_off14 k1_t3) a + S1x1x16.size a ≤ S2x200x128.size a
  k1_off15_inb : ∀ k1_t3 : Fin k1_t3_loop.trips, ∀ a, (k1_off15 k1_t3) a + S1x1x16.size a ≤ S2x200x128.size a
  k1_off16_inb : ∀ k1_t3 : Fin k1_t3_loop.trips, ∀ a, (k1_off16 k1_t3) a + S1x1x16.size a ≤ S2x200x128.size a
  k1_t4_ok : k1_t4_loop.OK
  k1_off17_inb : ∀ k1_t4 : Fin k1_t4_loop.trips, ∀ a, (k1_off17 k1_t4) a + S1x1x16.size a ≤ S2x200x128.size a
  k1_off18_inb : ∀ k1_t4 : Fin k1_t4_loop.trips, ∀ a, (k1_off18 k1_t4) a + S1x1x16.size a ≤ S2x200x128.size a
  k1_off19_inb : ∀ k1_t4 : Fin k1_t4_loop.trips, ∀ a, (k1_off19 k1_t4) a + S1x1x16.size a ≤ S2x200x128.size a
  k1_off20_inb : ∀ k1_t4 : Fin k1_t4_loop.trips, ∀ a, (k1_off20 k1_t4) a + S1x1x16.size a ≤ S2x200x128.size a
  k1_off21_inb : ∀ k1_t4 : Fin k1_t4_loop.trips, ∀ a, (k1_off21 k1_t4) a + S1x1x16.size a ≤ S2x200x128.size a
  k1_t5_ok : k1_t5_loop.OK
  k1_off22_inb : ∀ k1_t5 : Fin k1_t5_loop.trips, ∀ a, (k1_off22 k1_t5) a + S1x1x16.size a ≤ S2x200x128.size a
  k1_off23_inb : ∀ k1_t5 : Fin k1_t5_loop.trips, ∀ a, (k1_off23 k1_t5) a + S1x1x16.size a ≤ S2x200x128.size a
  k1_off24_inb : ∀ k1_t5 : Fin k1_t5_loop.trips, ∀ a, (k1_off24 k1_t5) a + S1x1x16.size a ≤ S2x200x128.size a
  k1_off25_inb : ∀ k1_t5 : Fin k1_t5_loop.trips, ∀ a, (k1_off25 k1_t5) a + S1x1x16.size a ≤ S2x200x128.size a
  k1_off26_inb : ∀ k1_t5 : Fin k1_t5_loop.trips, ∀ a, (k1_off26 k1_t5) a + S1x1x16.size a ≤ S2x200x128.size a
  k1_t6_ok : k1_t6_loop.OK
  k1_off27_inb : ∀ k1_t6 : Fin k1_t6_loop.trips, ∀ a, (k1_off27 k1_t6) a + S1x1x16.size a ≤ S2x200x128.size a
  k1_off28_inb : ∀ k1_t6 : Fin k1_t6_loop.trips, ∀ a, (k1_off28 k1_t6) a + S1x1x16.size a ≤ S2x200x128.size a
  k1_off29_inb : ∀ k1_t6 : Fin k1_t6_loop.trips, ∀ a, (k1_off29 k1_t6) a + S1x1x16.size a ≤ S2x200x128.size a
  k1_off30_inb : ∀ k1_t6 : Fin k1_t6_loop.trips, ∀ a, (k1_off30 k1_t6) a + S1x1x16.size a ≤ S2x200x128.size a
  k1_off31_inb : ∀ k1_t6 : Fin k1_t6_loop.trips, ∀ a, (k1_off31 k1_t6) a + S1x1x16.size a ≤ S2x200x128.size a
  k1_t7_ok : k1_t7_loop.OK
  k1_off32_inb : ∀ k1_t7 : Fin k1_t7_loop.trips, ∀ a, (k1_off32 k1_t7) a + S1x1x16.size a ≤ S2x200x128.size a
  k1_off33_inb : ∀ k1_t7 : Fin k1_t7_loop.trips, ∀ a, (k1_off33 k1_t7) a + S1x1x16.size a ≤ S2x200x128.size a
  k1_off34_inb : ∀ k1_t7 : Fin k1_t7_loop.trips, ∀ a, (k1_off34 k1_t7) a + S1x1x16.size a ≤ S2x200x128.size a
  k1_off35_inb : ∀ k1_t7 : Fin k1_t7_loop.trips, ∀ a, (k1_off35 k1_t7) a + S1x1x16.size a ≤ S2x200x128.size a
  k1_off36_inb : ∀ k1_t7 : Fin k1_t7_loop.trips, ∀ a, (k1_off36 k1_t7) a + S1x1x16.size a ≤ S2x200x128.size a
  k1_t8_ok : k1_t8_loop.OK
  k1_off37_inb : ∀ k1_t8 : Fin k1_t8_loop.trips, ∀ a, (k1_off37 k1_t8) a + S1x1x16.size a ≤ S2x200x128.size a
  k1_off38_inb : ∀ k1_t8 : Fin k1_t8_loop.trips, ∀ a, (k1_off38 k1_t8) a + S1x1x16.size a ≤ S2x200x128.size a
  k1_off39_inb : ∀ k1_t8 : Fin k1_t8_loop.trips, ∀ a, (k1_off39 k1_t8) a + S1x1x16.size a ≤ S2x200x128.size a
  k1_off40_inb : ∀ k1_t8 : Fin k1_t8_loop.trips, ∀ a, (k1_off40 k1_t8) a + S1x1x16.size a ≤ S2x200x128.size a
  k1_off41_inb : ∀ k1_t8 : Fin k1_t8_loop.trips, ∀ a, (k1_off41 k1_t8) a + S1x1x16.size a ≤ S2x200x128.size a
  k1_t9_ok : k1_t9_loop.OK
  k1_off42_inb : ∀ k1_t9 : Fin k1_t9_loop.trips, ∀ a, (k1_off42 k1_t9) a + S1x1x16.size a ≤ S2x200x128.size a
  k1_off43_inb : ∀ k1_t9 : Fin k1_t9_loop.trips, ∀ a, (k1_off43 k1_t9) a + S1x1x16.size a ≤ S2x200x128.size a
  k1_off44_inb : ∀ k1_t9 : Fin k1_t9_loop.trips, ∀ a, (k1_off44 k1_t9) a + S1x1x16.size a ≤ S2x200x128.size a
  k1_off45_inb : ∀ k1_t9 : Fin k1_t9_loop.trips, ∀ a, (k1_off45 k1_t9) a + S1x1x16.size a ≤ S2x200x128.size a
  k1_off46_inb : ∀ k1_t9 : Fin k1_t9_loop.trips, ∀ a, (k1_off46 k1_t9) a + S1x1x16.size a ≤ S2x200x128.size a
  k1_t10_ok : k1_t10_loop.OK
  k1_off47_inb : ∀ k1_t10 : Fin k1_t10_loop.trips, ∀ a, (k1_off47 k1_t10) a + S1x1x16.size a ≤ S2x200x128.size a
  k1_off48_inb : ∀ k1_t10 : Fin k1_t10_loop.trips, ∀ a, (k1_off48 k1_t10) a + S1x1x16.size a ≤ S2x200x128.size a
  k1_off49_inb : ∀ k1_t10 : Fin k1_t10_loop.trips, ∀ a, (k1_off49 k1_t10) a + S1x1x16.size a ≤ S2x200x128.size a
  k1_off50_inb : ∀ k1_t10 : Fin k1_t10_loop.trips, ∀ a, (k1_off50 k1_t10) a + S1x1x16.size a ≤ S2x200x128.size a
  k1_off51_inb : ∀ k1_t10 : Fin k1_t10_loop.trips, ∀ a, (k1_off51 k1_t10) a + S1x1x16.size a ≤ S2x200x128.size a
  k1_t11_ok : k1_t11_loop.OK
  k1_off52_inb : ∀ k1_t11 : Fin k1_t11_loop.trips, ∀ a, (k1_off52 k1_t11) a + S1x1x16.size a ≤ S2x200x128.size a
  k1_off53_inb : ∀ k1_t11 : Fin k1_t11_loop.trips, ∀ a, (k1_off53 k1_t11) a + S1x1x16.size a ≤ S2x200x128.size a
  k1_off54_inb : ∀ k1_t11 : Fin k1_t11_loop.trips, ∀ a, (k1_off54 k1_t11) a + S1x1x16.size a ≤ S2x200x128.size a
  k1_off55_inb : ∀ k1_t11 : Fin k1_t11_loop.trips, ∀ a, (k1_off55 k1_t11) a + S1x1x16.size a ≤ S2x200x128.size a
  k1_off56_inb : ∀ k1_t11 : Fin k1_t11_loop.trips, ∀ a, (k1_off56 k1_t11) a + S1x1x16.size a ≤ S2x200x128.size a
  k1_t12_ok : k1_t12_loop.OK
  k1_off57_inb : ∀ k1_t12 : Fin k1_t12_loop.trips, ∀ a, (k1_off57 k1_t12) a + S1x1x16.size a ≤ S2x200x128.size a
  k1_off58_inb : ∀ k1_t12 : Fin k1_t12_loop.trips, ∀ a, (k1_off58 k1_t12) a + S1x1x16.size a ≤ S2x200x128.size a
  k1_off59_inb : ∀ k1_t12 : Fin k1_t12_loop.trips, ∀ a, (k1_off59 k1_t12) a + S1x1x16.size a ≤ S2x200x128.size a
  k1_off60_inb : ∀ k1_t12 : Fin k1_t12_loop.trips, ∀ a, (k1_off60 k1_t12) a + S1x1x16.size a ≤ S2x200x128.size a
  k1_off61_inb : ∀ k1_t12 : Fin k1_t12_loop.trips, ∀ a, (k1_off61 k1_t12) a + S1x1x16.size a ≤ S2x200x128.size a
  k1_t13_ok : k1_t13_loop.OK
  k1_off62_inb : ∀ k1_t13 : Fin k1_t13_loop.trips, ∀ a, (k1_off62 k1_t13) a + S1x1x16.size a ≤ S2x200x128.size a
  k1_off63_inb : ∀ k1_t13 : Fin k1_t13_loop.trips, ∀ a, (k1_off63 k1_t13) a + S1x1x16.size a ≤ S2x200x128.size a
  k1_off64_inb : ∀ k1_t13 : Fin k1_t13_loop.trips, ∀ a, (k1_off64 k1_t13) a + S1x1x16.size a ≤ S2x200x128.size a
  k1_off65_inb : ∀ k1_t13 : Fin k1_t13_loop.trips, ∀ a, (k1_off65 k1_t13) a + S1x1x16.size a ≤ S2x200x128.size a
  k1_off66_inb : ∀ k1_t13 : Fin k1_t13_loop.trips, ∀ a, (k1_off66 k1_t13) a + S1x1x16.size a ≤ S2x200x128.size a
  k1_t14_ok : k1_t14_loop.OK
  k1_off67_inb : ∀ k1_t14 : Fin k1_t14_loop.trips, ∀ a, (k1_off67 k1_t14) a + S1x1x16.size a ≤ S2x200x128.size a
  k1_off68_inb : ∀ k1_t14 : Fin k1_t14_loop.trips, ∀ a, (k1_off68 k1_t14) a + S1x1x16.size a ≤ S2x200x128.size a
  k1_off69_inb : ∀ k1_t14 : Fin k1_t14_loop.trips, ∀ a, (k1_off69 k1_t14) a + S1x1x16.size a ≤ S2x200x128.size a
  k1_off70_inb : ∀ k1_t14 : Fin k1_t14_loop.trips, ∀ a, (k1_off70 k1_t14) a + S1x1x16.size a ≤ S2x200x128.size a
  k1_off71_inb : ∀ k1_t14 : Fin k1_t14_loop.trips, ∀ a, (k1_off71 k1_t14) a + S1x1x16.size a ≤ S2x200x128.size a
  k1_t15_ok : k1_t15_loop.OK
  k1_off72_inb : ∀ k1_t15 : Fin k1_t15_loop.trips, ∀ a, (k1_off72 k1_t15) a + S1x1x16.size a ≤ S2x200x128.size a
  k1_off73_inb : ∀ k1_t15 : Fin k1_t15_loop.trips, ∀ a, (k1_off73 k1_t15) a + S1x1x16.size a ≤ S2x200x128.size a
  k1_off74_inb : ∀ k1_t15 : Fin k1_t15_loop.trips, ∀ a, (k1_off74 k1_t15) a + S1x1x16.size a ≤ S2x200x128.size a
  k1_off75_inb : ∀ k1_t15 : Fin k1_t15_loop.trips, ∀ a, (k1_off75 k1_t15) a + S1x1x16.size a ≤ S2x200x128.size a
  k1_off76_inb : ∀ k1_t15 : Fin k1_t15_loop.trips, ∀ a, (k1_off76 k1_t15) a + S1x1x16.size a ≤ S2x200x128.size a
  k1_t16_ok : k1_t16_loop.OK
  k1_off77_inb : ∀ k1_t16 : Fin k1_t16_loop.trips, ∀ a, (k1_off77 k1_t16) a + S1x1x16.size a ≤ S2x200x128.size a
  k1_off78_inb : ∀ k1_t16 : Fin k1_t16_loop.trips, ∀ a, (k1_off78 k1_t16) a + S1x1x16.size a ≤ S2x200x128.size a
  k1_off79_inb : ∀ k1_t16 : Fin k1_t16_loop.trips, ∀ a, (k1_off79 k1_t16) a + S1x1x16.size a ≤ S2x200x128.size a
  k1_off80_inb : ∀ k1_t16 : Fin k1_t16_loop.trips, ∀ a, (k1_off80 k1_t16) a + S1x1x16.size a ≤ S2x200x128.size a
  k1_off81_inb : ∀ k1_t16 : Fin k1_t16_loop.trips, ∀ a, (k1_off81 k1_t16) a + S1x1x16.size a ≤ S2x200x128.size a
  k1_t17_ok : k1_t17_loop.OK
  k1_off82_inb : ∀ k1_t17 : Fin k1_t17_loop.trips, ∀ a, (k1_off82 k1_t17) a + S1x1x16.size a ≤ S2x200x128.size a
  k1_off83_inb : ∀ k1_t17 : Fin k1_t17_loop.trips, ∀ a, (k1_off83 k1_t17) a + S1x1x16.size a ≤ S2x200x128.size a
  k1_off84_inb : ∀ k1_t17 : Fin k1_t17_loop.trips, ∀ a, (k1_off84 k1_t17) a + S1x1x16.size a ≤ S2x200x128.size a
  k1_off85_inb : ∀ k1_t17 : Fin k1_t17_loop.trips, ∀ a, (k1_off85 k1_t17) a + S1x1x16.size a ≤ S2x200x128.size a
  k1_off86_inb : ∀ k1_t17 : Fin k1_t17_loop.trips, ∀ a, (k1_off86 k1_t17) a + S1x1x16.size a ≤ S2x200x128.size a
  k1_t18_ok : k1_t18_loop.OK
  k1_off87_inb : ∀ k1_t18 : Fin k1_t18_loop.trips, ∀ a, (k1_off87 k1_t18) a + S1x1x16.size a ≤ S2x200x128.size a
  k1_off88_inb : ∀ k1_t18 : Fin k1_t18_loop.trips, ∀ a, (k1_off88 k1_t18) a + S1x1x16.size a ≤ S2x200x128.size a
  k1_off89_inb : ∀ k1_t18 : Fin k1_t18_loop.trips, ∀ a, (k1_off89 k1_t18) a + S1x1x16.size a ≤ S2x200x128.size a
  k1_off90_inb : ∀ k1_t18 : Fin k1_t18_loop.trips, ∀ a, (k1_off90 k1_t18) a + S1x1x16.size a ≤ S2x200x128.size a
  k1_off91_inb : ∀ k1_t18 : Fin k1_t18_loop.trips, ∀ a, (k1_off91 k1_t18) a + S1x1x16.size a ≤ S2x200x128.size a
  k1_t19_ok : k1_t19_loop.OK
  k1_off92_inb : ∀ k1_t19 : Fin k1_t19_loop.trips, ∀ a, (k1_off92 k1_t19) a + S1x1x16.size a ≤ S2x200x128.size a
  k1_off93_inb : ∀ k1_t19 : Fin k1_t19_loop.trips, ∀ a, (k1_off93 k1_t19) a + S1x1x16.size a ≤ S2x200x128.size a
  k1_off94_inb : ∀ k1_t19 : Fin k1_t19_loop.trips, ∀ a, (k1_off94 k1_t19) a + S1x1x16.size a ≤ S2x200x128.size a
  k1_off95_inb : ∀ k1_t19 : Fin k1_t19_loop.trips, ∀ a, (k1_off95 k1_t19) a + S1x1x16.size a ≤ S2x200x128.size a
  k1_off96_inb : ∀ k1_t19 : Fin k1_t19_loop.trips, ∀ a, (k1_off96 k1_t19) a + S1x1x16.size a ≤ S2x200x128.size a
  k1_t20_ok : k1_t20_loop.OK
  k1_off97_inb : ∀ k1_t20 : Fin k1_t20_loop.trips, ∀ a, (k1_off97 k1_t20) a + S1x1x16.size a ≤ S2x200x128.size a
  k1_off98_inb : ∀ k1_t20 : Fin k1_t20_loop.trips, ∀ a, (k1_off98 k1_t20) a + S1x1x16.size a ≤ S2x200x128.size a
  k1_off99_inb : ∀ k1_t20 : Fin k1_t20_loop.trips, ∀ a, (k1_off99 k1_t20) a + S1x1x16.size a ≤ S2x200x128.size a
  k1_off100_inb : ∀ k1_t20 : Fin k1_t20_loop.trips, ∀ a, (k1_off100 k1_t20) a + S1x1x16.size a ≤ S2x200x128.size a
  k1_off101_inb : ∀ k1_t20 : Fin k1_t20_loop.trips, ∀ a, (k1_off101 k1_t20) a + S1x1x16.size a ≤ S2x200x128.size a
  k1_t21_ok : k1_t21_loop.OK
  k1_off102_inb : ∀ k1_t21 : Fin k1_t21_loop.trips, ∀ a, (k1_off102 k1_t21) a + S1x1x16.size a ≤ S2x200x128.size a
  k1_off103_inb : ∀ k1_t21 : Fin k1_t21_loop.trips, ∀ a, (k1_off103 k1_t21) a + S1x1x16.size a ≤ S2x200x128.size a
  k1_off104_inb : ∀ k1_t21 : Fin k1_t21_loop.trips, ∀ a, (k1_off104 k1_t21) a + S1x1x16.size a ≤ S2x200x128.size a
  k1_off105_inb : ∀ k1_t21 : Fin k1_t21_loop.trips, ∀ a, (k1_off105 k1_t21) a + S1x1x16.size a ≤ S2x200x128.size a
  k1_off106_inb : ∀ k1_t21 : Fin k1_t21_loop.trips, ∀ a, (k1_off106 k1_t21) a + S1x1x16.size a ≤ S2x200x128.size a
  k1_t22_ok : k1_t22_loop.OK
  k1_off107_inb : ∀ k1_t22 : Fin k1_t22_loop.trips, ∀ a, (k1_off107 k1_t22) a + S1x1x16.size a ≤ S2x200x128.size a
  k1_off108_inb : ∀ k1_t22 : Fin k1_t22_loop.trips, ∀ a, (k1_off108 k1_t22) a + S1x1x16.size a ≤ S2x200x128.size a
  k1_off109_inb : ∀ k1_t22 : Fin k1_t22_loop.trips, ∀ a, (k1_off109 k1_t22) a + S1x1x16.size a ≤ S2x200x128.size a
  k1_off110_inb : ∀ k1_t22 : Fin k1_t22_loop.trips, ∀ a, (k1_off110 k1_t22) a + S1x1x16.size a ≤ S2x200x128.size a
  k1_off111_inb : ∀ k1_t22 : Fin k1_t22_loop.trips, ∀ a, (k1_off111 k1_t22) a + S1x1x16.size a ≤ S2x200x128.size a
  k1_t23_ok : k1_t23_loop.OK
  k1_off112_inb : ∀ k1_t23 : Fin k1_t23_loop.trips, ∀ a, (k1_off112 k1_t23) a + S1x1x16.size a ≤ S2x200x128.size a
  k1_off113_inb : ∀ k1_t23 : Fin k1_t23_loop.trips, ∀ a, (k1_off113 k1_t23) a + S1x1x16.size a ≤ S2x200x128.size a
  k1_off114_inb : ∀ k1_t23 : Fin k1_t23_loop.trips, ∀ a, (k1_off114 k1_t23) a + S1x1x16.size a ≤ S2x200x128.size a
  k1_off115_inb : ∀ k1_t23 : Fin k1_t23_loop.trips, ∀ a, (k1_off115 k1_t23) a + S1x1x16.size a ≤ S2x200x128.size a
  k1_off116_inb : ∀ k1_t23 : Fin k1_t23_loop.trips, ∀ a, (k1_off116 k1_t23) a + S1x1x16.size a ≤ S2x200x128.size a
  k1_t24_ok : k1_t24_loop.OK
  k1_off117_inb : ∀ k1_t24 : Fin k1_t24_loop.trips, ∀ a, (k1_off117 k1_t24) a + S1x1x16.size a ≤ S2x200x128.size a
  k1_off118_inb : ∀ k1_t24 : Fin k1_t24_loop.trips, ∀ a, (k1_off118 k1_t24) a + S1x1x16.size a ≤ S2x200x128.size a
  k1_off119_inb : ∀ k1_t24 : Fin k1_t24_loop.trips, ∀ a, (k1_off119 k1_t24) a + S1x1x16.size a ≤ S2x200x128.size a
  k1_off120_inb : ∀ k1_t24 : Fin k1_t24_loop.trips, ∀ a, (k1_off120 k1_t24) a + S1x1x16.size a ≤ S2x200x128.size a
  k1_off121_inb : ∀ k1_t24 : Fin k1_t24_loop.trips, ∀ a, (k1_off121 k1_t24) a + S1x1x16.size a ≤ S2x200x128.size a
  k1_t25_ok : k1_t25_loop.OK
  k1_off122_inb : ∀ k1_t25 : Fin k1_t25_loop.trips, ∀ a, (k1_off122 k1_t25) a + S1x1x16.size a ≤ S2x200x128.size a
  k1_off123_inb : ∀ k1_t25 : Fin k1_t25_loop.trips, ∀ a, (k1_off123 k1_t25) a + S1x1x16.size a ≤ S2x200x128.size a
  k1_off124_inb : ∀ k1_t25 : Fin k1_t25_loop.trips, ∀ a, (k1_off124 k1_t25) a + S1x1x16.size a ≤ S2x200x128.size a
  k1_off125_inb : ∀ k1_t25 : Fin k1_t25_loop.trips, ∀ a, (k1_off125 k1_t25) a + S1x1x16.size a ≤ S2x200x128.size a
  k1_off126_inb : ∀ k1_t25 : Fin k1_t25_loop.trips, ∀ a, (k1_off126 k1_t25) a + S1x1x16.size a ≤ S2x200x128.size a
  k1_t26_ok : k1_t26_loop.OK
  k1_off127_inb : ∀ k1_t26 : Fin k1_t26_loop.trips, ∀ a, (k1_off127 k1_t26) a + S1x1x16.size a ≤ S2x200x128.size a
  k1_off128_inb : ∀ k1_t26 : Fin k1_t26_loop.trips, ∀ a, (k1_off128 k1_t26) a + S1x1x16.size a ≤ S2x200x128.size a
  k1_off129_inb : ∀ k1_t26 : Fin k1_t26_loop.trips, ∀ a, (k1_off129 k1_t26) a + S1x1x16.size a ≤ S2x200x128.size a
  k1_off130_inb : ∀ k1_t26 : Fin k1_t26_loop.trips, ∀ a, (k1_off130 k1_t26) a + S1x1x16.size a ≤ S2x200x128.size a
  k1_off131_inb : ∀ k1_t26 : Fin k1_t26_loop.trips, ∀ a, (k1_off131 k1_t26) a + S1x1x16.size a ≤ S2x200x128.size a
  k1_t27_ok : k1_t27_loop.OK
  k1_off132_inb : ∀ k1_t27 : Fin k1_t27_loop.trips, ∀ a, (k1_off132 k1_t27) a + S1x1x16.size a ≤ S2x200x128.size a
  k1_off133_inb : ∀ k1_t27 : Fin k1_t27_loop.trips, ∀ a, (k1_off133 k1_t27) a + S1x1x16.size a ≤ S2x200x128.size a
  k1_off134_inb : ∀ k1_t27 : Fin k1_t27_loop.trips, ∀ a, (k1_off134 k1_t27) a + S1x1x16.size a ≤ S2x200x128.size a
  k1_off135_inb : ∀ k1_t27 : Fin k1_t27_loop.trips, ∀ a, (k1_off135 k1_t27) a + S1x1x16.size a ≤ S2x200x128.size a
  k1_off136_inb : ∀ k1_t27 : Fin k1_t27_loop.trips, ∀ a, (k1_off136 k1_t27) a + S1x1x16.size a ≤ S2x200x128.size a
  k1_t28_ok : k1_t28_loop.OK
  k1_off137_inb : ∀ k1_t28 : Fin k1_t28_loop.trips, ∀ a, (k1_off137 k1_t28) a + S1x1x16.size a ≤ S2x200x128.size a
  k1_off138_inb : ∀ k1_t28 : Fin k1_t28_loop.trips, ∀ a, (k1_off138 k1_t28) a + S1x1x16.size a ≤ S2x200x128.size a
  k1_off139_inb : ∀ k1_t28 : Fin k1_t28_loop.trips, ∀ a, (k1_off139 k1_t28) a + S1x1x16.size a ≤ S2x200x128.size a
  k1_off140_inb : ∀ k1_t28 : Fin k1_t28_loop.trips, ∀ a, (k1_off140 k1_t28) a + S1x1x16.size a ≤ S2x200x128.size a
  k1_off141_inb : ∀ k1_t28 : Fin k1_t28_loop.trips, ∀ a, (k1_off141 k1_t28) a + S1x1x16.size a ≤ S2x200x128.size a
  k1_t29_ok : k1_t29_loop.OK
  k1_off142_inb : ∀ k1_t29 : Fin k1_t29_loop.trips, ∀ a, (k1_off142 k1_t29) a + S1x1x16.size a ≤ S2x200x128.size a
  k1_off143_inb : ∀ k1_t29 : Fin k1_t29_loop.trips, ∀ a, (k1_off143 k1_t29) a + S1x1x16.size a ≤ S2x200x128.size a
  k1_off144_inb : ∀ k1_t29 : Fin k1_t29_loop.trips, ∀ a, (k1_off144 k1_t29) a + S1x1x16.size a ≤ S2x200x128.size a
  k1_off145_inb : ∀ k1_t29 : Fin k1_t29_loop.trips, ∀ a, (k1_off145 k1_t29) a + S1x1x16.size a ≤ S2x200x128.size a
  k1_off146_inb : ∀ k1_t29 : Fin k1_t29_loop.trips, ∀ a, (k1_off146 k1_t29) a + S1x1x16.size a ≤ S2x200x128.size a
  k1_t30_ok : k1_t30_loop.OK
  k1_off147_inb : ∀ k1_t30 : Fin k1_t30_loop.trips, ∀ a, (k1_off147 k1_t30) a + S1x1x16.size a ≤ S2x200x128.size a
  k1_off148_inb : ∀ k1_t30 : Fin k1_t30_loop.trips, ∀ a, (k1_off148 k1_t30) a + S1x1x16.size a ≤ S2x200x128.size a
  k1_off149_inb : ∀ k1_t30 : Fin k1_t30_loop.trips, ∀ a, (k1_off149 k1_t30) a + S1x1x16.size a ≤ S2x200x128.size a
  k1_off150_inb : ∀ k1_t30 : Fin k1_t30_loop.trips, ∀ a, (k1_off150 k1_t30) a + S1x1x16.size a ≤ S2x200x128.size a
  k1_off151_inb : ∀ k1_t30 : Fin k1_t30_loop.trips, ∀ a, (k1_off151 k1_t30) a + S1x1x16.size a ≤ S2x200x128.size a
  k1_t31_ok : k1_t31_loop.OK
  k1_off152_inb : ∀ k1_t31 : Fin k1_t31_loop.trips, ∀ a, (k1_off152 k1_t31) a + S1x1x16.size a ≤ S2x200x128.size a
  k1_off153_inb : ∀ k1_t31 : Fin k1_t31_loop.trips, ∀ a, (k1_off153 k1_t31) a + S1x1x16.size a ≤ S2x200x128.size a
  k1_off154_inb : ∀ k1_t31 : Fin k1_t31_loop.trips, ∀ a, (k1_off154 k1_t31) a + S1x1x16.size a ≤ S2x200x128.size a
  k1_off155_inb : ∀ k1_t31 : Fin k1_t31_loop.trips, ∀ a, (k1_off155 k1_t31) a + S1x1x16.size a ≤ S2x200x128.size a
  k1_off156_inb : ∀ k1_t31 : Fin k1_t31_loop.trips, ∀ a, (k1_off156 k1_t31) a + S1x1x16.size a ≤ S2x200x128.size a
  k1_t32_ok : k1_t32_loop.OK
  k1_off157_inb : ∀ k1_t32 : Fin k1_t32_loop.trips, ∀ a, (k1_off157 k1_t32) a + S1x1x16.size a ≤ S2x200x128.size a
  k1_off158_inb : ∀ k1_t32 : Fin k1_t32_loop.trips, ∀ a, (k1_off158 k1_t32) a + S1x1x16.size a ≤ S2x200x128.size a
  k1_off159_inb : ∀ k1_t32 : Fin k1_t32_loop.trips, ∀ a, (k1_off159 k1_t32) a + S1x1x16.size a ≤ S2x200x128.size a
  k1_off160_inb : ∀ k1_t32 : Fin k1_t32_loop.trips, ∀ a, (k1_off160 k1_t32) a + S1x1x16.size a ≤ S2x200x128.size a
  k1_off161_inb : ∀ k1_t32 : Fin k1_t32_loop.trips, ∀ a, (k1_off161 k1_t32) a + S1x1x16.size a ≤ S2x200x128.size a
  k1_off162_inb : ∀ i : grid1.Coords, ∀ a, (k1_off162 i) a + S32x128.size a ≤ S1024x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S70x4096.size a < S70x100000.size a
  hwx2_0 : ∀ i : grid2.Coords, EltTy.bits .f32 = 32 ∨ (Rect.unit (s := S70x100000) (fun a => cc2_transform_0 i a * S70x4096.size a) (fun a => (Pipeline.Clip.of (cc2_transform_0 i a) (S70x4096.size a) (S70x100000.size a)).extent (S70x4096.size a)) fun a => Pipeline.Clip.inb (Pipeline.Clip.ok_of (hstart2_0 i a))).WholeWords (EltTy.packing .f32)
  hwxs2_0 : ∀ i : grid2.Coords, EltTy.bits .f32 = 32 ∨ (Rect.unit (s := S70x4096) (fun _ => 0) (fun a => (Pipeline.Clip.of (cc2_transform_0 i a) (S70x4096.size a) (S70x100000.size a)).extent (S70x4096.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S1024x128.size a
  hwx2_1 : ∀ i : grid2.Coords, EltTy.bits .f32 = 32 ∨ (Rect.block (s := S1024x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1x4096.size a < S1x100000.size a
  hwx2_2 : ∀ i : grid2.Coords, EltTy.bits .f32 = 32 ∨ (Rect.unit (s := S1x100000) (fun a => cc2_transform_2 i a * S1x4096.size a) (fun a => (Pipeline.Clip.of (cc2_transform_2 i a) (S1x4096.size a) (S1x100000.size a)).extent (S1x4096.size a)) fun a => Pipeline.Clip.inb (Pipeline.Clip.ok_of (hstart2_2 i a))).WholeWords (EltTy.packing .f32)
  hwxs2_2 : ∀ i : grid2.Coords, EltTy.bits .f32 = 32 ∨ (Rect.unit (s := S1x4096) (fun _ => 0) (fun a => (Pipeline.Clip.of (cc2_transform_2 i a) (S1x4096.size a) (S1x100000.size a)).extent (S1x4096.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S4096x1024.size a < S100000x1024.size a
  hwx2_3 : ∀ i : grid2.Coords, EltTy.bits .f32 = 32 ∨ (Rect.unit (s := S100000x1024) (fun a => cc2_transform_3 i a * S4096x1024.size a) (fun a => (Pipeline.Clip.of (cc2_transform_3 i a) (S4096x1024.size a) (S100000x1024.size a)).extent (S4096x1024.size a)) fun a => Pipeline.Clip.inb (Pipeline.Clip.ok_of (hstart2_3 i a))).WholeWords (EltTy.packing .f32)
  hwxs2_3 : ∀ i : grid2.Coords, EltTy.bits .f32 = 32 ∨ (Rect.unit (s := S4096x1024) (fun _ => 0) (fun a => (Pipeline.Clip.of (cc2_transform_3 i a) (S4096x1024.size a) (S100000x1024.size a)).extent (S4096x1024.size a)) fun a => (Nat.zero_add _).trans_le (Pipeline.Clip.extent_le (Pipeline.Clip.ok_of (hstart2_3 i a)))).WholeWords (EltTy.packing .f32)

variable [Facts₀]

abbrev cc1_scratch3 : DmaSems sig S_ := SemArray.consecutive 4 S_ hcc1_scratch3
abbrev cc1_scratch4 : DmaSems sig S_ := SemArray.consecutive 5 S_ hcc1_scratch4
abbrev cc1_scoped0 : DmaSems sig S_ := SemArray.consecutive 6 S_ hcc1_scoped0
abbrev cc1_scoped1 : DmaSems sig S_ := SemArray.consecutive 7 S_ hcc1_scoped1
def dot_S70x4096_S1024x70_S4096x1024_0_1_1_0_n_n : DotDims S70x4096 S1024x70 S4096x1024 where
  lhsContracting := [0]
  rhsContracting := [1]
  lhsNonContracting := [1]
  rhsNonContracting := [0]
  lhsBatch := []
  rhsBatch := []
  wf := dot_S70x4096_S1024x70_S4096x1024_0_1_1_0_n_n_wf

abbrev win0_0 : Pipeline.Window sig grid0 :=
  Pipeline.Window.ofSpecClip (Memref.whole main_v1) S70x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v2) S2048x128.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win2_0 : Pipeline.Window sig grid2 :=
  Pipeline.Window.ofSpecClip (Memref.whole main_v4) S70x4096.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpec (Memref.whole main_v3) S1024x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpecClip (Memref.whole main_v5) S1x4096.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v6) S4096x1024.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1024x50 : Shape := ⟨2, ![1024, 50]⟩
abbrev S100000x70 : Shape := ⟨2, ![100000, 70]⟩
abbrev S100000 : Shape := ⟨1, ![100000]⟩
abbrev S_ : Shape := ⟨0, ![]⟩
abbrev S1024x50x1 : Shape := ⟨3, ![1024, 50, 1]⟩
abbrev S1 : Shape := ⟨1, ![1]⟩
abbrev S1x1x1 : Shape := ⟨3, ![1, 1, 1]⟩
abbrev S1024x50x70 : Shape := ⟨3, ![1024, 50, 70]⟩
abbrev S1024x70 : Shape := ⟨2, ![1024, 70]⟩
abbrev S70x100000 : Shape := ⟨2, ![70, 100000]⟩
abbrev S1024x100000 : Shape := ⟨2, ![1024, 100000]⟩
abbrev S1x100000 : Shape := ⟨2, ![1, 100000]⟩

abbrev nBuf : Space → Nat
  | .hbm => 37
  | .vmem => 0
  | .smem => 0
  | _ => 0

abbrev bufTy : (tb : Table) → Fin (tcTables nBuf tb) → BufTy
  | .hbm, ⟨0, _⟩ => ⟨S1024x50, .i32⟩
  | .hbm, ⟨1, _⟩ => ⟨S100000x70, .f32⟩
  | .hbm, ⟨2, _⟩ => ⟨S100000x70, .f32⟩
  | .hbm, ⟨3, _⟩ => ⟨S100000, .f32⟩
  | .hbm, ⟨4, _⟩ => ⟨S_, .i32⟩
  | .hbm, ⟨5, _⟩ => ⟨S1024x50, .i32⟩
  | .hbm, ⟨6, _⟩ => ⟨S1024x50, .i1⟩
  | .hbm, ⟨7, _⟩ => ⟨S_, .i32⟩
  | .hbm, ⟨8, _⟩ => ⟨S1024x50, .i32⟩
  | .hbm, ⟨9, _⟩ => ⟨S1024x50, .i32⟩
  | .hbm, ⟨10, _⟩ => ⟨S1024x50, .i32⟩
  | .hbm, ⟨11, _⟩ => ⟨S1024x50x1, .i32⟩
  | .hbm, ⟨12, _⟩ => ⟨S1, .i32⟩
  | .hbm, ⟨13, _⟩ => ⟨S_, .i32⟩
  | .hbm, ⟨14, _⟩ => ⟨S1024x50x1, .i32⟩
  | .hbm, ⟨15, _⟩ => ⟨S1024x50x1, .i1⟩
  | .hbm, ⟨16, _⟩ => ⟨S1x1x1, .i32⟩
  | .hbm, ⟨17, _⟩ => ⟨S1024x50x1, .i32⟩
  | .hbm, ⟨18, _⟩ => ⟨S1024x50x1, .i1⟩
  | .hbm, ⟨19, _⟩ => ⟨S1024x50x1, .i1⟩
  | .hbm, ⟨20, _⟩ => ⟨S_, .i1⟩
  | .hbm, ⟨21, _⟩ => ⟨S1024x50, .i1⟩
  | .hbm, ⟨22, _⟩ => ⟨S1024x50x70, .f32⟩
  | .hbm, ⟨23, _⟩ => ⟨S1024x50x70, .i1⟩
  | .hbm, ⟨24, _⟩ => ⟨S_, .f32⟩
  | .hbm, ⟨25, _⟩ => ⟨S1024x50x70, .f32⟩
  | .hbm, ⟨26, _⟩ => ⟨S1024x50x70, .f32⟩
  | .hbm, ⟨27, _⟩ => ⟨S_, .f32⟩
  | .hbm, ⟨28, _⟩ => ⟨S1024x70, .f32⟩
  | .hbm, ⟨29, _⟩ => ⟨S_, .f32⟩
  | .hbm, ⟨30, _⟩ => ⟨S1024x70, .f32⟩
  | .hbm, ⟨31, _⟩ => ⟨S1024x70, .f32⟩
  | .hbm, ⟨32, _⟩ => ⟨S70x100000, .f32⟩
  | .hbm, ⟨33, _⟩ => ⟨S1024x100000, .f32⟩
  | .hbm, ⟨34, _⟩ => ⟨S1x100000, .f32⟩
  | .hbm, ⟨35, _⟩ => ⟨S1024x100000, .f32⟩
  | .hbm, ⟨36, _⟩ => ⟨S1024x100000, .f32⟩
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩

abbrev nD : Nat := 1
abbrev τ : Topo := Topo.v7x

variable {F : FTy → Type} [FloatOps F]

class Facts₀ : Prop where
  bcast_S_S1024x50 : S_.BroadcastsInDim S1024x50 (![] : Fin 0 → Fin S1024x50.rank)
  bcast_S1024x50_S1024x50x1_0_1 : S1024x50.BroadcastsInDim S1024x50x1 (![0, 1] : Fin 2 → Fin S1024x50x1.rank)
  bcast_S_S1024x50x1 : S_.BroadcastsInDim S1024x50x1 (![] : Fin 0 → Fin S1024x50x1.rank)
  bcast_S1_S1x1x1_2 : S1.BroadcastsInDim S1x1x1 (![2] : Fin 1 → Fin S1x1x1.rank)
  bcast_S1x1x1_S1024x50x1_0_1_2 : S1x1x1.BroadcastsInDim S1024x50x1 (![0, 1, 2] : Fin 3 → Fin S1024x50x1.rank)
  reducesTo_S1024x50x1_S1024x50_d2 : S1024x50x1.ReducesTo [2] S1024x50
  h_S_ : 0 < S_.numel
  bcast_S1024x50_S1024x50x70_0_1 : S1024x50.BroadcastsInDim S1024x50x70 (![0, 1] : Fin 2 → Fin S1024x50x70.rank)
  bcast_S_S1024x50x70 : S_.BroadcastsInDim S1024x50x70 (![] : Fin 0 → Fin S1024x50x70.rank)
  reducesTo_S1024x50x70_S1024x70_d1 : S1024x50x70.ReducesTo [1] S1024x70
  bcast_S_S1024x70 : S_.BroadcastsInDim S1024x70 (![] : Fin 0 → Fin S1024x70.rank)
  transposes_S100000x70_S70x100000_1_0 : S100000x70.Transposes [1, 0] S70x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  gather_S100000x70_S1024x50x1_S1024x50x70_2_0_n_n_0_2_170_wf : GatherDims.WF S100000x70 S1024x50x1 S1024x50x70 [2] [0] [] [0] [] 2 ![1, 70]
  dot_S1024x70_S70x100000_S1024x100000_1_0_0_1_n_n_wf : DotDims.WF S1024x70 S70x100000 S1024x100000 [1] [0] [0] [1] [] []

variable [Facts₀]

def gather_S100000x70_S1024x50x1_S1024x50x70_2_0_n_n_0_2_170 : GatherDims S100000x70 S1024x50x1 S1024x50x70 where
  offsetDims := [2]
  collapsedSliceDims := [0]
  operandBatchingDims := []
  startIndicesBatchingDims := []
  startIndexMap := [0]
  indexVectorDim := 2
  sliceSizes := ![1, 70]
  wf := gather_S100000x70_S1024x50x1_S1024x50x70_2_0_n_n_0_2_170_wf
def dot_S1024x70_S70x100000_S1024x100000_1_0_0_1_n_n : DotDims S1024x70 S70x100000 S1024x100000 where
  lhsContracting := [1]
  rhsContracting := [0]
  lhsNonContracting := [0]
  rhsNonContracting := [1]
  lhsBatch := []
  rhsBatch := []
  wf := dot_S1024x70_S70x100000_S1024x100000_1_0_0_1_n_n_wf

class Facts : Prop extends Facts₀ where

variable [Facts]
-- ==== Proof.Launch0.lean ====
/-
  The kernel program as the SparseCore launch theorem sees it: one vector-subcore call (the pooling
  kernel on 2 × 16 tiles) between two TensorCore pipelines (the table's transposition and padding; the projection),
  and the resource algebra its proof runs over: the launch handshakes' rounds, the pipelines' staging cells' rounds,
  and the transfer counters of the tiles' own copies.
-/
import proofs.«202962_g35424890258148_retrytranche2_417_11_alg».proof.Defs
import proofs.«202962_g35424890258148_retrytranche2_417_11_alg».proof.Proof.Gen.KernelIdeal
import proofs.«202962_g35424890258148_retrytranche2_417_11_alg».proof.Proof.Gen.KernelIdeal.Launch
import Idealize.ShloMosaic.Lib.SparseCore.Launch
import Idealize.ShloMosaic.Lib.Pipeline.Kit
import Idealize.ShloMosaic.Lib.Pipeline.Regions
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, the pipelines' staging cells' rounds, the tiles' transfer counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP embR; infer_instance

end Cert.Proof.KI

end
-- ==== Proof.Launch1.lean ====
/-
  What the one SparseCore call's handshakes carry, and the launch theorem applied from the kernel-specific
  obligations named as hypotheses.

  Tile (c, i) of the 2 × 16 grid is worker `w = 2 i + c`. It is handed: the 1600 index words of its 32 batch rows
  (a slice of the flattened index array), a read share of the whole padded table (every tile gathers rows of it),
  and the 32 rows of the pooled array it writes. It hands back those 32 rows, at contents satisfying the relation
  `Rpo` (for a frame: nothing; for the value: each row's first 70 columns are the sums of the gathered table rows).
  A SparseCore's share of the call is its sixteen tiles' shares side by side, so the split among tasks is the identity.
-/
import proofs.«202962_g35424890258148_retrytranche2_417_11_alg».proof.Proof.Launch0

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

variable {F : FTy → Type} [FloatOps F] [Named F]

local notation "𝕄" => MT nD τ sig (HIx 1) (Elt F) ℕ UU ℕ

/-! ## The arrays the call touches, and a tile's pieces of them -/

/-- The flattened index array, the padded table, the pooled array: locations of device `d`'s HBM. -/
abbrev xLoc (d : Dev nD) : Loc nD τ sig := (SparseCore.T d).loc main_v0
abbrev tpLoc (d : Dev nD) : Loc nD τ sig := (SparseCore.T d).loc main_v2
abbrev poLoc (d : Dev nD) : Loc nD τ sig := (SparseCore.T d).loc main_v3

/-- The grid point of tile `(c, i)`. -/
def co (c : Fin 2) (i : Fin 16) : grid1.Coords := fun | 0 => c | 1 => i | ⟨_ + 2, h⟩ => absurd h (Nat.not_lt.2 (Nat.le_add_left _ _))

/-- The tile's number among the 32, for its read share of the table. -/
def tileNo (c : Fin 2) (i : Fin 16) : Fin 32 := ⟨c.val * 16 + i.val, by omega⟩

/-- The tile's 1600 index words, as the kernel slices them out of the flat index array; -/
abbrev xPiece (c : Fin 2) (i : Fin 16) : Memref sig .scVector .hbm S1600 .i32 :=
  (Memref.whole main_v0_scv : Memref sig .scVector .hbm S51200 .i32).slice (Rect.unit (s := S51200) (k1_off1 (co c i)) S1600.size (k1_off1_inb (co c i))) (fun _ => rfl)
/-- its 32 rows of the pooled array, as the kernel slices them for the copy-out. -/
abbrev poPiece (c : Fin 2) (i : Fin 16) : Memref sig .scVector .hbm S32x128 .f32 :=
  (Memref.whole main_v3_scv : Memref sig .scVector .hbm S1024x128 .f32).slice (Rect.unit (s := S1024x128) (k1_off162 (co c i)) S32x128.size (k1_off162_inb (co c i))) (fun _ => rfl)

variable (X : (d : Dev nD) → Buf (Elt F) (xLoc d))
variable (Rtp : (d : Dev nD) → Buf (Elt F) (tpLoc d) → Prop)
variable (Rpo : (d : Dev nD) → Fin 2 → Fin 16 → Buf (Elt F) (poLoc d) → Prop)

/-- What tile `(c, i)` is handed, -/
def goRes (d : Dev nD) (c : Fin 2) (i : Fin 16) : sProp 𝕄 :=
  iprop((xLoc d ↦[(xPiece c i).view.set]{fullShare} X d)
    ∗ (∃ tp, ⌜Rtp d tp⌝ ∗ tpLoc d ↦{shareTok fullShare 32 (tileNo c i)} tp)
    ∗ (∃ f, poLoc d ↦[(poPiece c i).view.set]{fullShare} f))
/-- and what it hands back. -/
def tdRes (d : Dev nD) (c : Fin 2) (i : Fin 16) : sProp 𝕄 :=
  iprop(∃ f, ⌜Rpo d c i f⌝ ∗ poLoc d ↦[(poPiece c i).view.set]{fullShare} f)

instance goRes_storable (d : Dev nD) (c : Fin 2) (i : Fin 16) : BI.Storable (upEmb : UEmb _ 𝕄) (goRes X Rtp d c i) := by
  unfold goRes; infer_instance
instance tdRes_storable (d : Dev nD) (c : Fin 2) (i : Fin 16) : BI.Storable (upEmb : UEmb _ 𝕄) (tdRes Rpo d c i) := by
  unfold tdRes; infer_instance

/-- The call's payloads: a SparseCore's is its sixteen tiles' side by side. -/
def P : (K (F := F)).Pay (nD := nD) (Val := Elt F) (Name := ℕ) (U := UU) where
  st := fun q d c => match q with
    | 0 => bigSep Finset.univ fun i : Fin ((K (F := F)).nSub 0) => goRes X Rtp d (Fin.cast nCore_zero c) (Fin.cast nSub_zero i)
  dn := fun q d c => match q with
    | 0 => bigSep Finset.univ fun i : Fin ((K (F := F)).nSub 0) => tdRes Rpo d (Fin.cast nCore_zero c) (Fin.cast nSub_zero i)
  go := fun q d c i => match q with | 0 => goRes X Rtp d (Fin.cast nCore_zero c) (Fin.cast nSub_zero i)
  td := fun q d c i => match q with | 0 => tdRes Rpo d (Fin.cast nCore_zero c) (Fin.cast nSub_zero i)
  x := fun _ _ => iprop(emp)

instance P_storable : (P (F := F) X Rtp Rpo).IsStorable where
  st q d c := match q with
    | 0 => (inferInstance : BI.Storable (upEmb : UEmb _ 𝕄)
        (bigSep Finset.univ fun i : Fin ((K (F := F)).nSub 0) => goRes X Rtp d (Fin.cast nCore_zero c) (Fin.cast nSub_zero i)))
  dn q d c := match q with
    | 0 => (inferInstance : BI.Storable (upEmb : UEmb _ 𝕄)
        (bigSep Finset.univ fun i : Fin ((K (F := F)).nSub 0) => tdRes Rpo d (Fin.cast nCore_zero c) (Fin.cast nSub_zero i)))
  go q d c i := match q with
    | 0 => (inferInstance : BI.Storable (upEmb : UEmb _ 𝕄) (goRes X Rtp d (Fin.cast nCore_zero c) (Fin.cast nSub_zero i)))
  td q d c i := match q with
    | 0 => (inferInstance : BI.Storable (upEmb : UEmb _ 𝕄) (tdRes Rpo d (Fin.cast nCore_zero c) (Fin.cast nSub_zero i)))

/-- The split of a SparseCore's share among its tasks, and the gathering of their results: the identity. -/
theorem vecSplit : (K (F := F)).VecSplit' (P X Rtp Rpo) 0 := by
  intro d c
  show (bigSep Finset.univ fun i : Fin ((K (F := F)).nSub 0) => goRes X Rtp d (Fin.cast nCore_zero c) (Fin.cast nSub_zero i))
    ⊢ |={Set.univ}=> iprop((bigSep Finset.univ fun i : Fin ((K (F := F)).nSub 0) => goRes X Rtp d (Fin.cast nCore_zero c) (Fin.cast nSub_zero i))
      ∗ ((bigSep Finset.univ fun i : Fin ((K (F := F)).nSub 0) => tdRes Rpo d (Fin.cast nCore_zero c) (Fin.cast nSub_zero i))
        -∗ (bigSep Finset.univ fun i : Fin ((K (F := F)).nSub 0) => tdRes Rpo d (Fin.cast nCore_zero c) (Fin.cast nSub_zero i))))
  iintro Hst
  imodintro
  isplitl [Hst]
  · iexact Hst
  · iintro Htd; iexact Htd

end Cert.Proof.KI

end
-- ==== Proof.Launch2.lean ====
/-
  The launch element of the ghost state: the handshakes' rounds go to the launch theorem, the two pipelines' staging
  cells are funded once for every device, the transfer counters start at one; no kernel consumes anything of the launch's.
-/
import proofs.«202962_g35424890258148_retrytranche2_417_11_alg».proof.Proof.Launch1

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (X : (d : Dev nD) → Buf (Elt F) (xLoc d))
variable (Rtp : (d : Dev nD) → Buf (Elt F) (tpLoc d) → Prop)
variable (Rpo : (d : Dev nD) → Fin 2 → Fin 16 → Buf (Elt F) (poLoc d) → Prop)

/-- The launch element: the handshake cells' rounds, the pipelines' staging cells' rounds, the counters' unit. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main's proof on device `d` starts from beside what the launch deals it: both pipelines' staging cells funded. -/
def G (d : Dev nD) : sProp 𝕄 :=
  iprop((bigSep Finset.univ fun p : Fin 2 => Pipeline.cellsGhost (nD := nD) (τ := τ) cfgs (EP (F := F)) p d)
    ∗ (bigSep Finset.univ fun p : Fin 2 => Pipeline.toksInit (nD := nD) (τ := τ) cfgs (EP (F := F)) p d))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P X Rtp Rpo).x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP0, -⟩
  ihave HP := (Entails.of_eq (show (BI.own (((Emb.inl : Emb UP (UP × Counters)).trans (embR : Emb (UP × Counters) 𝕄))
      (initOf (Pipeline.cells (nD := nD) (τ := τ) cfgs cellOf_inj) (Pipeline.launchToks (nD := nD) (τ := τ) cfgs cellOf_inj))) : sProp 𝕄)
    = BI.own ((EP (F := F)) (initOf (Pipeline.cells (nD := nD) (τ := τ) cfgs cellOf_inj) (Pipeline.launchToks (nD := nD) (τ := τ) cfgs cellOf_inj))) from rfl)) $$ HP0
  imod (Pipeline.fund_ghost (nD := nD) (τ := τ) cfgs (EP (F := F)) cellOf_inj) $$ HP with HG
  icases HG with ⟨Hc, Ht⟩
  imodintro
  isplitl [HH]; · iexact HH
  isplitl [Hc Ht]
  · unfold G
    rw [bigSep_sep']
    isplitl [Hc]; · iexact Hc
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.Launch3.lean ====
/-
  The program's run, from the two kernel-specific obligations: one tile's task (`TileObl`) and @main on the
  TensorCore (`hmain`), with what @main leaves (`FIN`) read off the final memory (`hfin`).
-/
import proofs.«202962_g35424890258148_retrytranche2_417_11_alg».proof.Proof.Launch2

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (X : (d : Dev nD) → Buf (Elt F) (xLoc d))
variable (Rtp : (d : Dev nD) → Buf (Elt F) (tpLoc d) → Prop)
variable (Rpo : (d : Dev nD) → Fin 2 → Fin 16 → Buf (Elt F) (poLoc d) → Prop)

/-- Every weakly fair execution of the device's 35 threads from `m` terminates in a state of `Q'`, given one tile's
    task and @main. -/
theorem run_main_of [∀ e, Nonempty (Elt F e)]
    (m : (ℓ : Loc nD τ sig) → Buf (Elt F) ℓ) (ρ : Dev nD → PrngReg)
    (htile : (K (F := F)).TileObl (D (F := F)) 𝒱 (P X Rtp Rpo) v₀ 0)
    (FIN : Dev nD → sProp 𝕄)
    (hmain : ∀ (κ : GSem nD τ sig → ℕ) (d : Dev nD),
      iprop((K (F := F)).ctx EH (P X Rtp Rpo) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 1 ∗ FIN d))
    (fq : Dev nD → Phys nD τ sig (Elt F) → Prop) (hfin : ∀ d s', iprop(FIN d ∗ SI s') ⊢ (⌜fq d s'⌝ : sProp 𝕄))
    (Q' : PUnit × MemSt nD τ sig (Elt F) → Prop) (hQ : ∀ s', (∀ d, fq d s') → Q' (⟨⟩, s'.mem)) :
    θ_run (Cert.KernelIdeal.defs (F := F)) (Cert.KernelIdeal.threads (F := F)) ⟨m, fun _ => 0, ρ⟩ Q' :=
  SparseCore.Cfg.θ_run_sc (K := K (F := F)) (D := D (F := F)) (𝒱 := 𝒱) (EH := EH) (P := P X Rtp Rpo) facts v₀
    (fun q hq => match q with | 0 => nomatch hq)
    (fun q _ => match q with | 0 => htile)
    (fun q _ => match q with | 0 => SparseCore.Cfg.VecSplit.of_plain (vecSplit X Rtp Rpo))
    m ρ main (G (F := F)) FIN (u₀ (F := F)) (sep_elim_left.trans (hu₀ X Rtp Rpo)) hmain fq hfin Q' hQ

end Cert.Proof.KI

end
-- ==== Proof.Region.lean ====
/-
  Entering a TensorCore pipeline region of @main from inside the SparseCore program: the region's custom call is the
  lifted call of the pipeline's entry, so the pipeline library's region rule, proved at the pipelines' own signature,
  applies under the lifting; what follows the call continues at the SparseCore program's signature.
-/
import proofs.«202962_g35424890258148_retrytranche2_417_11_alg».proof.Proof.Launch3

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- No pipeline has a prefetched table. -/
abbrev adm : (p : Fin 2) → (pcfgs (F := F) p).Adm := fun p => (cfgs p).toPCfg_adm

variable (rdats : (p : Fin 2) → (c : Dev nD) → Pipeline.RDat τ (Elt F) (HIx 1) ℕ UU ℕ (Pipeline.pin (pcfgs (F := F)) adm p) c)

set_option backward.isDefEq.respectTransparency.types false in
/-- Region `p` of @main, entered on device `d`'s TensorCore inside the SparseCore program. -/
theorem wp_region [∀ e, Nonempty (Elt F e)] {p : Fin 2}
    (R : Pipeline.RDat.RegionSeg (pcfgs (F := F)) adm rdats (none : HIx 1) defs₀ 𝒱₀ (K (F := F)).L (K (F := F)).lev p) (d : Dev nD)
    (k : PUnit → Prog (TpuEff nD τ sig (Elt F) (SparseCore.Sig (ΛP (F := F)) 1) .tc) PUnit) (Q : PUnit → sProp 𝕄) :
    iprop((iprop(boundary (SparseCore.T d) ∗ R.post d) -∗ wp frame (wpE ((K (F := F)).defs (D (F := F))) 𝒱 (SparseCore.T d) none) Set.univ (k ⟨⟩) Q)
        ∗ boundary (SparseCore.T d) ∗ R.pre d ∗ levAts (K (F := F)).L (K (F := F)).lev
        ∗ Pipeline.cellsGhost (nD := nD) (τ := τ) cfgs (EP (F := F)) p d ∗ Pipeline.toksInit (nD := nD) (τ := τ) cfgs (EP (F := F)) p d)
      ⊢ wp frame (wpE ((K (F := F)).defs (D (F := F))) 𝒱 (SparseCore.T d) none) Set.univ
          (.op (.customCall (SparseCore.inner (Pipeline.entry p)) ()) k) Q := by
  have hreg := Pipeline.RDat.RegionSeg.wp (pcfgs (F := F)) adm rdats (none : HIx 1) cellOf_inj (EP (F := F)) defs₀ 𝒱₀
    (K (F := F)).L (K (F := F)).lev R d none (fun u hu => nomatch hu) (α := PUnit) (fun _ => .ret PUnit.unit)
    (fun _ => iprop(boundary (SparseCore.T d) ∗ R.post d))
  have hlift := (K (F := F)).wp_liftProg (D (F := F)) 𝒱 (SparseCore.T d) Set.univ none
    (α := PUnit) (.op (.customCall (Pipeline.entry p) ()) fun _ => .ret PUnit.unit) (fun _ => iprop(boundary (SparseCore.T d) ∗ R.post d))
  rw [show (Prog.op (.customCall (SparseCore.inner (Pipeline.entry p)) ()) k
        : Prog (TpuEff nD τ sig (Elt F) (SparseCore.Sig (ΛP (F := F)) 1) .tc) PUnit)
      = (SparseCore.liftProg (α := PUnit) (.op (.customCall (Pipeline.entry p) ()) fun _ => .ret PUnit.unit) >>= k) from rfl, wp_bind]
  iintro ⟨Hk, Hb, Hpre, Hlv, Hg, Ht⟩
  iapply (wp_wand_r frame _ Set.univ)
  isplitl [Hb Hpre Hlv Hg Ht]
  · iapply hlift
    iapply hreg
    isplitr
    · iintro H; rw [wp_ret]; imodintro; iexact H
    isplitl [Hb]; · iexact Hb
    isplitl [Hpre]; · iexact Hpre
    isplitl [Hlv]; · iexact Hlv
    isplitl [Hg]; · iexact Hg
    iexact Ht
  · iintro %_ H
    iapply Hk; iexact H

end Cert.Proof.KI

end
-- ==== Proof.Spec.lean ====
/-
  The function both programs compute, stated once over the argument arrays and free of either program.

  For a batch row `p` and a vocabulary entry `q`:
    out[p, q] = (∑ d < 70, ((∑ i < 50, table[row(x[p, i]), d]) · (1/50)) · W[q, d]) + bias[q]
  on the extended reals: the mean over the sequence of the looked-up table rows, projected by `W` and shifted by
  the bias. `row w` is the index word read signed and clamped into the table's 100000 rows; on indices in range
  (which is all the precondition admits) it is the word's own value.
-/
import Idealize.ShloMosaic.PureOps.Ideal
import Idealize.ShloMosaic.Lib.ValueIdx

noncomputable section

namespace Cert.Spec

open Idealize.ShloMosaic Idealize.ShloMosaic.ValueIdx

/-- The index array's shape `[1024, 50]`, the two tables' `[100000, 70]`, the bias's `[100000]`, the result's `[1024, 100000]`. -/
abbrev SX : Shape := ⟨2, ![1024, 50]⟩
abbrev ST : Shape := ⟨2, ![100000, 70]⟩
abbrev SB : Shape := ⟨1, ![100000]⟩
abbrev SO : Shape := ⟨2, ![1024, 100000]⟩

/-- The table row an index word names: the word read as a signed integer, clamped to `[0, 99999]`. -/
def row (w : BitVec 32) : Fin 100000 := ⟨min w.toInt.toNat 99999, by omega⟩

/-- A word in range names the row of its own value. -/
theorem row_val_of_range {w : BitVec 32} (h0 : 0 ≤ w.toInt) (h1 : w.toInt ≤ 99999) : (row w).val = w.toNat := by
  unfold row
  have hn : w.toInt = (w.toNat : Int) := by
    rcases BitVec.toInt_eq_toNat_cond w with h
    rw [h] at h0 ⊢
    split_ifs at h0 ⊢ with hlt
    · rfl
    · exfalso; have := w.isLt; omega
  show min w.toInt.toNat 99999 = w.toNat
  rw [hn] at h1 ⊢
  simp only [Int.toNat_natCast]
  omega

/-- The sum over the 50 positions of batch row `p` of column `d` of the looked-up table rows. -/
def pooled (x : SX.Idx → BitVec 32) (T : ST.Idx → EReal) (p : Fin 1024) (d : Fin 70) : EReal :=
  ∑ i : Fin 50, T (ix2 (row (x (ix2 p i))) d)

/-- One entry of the result: the pooled mean of batch row `p` against row `q` of `W`, plus the bias at `q`. -/
def entry (x : SX.Idx → BitVec 32) (T W : ST.Idx → EReal) (bias : SB.Idx → EReal) (p : Fin 1024) (q : Fin 100000) : EReal :=
  (∑ d : Fin 70, (pooled x T p d * ((1 / 50 : ℝ) : EReal)) * W (ix2 q d)) + bias (ix1 q)

/-- The whole result array. -/
def G (x : SX.Idx → BitVec 32) (T W : ST.Idx → EReal) (bias : SB.Idx → EReal) : SO.Idx → EReal :=
  fun j => entry x T W bias (j 0) (j 1)

theorem G_ix2 (x : SX.Idx → BitVec 32) (T W : ST.Idx → EReal) (bias : SB.Idx → EReal) (p : Fin 1024) (q : Fin 100000) :
    G x T W bias (ix2 p q) = entry x T W bias p q := rfl

end Cert.Spec

end
-- ==== Proof.TileSpec.lean ====
/-
  The relations the pieces of the kernel program hand one another, at any float instance.

  * The padded table agrees with the table on its first 70 columns (its other 58 columns are never read).
  * Tile (c, i) is worker `2 i + c`; its 32 rows of the pooled array are batch rows `32 (2 i + c) + r`, and in each
    the first 70 columns hold the sum, taken position by position from the zero word, of the table rows the batch
    row's 50 index words name (the columns beyond are never read).
-/
import proofs.«202962_g35424890258148_retrytranche2_417_11_alg».proof.Proof.Launch1
import proofs.«202962_g35424890258148_retrytranche2_417_11_alg».proof.Proof.Spec
import Idealize.ShloMosaic.Lib.ValueIdx

noncomputable section

namespace Cert.Proof.KI

open Cert.KernelIdeal Cert.KernelIdeal.Gen

open Idealize.ShloMosaic Idealize.ShloMosaic.ValueIdx
open Idealize.ShloMosaic.SparseCore (S V T)
open Idealize.SL Idealize.SL.Sem

variable {F : FTy → Type} [FloatOps F] [Named F]

/-- The index array and the table: the first two arguments, as locations of device `d`. -/
abbrev idxLoc (d : Dev nD) : Loc nD τ sig := (SparseCore.T d).loc main_arg0
abbrev tblLoc (d : Dev nD) : Loc nD τ sig := (SparseCore.T d).loc main_arg1

/-- Fifty values added one after the other onto the zero word. -/
def poolF (t : Fin 50 → F .f32) : F .f32 :=
  Fin.foldl 50 (fun acc j => FloatOps.addf acc (t j)) (FloatOps.ofBits .f32 0x00000000#32)

/-- The batch row that is local row `r` of tile `(c, i)`. -/
def brow (c : Fin 2) (i : Fin 16) (r : Fin 32) : Fin 1024 := ⟨(2 * i.val + c.val) * 32 + r.val, by omega⟩

variable (m : (ℓ : Loc nD τ sig) → Buf (Elt F) ℓ)

/-- Entry `(p, e)` of the pooled sums: the table's column `e` summed over the rows batch row `p` names. -/
def pooledF (d : Dev nD) (p : Fin 1024) (e : Fin 70) : F .f32 :=
  poolF fun j : Fin 50 => (m (tblLoc d) : S100000x70.Idx → F .f32) (ix2 (Cert.Spec.row ((m (idxLoc d) : S1024x50.Idx → BitVec 32) (ix2 p j))) e)

/-- The padded table holds the table in its first 70 columns. -/
def Rtp (d : Dev nD) (tp : Buf (Elt F) (tpLoc d)) : Prop :=
  ∀ (r : Fin 100000) (e : Fin 70), (tp : S100000x128.Idx → F .f32) (ix2 r (e.castLE (by decide))) = (m (tblLoc d) : S100000x70.Idx → F .f32) (ix2 r e)

/-- Tile `(c, i)`'s 32 rows of the pooled array hold the pooled sums in their first 70 columns. -/
def Rpo (d : Dev nD) (c : Fin 2) (i : Fin 16) (f : Buf (Elt F) (poLoc d)) : Prop :=
  ∀ (r : Fin 32) (e : Fin 70), (f : S1024x128.Idx → F .f32) (ix2 (brow c i r) (e.castLE (by decide))) = pooledF m d (brow c i r) e

/-- The flat index array is the index array read row-major. -/
def IsFlat (d : Dev nD) (x : Buf (Elt F) (xLoc d)) : Prop :=
  ∀ (p : Fin 1024) (j : Fin 50), (x : S51200.Idx → BitVec 32) (ix1 ⟨p.val * 50 + j.val, by omega⟩) = (m (idxLoc d) : S1024x50.Idx → BitVec 32) (ix2 p j)

/-- Every index word names a table row. -/
def InRange : Prop :=
  ∀ (d : Dev nD) (j : S1024x50.Idx), 0 ≤ ((m (idxLoc d) : S1024x50.Idx → BitVec 32) j).toInt ∧ ((m (idxLoc d) : S1024x50.Idx → BitVec 32) j).toInt ≤ 99999

end Cert.Proof.KI

end
-- ==== Proof.Reg0Data.lean ====
/-
  The first TensorCore region: the table, transposed to [70, 100000], is read in blocks of 2048 columns and written,
  transposed back, into the first 70 columns of the padded table's blocks of 2048 rows (49 blocks; the last overhangs
  both arrays by 352 and is cut at their ends). The other 58 columns of each staging block are not stored: they go out
  as they happen to stand, so what the padded table ends holding is stated as a relation, not as a function.
-/
import proofs.«202962_g35424890258148_retrytranche2_417_11_alg».proof.Proof.Region
import proofs.«202962_g35424890258148_retrytranche2_417_11_alg».proof.Proof.TileSpec
import proofs.«202962_g35424890258148_retrytranche2_417_11_alg».proof.Proof.Gen.KernelIdeal.Points
import Idealize.ShloMosaic.Lib.ValueIdx

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- The transposed table and the padded table, as locations of device `d`. -/
abbrev ttLoc (d : Dev nD) : Loc nD τ sig := (SparseCore.T d).loc main_v1

variable (d : Dev nD) (Vv : (b : Ref sig .tc) → Buf (Elt F) ((SparseCore.T d : Thread nD τ).loc b))
  (O : CellTallies nD τ sig (HIx 1)) (Rec : Set (SemLoc sig × HIx 1))

/-- What the output window's staging block must hold after the body at point `t`: on the rows inside the array, in
    the first 70 columns, the transposed table's columns `2048 t + r`. -/
def out0Rel (t : Fin cfg0.N) (X : S2048x128.Idx → F .f32) : Prop :=
  ∀ (r : Fin 2048) (e : Fin 70) (h : 2048 * t.val + r.val < 100000),
    X (ix2 r (e.castLE (by decide))) = (Vv main_v1 : S70x100000.Idx → F .f32) (ix2 e ⟨2048 * t.val + r.val, h⟩)

/-- The region's proof data: the arrays as the region finds them; the input's staging buffer left as found, the
    output's satisfying `out0Rel`; the scoped buffers no window stages as the invariant; the TensorCore's debts to the
    SparseCore launch carried through unchanged. -/
def rd0 : Pipeline.RDat τ (Elt F) (HIx 1) ℕ UU ℕ cfg0 d where
  A w := Vv (Pipeline.arrRef spec0 w)
  after w t Y X := match w with
    | ⟨0, _⟩ => X = Y
    | ⟨1, _⟩ => out0Rel d Vv t X
  Φ _ := Pipeline.scopedRest spec0 d
  q _ := fullShare
  owed _ := O
  recorded _ := Rec

theorem rd0_A0 : (rd0 d Vv O Rec).A 0 = Vv main_v1 := rfl
theorem rd0_A1 : (rd0 d Vv O Rec).A 1 = Vv main_v2 := rfl
theorem rd0_after0 (t : Fin cfg0.N) (Y X) : (rd0 d Vv O Rec).after 0 t Y X = (X = Y) := rfl
theorem rd0_after1 (t : Fin cfg0.N) (Y X) : (rd0 d Vv O Rec).after 1 t Y X = out0Rel d Vv t X := rfl

end Cert.Proof.KI

end
-- ==== Proof.Reg0Body.lean ====
/-
  The first region's kernel body on whole staging buffers: it loads the input block [70, 2048] whole, transposes it,
  and stores the [2048, 70] result into the leading 70 columns of the output block [2048, 128]. Afterwards the input
  buffer is as it was and the output buffer holds, at row r and column e < 70, the input's entry (e, r); its other
  columns are as they were.
-/
import proofs.«202962_g35424890258148_retrytranche2_417_11_alg».proof.Proof.Reg0Data
import proofs.«202962_g35424890258148_retrytranche2_417_11_alg».proof.Proof.Gen.KernelIdeal.Skeleton
import Idealize.ShloMosaic.Lib.Tactic
import Idealize.ShloMosaic.Lib.Pipeline.Value
import Idealize.ShloMosaic.Lib.Writes

noncomputable section

namespace Cert.Proof.KI

open Cert.KernelIdeal Cert.KernelIdeal.Gen

open Idealize.ShloMosaic Idealize.ShloMosaic.ValueIdx
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The transposed block, entry by entry. -/
theorem k0_pay1_apply (v0 : Vec F S70x2048 .f32) (r : Fin 2048) (e : Fin 70) :
    k0_pay1 v0 (ix2 r e) = v0 (ix2 e r) := by
  unfold k0_pay1
  rw [transpose_apply _ _ _ (ix2 r e) (ix2 e r) (by
    intro a; match a with | ⟨0, _⟩ => rfl | ⟨1, _⟩ => rfl), shapeCast_self]

/-- The rectangle the body stores through: the leading 70 columns of the output block. -/
abbrev tpRect : Rect S2048x128 := Rect.unit (s := S2048x128) ![0, 0] S2048x70.size inb_S2048x128_S2048x70_0_0

theorem tpRect_emb (r : Fin 2048) (e : Fin 70) : tpRect.emb (ix2 r e : S2048x70.Idx) = (ix2 r (e.castLE (by decide)) : S2048x128.Idx) := by
  funext a
  refine Fin.ext ?_
  match a with
  | ⟨0, _⟩ => rw [Rect.emb_apply]; show 0 + 1 * r.val = r.val; omega
  | ⟨1, _⟩ => rw [Rect.emb_apply]; show 0 + 1 * e.val = e.val; omega

set_option maxHeartbeats 1000000 in
/-- The body's run. -/
theorem tp_body_run (c : Dev nD) (E : Set ℕ) (i : grid0.Coords) (arg1 : Memref sig .tc .vmem S70x2048 .f32) (harg1 : arg1.IsWhole)
    (arg2 : Memref sig .tc .vmem S2048x128 .f32) (harg2 : arg2.IsWhole)
    (x0 : Vec F S70x2048 .f32) (y : Vec F S2048x128 .f32) (Kk : PUnit → sProp 𝕄) :
    iprop(owns (c : Thread nD τ) arg1 fullShare x0 ∗ owns (c : Thread nD τ) arg2 fullShare y
        ∗ (iprop(owns (c : Thread nD τ) arg1 fullShare x0
            ∗ (∃ z : Vec F S2048x128 .f32, ⌜∀ (r : Fin 2048) (e : Fin 70), z (ix2 r (e.castLE (by decide))) = x0 (ix2 e r)⌝
                ∗ owns (c : Thread nD τ) arg2 fullShare z)) -∗ Kk ⟨⟩))
      ⊢ wp frame (wpE (defs₀ (F := F)) Variants.none c none) E (cc0__tp_body i arg1 harg1 arg2 harg2) Kk := by
  simp only [cc0__tp_body_eq_skeleton]; unfold cc0__tp_body_skel
  unfold owns
  iintro ⟨⟨%f0, %hf0, H0⟩, ⟨%f1, %hf1, H1⟩, Hk⟩
  subst hf0 hf1
  sl_exec
  sl_step
  iapply Hk
  isplitl [H0]
  · iexists f0; isplitr; · ipureintro; rfl
    iexact H0
  iexists _; isplitr
  swap
  · iexists _; isplitr
    swap; · iexact H1
    ipureintro; rfl
  ipureintro
  intro r e
  have hz : (![0, 0] : Fin 2 → Nat) = fun _ => 0 := funext fun a => by match a with | ⟨0, _⟩ => rfl | ⟨1, _⟩ => rfl
  rw [← tpRect_emb r e, View.read_writes_cons_emb, k0_pay1_apply, View.readAt_eq_ld, View.ld_unit_zero (S := S70x2048) hz]

end Cert.Proof.KI

end
-- ==== Proof.Reg0Sched.lean ====
/-
  The first region's schedule in closed form, decided over its 49 grid points: at point `t` the input window's block is
  columns `2048 t ..` of the transposed table and the output window's block is rows `2048 t ..` of the padded table;
  both transfers move `min 2048 (100000 - 2048 t)` of the 2048 (all but the last point: all of them) and every column
  of the other axis; the output window is never fetched and the input window never written back.
-/
import proofs.«202962_g35424890258148_retrytranche2_417_11_alg».proof.Proof.Reg0Data

noncomputable section

namespace Cert.Proof.KI

open Cert.KernelIdeal Cert.KernelIdeal.Gen

open Idealize.ShloMosaic
open Idealize.SL Idealize.SL.Sem

theorem idx0_0 : ∀ t : Fin cfg0.N, (cfg0.win 0).index t (0 : Fin 2) = 0 ∧ (cfg0.win 0).index t (1 : Fin 2) = t.val :=
  (by decide +kernel : ∀ t : Fin grid0.N, win0_0.index t (0 : Fin 2) = 0 ∧ win0_0.index t (1 : Fin 2) = t.val)
theorem idx0_1 : ∀ t : Fin cfg0.N, (cfg0.win 1).index t (0 : Fin 2) = t.val ∧ (cfg0.win 1).index t (1 : Fin 2) = 0 :=
  (by decide +kernel : ∀ t : Fin grid0.N, win0_1.index t (0 : Fin 2) = t.val ∧ win0_1.index t (1 : Fin 2) = 0)

theorem xs0_0 : ∀ t : Fin cfg0.N, (cfg0.win 0).xsize (cfg0.grid.coords t) (0 : Fin 2) = 70
    ∧ (cfg0.win 0).xsize (cfg0.grid.coords t) (1 : Fin 2) = min 2048 (100000 - 2048 * t.val) :=
  (by decide +kernel : ∀ t : Fin grid0.N, win0_0.xsize (grid0.coords t) (0 : Fin 2) = 70
    ∧ win0_0.xsize (grid0.coords t) (1 : Fin 2) = min 2048 (100000 - 2048 * t.val))
theorem xs0_1 : ∀ t : Fin cfg0.N, (cfg0.win 1).xsize (cfg0.grid.coords t) (0 : Fin 2) = min 2048 (100000 - 2048 * t.val)
    ∧ (cfg0.win 1).xsize (cfg0.grid.coords t) (1 : Fin 2) = 128 :=
  (by decide +kernel : ∀ t : Fin grid0.N, win0_1.xsize (grid0.coords t) (0 : Fin 2) = min 2048 (100000 - 2048 * t.val)
    ∧ win0_1.xsize (grid0.coords t) (1 : Fin 2) = 128)

theorem nofetch0_1 : ∀ t : Fin cfg0.N, (cfg0.win 1).fetch t = false :=
  (by decide +kernel : ∀ t : Fin grid0.N, win0_1.fetch t = false)
theorem noflush0_0 : ∀ t : Fin cfg0.N, (cfg0.win 0).flush t = false :=
  (by decide +kernel : ∀ t : Fin grid0.N, win0_0.flush t = false)

theorem N0_val : cfg0.N = 49 := N_0

end Cert.Proof.KI

end
-- ==== Proof.Reg0Obl.lean ====
/-
  The first region's body obligation: at every grid point the input window's buffer has just been fetched, so inside
  the array it holds the transposed table's block; the body's transposed store then puts, on the rows inside the array,
  the transposed table's columns into the output buffer's first 70 columns, which is what the proof data asks.
-/
import proofs.«202962_g35424890258148_retrytranche2_417_11_alg».proof.Proof.Reg0Body
import proofs.«202962_g35424890258148_retrytranche2_417_11_alg».proof.Proof.Reg0Sched

noncomputable section

namespace Cert.Proof.KI

open Cert.KernelIdeal Cert.KernelIdeal.Gen

open Idealize.ShloMosaic Idealize.ShloMosaic.ValueIdx
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (d : Dev nD) (Vv : (b : Ref sig .tc) → Buf (Elt F) ((SparseCore.T d : Thread nD τ).loc b))
  (O : CellTallies nD τ sig (HIx 1)) (Rec : Set (SemLoc sig × HIx 1))

/-- A just-fetched input buffer holds, at an entry whose column lies inside the array, the transposed table's entry. -/
theorem fetched0 (t : Fin cfg0.N) (dd : (cfg0.win 0).block.Idx → Elt F (cfg0.win 0).elt) (e : Fin 70) (r : Fin 2048)
    (h : 2048 * t.val + r.val < 100000) :
    (rd0 d Vv O Rec).fetched 0 t dd (ix2 e r) = (Vv main_v1 : S70x100000.Idx → F .f32) (ix2 e ⟨2048 * t.val + r.val, h⟩) := by
  have hm : (cfg0.win 0).moved (cfg0.grid.coords t) (ix2 e r) = true := by
    rw [Pipeline.Window.moved_iff]; intro a
    match a with
    | ⟨0, _⟩ =>
      show e.val < (cfg0.win 0).xsize (cfg0.grid.coords t) (0 : Fin 2)
      rw [(xs0_0 t).1]; exact e.isLt
    | ⟨1, _⟩ =>
      show r.val < (cfg0.win 0).xsize (cfg0.grid.coords t) (1 : Fin 2)
      rw [(xs0_0 t).2]; have := r.isLt; omega
  unfold Pipeline.RDat.fetched Pipeline.Window.fill
  rw [dif_pos hm]
  unfold Pipeline.RDat.blockOf
  show (Vv main_v1 : S70x100000.Idx → F .f32) (((cfg0.win 0).blk t).view.emb _) = _
  refine congrArg _ (funext fun a => Fin.ext ?_)
  match a with
  | ⟨0, _⟩ => show (cfg0.win 0).index t (0 : Fin 2) * 70 + 1 * e.val = e.val; rw [(idx0_0 t).1]; omega
  | ⟨1, _⟩ => show (cfg0.win 0).index t (1 : Fin 2) * 2048 + 1 * r.val = 2048 * t.val + r.val; rw [(idx0_0 t).2]; omega

/-- The body obligation at every point. -/
theorem body0 : (rd0 d Vv O Rec).BodyObligation (defs₀ (F := F)) 𝒱₀ (none : HIx 1) Set.univ := by
  intro t Y hY
  rw [bigSep_W0, bigSep_W0]
  obtain ⟨d0, hd0⟩ := ((rd0 d Vv O Rec).finds_of_fetch (fetch0_0 t) (Y 0)).mp (hY 0)
  rw [show (rd0 d Vv O Rec).Φ t.succ = (rd0 d Vv O Rec).Φ t.castSucc from rfl,
    show (rd0 d Vv O Rec).owesAt (none : HIx 1) t.succ = (rd0 d Vv O Rec).owesAt (none : HIx 1) t.castSucc from rfl]
  iintro ⟨HΦ, Ho, H0, H1⟩
  iapply (tp_body_run d Set.univ (grid0.coords t) (win0_0.stage (cfg0.slots t 0)) (hstage0_0 ((cfg0.slots t 0).cast nbuf0_0))
    (win0_1.stage (cfg0.slots t 1)) (hstage0_1 ((cfg0.slots t 1).cast nbuf0_1)) (Y 0) (Y 1) _)
  isplitl [H0]; · iexact H0
  isplitl [H1]; · iexact H1
  iintro ⟨H0, %z, %hz, H1⟩
  isplitl [HΦ]; · iexact HΦ
  isplitl [Ho]; · iexact Ho
  isplitl [H0]
  · iexists (Y 0); isplitr; · ipureintro; rfl
    iexact H0
  iexists z; isplitr
  · ipureintro
    show out0Rel d Vv t z
    intro r e h
    rw [hz r e, hd0, fetched0 d Vv O Rec t d0 e r h]
  iexact H1

end Cert.Proof.KI

end
-- ==== Proof.Reg0Arr.lean ====
/-
  What the padded table may hold after the first region's write-backs: after the points below `n`, every row below
  `2048 n` (and inside the array) holds the transposed table's column in its first 70 columns. Each write-back
  overwrites exactly the rows of its own block that lie inside the array, with a staging block that satisfies the
  proof data's relation; rows of earlier blocks are not touched.
-/
import proofs.«202962_g35424890258148_retrytranche2_417_11_alg».proof.Proof.Reg0Obl
import Idealize.ShloMosaic.Lib.Pipeline.Cells
import Idealize.ShloMosaic.Lib.Pipeline.Value

noncomputable section

namespace Cert.Proof.KI

open Cert.KernelIdeal Cert.KernelIdeal.Gen

open Idealize.ShloMosaic Idealize.ShloMosaic.ValueIdx
open Idealize.ShloMosaic.TcCoe
open Idealize.ShloMosaic.SparseCore.Cfg (HIx Pay)
open Idealize.SL Idealize.SL.Sem

variable {F : FTy → Type} [FloatOps F] [Named F]

variable (d : Dev nD) (Vv : (b : Ref sig .tc) → Buf (Elt F) ((SparseCore.T d : Thread nD τ).loc b))
  (O : CellTallies nD τ sig (HIx 1)) (Rec : Set (SemLoc sig × HIx 1))

/-- Rows below `2048 n` hold the transposed table. -/
def Filled0 (n : ℕ) (Fa : Buf (Elt F) ((SparseCore.T d : Thread nD τ).loc main_v2)) : Prop :=
  ∀ (r : Fin 100000) (e : Fin 70), r.val < 2048 * n →
    (Fa : S100000x128.Idx → F .f32) (ix2 r (e.castLE (by decide))) = (Vv main_v1 : S70x100000.Idx → F .f32) (ix2 e r)

theorem arrAt0_filled : ∀ (n : ℕ), n ≤ cfg0.N → ∀ Fa, (rd0 d Vv O Rec).ArrAt 1 n Fa → Filled0 d Vv n Fa
  | 0, _, Fa, _ => fun r e h => absurd h (by omega)
  | n + 1, hn, Fa, hF => by
    have hlt : n < cfg0.N := hn
    rw [Pipeline.RDat.ArrAt_succ (rd0 d Vv O Rec) 1 ⟨n, hlt⟩, if_pos (flush0_1 ⟨n, hlt⟩)] at hF
    obtain ⟨G₀, X, hG₀, ⟨Y, -, hX⟩, rfl⟩ := hF
    have ih := arrAt0_filled n (Nat.le_of_lt hlt) G₀ hG₀
    have hrel : out0Rel d Vv ⟨n, hlt⟩ X := hX
    intro r e hr
    have hN : cfg0.N = 49 := N0_val
    by_cases hlow : r.val < 2048 * n
    · -- a row of an earlier block: this write-back does not touch it
      rw [View.write_of_not_mem]
      · exact ih r e hlow
      · intro hmem
        rw [View.setOn_univ] at hmem
        obtain ⟨y, hy⟩ := View.exists_emb_of_mem_set _ hmem
        have h0 := congrArg (fun j : S100000x128.Idx => (j 0).val) hy
        have e0 : ((((cfg0.win 1).blk ⟨n, hlt⟩).view.emb y : S100000x128.Idx) 0).val = (cfg0.win 1).index ⟨n, hlt⟩ (0 : Fin 2) * 2048 + 1 * (y 0).val := rfl
        simp only [e0, (idx0_1 ⟨n, hlt⟩).1] at h0
        show False
        have : ((ix2 r (e.castLE (by decide)) : S100000x128.Idx) 0).val = r.val := rfl
        omega
    · -- a row of this block, inside the array
      have hr' : r.val - 2048 * n < 2048 := by omega
      have hx0 : r.val - 2048 * n < (cfg0.win 1).xsize (cfg0.grid.coords ⟨n, hlt⟩) (0 : Fin 2) := by
        rw [(xs0_1 ⟨n, hlt⟩).1]; have := r.isLt; show r.val - 2048 * n < min 2048 (100000 - 2048 * n); omega
      have hx1 : e.val < (cfg0.win 1).xsize (cfg0.grid.coords ⟨n, hlt⟩) (1 : Fin 2) := by
        rw [(xs0_1 ⟨n, hlt⟩).2]; have := e.isLt; omega
      let y : ((cfg0.win 1).xblock (cfg0.grid.coords ⟨n, hlt⟩)).Idx := fun a =>
        match a with
        | ⟨0, _⟩ => ⟨r.val - 2048 * n, hx0⟩
        | ⟨1, _⟩ => ⟨e.val, hx1⟩
      have hemb : (((cfg0.win 1).blk ⟨n, hlt⟩).view.emb y : S100000x128.Idx) = ix2 r (e.castLE (by decide)) := by
        funext a; refine Fin.ext ?_
        match a with
        | ⟨0, _⟩ =>
          show (cfg0.win 1).index ⟨n, hlt⟩ (0 : Fin 2) * 2048 + 1 * (r.val - 2048 * n) = r.val
          rw [(idx0_1 ⟨n, hlt⟩).1]; show n * 2048 + 1 * (r.val - 2048 * n) = r.val; omega
        | ⟨1, _⟩ =>
          show (cfg0.win 1).index ⟨n, hlt⟩ (1 : Fin 2) * 128 + 1 * e.val = e.val
          rw [(idx0_1 ⟨n, hlt⟩).2]; omega
      rw [← hemb, View.write_emb_of_mem _ _ (Finset.mem_univ y)]
      have hxr := hrel ⟨r.val - 2048 * n, hr'⟩ e (by show 2048 * n + (r.val - 2048 * n) < 100000; have := r.isLt; omega)
      show X ((cfg0.win 1).xinj (cfg0.grid.coords ⟨n, hlt⟩) y) = _
      have hxi : (cfg0.win 1).xinj (cfg0.grid.coords ⟨n, hlt⟩) y = (ix2 ⟨r.val - 2048 * n, hr'⟩ (e.castLE (by decide)) : S2048x128.Idx) := by
        funext a; refine Fin.ext ?_
        match a with
        | ⟨0, _⟩ => rfl
        | ⟨1, _⟩ => rfl
      rw [hxi, hxr]
      refine congrArg _ (congrArg (ix2 e) (Fin.ext ?_))
      show 2048 * n + (r.val - 2048 * n) = r.val
      omega

/-- After the whole region the padded table holds the transposed table in its first 70 columns. -/
theorem arrAt0_final (Fa) (hF : (rd0 d Vv O Rec).ArrAt 1 cfg0.N Fa) (r : Fin 100000) (e : Fin 70) :
    (Fa : S100000x128.Idx → F .f32) (ix2 r (e.castLE (by decide))) = (Vv main_v1 : S70x100000.Idx → F .f32) (ix2 e r) :=
  arrAt0_filled d Vv O Rec cfg0.N le_rfl Fa hF r e (by rw [N0_val]; have := r.isLt; omega)

end Cert.Proof.KI

end
-- ==== Proof.Reg0Seg.lean ====
/-
  The first region as a segment of @main: entered with the two windowed arrays at their entry contents and the
  TensorCore's debts to the SparseCore launch, left with the arrays at what the write-backs made of them and the
  same debts. The kernel has no semaphore of its own; the pipeline's waits on its staging cells sit at the index of
  no call, below everything the TensorCore owes the launch.
-/
import proofs.«202962_g35424890258148_retrytranche2_417_11_alg».proof.Proof.Reg0Arr

noncomputable section

namespace Cert.Proof.KI

open Cert.KernelIdeal Cert.KernelIdeal.Gen

open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig (HIx 1) (Elt F) ℕ UU ℕ

variable (Vv : (c : Dev nD) → (b : Ref sig .tc) → Buf (Elt F) ((SparseCore.T c : Thread nD τ).loc b))
  (O : Dev nD → CellTallies nD τ sig (HIx 1)) (Rec : Dev nD → Set (SemLoc sig × HIx 1))

/-- The proof data of both pipelines while the first region runs: the first's, and nothing for the second. -/
def fam0 : (p : Fin 2) → (c : Dev nD) → Pipeline.RDat τ (Elt F) (HIx 1) ℕ UU ℕ (Pipeline.pin (pcfgs (F := F)) adm p) c
  | ⟨0, _⟩ => fun c => rd0 c (Vv c) (O c) (Rec c)
  | ⟨1, _⟩ => fun _ => { A := fun _ => Classical.arbitrary _, after := fun _ _ _ _ => True, Φ := fun _ => iprop(emp), q := fun _ => fullShare, owed := fun _ => 0 }

theorem fam0_zero (c : Dev nD) : fam0 Vv O Rec 0 c = rd0 c (Vv c) (O c) (Rec c) := rfl

theorem bigSep_F0 {M : Type} [URA M] (Φ : Fin 0 → sProp M) : bigSep Finset.univ Φ = (BI.emp : sProp M) :=
  bigSep_univ_eq_bigSepL [] (by decide) (by decide) Φ

/-- The first region's segment. -/
def reg0 (hO : ∀ c g, O c g none = 0) :
    Pipeline.RDat.RegionSeg (pcfgs (F := F)) adm (fam0 Vv O Rec) (none : HIx 1) defs₀ 𝒱₀ (K (F := F)).L (K (F := F)).lev 0 where
  win := winFacts0.to₀
  block_pos := block_pos0
  stage_whole := stage_whole0
  K := PEmpty
  osem k := k.elim
  ho := Pipeline.OwnSemFacts.none _
  hbody c := body0 c (Vv c) (O c) (Rec c)
  hwaits c := Pipeline.RDat.cellsWaits_intro (Pipeline.pin (pcfgs (F := F)) adm) (fam0 Vv O Rec) (none : HIx 1) 0 c
    fun w s t => (K (F := F)).mayWait_none _ (hO c)
  pre c := iprop((rd0 c (Vv c) (O c) (Rec c)).arrays (rd0 c (Vv c) (O c) (Rec c)).A ∗ (rd0 c (Vv c) (O c) (Rec c)).owesAt (none : HIx 1) 0)
  post c := iprop((rd0 c (Vv c) (O c) (Rec c)).arraysAt cfg0.N ∗ (rd0 c (Vv c) (O c) (Rec c)).owesAt (none : HIx 1) (Fin.last cfg0.N))
  X _ := iprop(emp)
  Y _ := iprop(emp)
  Z _ := iprop(emp)
  hentry c := by
    rw [Pipeline.ownSems0_none]
    iintro ⟨⟨Ha, Ho⟩, -, -⟩
    imodintro
    isplitl [Ha]; · iexact Ha
    isplitr
    · unfold Pipeline.prefHeld; rw [bigSep_F0]; iempintro
    isplitl [Ho]; · iexact Ho
    isplitr <;> iempintro
  hin c := by
    rw [show (fam0 Vv O Rec 0 c).Φ 0 = Pipeline.scopedRest (Pipeline.pin (pcfgs (F := F)) adm 0).spec c from rfl]
    iintro ⟨-, -, H⟩; iexact H
  hout c := by
    rw [show (fam0 Vv O Rec 0 c).Φ (Fin.last (Pipeline.pin (pcfgs (F := F)) adm 0).N) = Pipeline.scopedRest (Pipeline.pin (pcfgs (F := F)) adm 0).spec c from rfl,
      Pipeline.ownSems0_none]
    iintro H
    isplitr; · iempintro
    isplitr; · iempintro
    iexact H
  hexit c := by
    iintro ⟨Ha, Ho, -, -⟩
    imodintro
    isplitl [Ha]; · iexact Ha
    iexact Ho

end Cert.Proof.KI

end
-- ==== Proof.Reg2Data.lean ====
/-
  The second TensorCore region: the projection. At grid point `t` (25 points) the body reads the transposed `W`'s
  block of 4096 columns [70, 4096], the whole pooled array [1024, 128] (fetched once, at the first point), the bias's
  block [1, 4096], and writes the output's block of 4096 rows [4096, 1024]: the product of the transposed-`W` block
  (contracted over its 70 rows) with the pooled array's first 70 columns scaled by the named 1/50, plus the bias down the
  rows. The last block overhangs the three moving arrays by 2400 and is cut at their ends.
  At a float instance where the matrix product is opaque nothing can be said of an output entry from the in-array
  data alone, so what an entry must satisfy is a parameter `Ent` (anything, for a frame; the extended-real sum, for the
  value), and the one fact about the body's arithmetic the region needs is the hypothesis `BodyOK2`.
-/
import proofs.«202962_g35424890258148_retrytranche2_417_11_alg».proof.Proof.Reg0Seg

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (d : Dev nD) (Vv : (b : Ref sig .tc) → Buf (Elt F) ((SparseCore.T d : Thread nD τ).loc b))
  (O : CellTallies nD τ sig (HIx 1)) (Rec : Set (SemLoc sig × HIx 1))
  (Ent : Fin 100000 → Fin 1024 → F .f32 → Prop)

/-- What the output window's staging block must hold after the body at point `t`: on the rows inside the array, every
    entry satisfies `Ent` at its row of the whole output. -/
def out2Rel (t : Fin cfg2.N) (X : S4096x1024.Idx → F .f32) : Prop :=
  ∀ (v : Fin 4096) (b : Fin 1024) (h : 4096 * t.val + v.val < 100000), Ent ⟨4096 * t.val + v.val, h⟩ b (X (ix2 v b))

/-- The region's proof data: the four arrays as the region finds them; the three inputs' staging buffers left as found,
    the output's satisfying `out2Rel`; the scoped buffers no window stages as the invariant; the TensorCore's debts
    carried through unchanged. -/
def rd2 : Pipeline.RDat τ (Elt F) (HIx 1) ℕ UU ℕ cfg2 d where
  A w := Vv (Pipeline.arrRef spec2 w)
  after w t Y X := match w with
    | ⟨0, _⟩ => X = Y
    | ⟨1, _⟩ => X = Y
    | ⟨2, _⟩ => X = Y
    | ⟨3, _⟩ => out2Rel Ent t X
  Φ _ := Pipeline.scopedRest spec2 d
  q _ := fullShare
  owed _ := O
  recorded _ := Rec

theorem rd2_A0 : (rd2 d Vv O Rec Ent).A 0 = Vv main_v4 := rfl
theorem rd2_A1 : (rd2 d Vv O Rec Ent).A 1 = Vv main_v3 := rfl
theorem rd2_A2 : (rd2 d Vv O Rec Ent).A 2 = Vv main_v5 := rfl
theorem rd2_A3 : (rd2 d Vv O Rec Ent).A 3 = Vv main_v6 := rfl

/-- The one fact about the body's arithmetic: whenever the transposed-`W` block and the bias block hold their arrays'
    entries at the columns inside the arrays (whatever they hold beyond), every entry of the body's result on a row
    inside the output satisfies `Ent`. -/
def BodyOK2 : Prop :=
  ∀ (t : Fin cfg2.N) (Y0 : S70x4096.Idx → F .f32) (Y2 : S1x4096.Idx → F .f32),
    (∀ (e : Fin 70) (v : Fin 4096) (h : 4096 * t.val + v.val < 100000),
      Y0 (ix2 e v) = (Vv main_v4 : S70x100000.Idx → F .f32) (ix2 e ⟨4096 * t.val + v.val, h⟩)) →
    (∀ (v : Fin 4096) (h : 4096 * t.val + v.val < 100000),
      Y2 (ix2 0 v) = (Vv main_v5 : S1x100000.Idx → F .f32) (ix2 0 ⟨4096 * t.val + v.val, h⟩)) →
    ∀ (v : Fin 4096) (b : Fin 1024) (h : 4096 * t.val + v.val < 100000),
      Ent ⟨4096 * t.val + v.val, h⟩ b (k2_pay1 (Vv main_v3 : S1024x128.Idx → F .f32) Y0 Y2 (ix2 v b))

end Cert.Proof.KI

end
-- ==== Proof.Main1.lean ====
/-
  Vocabulary for @main's proof on the TensorCore: its twelve arrays as separate whole-buffer assertions, a host
  operation's two buffers as the set the host rule asks for, and the TensorCore's debts to the SparseCore launch as a
  pipeline region carries them (recorded pairs bounded by a level, which the pipeline's own waits, at the index of no
  call, respect).
-/
import proofs.«202962_g35424890258148_retrytranche2_417_11_alg».proof.Proof.Reg2Data
import Idealize.ShloMosaic.Lib.StableHlo.Run

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F] [Named F]

local notation "𝕄" => MT nD τ sig (HIx 1) (Elt F) ℕ UU ℕ

/-- Array `b` of device `d` whole at `f`. -/
abbrev pt (d : Dev nD) (b : Ref sig .tc) (f : Buf (Elt F) ((SparseCore.T d : Thread nD τ).loc b)) : sProp 𝕄 :=
  (SparseCore.T d : Thread nD τ).loc b ↦{fullShare} f

/-- The TensorCore's unscoped buffers are @main's twelve arrays. -/
theorem unscopedBufs_eq12 (d : Dev nD) (W : (b : Ref sig .tc) → Buf (Elt F) ((d.tc : Thread nD τ).loc b)) :
    (unscopedBufs d W : sProp 𝕄)
      = iprop(pt d main_arg0 (W main_arg0) ∗ pt d main_arg1 (W main_arg1) ∗ pt d main_arg2 (W main_arg2) ∗ pt d main_arg3 (W main_arg3)
          ∗ pt d main_v0 (W main_v0) ∗ pt d main_v1 (W main_v1) ∗ pt d main_v2 (W main_v2) ∗ pt d main_v3 (W main_v3)
          ∗ pt d main_v4 (W main_v4) ∗ pt d main_v5 (W main_v5) ∗ pt d main_v6 (W main_v6) ∗ pt d main_v7 (W main_v7)) := by
  unfold unscopedBufs
  rw [show (Finset.univ.filter fun b : Ref sig .tc => ¬ b.isScoped)
      = {main_arg0, main_arg1, main_arg2, main_arg3, main_v0, main_v1, main_v2, main_v3, main_v4, main_v5, main_v6, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- A valuation that holds `fx` at `x` and `fy` at `y` (and `m` elsewhere). -/
def val2 (m : (ℓ : Loc nD τ sig) → Buf (Elt F) ℓ) (d : Dev nD) (x y : Ref sig .tc)
    (fx : Buf (Elt F) ((SparseCore.T d : Thread nD τ).loc x)) (fy : Buf (Elt F) ((SparseCore.T d : Thread nD τ).loc y)) : Valuation τ sig (Elt F) :=
  Function.update (Function.update (fun b => m (d, b)) (Proc.devRef .tc x) fx) (Proc.devRef .tc y) fy

theorem val2_y (m : (ℓ : Loc nD τ sig) → Buf (Elt F) ℓ) (d : Dev nD) (x y : Ref sig .tc) (fx fy) :
    val2 m d x y fx fy (Proc.devRef .tc y) = fy := Function.update_self _ _ _
theorem val2_x (m : (ℓ : Loc nD τ sig) → Buf (Elt F) ℓ) (d : Dev nD) (x y : Ref sig .tc) (fx fy)
    (h : (Proc.devRef .tc x : DevRef τ sig) ≠ Proc.devRef .tc y) :
    val2 m d x y fx fy (Proc.devRef .tc x) = fx := by
  unfold val2; rw [Function.update_of_ne h, Function.update_self]

/-- Two distinct arrays held as a set, at a valuation. -/
theorem held_pair (d : Dev nD) (x y : Ref sig .tc) (h : (Proc.devRef .tc x : DevRef τ sig) ≠ Proc.devRef .tc y) (W : Valuation τ sig (Elt F)) :
    (held (SparseCore.T d : Thread nD τ) {Proc.devRef .tc x, Proc.devRef .tc y} W : sProp 𝕄)
      = iprop(pt d x (W (Proc.devRef .tc x)) ∗ pt d y (W (Proc.devRef .tc y))) := by
  unfold held
  rw [SparseCore.bigSep_insert' (by simpa using h), bigSep_singleton]

/-- The pairs a pipeline region may record on the TensorCore of `d` before call `n`: at or below level `8 n`. -/
def recBelow (d : Dev nD) (n : ℕ) : Set (SemLoc sig × HIx 1) := {p | (K (F := F)).lev (SparseCore.T d, p.1) p.2 ≤ 8 * n}

/-- The TensorCore's debts as the launch states them are a pipeline point's, at the bound `recBelow` with the pipeline's own pairs; -/
theorem owesWithin_of_below (cfg : Pipeline.Cfg sig Λ₀) (d : Dev nD) (n : ℕ) (Ot : CellTallies nD τ sig (HIx 1)) :
    iprop(∃ W, ⌜(K (F := F)).WBelow (SparseCore.T d) W (8 * n)⌝ ∗ owes (SparseCore.T d : Thread nD τ) Ot W)
      ⊢ (Pipeline.owesWithin d Ot (recBelow (F := F) d n ∪ cfg.waitPairs (none : HIx 1)) : sProp 𝕄) := by
  iintro ⟨%W, %hW, HO⟩
  iexists W; isplitr
  · ipureintro; exact fun p hp => Or.inl (hW p hp)
  · iexact HO

/-- and back: the pipeline's own waits were recorded at the index of no call, whose level is zero. -/
theorem below_of_owesWithin (cfg : Pipeline.Cfg sig Λ₀) (d : Dev nD) (n : ℕ) (Ot : CellTallies nD τ sig (HIx 1)) :
    (Pipeline.owesWithin d Ot (recBelow (F := F) d n ∪ cfg.waitPairs (none : HIx 1)) : sProp 𝕄)
      ⊢ iprop(∃ W, ⌜(K (F := F)).WBelow (SparseCore.T d) W (8 * n)⌝ ∗ owes (SparseCore.T d : Thread nD τ) Ot W) := by
  iintro ⟨%W, %hW, HO⟩
  iexists W; isplitr
  · ipureintro
    intro p hp
    rcases hW hp with h | ⟨w, s, rfl⟩
    · exact h
    · rw [SparseCore.Cfg.lev_none]; exact Nat.zero_le _
  · iexact HO

end Cert.Proof.KI

end
-- ==== Proof.Main2.lean ====
/-
  One host operation of @main on the TensorCore inside the SparseCore program: a unary operation or a reshape from one
  array into another, both held whole; the source is unchanged and the target ends at the operation's value.
-/
import proofs.«202962_g35424890258148_retrytranche2_417_11_alg».proof.Proof.Main1

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F] [Named F]

local notation "𝕄" => MT nD τ sig (HIx 1) (Elt F) ℕ UU ℕ

variable (m : (ℓ : Loc nD τ sig) → Buf (Elt F) ℓ)

/-- A host operation `op` whose buffers are the two distinct arrays `x`, `y` and that writes `y` only. -/
theorem wp_host2 (d : Dev nD) (x y : Ref sig .tc) (op : HloOp τ sig (Elt F))
    (hxy : (Proc.devRef .tc x : DevRef τ sig) ≠ Proc.devRef .tc y)
    (hS : op.bufs ⊆ {Proc.devRef .tc x, Proc.devRef .tc y}) (hf : op.fresh = ∅)
    (hnw : (Proc.devRef .tc x : DevRef τ sig) ∉ op.writes)
    (fx : Buf (Elt F) ((SparseCore.T d : Thread nD τ).loc x)) (fy : Buf (Elt F) ((SparseCore.T d : Thread nD τ).loc y))
    (k : ((b : op.writes) → b.1.ty.Contents (Elt F)) → Prog (TpuEff nD τ sig (Elt F) (SparseCore.Sig (ΛP (F := F)) 1) .tc) PUnit)
    (Q : PUnit → sProp 𝕄) :
    iprop(boundary (SparseCore.T d : Thread nD τ) ∗ pt d x fx ∗ pt d y fy
        ∗ (iprop(boundary (SparseCore.T d : Thread nD τ) ∗ pt d x fx ∗ pt d y (op.result (val2 m d x y fx fy) (Proc.devRef .tc y)))
            -∗ wp frame (wpE ((K (F := F)).defs (D (F := F))) 𝒱 (SparseCore.T d) none) Set.univ (k (op.fn fun b => val2 m d x y fx fy b.1)) Q))
      ⊢ wp frame (wpE ((K (F := F)).defs (D (F := F))) 𝒱 (SparseCore.T d) none) Set.univ (hlo rfl op k) Q := by
  have ex : op.result (val2 m d x y fx fy) (Proc.devRef .tc x) = fx := by
    rw [op.result_of_not_mem _ hnw, val2_x m d x y fx fy hxy]
  have eh : (held (SparseCore.T d : Thread nD τ) {Proc.devRef .tc x, Proc.devRef .tc y} (op.result (val2 m d x y fx fy)) : sProp 𝕄)
      = iprop(pt d x fx ∗ pt d y (op.result (val2 m d x y fx fy) (Proc.devRef .tc y))) := by
    rw [held_pair d x y hxy, ex]
  have eh0 : (held (SparseCore.T d : Thread nD τ) {Proc.devRef .tc x, Proc.devRef .tc y} (val2 m d x y fx fy) : sProp 𝕄)
      = iprop(pt d x fx ∗ pt d y fy) := by
    rw [held_pair d x y hxy, val2_x m d x y fx fy hxy, val2_y]
  iintro ⟨Hb, Hx, Hy, Hk⟩
  iapply (wp_hlo_within 𝒱 (SparseCore.T d) none Set.univ (op := op) (S := {Proc.devRef .tc x, Proc.devRef .tc y}) hS
    (V := val2 m d x y fx fy) hf) $$ [Hb Hx Hy]
  · isplitl [Hb]; · iexact Hb
    iapply (Entails.of_eq eh0.symm)
    isplitl [Hx]; · iexact Hx
    iexact Hy
  iintro ⟨Hb, Hh⟩
  ihave Hh' := (Entails.of_eq eh) $$ Hh
  icases Hh' with ⟨Hx, Hy⟩
  iapply Hk
  isplitl [Hb]; · iexact Hb
  isplitl [Hx]; · iexact Hx
  iexact Hy

end Cert.Proof.KI

end
-- ==== Proof.Main3.lean ====
/-
  The first region's windowed arrays as @main's named arrays: at entry the transposed table and the padded table at
  the contents the region finds; at exit the transposed table as it was and the padded table at contents that hold the
  table in their first 70 columns.
-/
import proofs.«202962_g35424890258148_retrytranche2_417_11_alg».proof.Proof.Main2

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (d : Dev nD) (Vv : (b : Ref sig .tc) → Buf (Elt F) ((SparseCore.T d : Thread nD τ).loc b))
  (O : CellTallies nD τ sig (HIx 1)) (Rec : Set (SemLoc sig × HIx 1))

theorem rd0_share (w : Fin cfg0.W) : (rd0 d Vv O Rec).share w = fullShare := by
  unfold Pipeline.RDat.share; split <;> rfl

/-- At entry. -/
theorem arrays0_eq : ((rd0 d Vv O Rec).arrays (rd0 d Vv O Rec).A : sProp 𝕄) = iprop(pt d main_v1 (Vv main_v1) ∗ pt d main_v2 (Vv main_v2)) := by
  unfold Pipeline.RDat.arrays
  rw [bigSep_W0]
  simp only [rd0_share]
  rw [(arr_whole0 0).set_eq_univ, (arr_whole0 1).set_eq_univ]
  rfl

/-- At exit. -/
theorem arraysAt0_elim :
    ((rd0 d Vv O Rec).arraysAt cfg0.N : sProp 𝕄)
      ⊢ iprop(pt d main_v1 (Vv main_v1)
          ∗ ∃ tp : Buf (Elt F) ((SparseCore.T d : Thread nD τ).loc main_v2),
              ⌜∀ (r : Fin 100000) (e : Fin 70), (tp : S100000x128.Idx → F .f32) (ix2 r (e.castLE (by decide))) = (Vv main_v1 : S70x100000.Idx → F .f32) (ix2 e r)⌝
              ∗ pt d main_v2 tp) := by
  unfold Pipeline.RDat.arraysAt
  rw [bigSep_W0]
  simp only [rd0_share]
  rw [(arr_whole0 0).set_eq_univ, (arr_whole0 1).set_eq_univ]
  iintro ⟨⟨%F0, %h0, H0⟩, ⟨%F1, %h1, H1⟩⟩
  have e0 : F0 = Vv main_v1 := by
    have hin := Pipeline.RDat.ArrAt_in (rd0 d Vv O Rec) 0 (show (cfg0.win 0).isOut = false from rfl) cfg0.N
    rw [hin] at h0; exact h0
  subst e0
  isplitl [H0]; · iexact H0
  iexists F1; isplitr
  · ipureintro; exact arrAt0_final d Vv O Rec F1 h1
  · iexact H1

end Cert.Proof.KI

end
-- ==== Proof.Main4.lean ====
/-
  What @main computes on the TensorCore, step by step: the flat index array, the transposed table, the transposed
  `W` and the bias as a row are the host operations' values of the arguments; the two regions find the arrays at the
  valuations `Vv0` and `Vv2`; what @main leaves for the claim is the four arguments as they were and the result at the
  transpose of a projection output every entry of which satisfies `Ent`.
-/
import proofs.«202962_g35424890258148_retrytranche2_417_11_alg».proof.Proof.Main3

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- @main's five host operations. -/
abbrev opX : HloOp τ sig (Elt F) := StableHlo.reshape main_arg0 main_v0 rfl shapeCasts_S1024x50_S51200
abbrev opTT : HloOp τ sig (Elt F) := StableHlo.unary main_arg1 main_v1 ((transpose S70x100000 [1, 0] · transposes_S100000x70_S70x100000_1_0) : (⟨S100000x70, .f32⟩ : BufTy).Contents (Elt F) → (⟨S70x100000, .f32⟩ : BufTy).Contents (Elt F))
abbrev opWT : HloOp τ sig (Elt F) := StableHlo.unary main_arg2 main_v4 ((transpose S70x100000 [1, 0] · transposes_S100000x70_S70x100000_1_0) : (⟨S100000x70, .f32⟩ : BufTy).Contents (Elt F) → (⟨S70x100000, .f32⟩ : BufTy).Contents (Elt F))
abbrev opB2 : HloOp τ sig (Elt F) := StableHlo.reshape main_arg3 main_v5 rfl shapeCasts_S100000_S1x100000
abbrev opOut : HloOp τ sig (Elt F) := StableHlo.unary main_v6 main_v7 ((transpose S1024x100000 [1, 0] · transposes_S100000x1024_S1024x100000_1_0) : (⟨S100000x1024, .f32⟩ : BufTy).Contents (Elt F) → (⟨S1024x100000, .f32⟩ : BufTy).Contents (Elt F))

variable (m : (ℓ : Loc nD τ sig) → Buf (Elt F) ℓ)

/-- Array `b` of device `d` at launch. -/
abbrev mAt (d : Dev nD) (b : Ref sig .tc) : Buf (Elt F) ((SparseCore.T d : Thread nD τ).loc b) := m ((SparseCore.T d : Thread nD τ).loc b)

/-- The flat index array, the transposed table, the transposed `W`, the bias as a row: the operations' values. -/
def Xc (d : Dev nD) : Buf (Elt F) (xLoc d) :=
  (opX (F := F)).result (val2 m d main_arg0 main_v0 (mAt m d main_arg0) (mAt m d main_v0)) (Proc.devRef .tc main_v0)
def TTc (d : Dev nD) : Buf (Elt F) (ttLoc d) :=
  (opTT (F := F)).result (val2 m d main_arg1 main_v1 (mAt m d main_arg1) (mAt m d main_v1)) (Proc.devRef .tc main_v1)
def WTc (d : Dev nD) : Buf (Elt F) ((SparseCore.T d : Thread nD τ).loc main_v4) :=
  (opWT (F := F)).result (val2 m d main_arg2 main_v4 (mAt m d main_arg2) (mAt m d main_v4)) (Proc.devRef .tc main_v4)
def B2c (d : Dev nD) : Buf (Elt F) ((SparseCore.T d : Thread nD τ).loc main_v5) :=
  (opB2 (F := F)).result (val2 m d main_arg3 main_v5 (mAt m d main_arg3) (mAt m d main_v5)) (Proc.devRef .tc main_v5)

/-- The arrays as the first region finds them: the transposed table in place, the rest as at launch. -/
def Vv0 (d : Dev nD) : (b : Ref sig .tc) → Buf (Elt F) ((SparseCore.T d : Thread nD τ).loc b) :=
  Function.update (fun b => mAt m d b) main_v1 (TTc m d)

theorem Vv0_v1 (d : Dev nD) : Vv0 m d main_v1 = TTc m d := Function.update_self _ _ _
theorem Vv0_v2 (d : Dev nD) : Vv0 m d main_v2 = mAt m d main_v2 := Function.update_of_ne (by decide) _ _

/-- The arrays as the second region finds them: the transposed `W`, the pooled array at `P`, the bias row, the
    output as at launch. -/
def Vv2 (d : Dev nD) (P : Buf (Elt F) (poLoc d)) : (b : Ref sig .tc) → Buf (Elt F) ((SparseCore.T d : Thread nD τ).loc b) :=
  Function.update (Function.update (Function.update (fun b => mAt m d b) main_v4 (WTc m d)) main_v3 P) main_v5 (B2c m d)

theorem Vv2_v5 (d : Dev nD) (P) : Vv2 m d P main_v5 = B2c m d := Function.update_self _ _ _
theorem Vv2_v3 (d : Dev nD) (P) : Vv2 m d P main_v3 = P := by
  unfold Vv2; rw [Function.update_of_ne (by decide), Function.update_self]
theorem Vv2_v4 (d : Dev nD) (P) : Vv2 m d P main_v4 = WTc m d := by
  unfold Vv2; rw [Function.update_of_ne (by decide), Function.update_of_ne (by decide), Function.update_self]
theorem Vv2_v6 (d : Dev nD) (P) : Vv2 m d P main_v6 = mAt m d main_v6 := by
  unfold Vv2; rw [Function.update_of_ne (by decide), Function.update_of_ne (by decide), Function.update_of_ne (by decide)]

/-- What the TensorCore owes the launch sits at a call's index, never at the index of no call. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this
  omega

variable (Ent : Dev nD → Fin 100000 → Fin 1024 → F .f32 → Prop)

/-- What the result array holds at the end: the transpose of a projection output whose every entry satisfies `Ent`. -/
def ResOK (d : Dev nD) (g : Buf (Elt F) ((SparseCore.T d : Thread nD τ).loc main_v7)) : Prop :=
  ∃ f6 : Buf (Elt F) ((SparseCore.T d : Thread nD τ).loc main_v6),
    (∀ (v : Fin 100000) (b : Fin 1024), Ent d v b ((f6 : S100000x1024.Idx → F .f32) (ix2 v b)))
      ∧ g = (opOut (F := F)).result (val2 m d main_v6 main_v7 f6 (mAt m d main_v7)) (Proc.devRef .tc main_v7)

/-- What @main leaves the claim: the four arguments as at launch, the result satisfying `ResOK`. -/
def FIN (d : Dev nD) : sProp 𝕄 :=
  iprop(pt d main_arg0 (mAt m d main_arg0) ∗ pt d main_arg1 (mAt m d main_arg1) ∗ pt d main_arg2 (mAt m d main_arg2) ∗ pt d main_arg3 (mAt m d main_arg3)
    ∗ ∃ g, ⌜ResOK m Ent d g⌝ ∗ pt d main_v7 g)

end Cert.Proof.KI

end
-- ==== Proof.DealSets.lean ====
/-
  The tiles' pieces of the flat index array and of the pooled array, as sets of indices.

  Tile `(c, i)` is worker `w = 2 i + c`. Its index slice is the 1600 positions from `1600 w`; its row block is the 32
  rows from `32 w`, every column. Distinct tiles are distinct workers (`c < 2`), so their pieces are disjoint; every
  position `x < 51200` lies in worker `x / 1600`'s slice and every row `r < 1024` in worker `r / 32`'s block, so the
  pieces cover the two arrays. The tile's number `16 c + i` among the 32 is a bijection from the pairs `(c, i)`.
-/
import proofs.«202962_g35424890258148_retrytranche2_417_11_alg».proof.Proof.TileSpec
import Idealize.ShloMosaic.Lib.Transfers

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

/-- The tile's index slice and row block as sets of indices, by the pair `(c, i)`. -/
abbrev xSet (ci : Fin 2 × Fin 16) : Finset S51200.Idx := (xPiece ci.1 ci.2).view.set
abbrev poSet (ci : Fin 2 × Fin 16) : Finset S1024x128.Idx := (poPiece ci.1 ci.2).view.set

/-- A position lies in tile `(c, i)`'s slice exactly when it is one of the 1600 from `1600 (2 i + c)`. -/
theorem mem_xSet (c : Fin 2) (i : Fin 16) (j : S51200.Idx) :
    j ∈ (xPiece c i).view.set ↔ 1600 * (2 * i.val + c.val) ≤ (j 0).val ∧ (j 0).val < 1600 * (2 * i.val + c.val) + 1600 := by
  show j ∈ ((View.whole (main_v0_scv : Ref sig .scVector)).slice (Rect.unit (s := S51200) (k1_off1 (co c i)) S1600.size (k1_off1_inb (co c i)))).set ↔ _
  rw [View.set_slice, show ∀ t : Finset S51200.Idx, t.map (View.whole (main_v0_scv : Ref sig .scVector)).emb = t from fun _ => Finset.map_refl,
    Rect.mem_set_unit, k1_off1_eq]
  show (∀ a : Fin 1, (![3200 * i.val + 1600 * c.val] : Fin 1 → Nat) a ≤ (j a).val
      ∧ (j a).val < (![3200 * i.val + 1600 * c.val] : Fin 1 → Nat) a + (![1600] : Fin 1 → Nat) a) ↔ _
  rw [Fin.forall_fin_one]
  show (3200 * i.val + 1600 * c.val ≤ (j 0).val ∧ (j 0).val < 3200 * i.val + 1600 * c.val + 1600) ↔ _
  omega

/-- An index lies in tile `(c, i)`'s row block exactly when its row is one of the 32 from `32 (2 i + c)`. -/
theorem mem_poSet (c : Fin 2) (i : Fin 16) (j : S1024x128.Idx) :
    j ∈ (poPiece c i).view.set ↔ 32 * (2 * i.val + c.val) ≤ (j 0).val ∧ (j 0).val < 32 * (2 * i.val + c.val) + 32 := by
  show j ∈ ((View.whole (main_v3_scv : Ref sig .scVector)).slice (Rect.unit (s := S1024x128) (k1_off162 (co c i)) S32x128.size (k1_off162_inb (co c i)))).set ↔ _
  rw [View.set_slice, show ∀ t : Finset S1024x128.Idx, t.map (View.whole (main_v3_scv : Ref sig .scVector)).emb = t from fun _ => Finset.map_refl,
    Rect.mem_set_unit, k1_off162_eq]
  show (∀ a : Fin 2, (![64 * i.val + 32 * c.val, 0] : Fin 2 → Nat) a ≤ (j a).val
      ∧ (j a).val < (![64 * i.val + 32 * c.val, 0] : Fin 2 → Nat) a + (![32, 128] : Fin 2 → Nat) a) ↔ _
  rw [Fin.forall_fin_two]
  have h1 : (j 1).val < 128 := (j 1).isLt
  show ((64 * i.val + 32 * c.val ≤ (j 0).val ∧ (j 0).val < 64 * i.val + 32 * c.val + 32) ∧ (0 ≤ (j 1).val ∧ (j 1).val < 0 + 128)) ↔ _
  omega

theorem xSet_disjoint : ∀ a ∈ (Finset.univ : Finset (Fin 2 × Fin 16)), ∀ b ∈ (Finset.univ : Finset (Fin 2 × Fin 16)),
    a ≠ b → Disjoint (xSet a) (xSet b) := by
  rintro ⟨c, i⟩ - ⟨c', i'⟩ - hne
  refine Finset.disjoint_left.mpr fun j h1 h2 => hne ?_
  have e1 := (mem_xSet c i j).1 h1
  have e2 := (mem_xSet c' i' j).1 h2
  have := c.isLt; have := c'.isLt
  exact Prod.ext (Fin.ext (by show c.val = c'.val; omega)) (Fin.ext (by show i.val = i'.val; omega))

theorem poSet_disjoint : ∀ a ∈ (Finset.univ : Finset (Fin 2 × Fin 16)), ∀ b ∈ (Finset.univ : Finset (Fin 2 × Fin 16)),
    a ≠ b → Disjoint (poSet a) (poSet b) := by
  rintro ⟨c, i⟩ - ⟨c', i'⟩ - hne
  refine Finset.disjoint_left.mpr fun j h1 h2 => hne ?_
  have e1 := (mem_poSet c i j).1 h1
  have e2 := (mem_poSet c' i' j).1 h2
  have := c.isLt; have := c'.isLt
  exact Prod.ext (Fin.ext (by show c.val = c'.val; omega)) (Fin.ext (by show i.val = i'.val; omega))

theorem xSet_cover : (Finset.univ : Finset (Fin 2 × Fin 16)).biUnion xSet = Finset.univ := by
  ext j
  simp only [Finset.mem_biUnion, Finset.mem_univ, true_and, iff_true]
  have hj : (j 0).val < 51200 := (j 0).isLt
  refine ⟨((⟨(j 0).val / 1600 % 2, by omega⟩ : Fin 2), (⟨(j 0).val / 1600 / 2, by omega⟩ : Fin 16)), (mem_xSet _ _ j).2 ?_⟩
  show 1600 * (2 * ((j 0).val / 1600 / 2) + (j 0).val / 1600 % 2) ≤ (j 0).val
    ∧ (j 0).val < 1600 * (2 * ((j 0).val / 1600 / 2) + (j 0).val / 1600 % 2) + 1600
  omega

theorem poSet_cover : (Finset.univ : Finset (Fin 2 × Fin 16)).biUnion poSet = Finset.univ := by
  ext j
  simp only [Finset.mem_biUnion, Finset.mem_univ, true_and, iff_true]
  have hj : (j 0).val < 1024 := (j 0).isLt
  refine ⟨((⟨(j 0).val / 32 % 2, by omega⟩ : Fin 2), (⟨(j 0).val / 32 / 2, by omega⟩ : Fin 16)), (mem_poSet _ _ j).2 ?_⟩
  show 32 * (2 * ((j 0).val / 32 / 2) + (j 0).val / 32 % 2) ≤ (j 0).val
    ∧ (j 0).val < 32 * (2 * ((j 0).val / 32 / 2) + (j 0).val / 32 % 2) + 32
  omega

/-- The tile's number among the 32 is a bijection from the pairs `(c, i)`. -/
def tileEquiv : Fin 2 × Fin 16 ≃ Fin 32 where
  toFun ci := tileNo ci.1 ci.2
  invFun k := (⟨k.val / 16, by have := k.isLt; omega⟩, ⟨k.val % 16, by omega⟩)
  left_inv := by
    rintro ⟨c, i⟩
    have := c.isLt; have := i.isLt
    exact Prod.ext (Fin.ext (by show (c.val * 16 + i.val) / 16 = c.val; omega)) (Fin.ext (by show (c.val * 16 + i.val) % 16 = i.val; omega))
  right_inv := by
    intro k
    exact Fin.ext (by show k.val / 16 * 16 + k.val % 16 = k.val; omega)

end Cert.Proof.KI

end
-- ==== Proof.DealSplit.lean ====
/-
  The whole arrays as their tiles' pieces, and the padded table as 32 read shares.

  A points-to on a whole array is the separating conjunction of the points-tos on the pieces of a partition of its
  indices; a points-to at the full share splits into a remainder and one read share per tile, and the tiles' numbers
  run over the 32 shares once each.
-/
import proofs.«202962_g35424890258148_retrytranche2_417_11_alg».proof.Proof.DealSets

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

variable {F : FTy → Type} [FloatOps F] [Named F]

local notation "𝕄" => MT nD τ sig (HIx 1) (Elt F) ℕ UU ℕ

/-- The flat index array whole is its 32 slices. -/
theorem xPts_pieces (d : Dev nD) (f : Buf (Elt F) (xLoc d)) :
    (xLoc d ↦{fullShare} f : sProp 𝕄) = bigSep Finset.univ fun ci : Fin 2 × Fin 16 => xLoc d ↦[xSet ci]{fullShare} f := by
  rw [← pointsTo_biUnion Finset.univ (ℓ := xLoc d) xSet xSet_disjoint, xSet_cover]; try rfl

/-- The pooled array whole is its 32 row blocks. -/
theorem poPts_pieces (d : Dev nD) (f : Buf (Elt F) (poLoc d)) :
    (poLoc d ↦{fullShare} f : sProp 𝕄) = bigSep Finset.univ fun ci : Fin 2 × Fin 16 => poLoc d ↦[poSet ci]{fullShare} f := by
  rw [← pointsTo_biUnion Finset.univ (ℓ := poLoc d) poSet poSet_disjoint, poSet_cover]; try rfl

/-- A conjunction over the SparseCores of conjunctions over their tiles is one over the pairs `(c, i)`. -/
theorem bigSep_tiles (Φ : Fin 2 → Fin 16 → sProp 𝕄) :
    (bigSep Finset.univ fun c : Fin ((K (F := F)).nCore 0) => bigSep Finset.univ fun i : Fin ((K (F := F)).nSub 0) =>
        Φ (Fin.cast nCore_zero c) (Fin.cast nSub_zero i))
      = bigSep Finset.univ fun ci : Fin 2 × Fin 16 => Φ ci.1 ci.2 :=
  (bigSep_univ_prod (fun ci : Fin 2 × Fin 16 => Φ ci.1 ci.2)).symm

/-- The padded table whole goes out as one read share per tile, each at the same contents. -/
theorem tp_shares (Rtp : (d : Dev nD) → Buf (Elt F) (tpLoc d) → Prop) (d : Dev nD) (tp : Buf (Elt F) (tpLoc d)) (htp : Rtp d tp) :
    (tpLoc d ↦{fullShare} tp : sProp 𝕄)
      ⊢ bigSep Finset.univ fun ci : Fin 2 × Fin 16 => iprop(∃ tp, ⌜Rtp d tp⌝ ∗ tpLoc d ↦{shareTok fullShare 32 (tileNo ci.1 ci.2)} tp) := by
  refine (Transfers.pointsTo_toks_split fullShare 32).trans ?_
  rw [bigSep_univ_equiv tileEquiv (fun k : Fin 32 => (tpLoc d ↦{shareTok fullShare 32 k} tp : sProp 𝕄))]
  refine (show iprop((tpLoc d ↦{Transfers.shareDrop fullShare 32} tp) ∗ bigSep Finset.univ fun ci : Fin 2 × Fin 16 =>
      (tpLoc d ↦{shareTok fullShare 32 (tileEquiv ci)} tp : sProp 𝕄)) ⊢ bigSep Finset.univ fun ci : Fin 2 × Fin 16 =>
      (tpLoc d ↦{shareTok fullShare 32 (tileEquiv ci)} tp : sProp 𝕄) from by iintro ⟨-, H⟩; iexact H).trans ?_
  refine bigSep_mono fun ci _ => ?_
  show (tpLoc d ↦{shareTok fullShare 32 (tileNo ci.1 ci.2)} tp : sProp 𝕄)
    ⊢ iprop(∃ tp', ⌜Rtp d tp'⌝ ∗ tpLoc d ↦{shareTok fullShare 32 (tileNo ci.1 ci.2)} tp')
  iintro H
  iexists tp
  isplitr
  · ipureintro; exact htp
  · iexact H

/-- The pooled array's row blocks, each held at given contents, are each held at some contents. -/
theorem po_blocks_some (d : Dev nD) (f0 : Buf (Elt F) (poLoc d)) :
    (bigSep Finset.univ fun ci : Fin 2 × Fin 16 => (poLoc d ↦[poSet ci]{fullShare} f0 : sProp 𝕄))
      ⊢ bigSep Finset.univ fun ci : Fin 2 × Fin 16 => iprop(∃ f, poLoc d ↦[poSet ci]{fullShare} f) := by
  refine bigSep_mono fun ci _ => ?_
  show (poLoc d ↦[poSet ci]{fullShare} f0 : sProp 𝕄) ⊢ iprop(∃ f, poLoc d ↦[poSet ci]{fullShare} f)
  iintro H
  iexists f0
  iexact H

/-- The row blocks, each at contents of its own with a fact of its own, join into the whole array at contents that agree
    with each block's on that block's indices. -/
theorem po_blocks_join (d : Dev nD) (R : Fin 2 × Fin 16 → Buf (Elt F) (poLoc d) → Prop) :
    (bigSep Finset.univ fun ci : Fin 2 × Fin 16 => iprop(∃ f, ⌜R ci f⌝ ∗ poLoc d ↦[poSet ci]{fullShare} f))
      ⊢ (iprop(∃ (fs : Fin 2 × Fin 16 → Buf (Elt F) (poLoc d)) (g : Buf (Elt F) (poLoc d)),
          ⌜(∀ ci, R ci (fs ci)) ∧ ∀ ci, ∀ j ∈ poSet ci, g j = fs ci j⌝ ∗ poLoc d ↦{fullShare} g) : sProp 𝕄) := by
  refine (bigSep_exists_pi Finset.univ (fun (ci : Fin 2 × Fin 16) (f : Buf (Elt F) (poLoc d)) =>
      iprop(⌜R ci f⌝ ∗ poLoc d ↦[poSet ci]{fullShare} f))).trans ?_
  iintro ⟨%fs, H⟩
  ihave H1 := (bigSep_pure_sep Finset.univ (fun ci : Fin 2 × Fin 16 => R ci (fs ci))
      (fun ci : Fin 2 × Fin 16 => (poLoc d ↦[poSet ci]{fullShare} fs ci : sProp 𝕄))) $$ H
  icases H1 with ⟨%hR, H2⟩
  ihave H3 := (pointsTo_biUnion_join Finset.univ poSet fs (fs (0, 0)) poSet_disjoint) $$ H2
  icases H3 with ⟨%g, %hg, Hg⟩
  rw [poSet_cover]
  iexists fs
  iexists g
  isplitr
  · ipureintro
    exact ⟨fun ci => hR ci (Finset.mem_univ _), fun ci => hg ci (Finset.mem_univ _)⟩
  · iexact Hg

end Cert.Proof.KI

end
-- ==== Proof.Deal.lean ====
/-
  Dealing the SparseCore call's operands to its 32 tiles and gathering their results.

  The 32 index slices (1600 words each, worker `2 i + c` at offset `1600 (2 i + c)`) partition the flat index array;
  the 32 row blocks (32 rows each, at row `32 (2 i + c)`) partition the pooled array; the padded table is read by every
  tile and goes out as 32 read shares. The tiles' row blocks come back each at contents of its own; they join into one
  array, which satisfies every tile's relation because each relation reads only its own tile's rows.
-/
import proofs.«202962_g35424890258148_retrytranche2_417_11_alg».proof.Proof.TileSpec
import proofs.«202962_g35424890258148_retrytranche2_417_11_alg».proof.Proof.DealSplit
import Idealize.ShloMosaic.Lib.Transfers

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (X : (d : Dev nD) → Buf (Elt F) (xLoc d))

/-- The three arrays whole, the padded table holding the table, deal every SparseCore of the call its share. -/
theorem deal (d : Dev nD) (tp : Buf (Elt F) (tpLoc d)) (htp : Rtp m d tp) (f0 : Buf (Elt F) (poLoc d)) :
    iprop((xLoc d ↦{fullShare} X d) ∗ (tpLoc d ↦{fullShare} tp) ∗ (poLoc d ↦{fullShare} f0))
      ⊢ (bigSep Finset.univ fun c : Fin ((K (F := F)).nCore 0) => (P X (Rtp m) (Rpo m)).st 0 d c : sProp 𝕄) := by
  show _ ⊢ (bigSep Finset.univ fun c : Fin ((K (F := F)).nCore 0) => bigSep Finset.univ fun i : Fin ((K (F := F)).nSub 0) =>
      goRes X (Rtp m) d (Fin.cast nCore_zero c) (Fin.cast nSub_zero i))
  rw [bigSep_tiles (F := F) (fun c i => goRes X (Rtp m) d c i)]
  unfold goRes
  rw [bigSep_sep', bigSep_sep', xPts_pieces, poPts_pieces]
  iintro ⟨Hx, Htp, Hpo⟩
  isplitl [Hx]; · iexact Hx
  isplitl [Htp]
  · iapply (tp_shares (F := F) (Rtp m) d tp htp); iexact Htp
  · iapply (po_blocks_some (F := F) d f0); iexact Hpo

/-- What the SparseCores hand back joins into the pooled array whole, at contents satisfying every tile's relation. -/
theorem gather (d : Dev nD) :
    (bigSep Finset.univ fun c : Fin ((K (F := F)).nCore 0) => (P X (Rtp m) (Rpo m)).dn 0 d c : sProp 𝕄)
      ⊢ iprop(∃ g : Buf (Elt F) (poLoc d), ⌜∀ (c : Fin 2) (i : Fin 16), Rpo m d c i g⌝ ∗ poLoc d ↦{fullShare} g) := by
  show (bigSep Finset.univ fun c : Fin ((K (F := F)).nCore 0) => bigSep Finset.univ fun i : Fin ((K (F := F)).nSub 0) =>
      tdRes (Rpo m) d (Fin.cast nCore_zero c) (Fin.cast nSub_zero i)) ⊢ _
  rw [bigSep_tiles (F := F) (fun c i => tdRes (Rpo m) d c i)]
  unfold tdRes
  refine (po_blocks_join (F := F) d (fun ci f => Rpo m d ci.1 ci.2 f)).trans ?_
  iintro ⟨%fs, %g, %h, Hg⟩
  iexists g
  isplitr
  · ipureintro
    intro c i r e
    have hmem : (ix2 (brow c i r) (e.castLE (by decide)) : S1024x128.Idx) ∈ poSet (c, i) := by
      refine (mem_poSet c i _).2 ?_
      have := r.isLt
      show 32 * (2 * i.val + c.val) ≤ (2 * i.val + c.val) * 32 + r.val ∧ (2 * i.val + c.val) * 32 + r.val < 32 * (2 * i.val + c.val) + 32
      omega
    rw [h.2 (c, i) _ hmem]
    exact h.1 (c, i) r e
  · iexact Hg

end Cert.Proof.KI

end
-- ==== Proof.Reg2Body.lean ====
/-
  The second region's kernel body on whole staging buffers: it loads the pooled array's block [1024, 128], the
  transposed-weights block [70, 4096] and the bias block [1, 4096] whole, loads the output block [4096, 1024] whole
  (the value is not used), and stores the projection of the three loaded blocks into all of the output block.
  Afterwards the three input buffers are as they were and the output buffer holds that projection, entry by entry.
-/
import proofs.«202962_g35424890258148_retrytranche2_417_11_alg».proof.Proof.Reg2Data
import proofs.«202962_g35424890258148_retrytranche2_417_11_alg».proof.Proof.Gen.KernelIdeal.Skeleton
import Idealize.ShloMosaic.Lib.Tactic
import Idealize.ShloMosaic.Lib.Pipeline.Value
import Idealize.ShloMosaic.Lib.Writes

noncomputable section

namespace Cert.Proof.KI

open Cert.KernelIdeal Cert.KernelIdeal.Gen

open Idealize.ShloMosaic Idealize.ShloMosaic.ValueIdx
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The whole-shape rectangle at zero offsets (however the zeros are spelt) embeds every index as itself. -/
theorem emb_unit_zero {S : Shape} {off : Fin S.rank → Nat} (h : off = fun _ => 0) (inb : ∀ a, off a + S.size a ≤ S.size a)
    (y : S.Idx) : (Rect.unit off S.size inb).emb y = y := by
  subst h; show (Rect.whole S).emb y = y; rw [Rect.emb_whole_apply]

set_option maxHeartbeats 1000000 in
/-- The body's run. -/
theorem mm_body_run (c : Dev nD) (E : Set ℕ) (i : grid2.Coords)
    (arg1 : Memref sig .tc .vmem S70x4096 .f32) (harg1 : arg1.IsWhole)
    (arg2 : Memref sig .tc .vmem S1024x128 .f32) (harg2 : arg2.IsWhole)
    (arg3 : Memref sig .tc .vmem S1x4096 .f32) (harg3 : arg3.IsWhole)
    (arg4 : Memref sig .tc .vmem S4096x1024 .f32) (harg4 : arg4.IsWhole)
    (x0 : Vec F S70x4096 .f32) (x1 : Vec F S1024x128 .f32) (x2 : Vec F S1x4096 .f32) (y : Vec F S4096x1024 .f32)
    (Kk : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare y
        ∗ (iprop(owns (c : Thread nD τ) arg1 fullShare x0 ∗ owns (c : Thread nD τ) arg2 fullShare x1
            ∗ owns (c : Thread nD τ) arg3 fullShare x2
            ∗ owns (c : Thread nD τ) arg4 fullShare (k2_pay1 x1 x0 x2 : Vec F S4096x1024 .f32)) -∗ Kk ⟨⟩))
      ⊢ wp frame (wpE (defs₀ (F := F)) Variants.none c none) E (cc2__mm_body i arg1 harg1 arg2 harg2 arg3 harg3 arg4 harg4) Kk := by
  simp only [cc2__mm_body_eq_skeleton]; unfold cc2__mm_body_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have hz : (![0, 0] : Fin 2 → Nat) = fun _ => 0 := funext fun a => by match a with | ⟨0, _⟩ => rfl | ⟨1, _⟩ => rfl
  rw [View.readAt_eq_ld, View.readAt_eq_ld, View.readAt_eq_ld, View.ld_unit_zero (S := S1024x128) hz,
    View.ld_unit_zero (S := S70x4096) hz, View.ld_unit_zero (S := S1x4096) hz]
  funext y
  have hy : (Rect.unit (s := S4096x1024) ![0, 0] S4096x1024.size inb_S4096x1024_S4096x1024_0_0).emb y = y :=
    emb_unit_zero hz _ y
  conv_lhs => rw [← hy]
  rw [View.read_writes_cons_emb]

end Cert.Proof.KI

end
-- ==== Proof.Reg2Sched.lean ====
/-
  The second region's schedule in closed form, decided over its 25 grid points: at point `t` the transposed-weights
  window's block is columns `4096 t ..` of its array, the bias window's block is columns `4096 t ..` of the bias row,
  and the output window's block is rows `4096 t ..` of the output; the three transfers move
  `min 4096 (100000 - 4096 t)` of the 4096 (all but the last point: all of them) and every index of the other axis.
  The pooled array's window is the whole array at every point: block index (0, 0), never cut. The output window is
  never fetched, and no input window is ever written back.
-/
import proofs.«202962_g35424890258148_retrytranche2_417_11_alg».proof.Proof.Reg2Data

noncomputable section

namespace Cert.Proof.KI

open Cert.KernelIdeal Cert.KernelIdeal.Gen

open Idealize.ShloMosaic
open Idealize.SL Idealize.SL.Sem

theorem idx2_0 : ∀ t : Fin cfg2.N, (cfg2.win 0).index t (0 : Fin 2) = 0 ∧ (cfg2.win 0).index t (1 : Fin 2) = t.val :=
  (by decide +kernel : ∀ t : Fin grid2.N, win2_0.index t (0 : Fin 2) = 0 ∧ win2_0.index t (1 : Fin 2) = t.val)
theorem idx2_1 : ∀ t : Fin cfg2.N, (cfg2.win 1).index t (0 : Fin 2) = 0 ∧ (cfg2.win 1).index t (1 : Fin 2) = 0 :=
  (by decide +kernel : ∀ t : Fin grid2.N, win2_1.index t (0 : Fin 2) = 0 ∧ win2_1.index t (1 : Fin 2) = 0)
theorem idx2_2 : ∀ t : Fin cfg2.N, (cfg2.win 2).index t (0 : Fin 2) = 0 ∧ (cfg2.win 2).index t (1 : Fin 2) = t.val :=
  (by decide +kernel : ∀ t : Fin grid2.N, win2_2.index t (0 : Fin 2) = 0 ∧ win2_2.index t (1 : Fin 2) = t.val)
theorem idx2_3 : ∀ t : Fin cfg2.N, (cfg2.win 3).index t (0 : Fin 2) = t.val ∧ (cfg2.win 3).index t (1 : Fin 2) = 0 :=
  (by decide +kernel : ∀ t : Fin grid2.N, win2_3.index t (0 : Fin 2) = t.val ∧ win2_3.index t (1 : Fin 2) = 0)

theorem xs2_0 : ∀ t : Fin cfg2.N, (cfg2.win 0).xsize (cfg2.grid.coords t) (0 : Fin 2) = 70
    ∧ (cfg2.win 0).xsize (cfg2.grid.coords t) (1 : Fin 2) = min 4096 (100000 - 4096 * t.val) :=
  (by decide +kernel : ∀ t : Fin grid2.N, win2_0.xsize (grid2.coords t) (0 : Fin 2) = 70
    ∧ win2_0.xsize (grid2.coords t) (1 : Fin 2) = min 4096 (100000 - 4096 * t.val))
theorem xs2_1 : ∀ t : Fin cfg2.N, (cfg2.win 1).xsize (cfg2.grid.coords t) (0 : Fin 2) = 1024
    ∧ (cfg2.win 1).xsize (cfg2.grid.coords t) (1 : Fin 2) = 128 :=
  (by decide +kernel : ∀ t : Fin grid2.N, win2_1.xsize (grid2.coords t) (0 : Fin 2) = 1024
    ∧ win2_1.xsize (grid2.coords t) (1 : Fin 2) = 128)
theorem xs2_2 : ∀ t : Fin cfg2.N, (cfg2.win 2).xsize (cfg2.grid.coords t) (0 : Fin 2) = 1
    ∧ (cfg2.win 2).xsize (cfg2.grid.coords t) (1 : Fin 2) = min 4096 (100000 - 4096 * t.val) :=
  (by decide +kernel : ∀ t : Fin grid2.N, win2_2.xsize (grid2.coords t) (0 : Fin 2) = 1
    ∧ win2_2.xsize (grid2.coords t) (1 : Fin 2) = min 4096 (100000 - 4096 * t.val))
theorem xs2_3 : ∀ t : Fin cfg2.N, (cfg2.win 3).xsize (cfg2.grid.coords t) (0 : Fin 2) = min 4096 (100000 - 4096 * t.val)
    ∧ (cfg2.win 3).xsize (cfg2.grid.coords t) (1 : Fin 2) = 1024 :=
  (by decide +kernel : ∀ t : Fin grid2.N, win2_3.xsize (grid2.coords t) (0 : Fin 2) = min 4096 (100000 - 4096 * t.val)
    ∧ win2_3.xsize (grid2.coords t) (1 : Fin 2) = 1024)

theorem nofetch2_3 : ∀ t : Fin cfg2.N, (cfg2.win 3).fetch t = false :=
  (by decide +kernel : ∀ t : Fin grid2.N, win2_3.fetch t = false)
theorem noflush2_0 : ∀ t : Fin cfg2.N, (cfg2.win 0).flush t = false :=
  (by decide +kernel : ∀ t : Fin grid2.N, win2_0.flush t = false)
theorem noflush2_1 : ∀ t : Fin cfg2.N, (cfg2.win 1).flush t = false :=
  (by decide +kernel : ∀ t : Fin grid2.N, win2_1.flush t = false)
theorem noflush2_2 : ∀ t : Fin cfg2.N, (cfg2.win 2).flush t = false :=
  (by decide +kernel : ∀ t : Fin grid2.N, win2_2.flush t = false)

theorem N2_val : cfg2.N = 25 := N_2

/-- The pooled array's window is fetched at the first point and at no other. -/
theorem fetch2_1_zero (t : Fin cfg2.N) (h : t.val = 0) : (cfg2.win 1).fetch t = true :=
  (fetch2_1 t).mpr (by rw [h])
theorem nofetch2_1_pos (t : Fin cfg2.N) (h : t.val ≠ 0) : (cfg2.win 1).fetch t = false := by
  have hN : t.val < 25 := lt_of_lt_of_eq t.isLt N2_val
  cases hf : (cfg2.win 1).fetch t with
  | false => rfl
  | true => exact absurd ((fetch2_1 t).mp hf) (by omega)

end Cert.Proof.KI

end
-- ==== Proof.Reg2Obl.lean ====
/-
  The second region's body obligation. At every grid point the transposed-weights window's buffer and the bias
  window's buffer have just been fetched, so at the columns inside their arrays they hold the arrays' entries. The
  pooled array's window is fetched at the first point only, whole and uncut, and the body leaves its buffer as it
  finds it, so by induction on the point the buffer holds the whole pooled array at every point. The body's store then
  puts into the output buffer the projection of these three blocks, and the one hypothesis about the body's arithmetic
  says that on the rows inside the output every such entry is as the proof data asks.
-/
import proofs.«202962_g35424890258148_retrytranche2_417_11_alg».proof.Proof.Reg2Body
import proofs.«202962_g35424890258148_retrytranche2_417_11_alg».proof.Proof.Reg2Sched

noncomputable section

namespace Cert.Proof.KI

open Cert.KernelIdeal Cert.KernelIdeal.Gen

open Idealize.ShloMosaic Idealize.ShloMosaic.ValueIdx
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (d : Dev nD) (Vv : (b : Ref sig .tc) → Buf (Elt F) ((SparseCore.T d : Thread nD τ).loc b))
  (O : CellTallies nD τ sig (HIx 1)) (Rec : Set (SemLoc sig × HIx 1))
  (Ent : Fin 100000 → Fin 1024 → F .f32 → Prop)

/-- A just-fetched transposed-weights buffer holds, at an entry whose column lies inside the array, the array's entry. -/
theorem fetched2_0 (t : Fin cfg2.N) (dd : (cfg2.win 0).block.Idx → Elt F (cfg2.win 0).elt) (e : Fin 70) (v : Fin 4096)
    (h : 4096 * t.val + v.val < 100000) :
    (rd2 d Vv O Rec Ent).fetched 0 t dd (ix2 e v) = (Vv main_v4 : S70x100000.Idx → F .f32) (ix2 e ⟨4096 * t.val + v.val, h⟩) := by
  have hm : (cfg2.win 0).moved (cfg2.grid.coords t) (ix2 e v) = true := by
    rw [Pipeline.Window.moved_iff]; intro a
    match a with
    | ⟨0, _⟩ =>
      show e.val < (cfg2.win 0).xsize (cfg2.grid.coords t) (0 : Fin 2)
      rw [(xs2_0 t).1]; exact e.isLt
    | ⟨1, _⟩ =>
      show v.val < (cfg2.win 0).xsize (cfg2.grid.coords t) (1 : Fin 2)
      rw [(xs2_0 t).2]; have := v.isLt; omega
  unfold Pipeline.RDat.fetched Pipeline.Window.fill
  rw [dif_pos hm]
  unfold Pipeline.RDat.blockOf
  show (Vv main_v4 : S70x100000.Idx → F .f32) (((cfg2.win 0).blk t).view.emb _) = _
  refine congrArg _ (funext fun a => Fin.ext ?_)
  match a with
  | ⟨0, _⟩ => show (cfg2.win 0).index t (0 : Fin 2) * 70 + 1 * e.val = e.val; rw [(idx2_0 t).1]; omega
  | ⟨1, _⟩ => show (cfg2.win 0).index t (1 : Fin 2) * 4096 + 1 * v.val = 4096 * t.val + v.val; rw [(idx2_0 t).2]; omega

/-- A just-fetched bias buffer holds, at a column inside the array, the bias's entry. -/
theorem fetched2_2 (t : Fin cfg2.N) (dd : (cfg2.win 2).block.Idx → Elt F (cfg2.win 2).elt) (v : Fin 4096)
    (h : 4096 * t.val + v.val < 100000) :
    (rd2 d Vv O Rec Ent).fetched 2 t dd (ix2 0 v) = (Vv main_v5 : S1x100000.Idx → F .f32) (ix2 0 ⟨4096 * t.val + v.val, h⟩) := by
  have hm : (cfg2.win 2).moved (cfg2.grid.coords t) (ix2 0 v) = true := by
    rw [Pipeline.Window.moved_iff]; intro a
    match a with
    | ⟨0, _⟩ =>
      show 0 < (cfg2.win 2).xsize (cfg2.grid.coords t) (0 : Fin 2)
      rw [(xs2_2 t).1]; exact Nat.one_pos
    | ⟨1, _⟩ =>
      show v.val < (cfg2.win 2).xsize (cfg2.grid.coords t) (1 : Fin 2)
      rw [(xs2_2 t).2]; have := v.isLt; omega
  unfold Pipeline.RDat.fetched Pipeline.Window.fill
  rw [dif_pos hm]
  unfold Pipeline.RDat.blockOf
  show (Vv main_v5 : S1x100000.Idx → F .f32) (((cfg2.win 2).blk t).view.emb _) = _
  refine congrArg _ (funext fun a => Fin.ext ?_)
  match a with
  | ⟨0, _⟩ => show (cfg2.win 2).index t (0 : Fin 2) * 1 + 1 * 0 = 0; rw [(idx2_2 t).1]
  | ⟨1, _⟩ => show (cfg2.win 2).index t (1 : Fin 2) * 4096 + 1 * v.val = 4096 * t.val + v.val; rw [(idx2_2 t).2]; omega

/-- A just-fetched pooled-array buffer holds the whole pooled array: the window's block is the array, never cut. -/
theorem fetched2_1 (t : Fin cfg2.N) (dd : (cfg2.win 1).block.Idx → Elt F (cfg2.win 1).elt) (j : S1024x128.Idx) :
    (rd2 d Vv O Rec Ent).fetched 1 t dd j = (Vv main_v3 : S1024x128.Idx → F .f32) j := by
  have hm : (cfg2.win 1).moved (cfg2.grid.coords t) j = true := by
    rw [Pipeline.Window.moved_iff]; intro a
    match a with
    | ⟨0, _⟩ =>
      show (j (0 : Fin 2)).val < (cfg2.win 1).xsize (cfg2.grid.coords t) (0 : Fin 2)
      rw [(xs2_1 t).1]; exact (j (0 : Fin 2)).isLt
    | ⟨1, _⟩ =>
      show (j (1 : Fin 2)).val < (cfg2.win 1).xsize (cfg2.grid.coords t) (1 : Fin 2)
      rw [(xs2_1 t).2]; exact (j (1 : Fin 2)).isLt
  unfold Pipeline.RDat.fetched Pipeline.Window.fill
  rw [dif_pos hm]
  unfold Pipeline.RDat.blockOf
  show (Vv main_v3 : S1024x128.Idx → F .f32) (((cfg2.win 1).blk t).view.emb _) = _
  refine congrArg _ (funext fun a => Fin.ext ?_)
  match a with
  | ⟨0, _⟩ => show (cfg2.win 1).index t (0 : Fin 2) * 1024 + 1 * (j (0 : Fin 2)).val = (j (0 : Fin 2)).val; rw [(idx2_1 t).1]; omega
  | ⟨1, _⟩ => show (cfg2.win 1).index t (1 : Fin 2) * 128 + 1 * (j (1 : Fin 2)).val = (j (1 : Fin 2)).val; rw [(idx2_1 t).2]; omega

/-- The pooled array's buffer holds the whole array at every point: fetched at the first, left as found ever after. -/
theorem finds2_1 : ∀ (n : ℕ) (t : Fin cfg2.N), t.val = n → ∀ Y : S1024x128.Idx → F .f32,
    (rd2 d Vv O Rec Ent).Finds 1 t Y → Y = (Vv main_v3 : S1024x128.Idx → F .f32)
  | 0, t, ht, Y, hY => by
    obtain ⟨dd, rfl⟩ := ((rd2 d Vv O Rec Ent).finds_of_fetch (fetch2_1_zero t ht) Y).mp hY
    exact funext fun j => fetched2_1 d Vv O Rec Ent t dd j
  | n + 1, t, ht, Y, hY => by
    have hne : t.val ≠ 0 := by omega
    rcases ((rd2 d Vv O Rec Ent).finds_of_pos (nofetch2_1_pos t hne) hne Y).mp hY with hfl | ⟨Y', hY', haft⟩
    · rw [noflush2_1] at hfl; exact absurd hfl Bool.false_ne_true
    · have ih := finds2_1 n ⟨t.val - 1, Nat.lt_of_le_of_lt (Nat.sub_le _ _) t.isLt⟩ (by show t.val - 1 = n; omega) Y' hY'
      have e : Y = Y' := haft
      rw [e, ih]

/-- The body obligation at every point. -/
theorem body2 (hOK : BodyOK2 d Vv Ent) : (rd2 d Vv O Rec Ent).BodyObligation (defs₀ (F := F)) 𝒱₀ (none : HIx 1) Set.univ := by
  intro t Y hY
  rw [bigSep_W2, bigSep_W2]
  obtain ⟨d0, hd0⟩ := ((rd2 d Vv O Rec Ent).finds_of_fetch (fetch2_0 t) (Y 0)).mp (hY 0)
  obtain ⟨d2, hd2⟩ := ((rd2 d Vv O Rec Ent).finds_of_fetch (fetch2_2 t) (Y 2)).mp (hY 2)
  have h1 : Y 1 = (Vv main_v3 : S1024x128.Idx → F .f32) := finds2_1 d Vv O Rec Ent t.val t rfl (Y 1) (hY 1)
  rw [show (rd2 d Vv O Rec Ent).Φ t.succ = (rd2 d Vv O Rec Ent).Φ t.castSucc from rfl,
    show (rd2 d Vv O Rec Ent).owesAt (none : HIx 1) t.succ = (rd2 d Vv O Rec Ent).owesAt (none : HIx 1) t.castSucc from rfl]
  iintro ⟨HΦ, Ho, H0, H1, H2, H3⟩
  iapply (mm_body_run d Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3)) (Y 0) (Y 1) (Y 2) (Y 3) _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]
  · iexists (Y 0); isplitr; · ipureintro; rfl
    iexact H0
  isplitl [H1]
  · iexists (Y 1); isplitr; · ipureintro; rfl
    iexact H1
  isplitl [H2]
  · iexists (Y 2); isplitr; · ipureintro; rfl
    iexact H2
  iexists _; isplitr
  swap; · iexact H3
  ipureintro
  show out2Rel Ent t _
  intro v b h
  rw [h1]
  exact hOK t (Y 0) (Y 2) (fun e v h => by rw [hd0, fetched2_0 d Vv O Rec Ent t d0 e v h])
    (fun v h => by rw [hd2, fetched2_2 d Vv O Rec Ent t d2 v h]) v b h

end Cert.Proof.KI

end
-- ==== Proof.Reg2Arr.lean ====
/-
  What the output may hold after the second region's write-backs: after the points below `n`, every entry on a row
  below `4096 n` (and inside the array) is as the entry predicate asks. Each write-back overwrites exactly the rows of
  its own block that lie inside the array, with a staging block that satisfies the proof data's relation; rows of
  earlier blocks are not touched. After all 25 points every row of the output is below `4096 · 25`.
-/
import proofs.«202962_g35424890258148_retrytranche2_417_11_alg».proof.Proof.Reg2Obl
import Idealize.ShloMosaic.Lib.Pipeline.Cells
import Idealize.ShloMosaic.Lib.Pipeline.Value

noncomputable section

namespace Cert.Proof.KI

open Cert.KernelIdeal Cert.KernelIdeal.Gen

open Idealize.ShloMosaic Idealize.ShloMosaic.ValueIdx
open Idealize.ShloMosaic.TcCoe
open Idealize.ShloMosaic.SparseCore.Cfg (HIx Pay)
open Idealize.SL Idealize.SL.Sem

variable {F : FTy → Type} [FloatOps F] [Named F]

variable (d : Dev nD) (Vv : (b : Ref sig .tc) → Buf (Elt F) ((SparseCore.T d : Thread nD τ).loc b))
  (O : CellTallies nD τ sig (HIx 1)) (Rec : Set (SemLoc sig × HIx 1))
  (Ent : Fin 100000 → Fin 1024 → F .f32 → Prop)

/-- Every entry on a row below `4096 n` is as the entry predicate asks. -/
def Filled2 (n : ℕ) (Fa : Buf (Elt F) ((SparseCore.T d : Thread nD τ).loc main_v6)) : Prop :=
  ∀ (v : Fin 100000) (b : Fin 1024), v.val < 4096 * n → Ent v b ((Fa : S100000x1024.Idx → F .f32) (ix2 v b))

theorem arrAt2_filled : ∀ (n : ℕ), n ≤ cfg2.N → ∀ Fa, (rd2 d Vv O Rec Ent).ArrAt 3 n Fa → Filled2 d Ent n Fa
  | 0, _, Fa, _ => fun v b h => absurd h (by omega)
  | n + 1, hn, Fa, hF => by
    have hlt : n < cfg2.N := hn
    rw [Pipeline.RDat.ArrAt_succ (rd2 d Vv O Rec Ent) 3 ⟨n, hlt⟩, if_pos (flush2_3 ⟨n, hlt⟩)] at hF
    obtain ⟨G₀, X, hG₀, ⟨Y, -, hX⟩, rfl⟩ := hF
    have ih := arrAt2_filled n (Nat.le_of_lt hlt) G₀ hG₀
    have hrel : out2Rel Ent ⟨n, hlt⟩ X := hX
    intro v b hv
    have hN : cfg2.N = 25 := N2_val
    by_cases hlow : v.val < 4096 * n
    · -- a row of an earlier block: this write-back does not touch it
      rw [View.write_of_not_mem]
      · exact ih v b hlow
      · intro hmem
        rw [View.setOn_univ] at hmem
        obtain ⟨y, hy⟩ := View.exists_emb_of_mem_set _ hmem
        have h0 := congrArg (fun j : S100000x1024.Idx => (j 0).val) hy
        have e0 : ((((cfg2.win 3).blk ⟨n, hlt⟩).view.emb y : S100000x1024.Idx) 0).val = (cfg2.win 3).index ⟨n, hlt⟩ (0 : Fin 2) * 4096 + 1 * (y 0).val := rfl
        simp only [e0, (idx2_3 ⟨n, hlt⟩).1] at h0
        show False
        have : ((ix2 v b : S100000x1024.Idx) 0).val = v.val := rfl
        omega
    · -- a row of this block, inside the array
      have hv' : v.val - 4096 * n < 4096 := by omega
      have hin : 4096 * n + (v.val - 4096 * n) < 100000 := by have := v.isLt; omega
      have hx0 : v.val - 4096 * n < (cfg2.win 3).xsize (cfg2.grid.coords ⟨n, hlt⟩) (0 : Fin 2) := by
        rw [(xs2_3 ⟨n, hlt⟩).1]; have := v.isLt; show v.val - 4096 * n < min 4096 (100000 - 4096 * n); omega
      have hx1 : b.val < (cfg2.win 3).xsize (cfg2.grid.coords ⟨n, hlt⟩) (1 : Fin 2) := by
        rw [(xs2_3 ⟨n, hlt⟩).2]; exact b.isLt
      let y : ((cfg2.win 3).xblock (cfg2.grid.coords ⟨n, hlt⟩)).Idx := fun a =>
        match a with
        | ⟨0, _⟩ => ⟨v.val - 4096 * n, hx0⟩
        | ⟨1, _⟩ => ⟨b.val, hx1⟩
      have hemb : (((cfg2.win 3).blk ⟨n, hlt⟩).view.emb y : S100000x1024.Idx) = ix2 v b := by
        funext a; refine Fin.ext ?_
        match a with
        | ⟨0, _⟩ =>
          show (cfg2.win 3).index ⟨n, hlt⟩ (0 : Fin 2) * 4096 + 1 * (v.val - 4096 * n) = v.val
          rw [(idx2_3 ⟨n, hlt⟩).1]; show n * 4096 + 1 * (v.val - 4096 * n) = v.val; omega
        | ⟨1, _⟩ =>
          show (cfg2.win 3).index ⟨n, hlt⟩ (1 : Fin 2) * 1024 + 1 * b.val = b.val
          rw [(idx2_3 ⟨n, hlt⟩).2]; omega
      rw [← hemb, View.write_emb_of_mem _ _ (Finset.mem_univ y)]
      have hxr : Ent ⟨4096 * n + (v.val - 4096 * n), hin⟩ b (X (ix2 ⟨v.val - 4096 * n, hv'⟩ b)) :=
        hrel ⟨v.val - 4096 * n, hv'⟩ b hin
      have hve : (⟨4096 * n + (v.val - 4096 * n), hin⟩ : Fin 100000) = v := Fin.ext (by show 4096 * n + (v.val - 4096 * n) = v.val; omega)
      rw [hve] at hxr
      show Ent v b (X ((cfg2.win 3).xinj (cfg2.grid.coords ⟨n, hlt⟩) y))
      have hxi : (cfg2.win 3).xinj (cfg2.grid.coords ⟨n, hlt⟩) y = (ix2 ⟨v.val - 4096 * n, hv'⟩ b : S4096x1024.Idx) := by
        funext a; refine Fin.ext ?_
        match a with
        | ⟨0, _⟩ => rfl
        | ⟨1, _⟩ => rfl
      rw [hxi]
      exact hxr

/-- After the whole region every entry of the output is as the entry predicate asks. -/
theorem arrAt2_final (Fa) (hF : (rd2 d Vv O Rec Ent).ArrAt 3 cfg2.N Fa) (v : Fin 100000) (b : Fin 1024) :
    Ent v b ((Fa : S100000x1024.Idx → F .f32) (ix2 v b)) :=
  arrAt2_filled d Vv O Rec Ent cfg2.N le_rfl Fa hF v b (by rw [N2_val]; have := v.isLt; omega)

end Cert.Proof.KI

end
-- ==== Proof.Reg2Seg.lean ====
/-
  The second region as a segment of @main: entered with the four windowed arrays at their entry contents and the
  TensorCore's debts to the SparseCore launch, left with the arrays at what the write-backs made of them and the
  same debts. The kernel has no semaphore of its own; the pipeline's waits on its staging cells sit at the index of
  no call, below everything the TensorCore owes the launch.
-/
import proofs.«202962_g35424890258148_retrytranche2_417_11_alg».proof.Proof.Reg2Arr

noncomputable section

namespace Cert.Proof.KI

open Cert.KernelIdeal Cert.KernelIdeal.Gen

open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig (HIx 1) (Elt F) ℕ UU ℕ

variable (Vv : (c : Dev nD) → (b : Ref sig .tc) → Buf (Elt F) ((SparseCore.T c : Thread nD τ).loc b))
  (O : Dev nD → CellTallies nD τ sig (HIx 1)) (Rec : Dev nD → Set (SemLoc sig × HIx 1))
  (Ent : Dev nD → Fin 100000 → Fin 1024 → F .f32 → Prop)

/-- The proof data of both pipelines while the second region runs: nothing for the first, and the second's. -/
def fam2 : (p : Fin 2) → (c : Dev nD) → Pipeline.RDat τ (Elt F) (HIx 1) ℕ UU ℕ (Pipeline.pin (pcfgs (F := F)) adm p) c
  | ⟨0, _⟩ => fun _ => { A := fun _ => Classical.arbitrary _, after := fun _ _ _ _ => True, Φ := fun _ => iprop(emp), q := fun _ => fullShare, owed := fun _ => 0 }
  | ⟨1, _⟩ => fun c => rd2 c (Vv c) (O c) (Rec c) (Ent c)

theorem fam2_one (c : Dev nD) : fam2 Vv O Rec Ent 1 c = rd2 c (Vv c) (O c) (Rec c) (Ent c) := rfl

/-- The second pipeline's invariant is the scoped buffers none of its windows stages, at every point. -/
theorem fam2_Φ (c : Dev nD) (t : Fin ((Pipeline.pin (pcfgs (F := F)) adm 1).N + 1)) :
    (fam2 Vv O Rec Ent 1 c).Φ t = Pipeline.scopedRest spec2 c := rfl

/-- The second region's segment. -/
def reg2 (hO : ∀ c g, O c g none = 0) (hOK : ∀ c, BodyOK2 c (Vv c) (Ent c)) :
    Pipeline.RDat.RegionSeg (pcfgs (F := F)) adm (fam2 Vv O Rec Ent) (none : HIx 1) defs₀ 𝒱₀ (K (F := F)).L (K (F := F)).lev 1 where
  win := winFacts2.to₀
  block_pos := block_pos2
  stage_whole := stage_whole2
  K := PEmpty
  osem k := k.elim
  ho := Pipeline.OwnSemFacts.none _
  hbody c := body2 c (Vv c) (O c) (Rec c) (Ent c) (hOK c)
  hwaits c := Pipeline.RDat.cellsWaits_intro (Pipeline.pin (pcfgs (F := F)) adm) (fam2 Vv O Rec Ent) (none : HIx 1) 1 c
    fun w s t => (K (F := F)).mayWait_none _ (hO c)
  pre c := iprop((rd2 c (Vv c) (O c) (Rec c) (Ent c)).arrays (rd2 c (Vv c) (O c) (Rec c) (Ent c)).A
    ∗ (rd2 c (Vv c) (O c) (Rec c) (Ent c)).owesAt (none : HIx 1) 0)
  post c := iprop((rd2 c (Vv c) (O c) (Rec c) (Ent c)).arraysAt cfg2.N
    ∗ (rd2 c (Vv c) (O c) (Rec c) (Ent c)).owesAt (none : HIx 1) (Fin.last cfg2.N))
  X _ := iprop(emp)
  Y _ := iprop(emp)
  Z _ := iprop(emp)
  hentry c := by
    rw [Pipeline.ownSems0_none]
    iintro ⟨⟨Ha, Ho⟩, -, -⟩
    imodintro
    isplitl [Ha]; · iexact Ha
    isplitr
    · unfold Pipeline.prefHeld; rw [bigSep_F0]; iempintro
    isplitl [Ho]; · iexact Ho
    isplitr <;> iempintro
  hin c := by
    rw [fam2_Φ Vv O Rec Ent c 0]
    iintro ⟨-, -, H⟩; iexact H
  hout c := by
    rw [fam2_Φ Vv O Rec Ent c (Fin.last (Pipeline.pin (pcfgs (F := F)) adm 1).N), Pipeline.ownSems0_none]
    iintro H
    isplitr; · iempintro
    isplitr; · iempintro
    iexact H
  hexit c := by
    iintro ⟨Ha, Ho, -, -⟩
    imodintro
    isplitl [Ha]; · iexact Ha
    iexact Ho

end Cert.Proof.KI

end
-- ==== Proof.Reg2Main.lean ====
/-
  The second region's windowed arrays as @main's named arrays: at entry the transposed weights, the pooled array, the
  bias and the output at the contents the region finds; at exit the three inputs as they were and the output at
  contents whose every entry is as the entry predicate asks.
-/
import proofs.«202962_g35424890258148_retrytranche2_417_11_alg».proof.Proof.Reg2Seg
import proofs.«202962_g35424890258148_retrytranche2_417_11_alg».proof.Proof.Main3

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (d : Dev nD) (Vv : (b : Ref sig .tc) → Buf (Elt F) ((SparseCore.T d : Thread nD τ).loc b))
  (O : CellTallies nD τ sig (HIx 1)) (Rec : Set (SemLoc sig × HIx 1))
  (Ent : Fin 100000 → Fin 1024 → F .f32 → Prop)

theorem rd2_share (w : Fin cfg2.W) : (rd2 d Vv O Rec Ent).share w = fullShare := by
  unfold Pipeline.RDat.share; split <;> rfl

/-- At entry. -/
theorem arrays2_eq : ((rd2 d Vv O Rec Ent).arrays (rd2 d Vv O Rec Ent).A : sProp 𝕄)
    = iprop(pt d main_v4 (Vv main_v4) ∗ pt d main_v3 (Vv main_v3) ∗ pt d main_v5 (Vv main_v5) ∗ pt d main_v6 (Vv main_v6)) := by
  unfold Pipeline.RDat.arrays
  rw [bigSep_W2]
  simp only [rd2_share]
  rw [(arr_whole2 0).set_eq_univ, (arr_whole2 1).set_eq_univ, (arr_whole2 2).set_eq_univ, (arr_whole2 3).set_eq_univ]
  rfl

/-- At exit. -/
theorem arraysAt2_elim :
    ((rd2 d Vv O Rec Ent).arraysAt cfg2.N : sProp 𝕄)
      ⊢ iprop(pt d main_v4 (Vv main_v4) ∗ pt d main_v3 (Vv main_v3) ∗ pt d main_v5 (Vv main_v5)
          ∗ ∃ f6 : Buf (Elt F) ((SparseCore.T d : Thread nD τ).loc main_v6),
              ⌜∀ (v : Fin 100000) (b : Fin 1024), Ent v b ((f6 : S100000x1024.Idx → F .f32) (ix2 v b))⌝
              ∗ pt d main_v6 f6) := by
  unfold Pipeline.RDat.arraysAt
  rw [bigSep_W2]
  simp only [rd2_share]
  rw [(arr_whole2 0).set_eq_univ, (arr_whole2 1).set_eq_univ, (arr_whole2 2).set_eq_univ, (arr_whole2 3).set_eq_univ]
  iintro ⟨⟨%F0, %h0, H0⟩, ⟨%F1, %h1, H1⟩, ⟨%F2, %h2, H2⟩, ⟨%F3, %h3, H3⟩⟩
  have e0 : F0 = Vv main_v4 := by
    have hin := Pipeline.RDat.ArrAt_in (rd2 d Vv O Rec Ent) 0 (show (cfg2.win 0).isOut = false from rfl) cfg2.N
    rw [hin] at h0; exact h0
  have e1 : F1 = Vv main_v3 := by
    have hin := Pipeline.RDat.ArrAt_in (rd2 d Vv O Rec Ent) 1 (show (cfg2.win 1).isOut = false from rfl) cfg2.N
    rw [hin] at h1; exact h1
  have e2 : F2 = Vv main_v5 := by
    have hin := Pipeline.RDat.ArrAt_in (rd2 d Vv O Rec Ent) 2 (show (cfg2.win 2).isOut = false from rfl) cfg2.N
    rw [hin] at h2; exact h2
  subst e0 e1 e2
  isplitl [H0]; · iexact H0
  isplitl [H1]; · iexact H1
  isplitl [H2]; · iexact H2
  iexists F3; isplitr
  · ipureintro; exact arrAt2_final d Vv O Rec Ent F3 h3
  · iexact H3

end Cert.Proof.KI

end
-- ==== Proof.Main5.lean ====
/-
  @main on the TensorCore of device `d`, inside the SparseCore program.
-/
import proofs.«202962_g35424890258148_retrytranche2_417_11_alg».proof.Proof.Main4
import proofs.«202962_g35424890258148_retrytranche2_417_11_alg».proof.Proof.Deal
import proofs.«202962_g35424890258148_retrytranche2_417_11_alg».proof.Proof.Reg2Main

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig (HIx 1) (Elt F) ℕ UU ℕ

variable (m : (ℓ : Loc nD τ sig) → Buf (Elt F) ℓ) (ρ : Dev nD → PrngReg)
variable (Ent : Dev nD → Fin 100000 → Fin 1024 → F .f32 → Prop)

/-- The TensorCore's launch state before call `n` but for its debts: its position on its `done` cell, the sequencers'
    reached rounds, and the later calls' tokens and credit. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_split (d : Dev nD) (n : ℕ) :
    ((K (F := F)).tcSt EH d n : sProp 𝕄)
      = iprop((∃ W, ⌜(K (F := F)).WBelow (SparseCore.T d) W (8 * n)⌝ ∗ owes (SparseCore.T d : Thread nD τ) ((K (F := F)).Otc d n) W) ∗ tcRest (F := F) d n) := by
  unfold SparseCore.Cfg.tcSt tcRest; rfl

section Reg0

variable (Vv : (c : Dev nD) → (b : Ref sig .tc) → Buf (Elt F) ((SparseCore.T c : Thread nD τ).loc b))
  (O : Dev nD → CellTallies nD τ sig (HIx 1)) (Rec : Dev nD → Set (SemLoc sig × HIx 1)) (hO : ∀ c g, O c g none = 0)

theorem reg0_pre (c : Dev nD) : ((reg0 Vv O Rec hO).pre c : sProp 𝕄)
    = iprop((rd0 c (Vv c) (O c) (Rec c)).arrays (rd0 c (Vv c) (O c) (Rec c)).A ∗ (rd0 c (Vv c) (O c) (Rec c)).owesAt (none : HIx 1) 0) := rfl
theorem reg0_post (c : Dev nD) : ((reg0 Vv O Rec hO).post c : sProp 𝕄)
    = iprop((rd0 c (Vv c) (O c) (Rec c)).arraysAt cfg0.N ∗ (rd0 c (Vv c) (O c) (Rec c)).owesAt (none : HIx 1) (Fin.last cfg0.N)) := rfl

end Reg0

section Reg2

variable (Vv : (c : Dev nD) → (b : Ref sig .tc) → Buf (Elt F) ((SparseCore.T c : Thread nD τ).loc b))
  (O : Dev nD → CellTallies nD τ sig (HIx 1)) (Rec : Dev nD → Set (SemLoc sig × HIx 1))
  (Ent : Dev nD → Fin 100000 → Fin 1024 → F .f32 → Prop)
  (hO : ∀ c g, O c g none = 0) (hOK : ∀ c, BodyOK2 c (Vv c) (Ent c))

theorem reg2_pre (c : Dev nD) : ((reg2 Vv O Rec Ent hO hOK).pre c : sProp 𝕄)
    = iprop((rd2 c (Vv c) (O c) (Rec c) (Ent c)).arrays (rd2 c (Vv c) (O c) (Rec c) (Ent c)).A ∗ (rd2 c (Vv c) (O c) (Rec c) (Ent c)).owesAt (none : HIx 1) 0) := rfl
theorem reg2_post (c : Dev nD) : ((reg2 Vv O Rec Ent hO hOK).post c : sProp 𝕄)
    = iprop((rd2 c (Vv c) (O c) (Rec c) (Ent c)).arraysAt cfg2.N ∗ (rd2 c (Vv c) (O c) (Rec c) (Ent c)).owesAt (none : HIx 1) (Fin.last cfg2.N)) := rfl

end Reg2

set_option maxHeartbeats 2000000 in
theorem hmain
    (hOK : ∀ (d : Dev nD) (Pc : Buf (Elt F) (poLoc d)), (∀ c i, Rpo m d c i Pc) → BodyOK2 d (Vv2 m d Pc) (Ent d))
    (hrtp : ∀ (d : Dev nD) (tp : Buf (Elt F) (tpLoc d)),
      (∀ (r : Fin 100000) (e : Fin 70), (tp : S100000x128.Idx → F .f32) (ix2 r (e.castLE (by decide))) = (Vv0 m d main_v1 : S70x100000.Idx → F .f32) (ix2 e r)) → Rtp m d tp)
    (κ : GSem nD τ sig → ℕ) (d : Dev nD) :
    iprop((K (F := F)).ctx EH (P (Xc m) (Rtp m) (Rpo m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m Ent d) := by
  unfold SparseCore.Cfg.tcRes G
  rw [unscopedBufs_eq12]
  simp only [main, wp_bind, wp_pure]
  iintro ⟨#Hctx, Hst, ⟨Hb, ⟨Ha0, Ha1, Ha2, Ha3, Hv0, Hv1, Hv2, Hv3, Hv4, Hv5, Hv6, Hv7⟩, -, -⟩, ⟨Hcg, Htk⟩⟩
  ihave #Hlv := (SparseCore.Cfg.ctx_levAts κ) $$ Hctx
  -- the index array flattened
  iapply (wp_host2 m d main_arg0 main_v0 opX (by decide)
    (show ({Proc.devRef .tc main_arg0, Proc.devRef .tc main_v0} : Finset (DevRef τ sig)) ⊆ {Proc.devRef .tc main_arg0, Proc.devRef .tc main_v0} from Finset.Subset.refl _)
    rfl (show (Proc.devRef .tc main_arg0 : DevRef τ sig) ∉ ({Proc.devRef .tc main_v0} : Finset (DevRef τ sig)) by decide)
    (mAt m d main_arg0) (mAt m d main_v0) _ _)
  isplitl [Hb]; · iexact Hb
  isplitl [Ha0]; · iexact Ha0
  isplitl [Hv0]; · iexact Hv0
  iintro ⟨Hb, Ha0, Hv0⟩
  rw [wp_ret]; imodintro
  -- the table transposed
  iapply (wp_host2 m d main_arg1 main_v1 opTT (by decide)
    (show ({Proc.devRef .tc main_arg1, Proc.devRef .tc main_v1} : Finset (DevRef τ sig)) ⊆ {Proc.devRef .tc main_arg1, Proc.devRef .tc main_v1} from Finset.Subset.refl _)
    rfl (show (Proc.devRef .tc main_arg1 : DevRef τ sig) ∉ ({Proc.devRef .tc main_v1} : Finset (DevRef τ sig)) by decide)
    (mAt m d main_arg1) (mAt m d main_v1) _ _)
  isplitl [Hb]; · iexact Hb
  isplitl [Ha1]; · iexact Ha1
  isplitl [Hv1]; · iexact Hv1
  iintro ⟨Hb, Ha1, Hv1⟩
  rw [wp_ret]; imodintro
  -- the first region: the transposed table laid out, padded, row-major
  ihave Hst' := (Entails.of_eq (tcSt_split (F := F) d 0)) $$ Hst
  icases Hst' with ⟨Hown, Hrest⟩
  ihave Hcg' := (Entails.of_eq (bigSep_W0 (fun p : Fin 2 => Pipeline.cellsGhost (nD := nD) (τ := τ) cfgs (EP (F := F)) p d))) $$ Hcg
  icases Hcg' with ⟨Hcg0, Hcg1⟩
  ihave Htk' := (Entails.of_eq (bigSep_W0 (fun p : Fin 2 => Pipeline.toksInit (nD := nD) (τ := τ) cfgs (EP (F := F)) p d))) $$ Htk
  icases Htk' with ⟨Htk0, Htk1⟩
  iapply (wp_region (fam0 (fun c => Vv0 m c) (fun c => (K (F := F)).Otc c 0) (fun c => recBelow (F := F) c 0))
    (reg0 (fun c => Vv0 m c) (fun c => (K (F := F)).Otc c 0) (fun c => recBelow (F := F) c 0) (fun c g => Otc_none c 0 g)) d (fun _ => .ret ⟨⟩) _)
  isplitr [Hb Hv1 Hv2 Hown Hcg0 Htk0]
  swap
  · isplitl [Hb]; · iexact Hb
    isplitl [Hv1 Hv2 Hown]
    · iapply (Entails.of_eq (reg0_pre (fun c => Vv0 m c) (fun c => (K (F := F)).Otc c 0) (fun c => recBelow (F := F) c 0) (fun c g => Otc_none c 0 g) d).symm)
      isplitl [Hv1 Hv2]
      · iapply (Entails.of_eq (arrays0_eq d (Vv0 m d) ((K (F := F)).Otc d 0) (recBelow (F := F) d 0)).symm)
        isplitl [Hv1]
        · iapply (Entails.of_eq (congrArg (pt d main_v1) (Vv0_v1 m d)).symm); iexact Hv1
        · iapply (Entails.of_eq (congrArg (pt d main_v2) (Vv0_v2 m d)).symm); iexact Hv2
      · iapply (owesWithin_of_below cfg0 d 0 ((K (F := F)).Otc d 0)); iexact Hown
    isplitr; · iexact Hlv
    isplitl [Hcg0]; · iexact Hcg0
    iexact Htk0
  iintro ⟨Hb, Hpost⟩
  rw [wp_ret]; imodintro
  ihave Hpost' := (Entails.of_eq (reg0_post (fun c => Vv0 m c) (fun c => (K (F := F)).Otc c 0) (fun c => recBelow (F := F) c 0) (fun c g => Otc_none c 0 g) d)) $$ Hpost
  icases Hpost' with ⟨Harr, Howes⟩
  ihave Harr' := (arraysAt0_elim d (Vv0 m d) ((K (F := F)).Otc d 0) (recBelow (F := F) d 0)) $$ Harr
  icases Harr' with ⟨Hv1, %tp, %htp, Hv2⟩
  ihave Hown := ((Entails.of_eq (show ((rd0 d (Vv0 m d) ((K (F := F)).Otc d 0) (recBelow (F := F) d 0)).owesAt (none : HIx 1) (Fin.last cfg0.N) : sProp 𝕄)
      = Pipeline.owesWithin d ((K (F := F)).Otc d 0) (recBelow (F := F) d 0 ∪ cfg0.waitPairs (none : HIx 1)) from rfl)).trans
    (below_of_owesWithin cfg0 d 0 ((K (F := F)).Otc d 0))) $$ Howes
  ihave Hst := (Entails.of_eq (tcSt_split (F := F) d 0).symm) $$ [Hown Hrest]
  · isplitl [Hown] <;> iassumption
  -- the SparseCore call: the pooling kernel on the 32 tiles
  iapply ((K (F := F)).wp_run (D (F := F)) 𝒱 (EH := EH) (P := P (Xc m) (Rtp m) (Rpo m)) κ d 0)
  isplitr; · iexact Hctx
  isplitl [Hst]; · iexact Hst
  isplitl [Hv0 Hv2 Hv3]
  · iapply (deal m (Xc m) d tp (hrtp d tp htp) (mAt m d main_v3))
    isplitl [Hv0]; · iexact Hv0
    isplitl [Hv2]; · iexact Hv2
    iexact Hv3
  iintro ⟨Hst, Hdn⟩
  ihave Hg := (gather m (Xc m) d) $$ Hdn
  icases Hg with ⟨%g, %hg, Hv3⟩
  -- `W` transposed
  iapply (wp_host2 m d main_arg2 main_v4 opWT (by decide)
    (show ({Proc.devRef .tc main_arg2, Proc.devRef .tc main_v4} : Finset (DevRef τ sig)) ⊆ {Proc.devRef .tc main_arg2, Proc.devRef .tc main_v4} from Finset.Subset.refl _)
    rfl (show (Proc.devRef .tc main_arg2 : DevRef τ sig) ∉ ({Proc.devRef .tc main_v4} : Finset (DevRef τ sig)) by decide)
    (mAt m d main_arg2) (mAt m d main_v4) _ _)
  isplitl [Hb]; · iexact Hb
  isplitl [Ha2]; · iexact Ha2
  isplitl [Hv4]; · iexact Hv4
  iintro ⟨Hb, Ha2, Hv4⟩
  rw [wp_ret]; imodintro
  -- the bias as a row
  iapply (wp_host2 m d main_arg3 main_v5 opB2 (by decide)
    (show ({Proc.devRef .tc main_arg3, Proc.devRef .tc main_v5} : Finset (DevRef τ sig)) ⊆ {Proc.devRef .tc main_arg3, Proc.devRef .tc main_v5} from Finset.Subset.refl _)
    rfl (show (Proc.devRef .tc main_arg3 : DevRef τ sig) ∉ ({Proc.devRef .tc main_v5} : Finset (DevRef τ sig)) by decide)
    (mAt m d main_arg3) (mAt m d main_v5) _ _)
  isplitl [Hb]; · iexact Hb
  isplitl [Ha3]; · iexact Ha3
  isplitl [Hv5]; · iexact Hv5
  iintro ⟨Hb, Ha3, Hv5⟩
  rw [wp_ret]; imodintro
  -- the second region: the projection, from the pooled array at `g`
  have hsub : ∀ c : Dev nD, c = d := fun c => Subsingleton.elim c d
  let Pall : (c : Dev nD) → Buf (Elt F) (poLoc c) := fun c => (hsub c).symm ▸ g
  have hPd : Pall d = g := rfl
  have hOK' : ∀ c, BodyOK2 c (Vv2 m c (Pall c)) (Ent c) := fun c => by
    obtain rfl := hsub c
    exact hOK c g hg
  ihave Hst' := (Entails.of_eq ((show ((K (F := F)).tcSt EH d ((0 : Fin 1).val + 1) : sProp 𝕄) = (K (F := F)).tcSt EH d 1 from rfl).trans
    (tcSt_split (F := F) d 1))) $$ Hst
  icases Hst' with ⟨Hown, Hrest⟩
  iapply (wp_region (fam2 (fun c => Vv2 m c (Pall c)) (fun c => (K (F := F)).Otc c 1) (fun c => recBelow (F := F) c 1) Ent)
    (reg2 (fun c => Vv2 m c (Pall c)) (fun c => (K (F := F)).Otc c 1) (fun c => recBelow (F := F) c 1) Ent (fun c g' => Otc_none c 1 g') hOK') d (fun _ => .ret ⟨⟩) _)
  isplitr [Hb Hv3 Hv4 Hv5 Hv6 Hown Hcg1 Htk1]
  swap
  · isplitl [Hb]; · iexact Hb
    isplitl [Hv3 Hv4 Hv5 Hv6 Hown]
    · iapply (Entails.of_eq (reg2_pre (fun c => Vv2 m c (Pall c)) (fun c => (K (F := F)).Otc c 1) (fun c => recBelow (F := F) c 1) Ent (fun c g' => Otc_none c 1 g') hOK' d).symm)
      isplitl [Hv3 Hv4 Hv5 Hv6]
      · iapply (Entails.of_eq (arrays2_eq d (Vv2 m d g) ((K (F := F)).Otc d 1) (recBelow (F := F) d 1) (Ent d)).symm)
        isplitl [Hv4]
        · iapply (Entails.of_eq (congrArg (pt d main_v4) (Vv2_v4 m d g)).symm); iexact Hv4
        isplitl [Hv3]
        · iapply (Entails.of_eq (congrArg (pt d main_v3) (Vv2_v3 m d g)).symm); iexact Hv3
        isplitl [Hv5]
        · iapply (Entails.of_eq (congrArg (pt d main_v5) (Vv2_v5 m d g)).symm); iexact Hv5
        · iapply (Entails.of_eq (congrArg (pt d main_v6) (Vv2_v6 m d g)).symm); iexact Hv6
      · iapply (owesWithin_of_below cfg2 d 1 ((K (F := F)).Otc d 1)); iexact Hown
    isplitr; · iexact Hlv
    isplitl [Hcg1]; · iexact Hcg1
    iexact Htk1
  iintro ⟨Hb, Hpost⟩
  rw [wp_ret]; imodintro
  ihave Hpost' := (Entails.of_eq (reg2_post (fun c => Vv2 m c (Pall c)) (fun c => (K (F := F)).Otc c 1) (fun c => recBelow (F := F) c 1) Ent (fun c g' => Otc_none c 1 g') hOK' d)) $$ Hpost
  icases Hpost' with ⟨Harr, Howes⟩
  ihave Harr' := (arraysAt2_elim d (Vv2 m d g) ((K (F := F)).Otc d 1) (recBelow (F := F) d 1) (Ent d)) $$ Harr
  icases Harr' with ⟨Hv4, Hv3, Hv5, %f6, %hf6, Hv6⟩
  ihave Hown := ((Entails.of_eq (show ((rd2 d (Vv2 m d g) ((K (F := F)).Otc d 1) (recBelow (F := F) d 1) (Ent d)).owesAt (none : HIx 1) (Fin.last cfg2.N) : sProp 𝕄)
      = Pipeline.owesWithin d ((K (F := F)).Otc d 1) (recBelow (F := F) d 1 ∪ cfg2.waitPairs (none : HIx 1)) from rfl)).trans
    (below_of_owesWithin cfg2 d 1 ((K (F := F)).Otc d 1))) $$ Howes
  ihave Hst := (Entails.of_eq (tcSt_split (F := F) d 1).symm) $$ [Hown Hrest]
  · isplitl [Hown] <;> iassumption
  -- the output transposed
  iapply (wp_host2 m d main_v6 main_v7 opOut (by decide)
    (show ({Proc.devRef .tc main_v6, Proc.devRef .tc main_v7} : Finset (DevRef τ sig)) ⊆ {Proc.devRef .tc main_v6, Proc.devRef .tc main_v7} from Finset.Subset.refl _)
    rfl (show (Proc.devRef .tc main_v6 : DevRef τ sig) ∉ ({Proc.devRef .tc main_v7} : Finset (DevRef τ sig)) by decide)
    f6 (mAt m d main_v7) _ _)
  isplitl [Hb]; · iexact Hb
  isplitl [Hv6]; · iexact Hv6
  isplitl [Hv7]; · iexact Hv7
  iintro ⟨Hb, Hv6, Hv7⟩
  rw [wp_ret]; imodintro
  isplitl [Hst]; · iexact Hst
  unfold FIN
  isplitl [Ha0]; · iexact Ha0
  isplitl [Ha1]; · iexact Ha1
  isplitl [Ha2]; · iexact Ha2
  isplitl [Ha3]; · iexact Ha3
  iexists _; isplitr
  swap; · iexact Hv7
  ipureintro
  exact ⟨f6, hf6, rfl⟩

end Cert.Proof.KI

end
-- ==== Proof.Fin.lean ====
/-
  Reading the claim off the final memory: what @main leaves holds the four arguments at their launch contents and the
  result at contents satisfying `ResOK`, so the final memory's arrays are those.
-/
import proofs.«202962_g35424890258148_retrytranche2_417_11_alg».proof.Proof.Main4

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ)
variable (Ent : Dev nD → Fin 100000 → Fin 1024 → F .f32 → Prop)

/-- What is read of device `d` in a final state. -/
def fq (d : Dev nD) (s' : Phys nD τ sig (Elt F)) : Prop :=
  s'.mem.mem ((SparseCore.T d : Thread nD τ).loc main_arg0) = mAt m d main_arg0
    ∧ s'.mem.mem ((SparseCore.T d : Thread nD τ).loc main_arg1) = mAt m d main_arg1
    ∧ s'.mem.mem ((SparseCore.T d : Thread nD τ).loc main_arg2) = mAt m d main_arg2
    ∧ s'.mem.mem ((SparseCore.T d : Thread nD τ).loc main_arg3) = mAt m d main_arg3
    ∧ ResOK m Ent d (s'.mem.mem ((SparseCore.T d : Thread nD τ).loc main_v7))

theorem hfin (d : Dev nD) (s' : Phys nD τ sig (Elt F)) : iprop(FIN m Ent d ∗ SI s') ⊢ (⌜fq m Ent d s'⌝ : sProp 𝕄) := by
  unfold FIN
  iintro ⟨⟨H0, H1, H2, H3, %g, %hg, H7⟩, HSI⟩
  ihave H := (persistent_entails_right (SI_pointsTo_agree (st := s') (ℓ := (SparseCore.T d : Thread nD τ).loc main_arg0) (I := Finset.univ) (q := fullShare) (f := mAt m d main_arg0))) $$ [HSI H0]
  · isplitl [HSI] <;> iassumption
  icases H with ⟨%h0, HSI, -⟩
  ihave H := (persistent_entails_right (SI_pointsTo_agree (st := s') (ℓ := (SparseCore.T d : Thread nD τ).loc main_arg1) (I := Finset.univ) (q := fullShare) (f := mAt m d main_arg1))) $$ [HSI H1]
  · isplitl [HSI] <;> iassumption
  icases H with ⟨%h1, HSI, -⟩
  ihave H := (persistent_entails_right (SI_pointsTo_agree (st := s') (ℓ := (SparseCore.T d : Thread nD τ).loc main_arg2) (I := Finset.univ) (q := fullShare) (f := mAt m d main_arg2))) $$ [HSI H2]
  · isplitl [HSI] <;> iassumption
  icases H with ⟨%h2, HSI, -⟩
  ihave H := (persistent_entails_right (SI_pointsTo_agree (st := s') (ℓ := (SparseCore.T d : Thread nD τ).loc main_arg3) (I := Finset.univ) (q := fullShare) (f := mAt m d main_arg3))) $$ [HSI H3]
  · isplitl [HSI] <;> iassumption
  icases H with ⟨%h3, HSI, -⟩
  ihave H := (SI_pointsTo_agree (st := s') (ℓ := (SparseCore.T d : Thread nD τ).loc main_v7) (I := Finset.univ) (q := fullShare) (f := g)) $$ [HSI H7]
  · isplitl [HSI] <;> iassumption
  icases H with %h7
  ipureintro
  refine ⟨funext fun i => h0 i (Finset.mem_univ i), funext fun i => h1 i (Finset.mem_univ i), funext fun i => h2 i (Finset.mem_univ i),
    funext fun i => h3 i (Finset.mem_univ i), ?_⟩
  have e7 : s'.mem.mem ((SparseCore.T d : Thread nD τ).loc main_v7) = g := funext fun i => h7 i (Finset.mem_univ i)
  rw [e7]; exact hg

/-- The run's post: on every device the arguments unchanged and the result satisfying `ResOK`. -/
def QC : PUnit × MemSt nD τ sig (Elt F) → Prop := fun r => ∀ c : Dev nD,
  r.2.mem ((SparseCore.T c : Thread nD τ).loc main_arg0) = mAt m c main_arg0
    ∧ r.2.mem ((SparseCore.T c : Thread nD τ).loc main_arg1) = mAt m c main_arg1
    ∧ r.2.mem ((SparseCore.T c : Thread nD τ).loc main_arg2) = mAt m c main_arg2
    ∧ r.2.mem ((SparseCore.T c : Thread nD τ).loc main_arg3) = mAt m c main_arg3
    ∧ ResOK m Ent c (r.2.mem ((SparseCore.T c : Thread nD τ).loc main_v7))

end Cert.Proof.KI

end
-- ==== Proof.TileSum.lean ====
/-
  Sums of fifty words taken one after the other from the zero word, and the accumulators of one batch row's loop.

  A batch row's loop runs fifty trips; trip `k` adds, lane by lane, the sixteen words at row `50 j + k` of buffer
  slot `s` from column `off` on onto each of five accumulators (`off` = 0, 16, 32, 48, 54). After `k` trips a lane
  holds the sum of the first `k` of its fifty words; after fifty, the whole sum, which is the fold the claim names.
-/
import proofs.«202962_g35424890258148_retrytranche2_417_11_alg».proof.Proof.TileSpec
import Idealize.ShloMosaic.Lib.SparseCore.Ops
import Idealize.ShloMosaic.Lib.Tactic
import Idealize.ShloMosaic.Lib.ValueLayout

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ
local notation "sB" => (Memref.whole Cert.KernelIdeal.cc1_scratch1 : Memref Cert.KernelIdeal.sig Kind.scVector Space.vmem Cert.KernelIdeal.S2x200x128 EltTy.f32)
local notation "sS" => (Memref.whole Cert.KernelIdeal.cc1_scratch2 : Memref Cert.KernelIdeal.sig Kind.scVector Space.vmem Cert.KernelIdeal.S32x128 EltTy.f32)
local notation "tW" => (Memref.whole Cert.KernelIdeal.main_v2_scv : Memref Cert.KernelIdeal.sig Kind.scVector Space.hbm Cert.KernelIdeal.S100000x128 EltTy.f32)
local notation "sI" => (Memref.whole Cert.KernelIdeal.cc1_scratch0 : Memref Cert.KernelIdeal.sig Kind.scVector Space.vmem Cert.KernelIdeal.S1600 EltTy.i32)

/-! ## Partial sums -/

/-- The first `k` of fifty values added one after the other onto the zero word. -/
def partF (g : Fin 50 → F .f32) : ℕ → F .f32
  | 0 => FloatOps.ofBits .f32 0x00000000#32
  | k + 1 => if h : k < 50 then FloatOps.addf (partF g k) (g ⟨k, h⟩) else partF g k

theorem partF_succ (g : Fin 50 → F .f32) (k : ℕ) (hk : k < 50) : partF g (k + 1) = FloatOps.addf (partF g k) (g ⟨k, hk⟩) := by
  show (if h : k < 50 then FloatOps.addf (partF g k) (g ⟨k, h⟩) else partF g k) = _
  rw [dif_pos hk]

/-- Summing the first `n` values by the fold is the partial sum. -/
theorem foldl_eq_partF (g : Fin 50 → F .f32) : ∀ (n : ℕ) (hn : n ≤ 50),
    Fin.foldl n (fun acc (j : Fin n) => FloatOps.addf acc (g (j.castLE hn))) (FloatOps.ofBits .f32 0x00000000#32) = partF g n
  | 0, _ => by simp [partF]
  | n + 1, hn => by
    rw [Fin.foldl_succ_last, partF_succ g n (by omega)]
    congr 1
    exact foldl_eq_partF g n (by omega)

theorem poolF_eq_partF (g : Fin 50 → F .f32) : poolF g = partF g 50 := foldl_eq_partF g 50 (le_refl _)

/-! ## The accumulators of one batch row's loop -/

/-- One accumulator after `k` trips: lane `l` holds the partial sum of column `off + l` over rows `50 j + ·` of
    buffer slot `s`. -/
def AccOne (B : S2x200x128.Idx → F .f32) (s : Fin 2) (j : Fin 4) (k : ℕ) (off : ℕ) (hoff : off + 16 ≤ 128) (a : FVec F S16 .f32) : Prop :=
  ∀ l : Fin 16, a (ix1 l) = partF (fun t : Fin 50 => B (ix3 s ⟨50 * j.val + t.val, by omega⟩ ⟨off + l.val, by omega⟩)) k

/-- The five accumulators: columns 0.., 16.., 32.., 48.., 54... -/
def AccOK (B : S2x200x128.Idx → F .f32) (s : Fin 2) (j : Fin 4) (k : ℕ)
    (acc : FVec F S16 .f32 × FVec F S16 .f32 × FVec F S16 .f32 × FVec F S16 .f32 × FVec F S16 .f32) : Prop :=
  AccOne B s j k 0 (by omega) acc.1 ∧ AccOne B s j k 16 (by omega) acc.2.1 ∧ AccOne B s j k 32 (by omega) acc.2.2.1
    ∧ AccOne B s j k 48 (by omega) acc.2.2.2.1 ∧ AccOne B s j k 54 (by omega) acc.2.2.2.2

/-- Before the first trip every lane holds the zero word. -/
theorem accOne_zero (B : S2x200x128.Idx → F .f32) (s : Fin 2) (j : Fin 4) (off : ℕ) (hoff : off + 16 ≤ 128) :
    AccOne B s j 0 off hoff (broadcast S16 (FloatOps.ofBits .f32 0x00000000#32 : F .f32)) := fun _ => rfl

/-- A trip adds, lane by lane, the 16 words it loads at `(s, 50 j + k, off ..)`. -/
theorem accOne_step (B : (sB).view.ty.Contents (Elt F)) (s : Fin 2) (j : Fin 4) (off : ℕ) (hoff : off + 16 ≤ 128) (k : ℕ) (hk : k < 50)
    (a : FVec F S16 .f32) (h : AccOne (B : S2x200x128.Idx → F .f32) s j k off hoff a)
    (o : Fin 3 → ℕ) [co : ClosedOff o] (hco : co.form = ![s.val, k + 50 * j.val, off])
    (inb : ∀ a, o a + S1x1x16.size a ≤ S2x200x128.size a) (hc : S1x1x16.ShapeCasts S16) :
    AccOne (B : S2x200x128.Idx → F .f32) s j (k + 1) off hoff
      (addf a (shapeCast S16 ((sB).view.readAt (Elt F) (Rect.unit (s := S2x200x128) o S1x1x16.size inb).toLoadRect B) hc)) := by
  have ho : o = ![s.val, k + 50 * j.val, off] := co.eq.trans hco
  intro l
  show FloatOps.addf (a (ix1 l)) (shapeCast S16 ((sB).view.readAt (Elt F) (Rect.unit (s := S2x200x128) o S1x1x16.size inb).toLoadRect B) hc (ix1 l)) = _
  rw [partF_succ _ k hk, h l]
  congr 1
  rw [shapeCast_apply _ hc (ix1 l) (ix3 (0 : Fin 1) (0 : Fin 1) l) (by
    rw [Shape.rowMajor_val_three, Shape.rowMajor_val_one]
    show (0 * 1 + 0) * 16 + l.val = l.val
    omega)]
  show (B : S2x200x128.Idx → F .f32) ((Rect.unit (s := S2x200x128) o S1x1x16.size inb).toLoadRect.idx (ix3 (0 : Fin 1) (0 : Fin 1) l)) = _
  congr 1
  funext a
  apply Fin.ext
  rw [LoadRect.idx_apply]
  subst ho
  match a with
  | ⟨0, _⟩ => show s.val + 1 * 0 = s.val; omega
  | ⟨1, _⟩ => show k + 50 * j.val + 1 * 0 = 50 * j.val + k; omega
  | ⟨2, _⟩ => show off + 1 * l.val = off + l.val; omega

/-! ## Loads from one slot while the other is lent out -/

/-- A 16-word load in slot `s` of the buffer stays clear of the other slot `s'`. -/
theorem load_sub (s s' : ℕ) (hss : s ≠ s') (o : Fin 3 → ℕ) [co : ClosedOff o] (hco0 : co.form 0 = s) (inb : ∀ a, o a + S1x1x16.size a ≤ S2x200x128.size a)
    (inb' : ∀ a, (![s', 0, 0] : Fin 3 → ℕ) a + S1x200x128.size a ≤ S2x200x128.size a) :
    (sB).view.setOn (Rect.unit (s := S2x200x128) o S1x1x16.size inb).toLoadRect.set
      ⊆ Finset.univ \ ((((sB).slice (Rect.unit (s := S2x200x128) ![s', 0, 0] S1x200x128.size inb') (fun _ => rfl)).squeeze S200x128 squeezes_S1x200x128_S200x128)).view.set := by
  have ho0 : o 0 = s := (congrFun co.eq 0).trans hco0
  intro x hx
  rw [Finset.mem_sdiff]
  refine ⟨Finset.mem_univ _, fun hx' => ?_⟩
  obtain ⟨y, hy, rfl⟩ := Finset.mem_map.mp hx
  have hx'' : (sB).view.emb y ∈ (((sB).view.slice (Rect.unit (s := S2x200x128) ![s', 0, 0] S1x200x128.size inb')).reshape S200x128 squeezes_S1x200x128_S200x128.numel_eq).set := hx'
  rw [View.set_reshape, View.set_slice, Finset.mem_map'] at hx''
  have h1 := (Rect.mem_set_unit.mp hy) 0
  have h2 := (Rect.mem_set_unit.mp hx'') 0
  have e1 : S1x1x16.size 0 = 1 := rfl
  have e2 : S1x200x128.size 0 = 1 := rfl
  have e3 : (![s', 0, 0] : Fin 3 → ℕ) 0 = s' := rfl
  rw [e1] at h1
  rw [e2, e3] at h2
  omega

end Cert.Proof.KI

end
-- ==== Proof.TileStage.lean ====
/-
  The staging rows: what one 16-word store leaves, and the five stores of one batch row.

  Row `r` of the staging buffer receives five stores of sixteen words, at columns 0, 16, 32, 48 and 54; the last two
  overlap in columns 54..63, where they hold the same values. Read back, the first 70 columns of row `r` are the
  accumulators' lanes, and the rows stored before are untouched.
-/
import proofs.«202962_g35424890258148_retrytranche2_417_11_alg».proof.Proof.TileSpec
import Idealize.ShloMosaic.Lib.Writes
import Idealize.ShloMosaic.Lib.Tactic
import Idealize.ShloMosaic.Lib.ValueLayout

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ
local notation "sB" => (Memref.whole Cert.KernelIdeal.cc1_scratch1 : Memref Cert.KernelIdeal.sig Kind.scVector Space.vmem Cert.KernelIdeal.S2x200x128 EltTy.f32)
local notation "sS" => (Memref.whole Cert.KernelIdeal.cc1_scratch2 : Memref Cert.KernelIdeal.sig Kind.scVector Space.vmem Cert.KernelIdeal.S32x128 EltTy.f32)
local notation "tW" => (Memref.whole Cert.KernelIdeal.main_v2_scv : Memref Cert.KernelIdeal.sig Kind.scVector Space.hbm Cert.KernelIdeal.S100000x128 EltTy.f32)
local notation "sI" => (Memref.whole Cert.KernelIdeal.cc1_scratch0 : Memref Cert.KernelIdeal.sig Kind.scVector Space.vmem Cert.KernelIdeal.S1600 EltTy.i32)

/-- One 16-word store at `(r, off ..)` read back: under it the stored lane, elsewhere what was there. -/
theorem writes_cons_apply (St : (sS).view.ty.Contents (Elt F)) (L : List (View.Piece (Elt F) S32x128 .f32)) (r off : ℕ)
    (inb : ∀ a, (![r, off] : Fin 2 → ℕ) a + S1x16.size a ≤ S32x128.size a) (a : FVec F S16 .f32) (hc : S16.ShapeCasts S1x16)
    (r' : Fin 32) (e' : Fin 128) :
    ((sS).view.writes (Elt F) St (⟨Rect.unit (s := S32x128) ![r, off] S1x16.size inb, shapeCast S1x16 a hc⟩ :: L) : S32x128.Idx → F .f32) (ix2 r' e')
      = if h : r'.val = r ∧ off ≤ e'.val ∧ e'.val < off + 16 then a (ix1 ⟨e'.val - off, by omega⟩)
        else ((sS).view.writes (Elt F) St L : S32x128.Idx → F .f32) (ix2 r' e') := by
  split
  · rename_i h
    have hy : ix2 r' e' = (Rect.unit (s := S32x128) ![r, off] S1x16.size inb).emb (ix2 (0 : Fin 1) (⟨e'.val - off, by omega⟩ : Fin 16)) := by
      funext b
      apply Fin.ext
      rw [Rect.emb_apply]
      match b with
      | ⟨0, _⟩ => show r'.val = r + 1 * 0; omega
      | ⟨1, _⟩ => show e'.val = off + 1 * (e'.val - off); omega
    rw [hy]
    refine ((sS).view.read_writes_cons_emb St _ _ L _).trans ?_
    exact shapeCast_a_1a_apply a hc 0 _
  · rename_i h
    have key := View.read_slice_write_of_not_mem (v := (sS).view) (Val := Elt F) (Rect.unit (s := S32x128) ![r, off] S1x16.size inb)
      ((sS).view.writes (Elt F) St L) (shapeCast S1x16 a hc) Finset.univ (y := ix2 r' e')
    refine key ?_
    rw [Rect.map_emb_univ, Rect.mem_set_unit]
    intro hm
    have h0 : r ≤ r'.val ∧ r'.val < r + 1 := hm 0
    have h1 : off ≤ e'.val ∧ e'.val < off + 16 := hm 1
    omega

/-- The lanes of one accumulator that fall in the first 70 columns hold the row's values `G r`. -/
def LaneVal (G : Fin 32 → Fin 70 → F .f32) (r : ℕ) (hr : r < 32) (off : ℕ) (a : FVec F S16 .f32) : Prop :=
  ∀ (l : Fin 16) (h : off + l.val < 70), a (ix1 l) = G ⟨r, hr⟩ ⟨off + l.val, h⟩

/-- The first `n` staging rows hold `G` in their first 70 columns. -/
def StageOK (G : Fin 32 → Fin 70 → F .f32) (St : S32x128.Idx → F .f32) (n : ℕ) : Prop :=
  ∀ r : Fin 32, r.val < n → ∀ e : Fin 70, St (ix2 r (e.castLE (by decide))) = G r e

/-- The five stores of row `r` (at columns 0, 16, 32, 48, 54; the last two overlap and agree) extend the rows done by one. -/
theorem stage_row (G : Fin 32 → Fin 70 → F .f32) (St : (sS).view.ty.Contents (Elt F)) (r : ℕ) (hr : r < 32)
    (a0 a1 a2 a3 a4 : FVec F S16 .f32)
    (h0 : LaneVal G r hr 0 a0) (h1 : LaneVal G r hr 16 a1) (h2 : LaneVal G r hr 32 a2) (h3 : LaneVal G r hr 48 a3) (h4 : LaneVal G r hr 54 a4)
    (hSt : StageOK G (St : S32x128.Idx → F .f32) r)
    (i0 : ∀ a, (![r, 0] : Fin 2 → ℕ) a + S1x16.size a ≤ S32x128.size a) (i1 : ∀ a, (![r, 16] : Fin 2 → ℕ) a + S1x16.size a ≤ S32x128.size a)
    (i2 : ∀ a, (![r, 32] : Fin 2 → ℕ) a + S1x16.size a ≤ S32x128.size a) (i3 : ∀ a, (![r, 48] : Fin 2 → ℕ) a + S1x16.size a ≤ S32x128.size a)
    (i4 : ∀ a, (![r, 54] : Fin 2 → ℕ) a + S1x16.size a ≤ S32x128.size a) (hc : S16.ShapeCasts S1x16) :
    StageOK G (((sS).view.writes (Elt F) St
        [⟨Rect.unit (s := S32x128) ![r, 54] S1x16.size i4, shapeCast S1x16 a4 hc⟩, ⟨Rect.unit (s := S32x128) ![r, 48] S1x16.size i3, shapeCast S1x16 a3 hc⟩,
         ⟨Rect.unit (s := S32x128) ![r, 32] S1x16.size i2, shapeCast S1x16 a2 hc⟩, ⟨Rect.unit (s := S32x128) ![r, 16] S1x16.size i1, shapeCast S1x16 a1 hc⟩,
         ⟨Rect.unit (s := S32x128) ![r, 0] S1x16.size i0, shapeCast S1x16 a0 hc⟩]) : S32x128.Idx → F .f32) (r + 1) := by
  intro r' hr' e
  have he : (e.castLE (by decide) : Fin 128).val = e.val := rfl
  have hlt := e.isLt
  rw [writes_cons_apply, writes_cons_apply, writes_cons_apply, writes_cons_apply, writes_cons_apply]
  split_ifs with c4 c3 c2 c1 c0
  · obtain ⟨hrr, hlo, hhi⟩ := c4
    obtain rfl : r' = ⟨r, hr⟩ := Fin.ext hrr
    exact (h4 _ (by rw [he] at hlo; show 54 + (e.val - 54) < 70; omega)).trans (congrArg (G _) (Fin.ext (by show 54 + ((e.castLE _ : Fin 128).val - 54) = e.val; omega)))
  · obtain ⟨hrr, hlo, hhi⟩ := c3
    obtain rfl : r' = ⟨r, hr⟩ := Fin.ext hrr
    exact (h3 _ (by rw [he] at hlo; show 48 + (e.val - 48) < 70; omega)).trans (congrArg (G _) (Fin.ext (by show 48 + ((e.castLE _ : Fin 128).val - 48) = e.val; omega)))
  · obtain ⟨hrr, hlo, hhi⟩ := c2
    obtain rfl : r' = ⟨r, hr⟩ := Fin.ext hrr
    exact (h2 _ (by rw [he] at hlo; show 32 + (e.val - 32) < 70; omega)).trans (congrArg (G _) (Fin.ext (by show 32 + ((e.castLE _ : Fin 128).val - 32) = e.val; omega)))
  · obtain ⟨hrr, hlo, hhi⟩ := c1
    obtain rfl : r' = ⟨r, hr⟩ := Fin.ext hrr
    exact (h1 _ (by rw [he] at hlo; show 16 + (e.val - 16) < 70; omega)).trans (congrArg (G _) (Fin.ext (by show 16 + ((e.castLE _ : Fin 128).val - 16) = e.val; omega)))
  · obtain ⟨hrr, hlo, hhi⟩ := c0
    obtain rfl : r' = ⟨r, hr⟩ := Fin.ext hrr
    exact (h0 _ (by rw [he] at hlo; show 0 + (e.val - 0) < 70; omega)).trans (congrArg (G _) (Fin.ext (by show 0 + ((e.castLE _ : Fin 128).val - 0) = e.val; omega)))
  · by_cases hrr : r'.val = r
    · exfalso
      rw [he] at c4 c3 c2 c1 c0
      omega
    · exact hSt r' (by omega) e

end Cert.Proof.KI

end
-- ==== Proof.TileGather.lean ====
/-
  What a buffer slot holds after a gather, and from there the value of a batch row's accumulators.

  Gather `g` copies, for `k < 200`, the padded table's row named by the tile's index word `200 g + k` into row `k`
  of slot `g mod 2`. The tile's index word `n` is word `1600 (2 i + c) + n` of the flat index array, which is position
  `n mod 50` of batch row `32 (2 i + c) + n / 50`; the padded table agrees with the table on its first 70 columns; an
  index word in range names the row of its own value. So a lane of an accumulator of batch row `4 g + j`, after its
  fifty trips, is the pooled sum of that batch row at the lane's column.
-/
import proofs.«202962_g35424890258148_retrytranche2_417_11_alg».proof.Proof.TileSum
import proofs.«202962_g35424890258148_retrytranche2_417_11_alg».proof.Proof.TileStage
import Idealize.ShloMosaic.Lib.SparseCore.Stream

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ
local notation "sB" => (Memref.whole Cert.KernelIdeal.cc1_scratch1 : Memref Cert.KernelIdeal.sig Kind.scVector Space.vmem Cert.KernelIdeal.S2x200x128 EltTy.f32)
local notation "sS" => (Memref.whole Cert.KernelIdeal.cc1_scratch2 : Memref Cert.KernelIdeal.sig Kind.scVector Space.vmem Cert.KernelIdeal.S32x128 EltTy.f32)
local notation "tW" => (Memref.whole Cert.KernelIdeal.main_v2_scv : Memref Cert.KernelIdeal.sig Kind.scVector Space.hbm Cert.KernelIdeal.S100000x128 EltTy.f32)
local notation "sI" => (Memref.whole Cert.KernelIdeal.cc1_scratch0 : Memref Cert.KernelIdeal.sig Kind.scVector Space.vmem Cert.KernelIdeal.S1600 EltTy.i32)

/-- Slot `s` of the buffer, as the kernel slices and squeezes it. -/
abbrev slotM (s : ℕ) (inb : ∀ a, (![s, 0, 0] : Fin 3 → ℕ) a + S1x200x128.size a ≤ S2x200x128.size a) : Memref sig .scVector .vmem S200x128 .f32 :=
  ((sB).slice (Rect.unit (s := S2x200x128) ![s, 0, 0] S1x200x128.size inb) (fun _ => rfl)).squeeze S200x128 squeezes_S1x200x128_S200x128

/-- The slot's view places `(k, e)` at `(s, k, e)`. -/
theorem slot_emb (s : ℕ) (hs : s < 2) (inb : ∀ a, (![s, 0, 0] : Fin 3 → ℕ) a + S1x200x128.size a ≤ S2x200x128.size a) (k : Fin 200) (e : Fin 128) :
    ((slotM s inb).view.emb (ix2 k e) : S2x200x128.Idx) = ix3 (⟨s, hs⟩ : Fin 2) k e := by
  show (sB).view.emb ((Rect.unit (s := S2x200x128) ![s, 0, 0] S1x200x128.size inb).emb
    (Shape.reshapeEquiv squeezes_S1x200x128_S200x128.numel_eq (ix2 k e))) = _
  rw [reshapeEquiv_ix2_1ab]
  funext b
  apply Fin.ext
  show ((Rect.unit (s := S2x200x128) ![s, 0, 0] S1x200x128.size inb).emb (ix3 (⟨0, Nat.one_pos⟩ : Fin 1) k e) b).val = _
  rw [Rect.emb_apply]
  match b with
  | ⟨0, _⟩ => show s + 1 * 0 = s; omega
  | ⟨1, _⟩ => show 0 + 1 * k.val = k.val; omega
  | ⟨2, _⟩ => show 0 + 1 * e.val = e.val; omega

/-- A gather into slot `s` leaves its payload there: slot `s` at `(k, e)` holds the payload at `(k, e)`. -/
theorem slot_after1 (s : ℕ) (hs : s < 2) (inb : ∀ a, (![s, 0, 0] : Fin 3 → ℕ) a + S1x200x128.size a ≤ S2x200x128.size a)
    (Bp : (sB).view.ty.Contents (Elt F)) (pay : S200x128.Idx → F .f32) (k : Fin 200) (e : Fin 128) :
    ((slotM s inb).view.write (Elt F) Bp pay Finset.univ : S2x200x128.Idx → F .f32) (ix3 (⟨s, hs⟩ : Fin 2) k e) = pay (ix2 k e) := by
  rw [← slot_emb s hs inb k e]
  exact (View.write_emb_of_mem (v := (slotM s inb).view) Bp pay (Finset.mem_univ _)).trans (cast_eq _ _)

/-- A gather into the other slot `s'` afterwards does not disturb slot `s`: it still holds the earlier payload. -/
theorem slot_after2 (s s' : ℕ) (hs : s < 2) (hs' : s' < 2) (hne : s ≠ s')
    (inb : ∀ a, (![s, 0, 0] : Fin 3 → ℕ) a + S1x200x128.size a ≤ S2x200x128.size a)
    (inb' : ∀ a, (![s', 0, 0] : Fin 3 → ℕ) a + S1x200x128.size a ≤ S2x200x128.size a)
    (Bp : (sB).view.ty.Contents (Elt F)) (pay pay' : S200x128.Idx → F .f32) (k : Fin 200) (e : Fin 128) :
    ((slotM s' inb').view.write (Elt F) ((slotM s inb).view.write (Elt F) Bp pay Finset.univ) pay' Finset.univ : S2x200x128.Idx → F .f32)
        (ix3 (⟨s, hs⟩ : Fin 2) k e) = pay (ix2 k e) := by
  have hnot : (ix3 (⟨s, hs⟩ : Fin 2) k e : S2x200x128.Idx) ∉ (slotM s' inb').view.setOn Finset.univ := by
    intro hm
    obtain ⟨y, -, hy⟩ := Finset.mem_map.mp hm
    have hy' : y = ix2 (y 0) (y 1) := by
      funext b
      match b with
      | ⟨0, _⟩ => rfl
      | ⟨1, _⟩ => rfl
    have hy2 : ((slotM s' inb').view.emb y : S2x200x128.Idx) = ix3 (⟨s', hs'⟩ : Fin 2) (y 0) (y 1) :=
      (congrArg (fun z => ((slotM s' inb').view.emb z : S2x200x128.Idx)) hy').trans (slot_emb s' hs' inb' (y 0) (y 1))
    have h0 : s' = s := congrArg (fun z : S2x200x128.Idx => (z 0).val) (hy2.symm.trans hy)
    exact hne h0.symm
  refine (View.write_of_not_mem (v := (slotM s' inb').view) (Val := Elt F) _ pay' Finset.univ hnot).trans ?_
  exact slot_after1 s hs inb Bp pay k e

open Idealize.ShloMosaic.SparseCore (gatherPayload rows)

/-- The gather's source index for destination `(k, e)`: row `r k`, column `e`. -/
theorem gather_idx (r : Fin (S200x128.size gathers_S100000x128_S200x128.axis') → Fin (S100000x128.size gathers_S100000x128_S200x128.axis))
    (k : Fin 200) (e : Fin 128) :
    (gathers_S100000x128_S200x128.idx r (ix2 k e) : S100000x128.Idx) = ix2 (r k) e := by
  funext b
  match b with
  | ⟨0, _⟩ => exact Shape.Gathers.idx_axis gathers_S100000x128_S200x128 r (ix2 k e)
  | ⟨1, h1⟩ => exact Fin.ext (Shape.Gathers.idx_of_ne gathers_S100000x128_S200x128 r (ix2 k e) ⟨1, h1⟩ (by show (1 : ℕ) ≠ 0; omega))

/-- What gather `o / 200` delivers at `(k, e)`: column `e` of the table row the index word `o + k` names. -/
theorem gather_val (tp : (tW).view.ty.Contents (Elt F)) (xsv : (sI).view.ty.Contents (Elt F)) (o : ℕ) (ho : o + 200 ≤ 1600)
    (inb : ∀ a, (![o] : Fin 1 → ℕ) a + S200.size a ≤ S1600.size a)
    (inbT : ∀ a, (![0, 0] : Fin 2 → ℕ) a + S100000x128.size a ≤ S100000x128.size a)
    (hn : S200.numel = S200x128.size gathers_S100000x128_S200x128.axis')
    (hin : ∀ x, ((((sI).slice (Rect.unit (s := S1600) ![o] S200.size inb) (fun _ => rfl)).view.read (Elt F) xsv x) : BitVec 32).toNat
      < S100000x128.size gathers_S100000x128_S200x128.axis)
    (k : Fin 200) (e : Fin 128) (ρ : Fin 100000) (hρ : ρ.val = ((xsv : S1600.Idx → BitVec 32) (ix1 ⟨o + k.val, by omega⟩)).toNat) :
    gatherPayload gathers_S100000x128_S200x128 (((tW).slice (Rect.unit (s := S100000x128) ![0, 0] S100000x128.size inbT) (fun _ => rfl)).view.read (Elt F) tp)
        (rows (((sI).slice (Rect.unit (s := S1600) ![o] S200.size inb) (fun _ => rfl)).view.read (Elt F) xsv) hn hin) (ix2 k e)
      = (tp : S100000x128.Idx → F .f32) (ix2 ρ e) := by
  show (((tW).slice (Rect.unit (s := S100000x128) ![0, 0] S100000x128.size inbT) (fun _ => rfl)).view.read (Elt F) tp)
    (gathers_S100000x128_S200x128.idx _ (ix2 k e)) = _
  rw [gather_idx]
  have hk : S200.rowMajor.symm (k.cast hn.symm) = ix1 k :=
    (Equiv.symm_apply_eq _).mpr (Fin.ext (by rw [Shape.rowMajor_val_one]; rfl))
  show (tp : S100000x128.Idx → F .f32) ((Rect.unit (s := S100000x128) ![0, 0] S100000x128.size inbT).emb (ix2 _ e)) = _
  congr 1
  funext b
  apply Fin.ext
  rw [Rect.emb_apply]
  match b with
  | ⟨0, _⟩ =>
    show 0 + 1 * ((((sI).slice (Rect.unit (s := S1600) ![o] S200.size inb) (fun _ => rfl)).view.read (Elt F) xsv
      (S200.rowMajor.symm (k.cast hn.symm)) : BitVec 32)).toNat = ρ.val
    rw [hk, hρ, Nat.zero_add, Nat.one_mul]
    show ((xsv : S1600.Idx → BitVec 32) ((Rect.unit (s := S1600) ![o] S200.size inb).emb (ix1 k))).toNat = _
    congr 2
    funext b'
    obtain rfl : b' = 0 := Subsingleton.elim _ _
    apply Fin.ext
    rw [Rect.emb_apply]
    show o + 1 * k.val = o + k.val
    omega
  | ⟨1, _⟩ => show 0 + 1 * e.val = e.val; omega

/-! ## From the accumulators to the pooled sums -/

section Values

variable (m : (ℓ : Loc nD τ sig) → Buf (Elt F) ℓ) (X : (d : Dev nD) → Buf (Elt F) (xLoc d)) (d : Dev nD) (c : Fin 2) (i : Fin 16)

/-- The tile's index words: its 1600 words of the flat index array. -/
abbrev xsOf : S1600.Idx → BitVec 32 := (xPiece c i).view.read (Elt F) (X d)

/-- Word `n` of the tile is word `1600 (2 i + c) + n` of the flat array. -/
theorem xsOf_val (n : Fin 1600) :
    xsOf X d c i (ix1 n) = (X d : S51200.Idx → BitVec 32) (ix1 ⟨1600 * (2 * i.val + c.val) + n.val, by omega⟩) := by
  show (X d : S51200.Idx → BitVec 32) ((Rect.unit (s := S51200) (k1_off1 (co c i)) S1600.size (k1_off1_inb (co c i))).emb (ix1 n)) = _
  congr 1
  funext b
  obtain rfl : b = 0 := Subsingleton.elim _ _
  apply Fin.ext
  rw [Rect.emb_apply]
  have h1 : (k1_off1 (co c i)) 0 = 3200 * i.val + 1600 * c.val := congrFun (k1_off1_eq (co c i)) 0
  show (k1_off1 (co c i)) 0 + 1 * n.val = 1600 * (2 * i.val + c.val) + n.val
  rw [h1]
  omega

/-- Slot `s` holds the table rows the 200 index words from `o` on name. -/
def SlotRows (tp : S100000x128.Idx → F .f32) (xsv : S1600.Idx → BitVec 32) (B : S2x200x128.Idx → F .f32) (s : Fin 2) (o : ℕ) (ho : o + 200 ≤ 1600) : Prop :=
  ∀ (k : Fin 200) (e : Fin 128) (ρ : Fin 100000), ρ.val = (xsv (ix1 ⟨o + k.val, by omega⟩)).toNat → B (ix3 s k e) = tp (ix2 ρ e)

/-- The values the tile's row `r` is to hold. -/
def Gof (r : Fin 32) (e : Fin 70) : F .f32 := pooledF m d (brow c i r) e

/-- The row's value as a partial sum carried to its end. -/
theorem Gof_eq (r : Fin 32) (e : Fin 70) :
    Gof m d c i r e = partF (fun t : Fin 50 => (m (tblLoc d) : S100000x70.Idx → F .f32)
      (ix2 (Cert.Spec.row ((m (idxLoc d) : S1024x50.Idx → BitVec 32) (ix2 (brow c i r) t))) e)) 50 :=
  poolF_eq_partF (fun t : Fin 50 => (m (tblLoc d) : S100000x70.Idx → F .f32)
      (ix2 (Cert.Spec.row ((m (idxLoc d) : S1024x50.Idx → BitVec 32) (ix2 (brow c i r) t))) e))

/-- Index word `200 g + 50 j + t` of the tile is position `t` of its batch row `4 g + j`. -/
theorem xsOf_flat (hX : IsFlat m d (X d)) (j : Fin 4) (g : ℕ) (hg : g < 8) (t : Fin 50) :
    xsOf X d c i (ix1 ⟨200 * g + (50 * j.val + t.val), by omega⟩)
      = (m (idxLoc d) : S1024x50.Idx → BitVec 32) (ix2 (brow c i ⟨4 * g + j.val, by omega⟩) t) :=
  (xsOf_val X d c i ⟨200 * g + (50 * j.val + t.val), by omega⟩).trans
    ((congrArg (X d : S51200.Idx → BitVec 32) (congrArg ix1 (Fin.ext (by
      show 1600 * (2 * i.val + c.val) + (200 * g + (50 * j.val + t.val)) = ((2 * i.val + c.val) * 32 + (4 * g + j.val)) * 50 + t.val
      omega)))).trans (hX (brow c i ⟨4 * g + j.val, by omega⟩) t))

/-- After its fifty trips, an accumulator's lanes within the first 70 columns hold the pooled sums of the batch row. -/
theorem lane_val (hX : IsFlat m d (X d)) (hr : InRange m) (tp : Buf (Elt F) (tpLoc d)) (htp : Rtp m d tp)
    (B : S2x200x128.Idx → F .f32) (s : Fin 2) (j : Fin 4) (g : ℕ) (hg : g < 8)
    (hrows : SlotRows (tp : S100000x128.Idx → F .f32) (xsOf X d c i) B s (200 * g) (by omega))
    (off : ℕ) (hoff : off + 16 ≤ 128) (a : FVec F S16 .f32) (hacc : AccOne B s j 50 off hoff a) :
    LaneVal (Gof m d c i) (4 * g + j.val) (by omega) off a := by
  intro l h
  refine (hacc l).trans ?_
  refine Eq.trans ?_ (Gof_eq m d c i ⟨4 * g + j.val, by omega⟩ ⟨off + l.val, h⟩).symm
  refine congrArg (fun f => partF f 50) (funext fun t => ?_)
  obtain ⟨h0, h1⟩ := hr d (ix2 (brow c i ⟨4 * g + j.val, by omega⟩) t)
  have hρ := (Cert.Spec.row_val_of_range h0 h1).trans (congrArg BitVec.toNat (xsOf_flat m X d c i hX j g hg t).symm)
  exact (hrows ⟨50 * j.val + t.val, by omega⟩ ⟨off + l.val, by omega⟩ _ hρ).trans (htp _ ⟨off + l.val, h⟩)

/-- The five accumulators after the fifty trips. -/
theorem acc_vals (hX : IsFlat m d (X d)) (hr : InRange m) (tp : Buf (Elt F) (tpLoc d)) (htp : Rtp m d tp)
    (B : S2x200x128.Idx → F .f32) (s : Fin 2) (j : Fin 4) (g : ℕ) (hg : g < 8)
    (hrows : SlotRows (tp : S100000x128.Idx → F .f32) (xsOf X d c i) B s (200 * g) (by omega))
    (acc : FVec F S16 .f32 × FVec F S16 .f32 × FVec F S16 .f32 × FVec F S16 .f32 × FVec F S16 .f32) (hacc : AccOK B s j 50 acc) :
    LaneVal (Gof m d c i) (4 * g + j.val) (by omega) 0 acc.1 ∧ LaneVal (Gof m d c i) (4 * g + j.val) (by omega) 16 acc.2.1
      ∧ LaneVal (Gof m d c i) (4 * g + j.val) (by omega) 32 acc.2.2.1 ∧ LaneVal (Gof m d c i) (4 * g + j.val) (by omega) 48 acc.2.2.2.1
      ∧ LaneVal (Gof m d c i) (4 * g + j.val) (by omega) 54 acc.2.2.2.2 :=
  ⟨lane_val m X d c i hX hr tp htp B s j g hg hrows 0 _ _ hacc.1, lane_val m X d c i hX hr tp htp B s j g hg hrows 16 _ _ hacc.2.1,
    lane_val m X d c i hX hr tp htp B s j g hg hrows 32 _ _ hacc.2.2.1, lane_val m X d c i hX hr tp htp B s j g hg hrows 48 _ _ hacc.2.2.2.1,
    lane_val m X d c i hX hr tp htp B s j g hg hrows 54 _ _ hacc.2.2.2.2⟩

/-- After a gather into slot `s` over the index words from `o` on, and a gather into the other slot afterwards, slot `s` holds the table rows those words name. -/
theorem slot_rows2 (tp : (tW).view.ty.Contents (Elt F)) (xsv : (sI).view.ty.Contents (Elt F)) (s s' : ℕ) (hs : s < 2) (hs' : s' < 2) (hne : s ≠ s')
    (inb : ∀ a, (![s, 0, 0] : Fin 3 → ℕ) a + S1x200x128.size a ≤ S2x200x128.size a)
    (inb' : ∀ a, (![s', 0, 0] : Fin 3 → ℕ) a + S1x200x128.size a ≤ S2x200x128.size a)
    (Bp : (sB).view.ty.Contents (Elt F)) (o : ℕ) (ho : o + 200 ≤ 1600)
    (inbO : ∀ a, (![o] : Fin 1 → ℕ) a + S200.size a ≤ S1600.size a)
    (inbT : ∀ a, (![0, 0] : Fin 2 → ℕ) a + S100000x128.size a ≤ S100000x128.size a)
    (hn : S200.numel = S200x128.size gathers_S100000x128_S200x128.axis')
    (hin : ∀ x, ((((sI).slice (Rect.unit (s := S1600) ![o] S200.size inbO) (fun _ => rfl)).view.read (Elt F) xsv x) : BitVec 32).toNat
      < S100000x128.size gathers_S100000x128_S200x128.axis)
    (pay' : S200x128.Idx → F .f32) :
    SlotRows (tp : S100000x128.Idx → F .f32) (xsv : S1600.Idx → BitVec 32)
      ((slotM s' inb').view.write (Elt F) ((slotM s inb).view.write (Elt F) Bp
        (gatherPayload gathers_S100000x128_S200x128 (((tW).slice (Rect.unit (s := S100000x128) ![0, 0] S100000x128.size inbT) (fun _ => rfl)).view.read (Elt F) tp)
          (rows (((sI).slice (Rect.unit (s := S1600) ![o] S200.size inbO) (fun _ => rfl)).view.read (Elt F) xsv) hn hin)) Finset.univ) pay' Finset.univ : S2x200x128.Idx → F .f32)
      ⟨s, hs⟩ o ho :=
  fun k e ρ hρ => (slot_after2 s s' hs hs' hne inb inb' Bp _ pay' k e).trans (gather_val tp xsv o ho inbO inbT hn hin k e ρ hρ)

/-- After a gather into slot `s` over the index words from `o` on (nothing gathered since), slot `s` holds the table rows those words name. -/
theorem slot_rows1 (tp : (tW).view.ty.Contents (Elt F)) (xsv : (sI).view.ty.Contents (Elt F)) (s : ℕ) (hs : s < 2)
    (inb : ∀ a, (![s, 0, 0] : Fin 3 → ℕ) a + S1x200x128.size a ≤ S2x200x128.size a)
    (Bp : (sB).view.ty.Contents (Elt F)) (o : ℕ) (ho : o + 200 ≤ 1600)
    (inbO : ∀ a, (![o] : Fin 1 → ℕ) a + S200.size a ≤ S1600.size a)
    (inbT : ∀ a, (![0, 0] : Fin 2 → ℕ) a + S100000x128.size a ≤ S100000x128.size a)
    (hn : S200.numel = S200x128.size gathers_S100000x128_S200x128.axis')
    (hin : ∀ x, ((((sI).slice (Rect.unit (s := S1600) ![o] S200.size inbO) (fun _ => rfl)).view.read (Elt F) xsv x) : BitVec 32).toNat
      < S100000x128.size gathers_S100000x128_S200x128.axis) :
    SlotRows (tp : S100000x128.Idx → F .f32) (xsv : S1600.Idx → BitVec 32)
      ((slotM s inb).view.write (Elt F) Bp
        (gatherPayload gathers_S100000x128_S200x128 (((tW).slice (Rect.unit (s := S100000x128) ![0, 0] S100000x128.size inbT) (fun _ => rfl)).view.read (Elt F) tp)
          (rows (((sI).slice (Rect.unit (s := S1600) ![o] S200.size inbO) (fun _ => rfl)).view.read (Elt F) xsv) hn hin)) Finset.univ : S2x200x128.Idx → F .f32)
      ⟨s, hs⟩ o ho :=
  fun k e ρ hρ => (slot_after1 s hs inb Bp _ k e).trans (gather_val tp xsv o ho inbO inbT hn hin k e ρ hρ)

end Values

end Cert.Proof.KI

end
-- ==== Proof.TileOut.lean ====
/-
  The copy-out of the staging rows: the tile's 32 rows of the pooled array then hold, in their first 70 columns,
  the pooled sums of batch rows `32 (2 i + c) ..`.
-/
import proofs.«202962_g35424890258148_retrytranche2_417_11_alg».proof.Proof.TileGather
import Idealize.ShloMosaic.Lib.Writes

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ
local notation "sB" => (Memref.whole Cert.KernelIdeal.cc1_scratch1 : Memref Cert.KernelIdeal.sig Kind.scVector Space.vmem Cert.KernelIdeal.S2x200x128 EltTy.f32)
local notation "sS" => (Memref.whole Cert.KernelIdeal.cc1_scratch2 : Memref Cert.KernelIdeal.sig Kind.scVector Space.vmem Cert.KernelIdeal.S32x128 EltTy.f32)
local notation "tW" => (Memref.whole Cert.KernelIdeal.main_v2_scv : Memref Cert.KernelIdeal.sig Kind.scVector Space.hbm Cert.KernelIdeal.S100000x128 EltTy.f32)
local notation "sI" => (Memref.whole Cert.KernelIdeal.cc1_scratch0 : Memref Cert.KernelIdeal.sig Kind.scVector Space.vmem Cert.KernelIdeal.S1600 EltTy.i32)

/-! ## The copy-out -/

section Out

variable (m : (ℓ : Loc nD τ sig) → Buf (Elt F) ℓ) (d : Dev nD) (c : Fin 2) (i : Fin 16)

/-- The tile's piece of the pooled array places its row `r` at batch row `32 (2 i + c) + r`. -/
theorem po_emb (r : Fin 32) (e : Fin 128) : ((poPiece c i).view.emb (ix2 r e) : S1024x128.Idx) = ix2 (brow c i r) e := by
  show (Rect.unit (s := S1024x128) (k1_off162 (co c i)) S32x128.size (k1_off162_inb (co c i))).emb (ix2 r e) = _
  funext b
  apply Fin.ext
  rw [Rect.emb_apply]
  have h1 := congrFun (k1_off162_eq (co c i))
  match b with
  | ⟨0, _⟩ =>
    show (k1_off162 (co c i)) 0 + 1 * r.val = (2 * i.val + c.val) * 32 + r.val
    rw [h1 0]
    show 64 * i.val + 32 * c.val + 1 * r.val = (2 * i.val + c.val) * 32 + r.val
    omega
  | ⟨1, _⟩ =>
    show (k1_off162 (co c i)) 1 + 1 * e.val = e.val
    rw [h1 1]
    show 0 + 1 * e.val = e.val
    omega

/-- The staging rows copied out over the tile's rows of the pooled array: those rows then hold the pooled sums. -/
theorem rpo_of_stage (fp : Buf (Elt F) (poLoc d)) (St : (sS).view.ty.Contents (Elt F))
    (hSt : StageOK (Gof m d c i) (St : S32x128.Idx → F .f32) 32) :
    Rpo m d c i ((poPiece c i).view.write (Elt F) fp ((sS).view.read (Elt F) St) Finset.univ) := by
  intro r e
  show (((poPiece c i).view.write (Elt F) fp ((sS).view.read (Elt F) St) Finset.univ) : S1024x128.Idx → F .f32) (ix2 (brow c i r) (e.castLE (by decide)))
    = Gof m d c i r e
  rw [← po_emb c i r (e.castLE (by decide))]
  exact (View.write_emb_of_mem (v := (poPiece c i).view) (Val := Elt F) fp _ (Finset.mem_univ _)).trans ((cast_eq _ _).trans (hSt r r.isLt e))

end Out

section OutW

variable (m : (ℓ : Loc nD τ sig) → Buf (Elt F) ℓ) (d : Dev nD) (c : Fin 2) (i : Fin 16)

/-- The same with the copy-out stated as one whole-rectangle piece written through the tile's rows. -/
theorem rpo_of_stage_w (fp : Buf (Elt F) (poLoc d)) (St : (sS).view.ty.Contents (Elt F))
    (hSt : StageOK (Gof m d c i) (St : S32x128.Idx → F .f32) 32) :
    Rpo m d c i ((poPiece c i).view.writes (Elt F) fp [⟨Rect.whole S32x128, (sS).view.read (Elt F) St⟩]) := by
  intro r e
  have hx : (Rect.whole S32x128).emb (ix2 r (e.castLE (by decide))) = ix2 r (e.castLE (by decide)) := by
    funext b
    apply Fin.ext
    rw [Rect.emb_apply]
    match b with
    | ⟨0, _⟩ => show 0 + 1 * r.val = r.val; omega
    | ⟨1, _⟩ => show 0 + 1 * e.val = e.val; omega
  have key := View.read_writes_cons_emb (v := (poPiece c i).view) (Val := Elt F) fp (Rect.whole S32x128) ((sS).view.read (Elt F) St) []
    (ix2 r (e.castLE (by decide)))
  rw [hx] at key
  show (((poPiece c i).view.writes (Elt F) fp [⟨Rect.whole S32x128, (sS).view.read (Elt F) St⟩]) : S1024x128.Idx → F .f32)
      (ix2 (brow c i r) (e.castLE (by decide))) = Gof m d c i r e
  rw [← po_emb c i r (e.castLE (by decide))]
  exact key.trans (hSt r r.isLt e)

end OutW

end Cert.Proof.KI

end
-- ==== Proof.TileRun.lean ====
/-
  One tile's task of the pooling kernel, run from the resources it is handed to those it hands back.

  The tile copies its 1600 index words in, then for each of its 8 groups of 4 batch rows gathers the 200 table rows the
  group's words name into one of two buffer slots while the previous group's slot is being read: gather `g` is waited
  for, then gather `g + 1` issued into the other slot, so one gather at most is outstanding and never into the slot
  read. Each batch row's loop runs by one invariant: after `k` trips each accumulator lane holds the sum of the first
  `k` of its fifty words (TileSum). The slot read holds the table rows named by the group's index words (TileGather),
  so after fifty trips the lanes are the pooled sums; the row's five stores put them in the staging row (TileStage),
  and the copy-out puts the 32 staging rows in the tile's rows of the pooled array (TileOut). Every gathered index
  names a table row because every word of the flat index array is a word of the index array, which is in range.
-/
import proofs.«202962_g35424890258148_retrytranche2_417_11_alg».proof.Proof.TileOut
import proofs.«202962_g35424890258148_retrytranche2_417_11_alg».proof.Proof.Gen.KernelIdeal.Skeleton
import Idealize.ShloMosaic.Lib.SparseCore.Ops
import Idealize.ShloMosaic.Lib.Tactic

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok)

variable {F : FTy → Type} [FloatOps F] [Named F]

local notation "𝕄" => MT nD τ sig (HIx 1) (Elt F) ℕ UU ℕ

/-! ## The tile's thread, its scratches and its semaphores -/

abbrev cV (c : Fin 2) (i : Fin 16) : Fin τ.nSC := ((co c i) 0).castLE hcore1
abbrev jV (c : Fin 2) (i : Fin 16) : Fin τ.nSub := ((co c i) 1).castLE hsub1
abbrev thr (d : Dev nD) (c : Fin 2) (i : Fin 16) : Thread nD τ := V d (cV c i) (jV c i)

local notation "xW" => (Memref.whole Cert.KernelIdeal.main_v0_scv : Memref Cert.KernelIdeal.sig Kind.scVector Space.hbm Cert.KernelIdeal.S51200 EltTy.i32)
local notation "tW" => (Memref.whole Cert.KernelIdeal.main_v2_scv : Memref Cert.KernelIdeal.sig Kind.scVector Space.hbm Cert.KernelIdeal.S100000x128 EltTy.f32)
local notation "pW" => (Memref.whole Cert.KernelIdeal.main_v3_scv : Memref Cert.KernelIdeal.sig Kind.scVector Space.hbm Cert.KernelIdeal.S1024x128 EltTy.f32)
local notation "sI" => (Memref.whole Cert.KernelIdeal.cc1_scratch0 : Memref Cert.KernelIdeal.sig Kind.scVector Space.vmem Cert.KernelIdeal.S1600 EltTy.i32)
local notation "sB" => (Memref.whole Cert.KernelIdeal.cc1_scratch1 : Memref Cert.KernelIdeal.sig Kind.scVector Space.vmem Cert.KernelIdeal.S2x200x128 EltTy.f32)
local notation "sS" => (Memref.whole Cert.KernelIdeal.cc1_scratch2 : Memref Cert.KernelIdeal.sig Kind.scVector Space.vmem Cert.KernelIdeal.S32x128 EltTy.f32)

variable (d : Dev nD) (c : Fin 2) (i : Fin 16)

abbrev cA : GSem nD τ sig := (thr d c i, .dma cc1_scratch3.sem)
abbrev cB : GSem nD τ sig := (thr d c i, .dma cc1_scratch4.sem)
abbrev cX : GSem nD τ sig := (thr d c i, .dma cc1_scoped0.sem)
abbrev cY : GSem nD τ sig := (thr d c i, .dma cc1_scoped1.sem)

theorem ownSems0_V :
    (ownSems0 (thr d c i) : sProp 𝕄)
      = iprop(semVal (cA d c i) 0 ∗ semVal (cB d c i) 0 ∗ semVal (cX d c i) 0 ∗ semVal (cY d c i) 0
          ∗ bigSep (((((ownCells (thr d c i)).erase (cA d c i)).erase (cB d c i)).erase (cX d c i)).erase (cY d c i)) fun g => semVal g 0) := by
  unfold SparseCore.Cfg.ownSems0
  rw [SparseCore.bigSep_erase' ((mem_ownCells (g := cA d c i)).mpr ⟨rfl, by
      show (SemLoc.dma cc1_scratch3.sem : SemLoc sig).isScoped .scVector = true; decide⟩),
    SparseCore.bigSep_erase' (Finset.mem_erase.mpr ⟨by simp [cA, cB]; decide, (mem_ownCells (g := cB d c i)).mpr ⟨rfl, by
      show (SemLoc.dma cc1_scratch4.sem : SemLoc sig).isScoped .scVector = true; decide⟩⟩),
    SparseCore.bigSep_erase' (Finset.mem_erase.mpr ⟨by simp [cB, cX]; decide, Finset.mem_erase.mpr ⟨by simp [cA, cX]; decide,
      (mem_ownCells (g := cX d c i)).mpr ⟨rfl, by show (SemLoc.dma cc1_scoped0.sem : SemLoc sig).isScoped .scVector = true; decide⟩⟩⟩),
    SparseCore.bigSep_erase' (Finset.mem_erase.mpr ⟨by simp [cX, cY]; decide, Finset.mem_erase.mpr ⟨by simp [cB, cY]; decide, Finset.mem_erase.mpr ⟨by simp [cA, cY]; decide,
      (mem_ownCells (g := cY d c i)).mpr ⟨rfl, by show (SemLoc.dma cc1_scoped1.sem : SemLoc sig).isScoped .scVector = true; decide⟩⟩⟩⟩)]

theorem ownBufs_V :
    (ownBufs (thr d c i) : sProp 𝕄)
      = iprop((∃ f, (thr d c i).loc cc1_scratch0 ↦{fullShare} f) ∗ (∃ f, (thr d c i).loc cc1_scratch1 ↦{fullShare} f)
          ∗ (∃ f, (thr d c i).loc cc1_scratch2 ↦{fullShare} f)
          ∗ bigSep ((((ownRefs (τ := τ) (.scVector (cV c i) (jV c i))).erase ((Proc.scVector (cV c i) (jV c i)).devRef cc1_scratch0)).erase
              ((Proc.scVector (cV c i) (jV c i)).devRef cc1_scratch1)).erase ((Proc.scVector (cV c i) (jV c i)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV c i) (jV c i))
    (b := (Proc.scVector (cV c i) (jV c i)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV c i) (jV c i)) (b := (Proc.scVector (cV c i) (jV c i)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV c i) (jV c i)) (b := (Proc.scVector (cV c i) (jV c i)).devRef cc1_scratch2) rfl⟩⟩)]

variable (m : (ℓ : Loc nD τ sig) → Buf (Elt F) ℓ) (X : (d : Dev nD) → Buf (Elt F) (xLoc d))

/-! ## The index words -/

/-- Every word of the flat index array names a table row. -/
theorem X_range (hX : ∀ d, IsFlat m d (X d)) (hr : InRange m) (d : Dev nD) (j : S51200.Idx) :
    ((X d : S51200.Idx → BitVec 32) j).toNat < 100000 := by
  have hn : (j 0).val < 51200 := (j 0).isLt
  have hj : j = ix1 ⟨(⟨(j 0).val / 50, by omega⟩ : Fin 1024).val * 50 + (⟨(j 0).val % 50, Nat.mod_lt _ (by omega)⟩ : Fin 50).val, by
      show (j 0).val / 50 * 50 + (j 0).val % 50 < 51200; omega⟩ := by
    funext a
    obtain rfl : a = 0 := Subsingleton.elim _ _
    apply Fin.ext
    show (j 0).val = (j 0).val / 50 * 50 + (j 0).val % 50
    omega
  rw [hj, hX d]
  obtain ⟨h0, h1⟩ := hr d (ix2 ⟨(j 0).val / 50, by omega⟩ ⟨(j 0).val % 50, Nat.mod_lt _ (by omega)⟩)
  rw [← Cert.Spec.row_val_of_range h0 h1]
  exact (Cert.Spec.row _).isLt

/-- The tile's index words, as its scratch holds them after the fetch. -/
abbrev xs : Buf (Elt F) ((thr d c i).loc cc1_scratch0) := (xPiece c i).view.read (Elt F) (X d)

theorem pts_respell {ℓ : Loc nD τ sig} {S : Finset (Idx ℓ)} {q : PosShare TreeShare} {f g : Buf (Elt F) ℓ} (h : f = g) :
    (ℓ ↦[S]{q} f : sProp 𝕄) ⊢ ℓ ↦[S]{q} g := h ▸ .rfl

theorem hin_slice (hXr : ∀ j, ((X d : S51200.Idx → BitVec 32) j).toNat < 100000) (o : Fin 1 → Nat) (ho : ∀ a, o a + S200.size a ≤ S1600.size a)
    (x : S200.Idx) :
    ((((sI).slice (Rect.unit (s := S1600) o S200.size ho) (fun _ => rfl)).view.read (Elt F) (xs d c i X) x) : BitVec 32).toNat < 100000 :=
  hXr _

/-- Slot `s` of the gather buffer, as the kernel slices and squeezes it. -/
abbrev slot0 : Memref sig .scVector .vmem S200x128 .f32 :=
  (((sB).slice (Rect.unit (s := S2x200x128) ![0, 0, 0] S1x200x128.size inb_S2x200x128_S1x200x128_0_0_0) (fun _ => rfl)).squeeze S200x128 squeezes_S1x200x128_S200x128)
abbrev slot1 : Memref sig .scVector .vmem S200x128 .f32 :=
  (((sB).slice (Rect.unit (s := S2x200x128) ![1, 0, 0] S1x200x128.size inb_S2x200x128_S1x200x128_1_0_0) (fun _ => rfl)).squeeze S200x128 squeezes_S1x200x128_S200x128)
/-- What of the buffer stays in hand while a gather into slot 1 (slot 0) is outstanding. -/
abbrev off1 (d : Dev nD) (c : Fin 2) (i : Fin 16) : Finset (Idx ((sB).view.loc (thr d c i))) := Finset.univ \ (slot1).view.set
abbrev in1 (d : Dev nD) (c : Fin 2) (i : Fin 16) : Finset (Idx ((sB).view.loc (thr d c i))) := (slot1).view.set
abbrev in0 (d : Dev nD) (c : Fin 2) (i : Fin 16) : Finset (Idx ((sB).view.loc (thr d c i))) := (slot0).view.set
abbrev off0 (d : Dev nD) (c : Fin 2) (i : Fin 16) : Finset (Idx ((sB).view.loc (thr d c i))) := Finset.univ \ (slot0).view.set

/-- The loop's invariant: the buffer as it is held, and the accumulators at the partial sums of its contents. -/
def LInv (Sb : Finset (Idx ((sB).view.loc (thr d c i)))) (B : Buf (Elt F) ((sB).view.loc (thr d c i))) (s : Fin 2) (j : Fin 4) (k : ℕ)
    (acc : FVec F S16 .f32 × FVec F S16 .f32 × FVec F S16 .f32 × FVec F S16 .f32 × FVec F S16 .f32) : sProp 𝕄 :=
  iprop(((sB).view.loc (thr d c i) ↦[Sb]{fullShare} B) ∗ ⌜AccOK (B : S2x200x128.Idx → F .f32) s j k acc⌝)

theorem pts_name {ℓ : Loc nD τ sig} {S : Finset (Idx ℓ)} {q : PosShare TreeShare} {f : Buf (Elt F) ℓ} :
    (ℓ ↦[S]{q} f : sProp 𝕄) ⊢ iprop(∃ g, ⌜g = f⌝ ∗ ℓ ↦[S]{q} g) := by
  iintro H; iexists f; isplitr; · ipureintro; rfl
  iexact H

/-- Two pieces of a buffer at the same contents, a set and its complement, are the buffer whole. -/
theorem pts_join {ℓ : Loc nD τ sig} (A : Finset (Idx ℓ)) {q : PosShare TreeShare} {f : Buf (Elt F) ℓ} :
    iprop((ℓ ↦[A]{q} f) ∗ ℓ ↦[Finset.univ \ A]{q} f) ⊢ (ℓ ↦{q} f : sProp 𝕄) :=
  (pointsTo_split_subset (Finset.subset_univ A)).2

theorem ret_bind' {E : Type → Type} {α β : Type} (a : α) (k : α → Prog E β) : (Prog.ret a).bind k = k a := rfl

/-- A wait at the kernels' own index added to the recorded waits keeps them among the waits allowed. -/
theorem waits_ok {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/- One trip of a batch row's loop: five 16-word loads from the slot being read (held on the set `S`, within which the
   loads fall by `sub`), each added lane by lane onto its accumulator; the accumulators' invariant advances by one. -/
set_option hygiene false in
local macro "loop_trip " S:term:max sub:term:max abs:ident s:num jj:num : tactic => `(tactic| (
  intro k acc
  unfold LInv
  iintro ⟨Hb, %hacc⟩
  simp only [Prog.bind_lift, Prog.pure_eq_ret]
  iapply (wp_load 𝒱₀ (thr d c i) none Set.univ (m := sB) (S := $S) $sub) $$ Hb; iintro Hb
  iapply (wp_load 𝒱₀ (thr d c i) none Set.univ (m := sB) (S := $S) $sub) $$ Hb; iintro Hb
  iapply (wp_load 𝒱₀ (thr d c i) none Set.univ (m := sB) (S := $S) $sub) $$ Hb; iintro Hb
  iapply (wp_load 𝒱₀ (thr d c i) none Set.univ (m := sB) (S := $S) $sub) $$ Hb; iintro Hb
  iapply (wp_load 𝒱₀ (thr d c i) none Set.univ (m := sB) (S := $S) $sub) $$ Hb; iintro Hb
  simp only [ret_bind', Prog.pure_eq_ret]
  rw [wp_ret]; imodintro
  isplitl [Hb]; · iexact Hb
  ipureintro
  have hk : k.val < 50 := Nat.lt_of_lt_of_le k.isLt ($abs).2.1
  obtain ⟨h0, h1, h2, h3, h4⟩ := hacc
  exact ⟨accOne_step B $s $jj 0 _ k.val hk _ h0 _ (co := by infer_instance) rfl _ _,
    accOne_step B $s $jj 16 _ k.val hk _ h1 _ (co := by infer_instance) rfl _ _,
    accOne_step B $s $jj 32 _ k.val hk _ h2 _ (co := by infer_instance) rfl _ _,
    accOne_step B $s $jj 48 _ k.val hk _ h3 _ (co := by infer_instance) rfl _ _,
    accOne_step B $s $jj 54 _ k.val hk _ h4 _ (co := by infer_instance) rfl _ _⟩))

/- A batch row's loop: the slot read holds the table rows its group's index words name (`rowsL`); the loop runs by the
   accumulators' invariant from the zero words; after its fifty trips the lanes hold the pooled sums of batch row
   `4 g + jj`. -/
set_option hygiene false in
local macro "loop_site " S:term:max sub:term:max abs:ident s:num jj:num g:num rowsL:term:max : tactic => `(tactic| (
  ihave Hn := pts_name $$ Hb'
  icases Hn with ⟨%B, %hB, Hb'⟩
  have hrows : SlotRows (tp : S100000x128.Idx → F .f32) (xsOf X d c i) (B : S2x200x128.Idx → F .f32) $s (200 * $g) (by omega) := by
    rw [hB]; exact $rowsL
  sl_for (LInv d c i $S B $s $jj) $$ [Hb']
  case region => loop_trip $S $sub $abs $s $jj
  · unfold LInv
    isplitl [Hb']; · iexact Hb'
    ipureintro
    exact ⟨fun _ => rfl, fun _ => rfl, fun _ => rfl, fun _ => rfl, fun _ => rfl⟩
  iintro %acc HI
  unfold LInv
  icases HI with ⟨Hb', %hacc⟩
  have hv := acc_vals m X d c i (hX d) hr tp htp (B : S2x200x128.Idx → F .f32) $s $jj $g (by omega) hrows acc hacc
  clear hacc hrows
  subst hB))

/- The five stores of batch row `r`: the staging rows `0 .. r` then hold the pooled sums in their first 70 columns. -/
set_option hygiene false in
local macro "stage_site " r:num : tactic => `(tactic| (
  ihave Hn := pts_name $$ Hc'
  icases Hn with ⟨%St', %hSt, Hc'⟩
  have hok' : StageOK (Gof m d c i) (St' : S32x128.Idx → F .f32) ($r + 1) := by
    rw [hSt]
    exact stage_row (Gof m d c i) _ $r (by omega) _ _ _ _ _ hv.1 hv.2.1 hv.2.2.1 hv.2.2.2.1 hv.2.2.2.2 hok _ _ _ _ _ _
  clear hSt hv hok
  have hok := hok'
  clear hok'))

set_option maxHeartbeats 4000000 in
theorem tile_body (hX : ∀ d, IsFlat m d (X d)) (hr : InRange m) (O : CellTallies nD τ sig (HIx 1)) (W : Waits sig (HIx 1)) (hO : ∀ g, O g none = 0) :
    iprop(levAts (K (F := F)).L (K (F := F)).lev ∗ emp ∗ goRes X (Rtp m) d c i
        ∗ scopedBufs (thr d c i) ∗ scopedSems0 (thr d c i) ∗ owes (thr d c i) O W)
      ⊢ wp frame (wpE (defs₀ (F := F)) 𝒱₀ (thr d c i) none) Set.univ
          (cc1_pool (co c i) xW (Memref.isWhole_whole _) tW (Memref.isWhole_whole _) pW (Memref.isWhole_whole _)
            sI (Memref.isWhole_whole _) sB (Memref.isWhole_whole _) sS (Memref.isWhole_whole _) cc1_scratch3 cc1_scratch4 cc1_scoped0 cc1_scoped1)
          fun _ => iprop(tdRes (Rpo m) d c i ∗ scopedBufs (thr d c i) ∗ scopedSems0 (thr d c i)
            ∗ ∃ W', ⌜∀ p ∈ W', p ∈ W ∨ p.2 = none⌝ ∗ owes (thr d c i) O W') := by
  simp only [cc1_pool_eq_skeleton]; unfold cc1_pool_skel
  rw [(K (F := F)).scopedBufs_V facts d (cV c i) (jV c i), SparseCore.Cfg.scopedSems0_V (Val := Elt F) d (cV c i) (jV c i), ownSems0_V, ownBufs_V]
  unfold goRes
  iintro ⟨#Hlv, -, ⟨Hx, ⟨%tp, %htp, Ht⟩, ⟨%fp, Hp⟩⟩, ⟨⟨%fs, Hs⟩, ⟨%fb, Hb⟩, ⟨%fc, Hc⟩, Hbufs⟩, ⟨HsemA, HsemB, HsemX, HsemY, Hsems⟩, HO⟩
  ihave Hmw := ((K (F := F)).mayWaits_none (thr := thr d c i) hO) $$ Hlv
  ihave Hx' := (Entails.of_eq (show (xLoc d ↦[(xPiece c i).view.set]{fullShare} X d : sProp 𝕄) = ((xPiece c i).view.loc (thr d c i) ↦[(xPiece c i).view.set]{fullShare} X d) from rfl)) $$ Hx
  ihave Ht' := (Entails.of_eq (show (tpLoc d ↦{shareTok fullShare 32 (tileNo c i)} tp : sProp 𝕄) = ((tW).view.loc (thr d c i) ↦{shareTok fullShare 32 (tileNo c i)} tp) from rfl)) $$ Ht
  ihave Hp' := (Entails.of_eq (show (poLoc d ↦[(poPiece c i).view.set]{fullShare} fp : sProp 𝕄) = ((poPiece c i).view.loc (thr d c i) ↦[(poPiece c i).view.set]{fullShare} fp) from rfl)) $$ Hp
  ihave Hs' := (Entails.of_eq (show ((thr d c i).loc cc1_scratch0 ↦{fullShare} fs : sProp 𝕄) = ((sI).view.loc (thr d c i) ↦{fullShare} fs) from rfl)) $$ Hs
  ihave Hb' := (Entails.of_eq (show ((thr d c i).loc cc1_scratch1 ↦{fullShare} fb : sProp 𝕄) = ((sB).view.loc (thr d c i) ↦{fullShare} fb) from rfl)) $$ Hb
  ihave Hc' := (Entails.of_eq (show ((thr d c i).loc cc1_scratch2 ↦{fullShare} fc : sProp 𝕄) = ((sS).view.loc (thr d c i) ↦{fullShare} fc) from rfl)) $$ Hc
  sl_exec_parts
  have hxs : View.write (Elt F) (sI).view fs ((xPiece c i).view.read (Elt F) (X d)) Finset.univ = xs d c i X := View.write_whole_univ _ _ _
  ihave Hs2 := (pts_respell hxs) $$ Hs'
  have hXr := X_range m X hX hr d
  have hin0 : ∀ x, (((sI).slice (Rect.unit (s := S1600) ![0] S200.size inb_S1600_S200_0) (fun _ => rfl)).view.read (Elt F) (xs d c i X) x).toNat < S100000x128.size gathers_S100000x128_S200x128.axis :=
    fun x => hin_slice d c i X hXr _ _ x
  have hin1 : ∀ x, (((sI).slice (Rect.unit (s := S1600) ![200] S200.size inb_S1600_S200_200) (fun _ => rfl)).view.read (Elt F) (xs d c i X) x).toNat < S100000x128.size gathers_S100000x128_S200x128.axis :=
    fun x => hin_slice d c i X hXr _ _ x
  have hin2 : ∀ x, (((sI).slice (Rect.unit (s := S1600) ![400] S200.size inb_S1600_S200_400) (fun _ => rfl)).view.read (Elt F) (xs d c i X) x).toNat < S100000x128.size gathers_S100000x128_S200x128.axis :=
    fun x => hin_slice d c i X hXr _ _ x
  have hin3 : ∀ x, (((sI).slice (Rect.unit (s := S1600) ![600] S200.size inb_S1600_S200_600) (fun _ => rfl)).view.read (Elt F) (xs d c i X) x).toNat < S100000x128.size gathers_S100000x128_S200x128.axis :=
    fun x => hin_slice d c i X hXr _ _ x
  have hin4 : ∀ x, (((sI).slice (Rect.unit (s := S1600) ![800] S200.size inb_S1600_S200_800) (fun _ => rfl)).view.read (Elt F) (xs d c i X) x).toNat < S100000x128.size gathers_S100000x128_S200x128.axis :=
    fun x => hin_slice d c i X hXr _ _ x
  have hin5 : ∀ x, (((sI).slice (Rect.unit (s := S1600) ![1000] S200.size inb_S1600_S200_1000) (fun _ => rfl)).view.read (Elt F) (xs d c i X) x).toNat < S100000x128.size gathers_S100000x128_S200x128.axis :=
    fun x => hin_slice d c i X hXr _ _ x
  have hin6 : ∀ x, (((sI).slice (Rect.unit (s := S1600) ![1200] S200.size inb_S1600_S200_1200) (fun _ => rfl)).view.read (Elt F) (xs d c i X) x).toNat < S100000x128.size gathers_S100000x128_S200x128.axis :=
    fun x => hin_slice d c i X hXr _ _ x
  have hin7 : ∀ x, (((sI).slice (Rect.unit (s := S1600) ![1400] S200.size inb_S1600_S200_1400) (fun _ => rfl)).view.read (Elt F) (xs d c i X) x).toNat < S100000x128.size gathers_S100000x128_S200x128.axis :=
    fun x => hin_slice d c i X hXr _ _ x
  sl_exec_parts
  have hok : StageOK (Gof m d c i) (fc : S32x128.Idx → F .f32) 0 := fun r h => absurd h (Nat.not_lt_zero _)
  loop_site (off1 d c i) (load_sub 0 1 (by decide) _ (co := by infer_instance) rfl _ _) k1_t1_abs 0 0 0 (slot_rows2 _ _ 0 1 (by omega) (by omega) (by omega) _ _ _ _ (by omega) _ _ _ _ _)
  sl_exec_parts
  stage_site 0
  loop_site (off1 d c i) (load_sub 0 1 (by decide) _ (co := by infer_instance) rfl _ _) k1_t2_abs 0 1 0 (slot_rows2 _ _ 0 1 (by omega) (by omega) (by omega) _ _ _ _ (by omega) _ _ _ _ _)
  sl_exec_parts
  stage_site 1
  loop_site (off1 d c i) (load_sub 0 1 (by decide) _ (co := by infer_instance) rfl _ _) k1_t3_abs 0 2 0 (slot_rows2 _ _ 0 1 (by omega) (by omega) (by omega) _ _ _ _ (by omega) _ _ _ _ _)
  sl_exec_parts
  stage_site 2
  loop_site (off1 d c i) (load_sub 0 1 (by decide) _ (co := by infer_instance) rfl _ _) k1_t4_abs 0 3 0 (slot_rows2 _ _ 0 1 (by omega) (by omega) (by omega) _ _ _ _ (by omega) _ _ _ _ _)
  sl_exec_parts
  stage_site 3
  ihave Hb' := (pts_join (ℓ := (sB).view.loc (thr d c i)) (in1 d c i)) $$ [Hb'_2 Hb']
  · isplitl [Hb'_2] <;> iassumption
  sl_exec_parts
  loop_site (off0 d c i) (load_sub 1 0 (by decide) _ (co := by infer_instance) rfl _ _) k1_t5_abs 1 0 1 (slot_rows2 _ _ 1 0 (by omega) (by omega) (by omega) _ _ _ _ (by omega) _ _ _ _ _)
  sl_exec_parts
  stage_site 4
  loop_site (off0 d c i) (load_sub 1 0 (by decide) _ (co := by infer_instance) rfl _ _) k1_t6_abs 1 1 1 (slot_rows2 _ _ 1 0 (by omega) (by omega) (by omega) _ _ _ _ (by omega) _ _ _ _ _)
  sl_exec_parts
  stage_site 5
  loop_site (off0 d c i) (load_sub 1 0 (by decide) _ (co := by infer_instance) rfl _ _) k1_t7_abs 1 2 1 (slot_rows2 _ _ 1 0 (by omega) (by omega) (by omega) _ _ _ _ (by omega) _ _ _ _ _)
  sl_exec_parts
  stage_site 6
  loop_site (off0 d c i) (load_sub 1 0 (by decide) _ (co := by infer_instance) rfl _ _) k1_t8_abs 1 3 1 (slot_rows2 _ _ 1 0 (by omega) (by omega) (by omega) _ _ _ _ (by omega) _ _ _ _ _)
  sl_exec_parts
  stage_site 7
  ihave Hb' := (pts_join (ℓ := (sB).view.loc (thr d c i)) (in0 d c i)) $$ [Hb'_2 Hb']
  · isplitl [Hb'_2] <;> iassumption
  sl_exec_parts
  loop_site (off1 d c i) (load_sub 0 1 (by decide) _ (co := by infer_instance) rfl _ _) k1_t9_abs 0 0 2 (slot_rows2 _ _ 0 1 (by omega) (by omega) (by omega) _ _ _ _ (by omega) _ _ _ _ _)
  sl_exec_parts
  stage_site 8
  loop_site (off1 d c i) (load_sub 0 1 (by decide) _ (co := by infer_instance) rfl _ _) k1_t10_abs 0 1 2 (slot_rows2 _ _ 0 1 (by omega) (by omega) (by omega) _ _ _ _ (by omega) _ _ _ _ _)
  sl_exec_parts
  stage_site 9
  loop_site (off1 d c i) (load_sub 0 1 (by decide) _ (co := by infer_instance) rfl _ _) k1_t11_abs 0 2 2 (slot_rows2 _ _ 0 1 (by omega) (by omega) (by omega) _ _ _ _ (by omega) _ _ _ _ _)
  sl_exec_parts
  stage_site 10
  loop_site (off1 d c i) (load_sub 0 1 (by decide) _ (co := by infer_instance) rfl _ _) k1_t12_abs 0 3 2 (slot_rows2 _ _ 0 1 (by omega) (by omega) (by omega) _ _ _ _ (by omega) _ _ _ _ _)
  sl_exec_parts
  stage_site 11
  ihave Hb' := (pts_join (ℓ := (sB).view.loc (thr d c i)) (in1 d c i)) $$ [Hb'_2 Hb']
  · isplitl [Hb'_2] <;> iassumption
  sl_exec_parts
  loop_site (off0 d c i) (load_sub 1 0 (by decide) _ (co := by infer_instance) rfl _ _) k1_t13_abs 1 0 3 (slot_rows2 _ _ 1 0 (by omega) (by omega) (by omega) _ _ _ _ (by omega) _ _ _ _ _)
  sl_exec_parts
  stage_site 12
  loop_site (off0 d c i) (load_sub 1 0 (by decide) _ (co := by infer_instance) rfl _ _) k1_t14_abs 1 1 3 (slot_rows2 _ _ 1 0 (by omega) (by omega) (by omega) _ _ _ _ (by omega) _ _ _ _ _)
  sl_exec_parts
  stage_site 13
  loop_site (off0 d c i) (load_sub 1 0 (by decide) _ (co := by infer_instance) rfl _ _) k1_t15_abs 1 2 3 (slot_rows2 _ _ 1 0 (by omega) (by omega) (by omega) _ _ _ _ (by omega) _ _ _ _ _)
  sl_exec_parts
  stage_site 14
  loop_site (off0 d c i) (load_sub 1 0 (by decide) _ (co := by infer_instance) rfl _ _) k1_t16_abs 1 3 3 (slot_rows2 _ _ 1 0 (by omega) (by omega) (by omega) _ _ _ _ (by omega) _ _ _ _ _)
  sl_exec_parts
  stage_site 15
  ihave Hb' := (pts_join (ℓ := (sB).view.loc (thr d c i)) (in0 d c i)) $$ [Hb'_2 Hb']
  · isplitl [Hb'_2] <;> iassumption
  sl_exec_parts
  loop_site (off1 d c i) (load_sub 0 1 (by decide) _ (co := by infer_instance) rfl _ _) k1_t17_abs 0 0 4 (slot_rows2 _ _ 0 1 (by omega) (by omega) (by omega) _ _ _ _ (by omega) _ _ _ _ _)
  sl_exec_parts
  stage_site 16
  loop_site (off1 d c i) (load_sub 0 1 (by decide) _ (co := by infer_instance) rfl _ _) k1_t18_abs 0 1 4 (slot_rows2 _ _ 0 1 (by omega) (by omega) (by omega) _ _ _ _ (by omega) _ _ _ _ _)
  sl_exec_parts
  stage_site 17
  loop_site (off1 d c i) (load_sub 0 1 (by decide) _ (co := by infer_instance) rfl _ _) k1_t19_abs 0 2 4 (slot_rows2 _ _ 0 1 (by omega) (by omega) (by omega) _ _ _ _ (by omega) _ _ _ _ _)
  sl_exec_parts
  stage_site 18
  loop_site (off1 d c i) (load_sub 0 1 (by decide) _ (co := by infer_instance) rfl _ _) k1_t20_abs 0 3 4 (slot_rows2 _ _ 0 1 (by omega) (by omega) (by omega) _ _ _ _ (by omega) _ _ _ _ _)
  sl_exec_parts
  stage_site 19
  ihave Hb' := (pts_join (ℓ := (sB).view.loc (thr d c i)) (in1 d c i)) $$ [Hb'_2 Hb']
  · isplitl [Hb'_2] <;> iassumption
  sl_exec_parts
  loop_site (off0 d c i) (load_sub 1 0 (by decide) _ (co := by infer_instance) rfl _ _) k1_t21_abs 1 0 5 (slot_rows2 _ _ 1 0 (by omega) (by omega) (by omega) _ _ _ _ (by omega) _ _ _ _ _)
  sl_exec_parts
  stage_site 20
  loop_site (off0 d c i) (load_sub 1 0 (by decide) _ (co := by infer_instance) rfl _ _) k1_t22_abs 1 1 5 (slot_rows2 _ _ 1 0 (by omega) (by omega) (by omega) _ _ _ _ (by omega) _ _ _ _ _)
  sl_exec_parts
  stage_site 21
  loop_site (off0 d c i) (load_sub 1 0 (by decide) _ (co := by infer_instance) rfl _ _) k1_t23_abs 1 2 5 (slot_rows2 _ _ 1 0 (by omega) (by omega) (by omega) _ _ _ _ (by omega) _ _ _ _ _)
  sl_exec_parts
  stage_site 22
  loop_site (off0 d c i) (load_sub 1 0 (by decide) _ (co := by infer_instance) rfl _ _) k1_t24_abs 1 3 5 (slot_rows2 _ _ 1 0 (by omega) (by omega) (by omega) _ _ _ _ (by omega) _ _ _ _ _)
  sl_exec_parts
  stage_site 23
  ihave Hb' := (pts_join (ℓ := (sB).view.loc (thr d c i)) (in0 d c i)) $$ [Hb'_2 Hb']
  · isplitl [Hb'_2] <;> iassumption
  sl_exec_parts
  loop_site (off1 d c i) (load_sub 0 1 (by decide) _ (co := by infer_instance) rfl _ _) k1_t25_abs 0 0 6 (slot_rows2 _ _ 0 1 (by omega) (by omega) (by omega) _ _ _ _ (by omega) _ _ _ _ _)
  sl_exec_parts
  stage_site 24
  loop_site (off1 d c i) (load_sub 0 1 (by decide) _ (co := by infer_instance) rfl _ _) k1_t26_abs 0 1 6 (slot_rows2 _ _ 0 1 (by omega) (by omega) (by omega) _ _ _ _ (by omega) _ _ _ _ _)
  sl_exec_parts
  stage_site 25
  loop_site (off1 d c i) (load_sub 0 1 (by decide) _ (co := by infer_instance) rfl _ _) k1_t27_abs 0 2 6 (slot_rows2 _ _ 0 1 (by omega) (by omega) (by omega) _ _ _ _ (by omega) _ _ _ _ _)
  sl_exec_parts
  stage_site 26
  loop_site (off1 d c i) (load_sub 0 1 (by decide) _ (co := by infer_instance) rfl _ _) k1_t28_abs 0 3 6 (slot_rows2 _ _ 0 1 (by omega) (by omega) (by omega) _ _ _ _ (by omega) _ _ _ _ _)
  sl_exec_parts
  stage_site 27
  ihave Hb' := (pts_join (ℓ := (sB).view.loc (thr d c i)) (in1 d c i)) $$ [Hb'_2 Hb']
  · isplitl [Hb'_2] <;> iassumption
  loop_site (Finset.univ) (Finset.subset_univ _) k1_t29_abs 1 0 7 (slot_rows1 _ _ 1 (by omega) _ _ _ (by omega) _ _ _ _)
  sl_exec_parts
  stage_site 28
  loop_site (Finset.univ) (Finset.subset_univ _) k1_t30_abs 1 1 7 (slot_rows1 _ _ 1 (by omega) _ _ _ (by omega) _ _ _ _)
  sl_exec_parts
  stage_site 29
  loop_site (Finset.univ) (Finset.subset_univ _) k1_t31_abs 1 2 7 (slot_rows1 _ _ 1 (by omega) _ _ _ (by omega) _ _ _ _)
  sl_exec_parts
  stage_site 30
  loop_site (Finset.univ) (Finset.subset_univ _) k1_t32_abs 1 3 7 (slot_rows1 _ _ 1 (by omega) _ _ _ (by omega) _ _ _ _)
  sl_exec_parts
  sl_step
  isplitl [Hp']
  · unfold tdRes
    iexists _
    isplitr
    rotate_left
    · iexact Hp'
    · ipureintro
      refine rpo_of_stage_w m d c i fp _ ?_
      exact stage_row (Gof m d c i) _ 31 (by omega) _ _ _ _ _ hv.1 hv.2.1 hv.2.2.1 hv.2.2.2.1 hv.2.2.2.2 hok _ _ _ _ _ _
  isplitl [Hs2 Hb' Hc' Hbufs]
  · isplitl [Hs2]; · iexists _; iexact Hs2
    isplitl [Hb']; · iexists _; iexact Hb'
    isplitl [Hc']; · iexists _; iexact Hc'
    iexact Hbufs
  isplitl [HsemA HsemB HsemX HsemY Hsems]
  · isplitl [HsemA]; · iexact HsemA
    isplitl [HsemB]; · iexact HsemB
    isplitl [HsemX]; · iexact HsemX
    isplitl [HsemY]; · iexact HsemY
    iexact Hsems
  iexists _; isplitr
  rotate_left
  · iexact HO
  · ipureintro
    repeat (apply waits_ok)
    exact fun p hp => Or.inl hp

end Cert.Proof.KI

end
-- ==== Proof.Tile.lean ====
/-
  One tile's task of the pooling kernel.

  Tile (c, i), worker `w = 2 i + c`, copies its 1600 index words into its own memory, gathers for each of its 8 groups
  the 200 table rows the group's index words name (two buffers in turn, one copy outstanding on each buffer's own
  semaphore), adds for each of the group's 4 batch rows the 50 gathered rows position by position from the zero word
  (five 16-lane chunks covering columns 0..69), stores the sums into its staging rows, and copies the 32 staging rows
  out to its rows of the pooled array. The task's run is `tile_body` (TileRun); here it is stated as the launch
  theorem's obligation for a vector-subcore kernel.
-/
import proofs.«202962_g35424890258148_retrytranche2_417_11_alg».proof.Proof.TileRun

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "xW" => (Memref.whole Cert.KernelIdeal.main_v0_scv : Memref Cert.KernelIdeal.sig Kind.scVector Space.hbm Cert.KernelIdeal.S51200 EltTy.i32)
local notation "tW" => (Memref.whole Cert.KernelIdeal.main_v2_scv : Memref Cert.KernelIdeal.sig Kind.scVector Space.hbm Cert.KernelIdeal.S100000x128 EltTy.f32)
local notation "pW" => (Memref.whole Cert.KernelIdeal.main_v3_scv : Memref Cert.KernelIdeal.sig Kind.scVector Space.hbm Cert.KernelIdeal.S1024x128 EltTy.f32)
local notation "sI" => (Memref.whole Cert.KernelIdeal.cc1_scratch0 : Memref Cert.KernelIdeal.sig Kind.scVector Space.vmem Cert.KernelIdeal.S1600 EltTy.i32)
local notation "sB" => (Memref.whole Cert.KernelIdeal.cc1_scratch1 : Memref Cert.KernelIdeal.sig Kind.scVector Space.vmem Cert.KernelIdeal.S2x200x128 EltTy.f32)
local notation "sS" => (Memref.whole Cert.KernelIdeal.cc1_scratch2 : Memref Cert.KernelIdeal.sig Kind.scVector Space.vmem Cert.KernelIdeal.S32x128 EltTy.f32)

variable (m : (ℓ : Loc nD τ sig) → Buf (Elt F) ℓ) (X : (d : Dev nD) → Buf (Elt F) (xLoc d))

/-! ## The launch theorem's obligation -/

theorem defs₀_vector (cc : Fin τ.nSC) (ss : Fin τ.nSub) :
    defs₀ (F := F) (.scVector cc ss) 1 ⟨⟩
      = SparseCore.onTile hcore1 hsub1 (fun c s => cc1_pool (co c s) xW (Memref.isWhole_whole _) tW (Memref.isWhole_whole _) pW (Memref.isWhole_whole _)
          sI (Memref.isWhole_whole _) sB (Memref.isWhole_whole _) sS (Memref.isWhole_whole _) cc1_scratch3 cc1_scratch4 cc1_scoped0 cc1_scoped1) ⟨⟩ cc ss := rfl

/-- The waits a task records at the kernels' own index are among those its obligation allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of every tile: from its index words, a read share of a padded table that holds the table, and its rows
    of the pooled array, to those rows holding the pooled sums. -/
theorem tileObl (hX : ∀ d, IsFlat m d (X d)) (hr : InRange m) :
    (K (F := F)).TileObl (D (F := F)) 𝒱 (P X (Rtp m) (Rpo m)) v₀ 0 := by
  intro d c i O W hO _ _
  simp only [show (P (F := F) X (Rtp m) (Rpo m)).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d ⟨_, hc.1⟩ ⟨_, hc.2⟩ m X hX hr O W hO).trans (wp_mono frame _ _ fun _ => obl_post)

end Cert.Proof.KI

end
-- ==== Proof.HostVals.lean ====
/-
  The host operations' values, entry by entry.

  The flat index array is the index array read row-major (position `50 p + j` holds entry `(p, j)`); the transposed
  table and the transposed `W` hold at `(e, r)` their argument's entry `(r, e)`; the bias as a row holds at `(0, v)`
  the bias's entry `v`; the result is the transpose of the projection's output; and a padded table that agrees with the
  transposed table, entry `(r, e)` against `(e, r)`, holds the table in its first 70 columns.
-/
import proofs.«202962_g35424890258148_retrytranche2_417_11_alg».proof.Proof.Main4
import Idealize.ShloMosaic.Lib.Pipeline.Value

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

variable {F : FTy → Type} [FloatOps F] [Named F]

variable (m : (ℓ : Loc nD τ sig) → Buf (Elt F) ℓ)

/-- The flat index array is the index array read row-major. -/
theorem Xc_flat (d : Dev nD) : IsFlat m d (Xc m d) := by
  intro p j
  have e : Xc m d = fun i => shapeCast S51200
      ((val2 m d main_arg0 main_v0 (mAt m d main_arg0) (mAt m d main_v0)) (Proc.devRef .tc main_arg0)) shapeCasts_S1024x50_S51200 i :=
    StableHlo.reshape_result main_arg0 main_v0 rfl shapeCasts_S1024x50_S51200 _ _ _
  rw [e, val2_x m d main_arg0 main_v0 _ _ (by decide)]
  refine shapeCast_apply _ _ _ (ix2 p j) ?_
  rw [Shape.rowMajor_val_two, Shape.rowMajor_val_one]
  rfl

/-- The transposed table at `(e, r)` is the table at `(r, e)`. -/
theorem TTc_apply (d : Dev nD) (e : Fin 70) (r : Fin 100000) :
    (TTc m d : S70x100000.Idx → F .f32) (ix2 e r) = (mAt m d main_arg1 : S100000x70.Idx → F .f32) (ix2 r e) := by
  have h : TTc m d = transpose S70x100000 [1, 0]
      ((val2 m d main_arg1 main_v1 (mAt m d main_arg1) (mAt m d main_v1)) (Proc.devRef .tc main_arg1)) transposes_S100000x70_S70x100000_1_0 :=
    StableHlo.unary_result main_arg1 main_v1 _ _ _ _
  rw [h, val2_x m d main_arg1 main_v1 _ _ (by decide)]
  refine transpose_apply _ _ _ _ (ix2 r e) ?_
  intro c
  match c with
  | ⟨0, _⟩ => rfl
  | ⟨1, _⟩ => rfl

/-- The transposed `W` at `(e, v)` is `W` at `(v, e)`. -/
theorem WTc_apply (d : Dev nD) (e : Fin 70) (v : Fin 100000) :
    (WTc m d : S70x100000.Idx → F .f32) (ix2 e v) = (mAt m d main_arg2 : S100000x70.Idx → F .f32) (ix2 v e) := by
  have h : WTc m d = transpose S70x100000 [1, 0]
      ((val2 m d main_arg2 main_v4 (mAt m d main_arg2) (mAt m d main_v4)) (Proc.devRef .tc main_arg2)) transposes_S100000x70_S70x100000_1_0 :=
    StableHlo.unary_result main_arg2 main_v4 _ _ _ _
  rw [h, val2_x m d main_arg2 main_v4 _ _ (by decide)]
  refine transpose_apply _ _ _ _ (ix2 v e) ?_
  intro c
  match c with
  | ⟨0, _⟩ => rfl
  | ⟨1, _⟩ => rfl

/-- The bias as a row at `(0, v)` is the bias at `v`. -/
theorem B2c_apply (d : Dev nD) (v : Fin 100000) :
    (B2c m d : S1x100000.Idx → F .f32) (ix2 0 v) = (mAt m d main_arg3 : S100000.Idx → F .f32) (ix1 v) := by
  have e : B2c m d = fun i => shapeCast S1x100000
      ((val2 m d main_arg3 main_v5 (mAt m d main_arg3) (mAt m d main_v5)) (Proc.devRef .tc main_arg3)) shapeCasts_S100000_S1x100000 i :=
    StableHlo.reshape_result main_arg3 main_v5 rfl shapeCasts_S100000_S1x100000 _ _ _
  rw [e, val2_x m d main_arg3 main_v5 _ _ (by decide)]
  refine shapeCast_apply _ _ _ (ix1 v) ?_
  rw [Shape.rowMajor_val_two, Shape.rowMajor_val_one]
  show v.val = 0 * 100000 + v.val
  omega

/-- The result at `(b, v)` is the projection's output at `(v, b)`. -/
theorem out_apply (d : Dev nD) (f6 : Buf (Elt F) ((SparseCore.T d : Thread nD τ).loc main_v6)) (b : Fin 1024) (v : Fin 100000) :
    ((opOut (F := F)).result (val2 m d main_v6 main_v7 f6 (mAt m d main_v7)) (Proc.devRef .tc main_v7) : S1024x100000.Idx → F .f32) (ix2 b v)
      = (f6 : S100000x1024.Idx → F .f32) (ix2 v b) := by
  have h : (opOut (F := F)).result (val2 m d main_v6 main_v7 f6 (mAt m d main_v7)) (Proc.devRef .tc main_v7)
      = transpose S1024x100000 [1, 0] ((val2 m d main_v6 main_v7 f6 (mAt m d main_v7)) (Proc.devRef .tc main_v6)) transposes_S100000x1024_S1024x100000_1_0 :=
    StableHlo.unary_result main_v6 main_v7 _ _ _ _
  rw [h, val2_x m d main_v6 main_v7 _ _ (by decide)]
  refine transpose_apply _ _ _ _ (ix2 v b) ?_
  intro c
  match c with
  | ⟨0, _⟩ => rfl
  | ⟨1, _⟩ => rfl

/-- A padded table that agrees with the transposed table holds the table in its first 70 columns. -/
theorem rtp_of_rel (d : Dev nD) (tp : Buf (Elt F) (tpLoc d))
    (h : ∀ (r : Fin 100000) (e : Fin 70), (tp : S100000x128.Idx → F .f32) (ix2 r (e.castLE (by decide)))
      = (Vv0 m d main_v1 : S70x100000.Idx → F .f32) (ix2 e r)) : Rtp m d tp := by
  intro r e
  rw [h r e, Vv0_v1, TTc_apply]

end Cert.Proof.KI

end
-- ==== Proof.RefRange.lean ====
/-
  The precondition's integer conjunct read back.

  The printed precondition is a conjunction of four reductions by `and`, each from the constant 1 into a result of
  one index. When the conjunction is 1 the last of them is 1, so each of its operand's elements is 1; that
  element is the conjunction of two signed comparisons of the index word, against the splat of 0 and against the splat
  of 99999, and a signed comparison that is 1 says its inequality of the words read signed.
-/
import proofs.«202962_g35424890258148_retrytranche2_417_11_alg».proof.Proof.Gen.Pre_input_domain
import proofs.«202962_g35424890258148_retrytranche2_417_11_alg».proof.Proof.Spec
import Idealize.ShloMosaic.Lib.ReduceAll
import Idealize.ShloMosaic.Lib.ValueIdx

noncomputable section

namespace Cert.RefRange

open Idealize.ShloMosaic Idealize.ShloMosaic.ValueIdx

/-- A shape of rank 0 has one index. -/
instance : Subsingleton Cert.Pre_input_domain.S_.Idx := ⟨fun a b => funext fun d => d.elim0⟩

/-- When the precondition is 1, every index word, read signed, lies in `[0, 99999]`. -/
theorem range_of_pre {F : FTy → Type} [FloatOps F] [Cert.Pre_input_domain.Facts]
    (x : IVec Cert.Spec.SX 32) (T W : FVec F Cert.Spec.ST .f32) (b : FVec F Cert.Spec.SB .f32)
    (h : Cert.Pre_input_domain.fn (F := F) x T W b = fun _ => 1#1) :
    ∀ j : Cert.Spec.SX.Idx, 0 ≤ (x j).toInt ∧ (x j).toInt ≤ 99999 := by
  intro j
  have h0 := congrFun h ValueIdx.ix0
  dsimp only [Cert.Pre_input_domain.fn, Cert.Pre_input_domain.fn_part1] at h0
  -- the last conjunct: the reduction by `and` over the two comparisons
  have h1 := (IntOp.andi_eq_one.1 h0).2
  have h2 := Host.reduce_andi_all _ _ _ _ _ h1 j
  have h3 := IntOp.andi_eq_one.1 h2
  have ha := IntOp.cmpi_sge.1 h3.1
  have hb := IntOp.cmpi_sle.1 h3.2
  -- the two splats read at `j` are the literal words
  have ha' : (0#32 : BitVec 32).toInt ≤ (x j).toInt := ha
  have hb' : (x j).toInt ≤ (99999#32 : BitVec 32).toInt := hb
  have e0 : (0#32 : BitVec 32).toInt = 0 := by decide
  have e1 : (99999#32 : BitVec 32).toInt = 99999 := by decide
  rw [e0] at ha'
  rw [e1] at hb'
  exact ⟨ha', hb'⟩

end Cert.RefRange

end
-- ==== Proof.Assemble.lean ====
/-
  The kernel program's run assembled from its pieces, and the claims about it: the run's post holds the arguments
  unchanged and the result's entries satisfying `Ent`; with no demand on the entries it is the frame, at any float
  instance; at the extended reals, with `Ent` the projection's sum, the result is the specification.
-/
import proofs.«202962_g35424890258148_retrytranche2_417_11_alg».proof.Proof.Main5
import proofs.«202962_g35424890258148_retrytranche2_417_11_alg».proof.Proof.Fin
import proofs.«202962_g35424890258148_retrytranche2_417_11_alg».proof.Proof.Tile
import proofs.«202962_g35424890258148_retrytranche2_417_11_alg».proof.Proof.HostVals
import proofs.«202962_g35424890258148_retrytranche2_417_11_alg».proof.Proof.RefRange

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.Sem

variable {F : FTy → Type} [FloatOps F] [Named F] [∀ e, Nonempty (Elt F e)]

variable (m : (ℓ : Loc nD τ sig) → Buf (Elt F) ℓ) (ρ : Dev nD → PrngReg)
variable (Ent : Dev nD → Fin 100000 → Fin 1024 → F .f32 → Prop)

/-- The run: every weakly fair execution of the device's threads from `m` terminates with the arguments unchanged and
    the result satisfying `ResOK`, when every index word names a table row and the projection's arithmetic meets `Ent`. -/
theorem run_main (hr : InRange m)
    (hOK : ∀ (d : Dev nD) (Pc : Buf (Elt F) (poLoc d)), (∀ c i, Rpo m d c i Pc) → BodyOK2 d (Vv2 m d Pc) (Ent d)) :
    θ_run (Cert.KernelIdeal.defs (F := F)) (Cert.KernelIdeal.threads (F := F)) ⟨m, fun _ => 0, ρ⟩ (QC m Ent) :=
  run_main_of (Xc m) (Rtp m) (Rpo m) m ρ (tileObl m (Xc m) (fun d => Xc_flat m d) hr) (FIN m Ent)
    (hmain m ρ Ent hOK (fun d tp h => rtp_of_rel m d tp h)) (fq m Ent) (hfin m Ent) (QC m Ent) (fun _ h => h)

/-- The frame, from the index range alone: nothing is asked of the result. -/
theorem frame_of_range (hr : InRange m) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (Cert.KernelIdeal.defs (F := F)) _ _).mono (fun _ h c => ⟨(h c).1, (h c).2.1, (h c).2.2.1, (h c).2.2.2.1⟩)
    (run_main m ρ (fun _ _ _ _ => True) hr (fun _ _ _ _ _ _ _ _ _ _ _ => trivial))

/-- The precondition's integer conjunct: every index word names a table row. -/
theorem inRange_of_pre [Cert.Pre_input_domain.Facts]
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) = fun _ => 1#1) : InRange m :=
  fun d j => Cert.RefRange.range_of_pre _ _ _ _ (h d) j

end Cert.Proof.KI

end
-- ==== Proof.AlgIdeal.lean ====
/-
  The pooled sums on the extended reals.

  Adding fifty extended reals one after the other onto the zero word is their sum: the zero word is the extended real 0,
  the addition is the extended reals' own, and it is associative, so the left fold from 0 is the finite sum. No
  finiteness is needed. Hence the pooled sums of the tiles are the specification's pooled sums of the argument arrays.
-/
import proofs.«202962_g35424890258148_retrytranche2_417_11_alg».proof.Proof.TileSpec
import Idealize.ShloMosaic.PureOps.Ideal.Laws

noncomputable section

namespace Cert.Proof.KI

open Cert.KernelIdeal Cert.KernelIdeal.Gen

open Idealize.ShloMosaic Idealize.ShloMosaic.ValueIdx
open Idealize.ShloMosaic.SparseCore (S V T)
open Idealize.SL Idealize.SL.Sem

/-- A left fold of extended-real addition from `a` is `a` plus the finite sum. -/
theorem foldl_add_eq_sum (n : Nat) (t : Fin n → EReal) (a : EReal) :
    Fin.foldl n (fun acc j => acc + t j) a = a + ∑ j : Fin n, t j := by
  induction n with
  | zero => simp [Fin.foldl_zero]
  | succ n ih =>
    rw [Fin.foldl_succ_last, Fin.sum_univ_castSucc, ih, add_assoc]

/-- Fifty extended reals added one after the other onto the zero word are their sum. -/
theorem poolF_ideal (t : Fin 50 → EReal) : poolF (F := Ideal) t = ∑ j : Fin 50, t j := by
  unfold poolF
  show Fin.foldl 50 (fun acc j => acc + t j) (Ideal.ofBits .f32 0x00000000#32) = _
  rw [Ideal.ofBits_zero_f32, foldl_add_eq_sum, zero_add]

/-- The tiles' pooled sums at the extended reals are the specification's pooled sums of the index array and the table. -/
theorem pooledF_ideal (m : (ℓ : Loc nD τ sig) → Buf (Elt Ideal) ℓ) (d : Dev nD) (p : Fin 1024) (e : Fin 70) :
    pooledF (F := Ideal) m d p e = Cert.Spec.pooled (m (idxLoc d)) (m (tblLoc d)) p e := by
  unfold pooledF Cert.Spec.pooled
  rw [poolF_ideal]

end Cert.Proof.KI

end
-- ==== Proof.Reg2Ideal.lean ====
/-
  The second region's arithmetic on the extended reals: the body's stored block, read at row `v` and column `b`, is
  the sum over the 70 contracted rows of the transposed-weights block's entry (e, v) times the pooled block's entry
  (b, e) scaled by the named 1/50, plus the bias block's entry v. Only column `v` of the two moving blocks is read, so
  when those columns hold the arrays' entries the stored entry is the projection's value at the row of the whole output.
-/
import proofs.«202962_g35424890258148_retrytranche2_417_11_alg».proof.Proof.Reg2Data
import proofs.«202962_g35424890258148_retrytranche2_417_11_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.Sem

/-- The named constant denotes the rational 1/50. -/
theorem inv_50 : Named.named (F := Ideal) Cert.KernelIdeal.κ "inv_50" (φ := .f32) 0x3CA3D70A#32 = ((1 / 50 : ℝ) : EReal) :=
  IdealRules.named_const.ideal_named_scalar _ _ _ _ rfl

/-- The matrix product into the zero accumulator, read at an index: the left operand [70, 4096] is contracted on its
    rows, the right operand [1024, 70] on its columns. -/
theorem mm_apply (A : FVec Ideal S70x4096 .f32) (B : FVec Ideal S1024x70 .f32) (v : Fin 4096) (b : Fin 1024) :
    matmul dot_S70x4096_S1024x70_S4096x1024_0_1_1_0_n_n none A B (constant (F := Ideal) S4096x1024 .f32 0x00000000#32) (ix2 v b)
      = ∑ e : Fin 70, A (ix2 e v) * B (ix2 b e) := by
  show FloatOps.matmul _ none A B _ (ix2 v b) = _
  rw [Ideal.matmul_constant_zero_apply,
    ← Equiv.sum_comp (contrEquiv1 dot_S70x4096_S1024x70_S4096x1024_0_1_1_0_n_n 70 rfl rfl).symm]
  refine Finset.sum_congr rfl fun e _ => ?_
  have c2 := contrEquiv1_symm_val dot_S70x4096_S1024x70_S4096x1024_0_1_1_0_n_n 70 rfl rfl e
  have l2 : dot_S70x4096_S1024x70_S4096x1024_0_1_1_0_n_n.lhsIdx (ix2 v b) ((contrEquiv1 _ 70 rfl rfl).symm e) = ix2 e v := by
    funext ax; apply Fin.ext
    match ax with
    | ⟨0, _⟩ => simp [DotDims.lhsIdx, dot_S70x4096_S1024x70_S4096x1024_0_1_1_0_n_n]; exact c2
    | ⟨1, _⟩ => simp [DotDims.lhsIdx, dot_S70x4096_S1024x70_S4096x1024_0_1_1_0_n_n]; rfl
  have r2 : dot_S70x4096_S1024x70_S4096x1024_0_1_1_0_n_n.rhsIdx (ix2 v b) ((contrEquiv1 _ 70 rfl rfl).symm e) = ix2 b e := by
    funext ax; apply Fin.ext
    match ax with
    | ⟨0, _⟩ => simp [DotDims.rhsIdx, dot_S70x4096_S1024x70_S4096x1024_0_1_1_0_n_n]; rfl
    | ⟨1, _⟩ => simp [DotDims.rhsIdx, dot_S70x4096_S1024x70_S4096x1024_0_1_1_0_n_n]; exact c2
  rw [l2, r2]

/-- The pooled block's leading 70 columns, read at an index. -/
theorem slice70_apply (X : FVec Ideal S1024x128 .f32) (b : Fin 1024) (e : Fin 70) :
    extractStridedSlice S1024x70 ![0, 0] X slices_S1024x128_o0_0_S1024x70 (ix2 b e) = X (ix2 b (e.castLE (by decide))) :=
  extractStridedSlice_apply ![0, 0] X slices_S1024x128_o0_0_S1024x70 (ix2 b e) (ix2 b (e.castLE (by decide))) (by
    intro a
    match a with
    | ⟨0, _⟩ => show b.val = 0 + b.val; omega
    | ⟨1, _⟩ => show e.val = 0 + e.val; omega)

/-- The bias row turned into a column and repeated along the rows, read at an index: the row's entry at the column
    that is the output's row. -/
theorem biasCol_apply (Y2 : FVec Ideal S1x4096 .f32) (v : Fin 4096) (b : Fin 1024) :
    broadcastTo S4096x1024 (transpose S4096x1 [1, 0] Y2 transposes_S1x4096_p1_0_S4096x1) broadcasts_S4096x1_S4096x1024 (ix2 v b)
      = Y2 (ix2 0 v) := by
  rw [broadcastTo_apply _ broadcasts_S4096x1_S4096x1024 (ix2 v b) (ix2 v (0 : Fin 1)) (by
      intro a
      match a with
      | ⟨0, _⟩ => show v.val = if (4096 : ℕ) = 1 then 0 else v.val; rw [if_neg (by decide)]
      | ⟨1, _⟩ => show (0 : ℕ) = if (1 : ℕ) = 1 then 0 else b.val; rw [if_pos rfl]),
    transpose_apply _ _ transposes_S1x4096_p1_0_S4096x1 (ix2 v (0 : Fin 1)) (ix2 (0 : Fin 1) v) (by
      intro a; match a with | ⟨0, _⟩ => rfl | ⟨1, _⟩ => rfl)]

/-- The body's stored block, entry by entry. -/
theorem k2_pay1_apply (x1 : Vec Ideal S1024x128 .f32) (Y0 : Vec Ideal S70x4096 .f32) (Y2 : Vec Ideal S1x4096 .f32)
    (v : Fin 4096) (b : Fin 1024) :
    k2_pay1 (F := Ideal) x1 Y0 Y2 (ix2 v b)
      = (∑ e : Fin 70, Y0 (ix2 e v) * (x1 (ix2 b (e.castLE (by decide))) * ((1 / 50 : ℝ) : EReal))) + Y2 (ix2 0 v) := by
  unfold k2_pay1
  rw [addf_apply, shapeCast_self, shapeCast_self, shapeCast_self, mm_apply, biasCol_apply]
  refine congrArg (· + Y2 (ix2 0 v)) (Finset.sum_congr rfl fun e _ => ?_)
  rw [mulf_apply, broadcast_apply, slice70_apply, inv_50]

/-- What an entry of the output must be at the extended reals: the projection of the pooled row `b` scaled by 1/50
    onto the weights' row `v`, plus the bias at `v`. -/
def EntIdeal (WT : S70x100000.Idx → EReal) (P : S1024x128.Idx → EReal) (B2 : S1x100000.Idx → EReal) : Fin 100000 → Fin 1024 → EReal → Prop :=
  fun v b x => x = (∑ e : Fin 70, WT (ix2 e v) * (P (ix2 b (e.castLE (by decide))) * ((1 / 50 : ℝ) : EReal))) + B2 (ix2 0 v)

/-- The body's arithmetic at the extended reals: only column `v` of the transposed-weights block (all its 70 rows) and
    of the bias block is read for row `v` of the result, and that column lies inside the arrays. -/
theorem bodyOK2_ideal (d : Dev nD) (Vv : (b : Ref sig .tc) → Buf (Elt Ideal) ((SparseCore.T d : Thread nD τ).loc b)) :
    BodyOK2 (F := Ideal) d Vv (EntIdeal (Vv main_v4) (Vv main_v3) (Vv main_v5)) := by
  intro t Y0 Y2 h0 h2 v b h
  show k2_pay1 (F := Ideal) (Vv main_v3 : S1024x128.Idx → Ideal .f32) Y0 Y2 (ix2 v b) = _
  rw [k2_pay1_apply, h2 v h]
  refine congrArg (· + _) (Finset.sum_congr rfl fun e _ => ?_)
  rw [h0 e v h]

end Cert.Proof.KI

end
-- ==== Proof.FinalIdeal.lean ====
/-
  The last step on the extended reals: a result whose every entry is the projection's sum is the specification.

  The projection's output at `(v, b)` is `∑ e, Wᵀ[e, v] · (pooled[b, e] · 1/50) + bias[v]`; the result is its transpose;
  the transposed `W` at `(e, v)` is `W[v, e]`, the pooled sums are the specification's, and multiplication of extended
  reals is commutative: so the result at `(b, v)` is the specification's entry.
-/
import proofs.«202962_g35424890258148_retrytranche2_417_11_alg».proof.Proof.HostVals
import proofs.«202962_g35424890258148_retrytranche2_417_11_alg».proof.Proof.AlgIdeal
import proofs.«202962_g35424890258148_retrytranche2_417_11_alg».proof.Proof.Reg2Ideal

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

/-- Every batch row is a row of some tile: `b = 32 (2 i + c) + r` with `i = b / 64`, `c = (b / 32) mod 2`, `r = b mod 32`. So a pooled
    array that satisfies every tile's relation holds the pooled sums in the first 70 columns of every row. -/
theorem pooled_of_rpo {F : FTy → Type} [FloatOps F] [Named F] (m : (ℓ : Loc nD τ sig) → Buf (Elt F) ℓ) (d : Dev nD)
    (Pc : Buf (Elt F) (poLoc d)) (hP : ∀ c i, Rpo m d c i Pc) (b : Fin 1024) (e : Fin 70) :
    (Pc : S1024x128.Idx → F .f32) (ix2 b (e.castLE (by decide))) = pooledF m d b e := by
  have hb := b.isLt
  have h := hP ⟨b.val / 32 % 2, by omega⟩ ⟨b.val / 64, by omega⟩ ⟨b.val % 32, by omega⟩ e
  have eb : brow ⟨b.val / 32 % 2, by omega⟩ ⟨b.val / 64, by omega⟩ ⟨b.val % 32, by omega⟩ = b :=
    Fin.ext (by show (2 * (b.val / 64) + b.val / 32 % 2) * 32 + b.val % 32 = b.val; omega)
  rw [eb] at h
  exact h

/-- The transposed `W` and the bias row as arrays of extended reals. -/
abbrev WTe (m : (ℓ : Loc nD τ sig) → Buf (Elt Ideal) ℓ) (d : Dev nD) : S70x100000.Idx → EReal := WTc m d
abbrev B2e (m : (ℓ : Loc nD τ sig) → Buf (Elt Ideal) ℓ) (d : Dev nD) : S1x100000.Idx → EReal := B2c m d

/-- What an entry `(v, b)` of the projection's output is, on the extended reals. -/
def EntI (m : (ℓ : Loc nD τ sig) → Buf (Elt Ideal) ℓ) (d : Dev nD) : Fin 100000 → Fin 1024 → EReal → Prop := fun v b x =>
  x = (∑ e : Fin 70, WTe m d (ix2 e v) * (pooledF (F := Ideal) m d b e * ((1 / 50 : ℝ) : EReal))) + B2e m d (ix2 0 v)

/-- A result array whose projection output has those entries is the specification of the four arguments. -/
theorem resOK_ideal (m : (ℓ : Loc nD τ sig) → Buf (Elt Ideal) ℓ) (d : Dev nD)
    (g : Buf (Elt Ideal) ((SparseCore.T d : Thread nD τ).loc main_v7)) (h : ResOK m (EntI m) d g) :
    g = Cert.Spec.G (mAt m d main_arg0) (mAt m d main_arg1) (mAt m d main_arg2) (mAt m d main_arg3) := by
  obtain ⟨f6, hE, rfl⟩ := h
  funext j
  obtain ⟨b, v, rfl⟩ : ∃ (b : Fin 1024) (v : Fin 100000), j = ix2 b v := ⟨j 0, j 1, eq_ix2 j⟩
  rw [Cert.Spec.G_ix2]
  refine (out_apply m d f6 b v).trans ?_
  have hv : (f6 : S100000x1024.Idx → EReal) (ix2 v b)
      = (∑ e : Fin 70, WTe m d (ix2 e v) * (pooledF (F := Ideal) m d b e * ((1 / 50 : ℝ) : EReal))) + B2e m d (ix2 0 v) := hE v b
  rw [hv]
  unfold Cert.Spec.entry
  refine congrArg₂ (· + ·) (Finset.sum_congr rfl fun e _ => ?_) (B2c_apply m d v)
  have hw : WTe m d (ix2 e v) = (mAt m d main_arg2 : S100000x70.Idx → EReal) (ix2 v e) := WTc_apply m d e v
  rw [hw, pooledF_ideal, mul_comm]

/-- The second region's arithmetic fact at the extended reals, at the arrays the region finds: the transposed `W`, a
    pooled array satisfying every tile's relation, the bias row. -/
theorem hOK_ideal (m : (ℓ : Loc nD τ sig) → Buf (Elt Ideal) ℓ) (d : Dev nD) (Pc : Buf (Elt Ideal) (poLoc d))
    (hP : ∀ c i, Rpo m d c i Pc) : BodyOK2 d (Vv2 m d Pc) (EntI m d) := by
  intro t Y0 Y2 h0 h2 v b h
  have hb := bodyOK2_ideal d (Vv2 m d Pc) t Y0 Y2 h0 h2 v b h
  unfold EntIdeal at hb
  show k2_pay1 (F := Ideal) (Vv2 m d Pc main_v3 : S1024x128.Idx → Ideal .f32) Y0 Y2 (ix2 v b)
      = (∑ e : Fin 70, WTe m d (ix2 e ⟨4096 * t.val + v.val, h⟩) * (pooledF (F := Ideal) m d b e * ((1 / 50 : ℝ) : EReal)))
        + B2e m d (ix2 0 ⟨4096 * t.val + v.val, h⟩)
  refine hb.trans ?_
  rw [Vv2_v4, Vv2_v3, Vv2_v5]
  refine congrArg₂ (· + ·) (Finset.sum_congr rfl fun e _ => ?_) rfl
  rw [pooled_of_rpo m d Pc hP b e]

end Cert.Proof.KI

end
-- ==== Proof.RefOps.lean ====
/-
  The reference program as a straight line of host operations, and its run.

  The reference calls two outlined functions (the row lookup and, inside it, a select); a call runs the callee's body
  on the call's own buffers, so @main is the line of the callee's operations, listed here at the call sites, followed
  by @main's own. Every weakly fair execution of such a line terminates with each buffer at the fold of the
  operations over the launch contents.
-/
import proofs.«202962_g35424890258148_retrytranche2_417_11_alg».proof.Proof.Gen.ReferenceIdeal
import Idealize.ShloMosaic.Lib.StableHlo.Run

noncomputable section

namespace Cert.RefOps

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- @main's operations in order, the two calls unfolded: the lookup's twenty-three (the select of the inner call the
    seventh), then @main's own eleven. -/
abbrev ops : List (HloOp τ sig (Elt F)) :=
  [ TRef.nullary main_call0.c (constantI S_ 32 0#32),
    TRef.unary main_call0.c main_call0.v0 (broadcastInDim S1024x50 ![] bcast_S_S1024x50),
    TRef.binary (.of main_arg0) main_call0.v0 main_call0.v1 (cmpi .slt),
    TRef.nullary main_call0.c_0 (constantI S_ 32 100000#32),
    TRef.unary main_call0.c_0 main_call0.v2 (broadcastInDim S1024x50 ![] bcast_S_S1024x50),
    TRef.binary (.of main_arg0) main_call0.v2 main_call0.v3 addi,
    TRef.ternary main_call0.v1 main_call0.v3 (.of main_arg0) main_call0.call0.v0 select,
    TRef.unary main_call0.call0.v0 main_call0.v5 (broadcastInDim S1024x50x1 ![0, 1] bcast_S1024x50_S1024x50x1_0_1),
    TRef.nullary main_call0.c_1 (constantI S1 32 99999#32),
    TRef.nullary main_call0.c_2 (constantI S_ 32 0#32),
    TRef.unary main_call0.c_2 main_call0.v6 (broadcastInDim S1024x50x1 ![] bcast_S_S1024x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x50x1 ![0, 1, 2] bcast_S1x1x1_S1024x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x50x1_S1024x50_d2 h_S_),
    TRef.binary (.of main_arg1) main_call0.v5 main_call0.v13 (fun x i => Host.gather gather_S100000x70_S1024x50x1_S1024x50x70_2_0_n_n_0_2_170 x i),
    TRef.unary main_call0.v12 main_call0.v14 (broadcastInDim S1024x50x70 ![0, 1] bcast_S1024x50_S1024x50x70_0_1),
    TRef.nullary main_call0.cst (constant S_ .f32 0x7FC00000#32),
    TRef.unary main_call0.cst main_call0.v15 (broadcastInDim S1024x50x70 ![] bcast_S_S1024x50x70),
    TRef.ternary main_call0.v14 main_call0.v13 main_call0.v15 main_call0.v16 select,
    nullary main_cst (constant S_ .f32 0x00000000#32),
    binary main_v0 main_cst main_v1 ((fun x v => Host.reduceAdd x v reducesTo_S1024x50x70_S1024x70_d1 h_S_) : (⟨S1024x50x70, .f32⟩ : BufTy).Contents (Elt F) → (⟨S_, .f32⟩ : BufTy).Contents (Elt F) → (⟨S1024x70, .f32⟩ : BufTy).Contents (Elt F)),
    nullary main_cst_0 (constant S_ .f32 0x42480000#32),
    unary main_cst_0 main_v2 (broadcastInDim S1024x70 ![] bcast_S_S1024x70 : (⟨S_, .f32⟩ : BufTy).Contents (Elt F) → (⟨S1024x70, .f32⟩ : BufTy).Contents (Elt F)),
    binary main_v1 main_v2 main_v3 (Host.divf : (⟨S1024x70, .f32⟩ : BufTy).Contents (Elt F) → (⟨S1024x70, .f32⟩ : BufTy).Contents (Elt F) → (⟨S1024x70, .f32⟩ : BufTy).Contents (Elt F)),
    unary main_arg2 main_v4 ((transpose S70x100000 [1, 0] · transposes_S100000x70_S70x100000_1_0) : (⟨S100000x70, .f32⟩ : BufTy).Contents (Elt F) → (⟨S70x100000, .f32⟩ : BufTy).Contents (Elt F)),
    binary main_v3 main_v4 main_v5 ((fun l r => Host.dotGeneral dot_S1024x70_S70x100000_S1024x100000_1_0_0_1_n_n none l r) : (⟨S1024x70, .f32⟩ : BufTy).Contents (Elt F) → (⟨S70x100000, .f32⟩ : BufTy).Contents (Elt F) → (⟨S1024x100000, .f32⟩ : BufTy).Contents (Elt F)),
    unary main_arg3 main_v6 (broadcastInDim S1x100000 ![1] bcast_S100000_S1x100000_1 : (⟨S100000, .f32⟩ : BufTy).Contents (Elt F) → (⟨S1x100000, .f32⟩ : BufTy).Contents (Elt F)),
    unary main_v6 main_v7 (broadcastInDim S1024x100000 ![0, 1] bcast_S1x100000_S1024x100000_0_1 : (⟨S1x100000, .f32⟩ : BufTy).Contents (Elt F) → (⟨S1024x100000, .f32⟩ : BufTy).Contents (Elt F)),
    binary main_v5 main_v7 main_v8 (addf : (⟨S1024x100000, .f32⟩ : BufTy).Contents (Elt F) → (⟨S1024x100000, .f32⟩ : BufTy).Contents (Elt F) → (⟨S1024x100000, .f32⟩ : BufTy).Contents (Elt F)) ]

-- thirty-four sequenced steps: re-associating them recurses once per step
set_option maxRecDepth 1024 in
/-- @main is that straight line: the two functions' bodies unfolded at their calls and the records at their fields,
    both sides are one chain of host steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., nullary_bufs_sub .., unary_bufs_sub .., binary_bufs_sub .., unary_bufs_sub ..,
    binary_bufs_sub .., unary_bufs_sub .., unary_bufs_sub .., binary_bufs_sub ..⟩

/-- From any memory with zero counters every weakly fair execution of @main terminates, and every final state has each
    buffer at the operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefOps

end
-- ==== Proof.RefVal.lean ====
/-
  The reference's result as one term of the four argument arrays.

  The lookup: each index word, a negative one wrapped by the table's length; the wrapped words as start indices
  `[1024, 50, 1]`; the mask "0 ≤ start ≤ 99999", reduced by `and` over the unit axis; the gathered rows, replaced by
  the NaN word where the mask is 0. Then the sum over the 50 positions from the zero word, the quotient by 50, the
  product with the transposed second table, and the bias added along the rows.
-/
import proofs.«202962_g35424890258148_retrytranche2_417_11_alg».proof.Proof.RefOps

noncomputable section

namespace Cert.RefVal

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- The index words, a negative one wrapped by the table's length. -/
def wrap (x : IVec S1024x50 32) : IVec S1024x50 32 :=
  select (cmpi .slt x (broadcastInDim S1024x50 ![] bcast_S_S1024x50 (constantI S_ 32 0#32)))
    (addi x (broadcastInDim S1024x50 ![] bcast_S_S1024x50 (constantI S_ 32 100000#32))) x

/-- The wrapped words as the gather's start indices, one unit axis added. -/
def starts (x : IVec S1024x50 32) : IVec S1024x50x1 32 :=
  broadcastInDim S1024x50x1 ![0, 1] bcast_S1024x50_S1024x50x1_0_1 (wrap x)

/-- The mask: the start index lies in `[0, 99999]`, reduced by `and` over the unit axis. -/
def inb (x : IVec S1024x50 32) : IVec S1024x50 1 :=
  Host.reduce IntOp.andi
    (andi (cmpi .sge (starts x) (broadcastInDim S1024x50x1 ![] bcast_S_S1024x50x1 (constantI S_ 32 0#32)))
      (cmpi .sle (starts x)
        (broadcastInDim S1024x50x1 ![0, 1, 2] bcast_S1x1x1_S1024x50x1_0_1_2
          (broadcastInDim S1x1x1 ![2] bcast_S1_S1x1x1_2 (constantI S1 32 99999#32)))))
    (constantI S_ 1 1#1) reducesTo_S1024x50x1_S1024x50_d2 h_S_

/-- The looked-up rows: the gathered row where the mask is 1, the NaN word elsewhere. -/
def looked (x : IVec S1024x50 32) (T : FVec F S100000x70 .f32) : FVec F S1024x50x70 .f32 :=
  select (broadcastInDim S1024x50x70 ![0, 1] bcast_S1024x50_S1024x50x70_0_1 (inb x))
    (Host.gather gather_S100000x70_S1024x50x1_S1024x50x70_2_0_n_n_0_2_170 T (starts x))
    (broadcastInDim S1024x50x70 ![] bcast_S_S1024x50x70 (constant S_ .f32 0x7FC00000#32))

/-- The mean over the 50 positions: the sum from the zero word, divided by the splat of 50. -/
def mean (x : IVec S1024x50 32) (T : FVec F S100000x70 .f32) : FVec F S1024x70 .f32 :=
  Host.divf (Host.reduceAdd (looked x T) (constant S_ .f32 0x00000000#32) reducesTo_S1024x50x70_S1024x70_d1 h_S_)
    (broadcastInDim S1024x70 ![] bcast_S_S1024x70 (constant S_ .f32 0x42480000#32))

/-- The result: the mean times the transposed second table, plus the bias along every row. -/
def out (x : IVec S1024x50 32) (T W : FVec F S100000x70 .f32) (b : FVec F S100000 .f32) : FVec F S1024x100000 .f32 :=
  addf (Host.dotGeneral dot_S1024x70_S70x100000_S1024x100000_1_0_0_1_n_n none (mean x T) (transpose S70x100000 [1, 0] W transposes_S100000x70_S70x100000_1_0))
    (broadcastInDim S1024x100000 ![0, 1] bcast_S1x100000_S1024x100000_0_1
      (broadcastInDim S1x100000 ![1] bcast_S100000_S1x100000_1 b))

end Cert.RefVal

end
-- ==== Proof.RefFold.lean ====
/-
  The run's fold at the result buffer is the reference's term of the argument buffers' launch contents, and the
  argument buffers are never written.
-/
import proofs.«202962_g35424890258148_retrytranche2_417_11_alg».proof.Proof.RefVal

noncomputable section

namespace Cert.RefVal

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

attribute [local irreducible] Host.reduce Host.gather in
set_option maxRecDepth 8192 in
set_option maxHeartbeats 400000 in
/-- The fold at the result buffer is `out` of the argument buffers' contents, by computation: each operation's result
    at its own buffer is its function's value, at any other buffer what was there. The reduction by `and` and the gather
    are kept folded meanwhile: the equation never looks inside them. -/
theorem out_eq (V : Valuation τ sig (Elt F)) :
    after (RefOps.ops (F := F)) V (main_v8 : DevRef τ sig)
      = out (V (main_arg0 : DevRef τ sig)) (V (main_arg1 : DevRef τ sig)) (V (main_arg2 : DevRef τ sig))
          (V (main_arg3 : DevRef τ sig)) := by
  after_results_simp
  rfl

theorem arg0_eq (V : Valuation τ sig (Elt F)) :
    after (RefOps.ops (F := F)) V (main_arg0 : DevRef τ sig) = V (main_arg0 : DevRef τ sig) := by
  simp only [after_cons, after_nil]
  rfl

theorem arg1_eq (V : Valuation τ sig (Elt F)) :
    after (RefOps.ops (F := F)) V (main_arg1 : DevRef τ sig) = V (main_arg1 : DevRef τ sig) := by
  simp only [after_cons, after_nil]
  rfl

theorem arg2_eq (V : Valuation τ sig (Elt F)) :
    after (RefOps.ops (F := F)) V (main_arg2 : DevRef τ sig) = V (main_arg2 : DevRef τ sig) := by
  simp only [after_cons, after_nil]
  rfl

theorem arg3_eq (V : Valuation τ sig (Elt F)) :
    after (RefOps.ops (F := F)) V (main_arg3 : DevRef τ sig) = V (main_arg3 : DevRef τ sig) := by
  simp only [after_cons, after_nil]
  rfl

end Cert.RefVal

end
-- ==== Proof.RefLook.lean ====
/-
  The reference's lookup on indices in range.

  When every index word, read signed, lies in `[0, 99999]`: no word is negative, so none is wrapped and the start index
  at `(p, t, ·)` is the word at `(p, t)`; both comparisons of the mask hold at every start index, so its reduction
  by `and` over the unit axis is 1 everywhere; the gather at `(p, t, e)` reads the table at the row the start index
  names, clamped into the table's rows, and column `e`; and the final select keeps the gathered value. So the looked-up
  array at `(p, t, e)` is the table at row `row (x[p, t])` and column `e`.
-/
import proofs.«202962_g35424890258148_retrytranche2_417_11_alg».proof.Proof.RefVal
import proofs.«202962_g35424890258148_retrytranche2_417_11_alg».proof.Proof.Spec
import Idealize.ShloMosaic.Lib.ValueIdx
import Idealize.ShloMosaic.Lib.Pipeline.Value
import Idealize.ShloMosaic.PureOps.Ideal.Laws

noncomputable section

namespace Cert.RefLook

open Cert.ReferenceIdeal Cert.ReferenceIdeal.Facts₀ Idealize.ShloMosaic Idealize.ShloMosaic.ValueIdx Cert.RefVal

variable [Cert.ReferenceIdeal.Facts]

/-- A fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_one f hf l

/-- A word that is not negative is not wrapped. -/
theorem wrap_apply (x : IVec S1024x50 32) (j : S1024x50.Idx) (h0 : 0 ≤ (x j).toInt) : wrap x j = x j := by
  unfold wrap
  rw [select_apply]
  have hc : cmpi .slt x (broadcastInDim S1024x50 ![] bcast_S_S1024x50 (constantI S_ 32 0#32)) j = 0#1 := by
    apply eq_zero_of_ne_one
    intro h1
    have h2 : (x j).toInt < (0#32 : BitVec 32).toInt := IntOp.cmpi_slt.1 h1
    have e0 : (0#32 : BitVec 32).toInt = 0 := by decide
    rw [e0] at h2
    omega
  rw [hc, select_zero]

/-- The start index at `(p, t, ·)` is the wrapped word at `(p, t)`. -/
theorem starts_apply (x : IVec S1024x50 32) (p : Fin 1024) (t : Fin 50) (z : Fin 1) :
    starts x (ix3 p t z) = wrap x (ix2 p t) := by
  unfold starts
  refine broadcastInDim_apply _ _ _ _ (ix2 p t) ?_
  intro a
  match a with
  | ⟨0, _⟩ => rfl
  | ⟨1, _⟩ => rfl

/-- On indices in range the start index is the word itself. -/
theorem starts_of_range (x : IVec S1024x50 32) (hr : ∀ j : S1024x50.Idx, 0 ≤ (x j).toInt ∧ (x j).toInt ≤ 99999)
    (p : Fin 1024) (t : Fin 50) (z : Fin 1) : starts x (ix3 p t z) = x (ix2 p t) := by
  rw [starts_apply, wrap_apply _ _ (hr _).1]

/-- On indices in range the mask is 1 everywhere. -/
theorem inb_of_range (x : IVec S1024x50 32) (hr : ∀ j : S1024x50.Idx, 0 ≤ (x j).toInt ∧ (x j).toInt ≤ 99999)
    (j : S1024x50.Idx) : inb x j = 1#1 := by
  unfold inb
  refine (Host.reduce_eq_foldl _ _ _ _ _ _).trans ?_
  refine foldl_andi_one _ (fun i => ?_) _
  obtain ⟨p, t, z, rfl⟩ : ∃ (p : Fin 1024) (t : Fin 50) (z : Fin 1), i = ix3 p t z := ⟨i 0, i 1, i 2, eq_ix3 i⟩
  refine IntOp.andi_eq_one.2 ⟨?_, ?_⟩
  · refine IntOp.cmpi_sge.2 ?_
    show (0#32 : BitVec 32).toInt ≤ (starts x (ix3 p t z)).toInt
    rw [starts_of_range x hr, show (0#32 : BitVec 32).toInt = 0 by decide]
    exact (hr _).1
  · refine IntOp.cmpi_sle.2 ?_
    show (starts x (ix3 p t z)).toInt ≤ (99999#32 : BitVec 32).toInt
    rw [starts_of_range x hr, show (99999#32 : BitVec 32).toInt = 99999 by decide]
    exact (hr _).2

/-- The gather read at `(p, t, e)`: the table at the row the start index `(p, t, 0)` names, read signed and clamped into
    the table's rows, and column `e`. -/
theorem gather_apply {α : Type} (T : S100000x70.Idx → α) (idx : IVec S1024x50x1 32) (p : Fin 1024) (t : Fin 50) (e : Fin 70) :
    Host.gather gather_S100000x70_S1024x50x1_S1024x50x70_2_0_n_n_0_2_170 T idx (ix3 p t e)
      = T (ix2 ⟨min (idx (ix3 p t 0)).toInt.toNat 99999, by omega⟩ e) := by
  unfold Host.gather
  refine congrArg T (funext fun a => Fin.ext ?_)
  show gather_S100000x70_S1024x50x1_S1024x50x70_2_0_n_n_0_2_170.start (ix3 p t e) idx a + gather_S100000x70_S1024x50x1_S1024x50x70_2_0_n_n_0_2_170.batchCoord (ix3 p t e) a + gather_S100000x70_S1024x50x1_S1024x50x70_2_0_n_n_0_2_170.offCoord (ix3 p t e) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ gather_S100000x70_S1024x50x1_S1024x50x70_2_0_n_n_0_2_170.startIndexMap from List.mem_singleton.mpr rfl)]
    have hsi : gather_S100000x70_S1024x50x1_S1024x50x70_2_0_n_n_0_2_170.siIdx (ix3 p t e) ⟨List.idxOf (⟨0, by decide⟩ : Fin 2) gather_S100000x70_S1024x50x1_S1024x50x70_2_0_n_n_0_2_170.startIndexMap,
        List.idxOf_lt_length_iff.2 (List.mem_singleton.mpr rfl)⟩ = ix3 p t 0 := by
      funext b; refine Fin.ext ?_
      match b with
      | ⟨0, _⟩ => rfl
      | ⟨1, _⟩ => rfl
      | ⟨2, _⟩ => rfl
    rw [hsi]
    rfl
  | ⟨1, _⟩ =>
    have hs : gather_S100000x70_S1024x50x1_S1024x50x70_2_0_n_n_0_2_170.start (ix3 p t e) idx ⟨1, by decide⟩ = 0 := by
      unfold GatherDims.start
      rw [dif_neg (by decide)]
    rw [hs]
    simp only [Nat.add_zero, Nat.zero_add]
    rfl

/-- On indices in range the looked-up array at `(p, t, e)` is the table's entry at the row the word names and column `e`. -/
theorem looked_apply {F : FTy → Type} [FloatOps F] (x : IVec S1024x50 32) (T : FVec F S100000x70 .f32)
    (hr : ∀ j : S1024x50.Idx, 0 ≤ (x j).toInt ∧ (x j).toInt ≤ 99999) (p : Fin 1024) (t : Fin 50) (e : Fin 70) :
    looked x T (ix3 p t e) = T (ix2 (Cert.Spec.row (x (ix2 p t))) e) := by
  unfold looked
  rw [select_apply]
  have hm : broadcastInDim S1024x50x70 ![0, 1] bcast_S1024x50_S1024x50x70_0_1 (inb x) (ix3 p t e) = 1#1 := by
    refine (broadcastInDim_apply _ _ _ _ (ix2 p t) ?_).trans (inb_of_range x hr _)
    intro a
    match a with
    | ⟨0, _⟩ => rfl
    | ⟨1, _⟩ => rfl
  rw [hm, select_one, gather_apply]
  refine congrArg (fun r : Fin 100000 => T (ix2 r e)) (Fin.ext ?_)
  show min (starts x (ix3 p t 0)).toInt.toNat 99999 = (Cert.Spec.row (x (ix2 p t))).val
  rw [starts_of_range x hr]
  rfl

end Cert.RefLook

end
-- ==== Proof.RefRead.lean ====
/-
  The reference's term is the specification, on indices in range.

  The sum over the 50 positions from the zero word is, on the extended reals, the sum of the 50 looked-up entries (the
  zero word is 0); the quotient by the splat of 50 is the product with 1/50 (the word 0x42480000 is the real 50, which
  is not 0); the product with the transposed second table at `(p, q)` is the sum over the 70 columns `d` of the mean at
  `(p, d)` times the second table at `(q, d)`; and the bias, broadcast along the rows, adds its entry at `q`.
-/
import proofs.«202962_g35424890258148_retrytranche2_417_11_alg».proof.Proof.RefLook
import Idealize.ShloMosaic.Lib.StackMember

noncomputable section

namespace Cert.RefRead

open Cert.ReferenceIdeal Cert.ReferenceIdeal.Facts₀ Idealize.ShloMosaic Idealize.ShloMosaic.ValueIdx Cert.RefVal Cert.RefLook

variable [Cert.ReferenceIdeal.Facts]

/-- The word `0x42480000` is the real 50. -/
theorem ofBits_50 : Ideal.ofBits .f32 0x42480000#32 = ((50 : ℝ) : EReal) := by
  simp [Ideal.ofBits, Ideal.ieee, -EReal.coe_mul]; norm_num

/-- The sum over the positions at `(p, e)` is the specification's pooled sum. -/
theorem sum_apply (x : IVec S1024x50 32) (T : FVec Ideal S100000x70 .f32)
    (hr : ∀ j : S1024x50.Idx, 0 ≤ (x j).toInt ∧ (x j).toInt ≤ 99999) (p : Fin 1024) (e : Fin 70) :
    Host.reduceAdd (F := Ideal) (looked x T) (constant S_ .f32 0x00000000#32) reducesTo_S1024x50x70_S1024x70_d1 h_S_ (ix2 p e)
      = Cert.Spec.pooled x T p e := by
  have h : S1024x50x70.Reduces [1] S1024x70 := by decide
  refine (Ideal.hostReduceAdd_single reducesTo_S1024x50x70_S1024x70_d1 h (looked x T) _ (ix2 p e)).trans ?_
  show Ideal.ofBits .f32 0x00000000#32 + ∑ t : Fin 50, looked x T (h.lift (ix2 p e) t) = ∑ t : Fin 50, T (ix2 (Cert.Spec.row (x (ix2 p t))) e)
  rw [Ideal.ofBits_zero_f32, zero_add]
  refine Finset.sum_congr rfl fun t _ => ?_
  have hl : h.lift (ix2 p e) t = ix3 p t e := by
    funext a; refine Fin.ext ?_
    match a with
    | ⟨0, _⟩ => rfl
    | ⟨1, _⟩ => rfl
    | ⟨2, _⟩ => rfl
  rw [hl, looked_apply x T hr]

/-- The mean at `(p, e)` is the pooled sum times 1/50. -/
theorem mean_apply (x : IVec S1024x50 32) (T : FVec Ideal S100000x70 .f32)
    (hr : ∀ j : S1024x50.Idx, 0 ≤ (x j).toInt ∧ (x j).toInt ≤ 99999) (p : Fin 1024) (e : Fin 70) :
    mean (F := Ideal) x T (ix2 p e) = Cert.Spec.pooled x T p e * ((1 / 50 : ℝ) : EReal) := by
  unfold mean
  show Ideal.div (Host.reduceAdd (F := Ideal) (looked x T) (constant S_ .f32 0x00000000#32) reducesTo_S1024x50x70_S1024x70_d1 h_S_ (ix2 p e))
      (Ideal.ofBits .f32 0x42480000#32) = _
  rw [sum_apply x T hr, ofBits_50, Ideal.div_coe (by norm_num : (50 : ℝ) ≠ 0)]

/-- The reference's term at `(p, q)` is the specification's entry. -/
theorem out_apply (x : IVec S1024x50 32) (T W : FVec Ideal S100000x70 .f32) (b : FVec Ideal S100000 .f32)
    (hr : ∀ j : S1024x50.Idx, 0 ≤ (x j).toInt ∧ (x j).toInt ≤ 99999) (p : Fin 1024) (q : Fin 100000) :
    out (F := Ideal) x T W b (ix2 p q) = Cert.Spec.entry x T W b p q := by
  unfold out
  rw [addf_apply]
  have hb : broadcastInDim S1024x100000 ![0, 1] bcast_S1x100000_S1024x100000_0_1
      (broadcastInDim S1x100000 ![1] bcast_S100000_S1x100000_1 b) (ix2 p q) = b (ix1 q) := by
    refine (broadcastInDim_apply _ _ _ _ (ix2 (0 : Fin 1) q) ?_).trans ?_
    · intro a
      match a with
      | ⟨0, _⟩ => rfl
      | ⟨1, _⟩ => rfl
    · refine broadcastInDim_apply _ _ _ _ (ix1 q) ?_
      intro a
      match a with
      | ⟨0, _⟩ => rfl
  have hd : Host.dotGeneral (F := Ideal) dot_S1024x70_S70x100000_S1024x100000_1_0_0_1_n_n none (mean x T)
      (transpose S70x100000 [1, 0] W transposes_S100000x70_S70x100000_1_0) (ix2 p q)
      = ∑ d : Fin 70, mean (F := Ideal) x T (ix2 p d) * transpose S70x100000 [1, 0] W transposes_S100000x70_S70x100000_1_0 (ix2 d q) := by
    show Host.dotGeneral (F := Ideal) (DotDims.plain 1024 70 100000) none _ _ (ix2 p q) = _
    exact StackMember.dotGeneral_plain_apply none _ _ p q
  rw [hb, hd]
  unfold Cert.Spec.entry
  refine congrArg (· + b (ix1 q)) (Finset.sum_congr rfl fun d _ => ?_)
  have ht : transpose S70x100000 [1, 0] W transposes_S100000x70_S70x100000_1_0 (ix2 d q) = W (ix2 q d) := by
    refine transpose_apply _ _ _ _ (ix2 q d) ?_
    intro c
    match c with
    | ⟨0, _⟩ => rfl
    | ⟨1, _⟩ => rfl
  rw [mean_apply x T hr, ht]

/-- On indices in range the reference's term is the specification of the four arrays. -/
theorem out_eq_G (x : IVec S1024x50 32) (T W : FVec Ideal S100000x70 .f32) (b : FVec Ideal S100000 .f32)
    (hr : ∀ j : S1024x50.Idx, 0 ≤ (x j).toInt ∧ (x j).toInt ≤ 99999) :
    out (F := Ideal) x T W b = Cert.Spec.G x T W b := by
  funext j
  obtain ⟨p, q, rfl⟩ : ∃ (p : Fin 1024) (q : Fin 100000), j = ix2 p q := ⟨j 0, j 1, eq_ix2 j⟩
  rw [Cert.Spec.G_ix2]
  exact out_apply x T W b hr p q

end Cert.RefRead

end
-- ==== Proof.RefSide.lean ====
/-
  The reference program's side: its run read back as the specification, and the index range read off the precondition.

  The reference looks each index word up in the table (a negative word wrapped by the table's length, an out-of-range
  word masked to a NaN row; neither happens on indices in range), sums the 50 looked-up rows of a batch row from
  0.0, divides by 50, multiplies by the transposed `W` and adds the bias. On the extended reals the quotient by 50
  is the product with 1/50, so under the precondition's index range the result is `Cert.Spec.G` of the arguments.
-/
import proofs.«202962_g35424890258148_retrytranche2_417_11_alg».proof.Defs
import proofs.«202962_g35424890258148_retrytranche2_417_11_alg».proof.Proof.Gen.ReferenceIdeal
import proofs.«202962_g35424890258148_retrytranche2_417_11_alg».proof.Proof.Gen.Pre_input_domain
import proofs.«202962_g35424890258148_retrytranche2_417_11_alg».proof.Proof.Spec
import proofs.«202962_g35424890258148_retrytranche2_417_11_alg».proof.Proof.RefRange
import proofs.«202962_g35424890258148_retrytranche2_417_11_alg».proof.Proof.RefFold
import proofs.«202962_g35424890258148_retrytranche2_417_11_alg».proof.Proof.RefRead
import Idealize.ShloMosaic.Lib.StableHlo.Run
import Idealize.ShloMosaic.Lib.ValueIdx
import Idealize.ShloMosaic.Lib.Pipeline.Value
import Idealize.ShloMosaic.PureOps.Ideal.Laws

noncomputable section

namespace Cert.RefSide

open Idealize.ShloMosaic Idealize.ShloMosaic.TcCoe Idealize.SL.Sem Idealize.ShloMosaic.ValueIdx

/-- The precondition's integer conjunct, at any float instance: every index word, read signed, lies in `[0, 99999]`. -/
theorem range_of_pre {F : FTy → Type} [FloatOps F] [Cert.Pre_input_domain.Facts]
    (x : IVec Cert.Spec.SX 32) (T W : FVec F Cert.Spec.ST .f32) (b : FVec F Cert.Spec.SB .f32)
    (h : Cert.Pre_input_domain.fn (F := F) x T W b = fun _ => 1#1) :
    ∀ j : Cert.Spec.SX.Idx, 0 ≤ (x j).toInt ∧ (x j).toInt ≤ 99999 :=
  Cert.RefRange.range_of_pre x T W b h

open Cert.ReferenceIdeal in
/-- The reference's run: every weakly fair execution from `m` terminates with the result array at the specification of
    the argument arrays and the arguments unchanged, when every index word is in range. -/
theorem run [Cert.ReferenceIdeal.Facts] (m : (ℓ : Loc nD τ sig) → Buf (Elt Ideal) ℓ) (ρ : Dev nD → PrngReg)
    (hr : ∀ (c : Dev nD) (j : Cert.Spec.SX.Idx), 0 ≤ ((m ((c.tc : Thread nD τ).loc main_arg0) : Cert.Spec.SX.Idx → BitVec 32) j).toInt
      ∧ ((m ((c.tc : Thread nD τ).loc main_arg0) : Cert.Spec.SX.Idx → BitVec 32) j).toInt ≤ 99999) :
    θ_run (Cert.ReferenceIdeal.defs (F := Ideal)) (onTc (τ := τ) (main (F := Ideal))) ⟨m, fun _ => 0, ρ⟩ (fun r => ∀ c : Dev nD,
      r.2.mem ((c.tc : Thread nD τ).loc main_v8)
        = Cert.Spec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (Cert.ReferenceIdeal.defs (F := Ideal)) _ _).mono
    (fun _ h c => ⟨(h c main_v8).trans ((Cert.RefVal.out_eq _).trans (Cert.RefRead.out_eq_G _ _ _ _ (hr c))),
      (h c main_arg0).trans (Cert.RefVal.arg0_eq _), (h c main_arg1).trans (Cert.RefVal.arg1_eq _),
      (h c main_arg2).trans (Cert.RefVal.arg2_eq _), (h c main_arg3).trans (Cert.RefVal.arg3_eq _)⟩)
    (Cert.RefOps.run_main (F := Ideal) m ρ)

end Cert.RefSide

end
-- ==== Proof.AssembleIdeal.lean ====
/-
  The claims about the idealized programs: the idealized kernel's frame; the reference's frame; that the named constant
  is 1/50 at the extended reals; and that from memories agreeing on the arguments both programs end with the result at
  the specification of the arguments.
-/
import proofs.«202962_g35424890258148_retrytranche2_417_11_alg».proof.Proof.Assemble
import proofs.«202962_g35424890258148_retrytranche2_417_11_alg».proof.Proof.FinalIdeal
import proofs.«202962_g35424890258148_retrytranche2_417_11_alg».proof.Proof.RefSide
import Idealize.ShloMosaic.PureOps.IdealRules

noncomputable section

namespace Cert.Proof.KI

open Idealize.ShloMosaic Idealize.ShloMosaic.ValueIdx
open Idealize.ShloMosaic.SparseCore (S V T)
open Idealize.SL Idealize.SL.Sem

/-- The idealized kernel runs, faults nowhere, and leaves its arguments unchanged. -/
theorem frame_ki : Cert.frame_KernelIdeal := fun m ρ hpre =>
  frame_of_range (F := Ideal) m ρ (inRange_of_pre m hpre)

/-- So does the reference. -/
theorem frame_ri : Cert.frame_ReferenceIdeal := fun m ρ hpre =>
  (θ_run (Cert.ReferenceIdeal.defs (F := Ideal)) _ _).mono (fun _ h c => (h c).2)
    (Cert.RefSide.run m ρ fun c j => Cert.RefRange.range_of_pre _ _ _ _ (hpre c) j)

/-- The one rewrite of the ideal pass: the literal 0.02 is named `inv_50`, and the table gives it the value 1/50. -/
theorem preserves : Cert.preserves_Kernel_KernelIdeal :=
  IdealRules.named_const.statement Cert.KernelIdeal.κ "inv_50" .f32 0x3CA3D70A#32 ((1 / 50 : ℝ) : EReal) rfl

/-- From memories agreeing on the arguments, both programs end with the result at the specification. -/
theorem algebraic : Cert.algebraic_KernelIdeal_ReferenceIdeal := by
  intro m ρ m' ρ' hpre hagree
  have hr : InRange (F := Ideal) m := inRange_of_pre m hpre
  refine ⟨fun c => Cert.Spec.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · exact (θ_run (Cert.KernelIdeal.defs (F := Ideal)) _ _).mono
      (fun _ h c => ⟨resOK_ideal m c _ (h c).2.2.2.2, (h c).1, (h c).2.1, (h c).2.2.1, (h c).2.2.2.1⟩)
      (run_main (F := Ideal) m ρ (EntI m) hr (hOK_ideal m))
  · have hr' : ∀ (c : Dev Cert.ReferenceIdeal.nD) (j : Cert.Spec.SX.Idx),
        0 ≤ ((m' ((c.tc : Thread Cert.ReferenceIdeal.nD Cert.ReferenceIdeal.τ).loc Cert.ReferenceIdeal.main_arg0) : Cert.Spec.SX.Idx → BitVec 32) j).toInt
        ∧ ((m' ((c.tc : Thread Cert.ReferenceIdeal.nD Cert.ReferenceIdeal.τ).loc Cert.ReferenceIdeal.main_arg0) : Cert.Spec.SX.Idx → BitVec 32) j).toInt ≤ 99999 := by
      intro c j; rw [(hagree c).1]; exact hr c j
    exact (θ_run (Cert.ReferenceIdeal.defs (F := Ideal)) _ _).mono
      (fun _ h c => ⟨by rw [(h c).1, (hagree c).1, (hagree c).2.1, (hagree c).2.2.1, (hagree c).2.2.2], (h c).2.1, (h c).2.2.1, (h c).2.2.2.1, (h c).2.2.2.2⟩)
      (Cert.RefSide.run m' ρ' hr')

end Cert.Proof.KI

end
-- ==== Proof.Bits.Launch0.lean ====
/-
  The kernel program as the SparseCore launch theorem sees it: one vector-subcore call (the pooling
  kernel on 2 × 16 tiles) between two TensorCore pipelines (the table's transposition and padding; the projection),
  and the resource algebra its proof runs over: the launch handshakes' rounds, the pipelines' staging cells' rounds,
  and the transfer counters of the tiles' own copies.
-/
import proofs.«202962_g35424890258148_retrytranche2_417_11_alg».proof.Defs
import proofs.«202962_g35424890258148_retrytranche2_417_11_alg».proof.Proof.Gen.Kernel
import proofs.«202962_g35424890258148_retrytranche2_417_11_alg».proof.Proof.Gen.Kernel.Launch
import Idealize.ShloMosaic.Lib.SparseCore.Launch
import Idealize.ShloMosaic.Lib.Pipeline.Kit
import Idealize.ShloMosaic.Lib.Pipeline.Regions
import Idealize.ShloMosaic.Lib.Transfers

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, the pipelines' staging cells' rounds, the tiles' transfer counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP embR; infer_instance

end Cert.Proof.KB

end
-- ==== Proof.Bits.Launch1.lean ====
/-
  What the one SparseCore call's handshakes carry, and the launch theorem applied from the kernel-specific
  obligations named as hypotheses.

  Tile (c, i) of the 2 × 16 grid is worker `w = 2 i + c`. It is handed: the 1600 index words of its 32 batch rows
  (a slice of the flattened index array), a read share of the whole padded table (every tile gathers rows of it),
  and the 32 rows of the pooled array it writes. It hands back those 32 rows, at contents satisfying the relation
  `Rpo` (for a frame: nothing; for the value: each row's first 70 columns are the sums of the gathered table rows).
  A SparseCore's share of the call is its sixteen tiles' shares side by side, so the split among tasks is the identity.
-/
import proofs.«202962_g35424890258148_retrytranche2_417_11_alg».proof.Proof.Bits.Launch0

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

variable {F : FTy → Type} [FloatOps F]

local notation "𝕄" => MT nD τ sig (HIx 1) (Elt F) ℕ UU ℕ

/-! ## The arrays the call touches, and a tile's pieces of them -/

/-- The flattened index array, the padded table, the pooled array: locations of device `d`'s HBM. -/
abbrev xLoc (d : Dev nD) : Loc nD τ sig := (SparseCore.T d).loc main_v0
abbrev tpLoc (d : Dev nD) : Loc nD τ sig := (SparseCore.T d).loc main_v2
abbrev poLoc (d : Dev nD) : Loc nD τ sig := (SparseCore.T d).loc main_v3

/-- The grid point of tile `(c, i)`. -/
def co (c : Fin 2) (i : Fin 16) : grid1.Coords := fun | 0 => c | 1 => i | ⟨_ + 2, h⟩ => absurd h (Nat.not_lt.2 (Nat.le_add_left _ _))

/-- The tile's number among the 32, for its read share of the table. -/
def tileNo (c : Fin 2) (i : Fin 16) : Fin 32 := ⟨c.val * 16 + i.val, by omega⟩

/-- The tile's 1600 index words, as the kernel slices them out of the flat index array; -/
abbrev xPiece (c : Fin 2) (i : Fin 16) : Memref sig .scVector .hbm S1600 .i32 :=
  (Memref.whole main_v0_scv : Memref sig .scVector .hbm S51200 .i32).slice (Rect.unit (s := S51200) (k1_off1 (co c i)) S1600.size (k1_off1_inb (co c i))) (fun _ => rfl)
/-- its 32 rows of the pooled array, as the kernel slices them for the copy-out. -/
abbrev poPiece (c : Fin 2) (i : Fin 16) : Memref sig .scVector .hbm S32x128 .f32 :=
  (Memref.whole main_v3_scv : Memref sig .scVector .hbm S1024x128 .f32).slice (Rect.unit (s := S1024x128) (k1_off162 (co c i)) S32x128.size (k1_off162_inb (co c i))) (fun _ => rfl)

variable (X : (d : Dev nD) → Buf (Elt F) (xLoc d))
variable (Rtp : (d : Dev nD) → Buf (Elt F) (tpLoc d) → Prop)
variable (Rpo : (d : Dev nD) → Fin 2 → Fin 16 → Buf (Elt F) (poLoc d) → Prop)

/-- What tile `(c, i)` is handed, -/
def goRes (d : Dev nD) (c : Fin 2) (i : Fin 16) : sProp 𝕄 :=
  iprop((xLoc d ↦[(xPiece c i).view.set]{fullShare} X d)
    ∗ (∃ tp, ⌜Rtp d tp⌝ ∗ tpLoc d ↦{shareTok fullShare 32 (tileNo c i)} tp)
    ∗ (∃ f, poLoc d ↦[(poPiece c i).view.set]{fullShare} f))
/-- and what it hands back. -/
def tdRes (d : Dev nD) (c : Fin 2) (i : Fin 16) : sProp 𝕄 :=
  iprop(∃ f, ⌜Rpo d c i f⌝ ∗ poLoc d ↦[(poPiece c i).view.set]{fullShare} f)

instance goRes_storable (d : Dev nD) (c : Fin 2) (i : Fin 16) : BI.Storable (upEmb : UEmb _ 𝕄) (goRes X Rtp d c i) := by
  unfold goRes; infer_instance
instance tdRes_storable (d : Dev nD) (c : Fin 2) (i : Fin 16) : BI.Storable (upEmb : UEmb _ 𝕄) (tdRes Rpo d c i) := by
  unfold tdRes; infer_instance

/-- The call's payloads: a SparseCore's is its sixteen tiles' side by side. -/
def P : (K (F := F)).Pay (nD := nD) (Val := Elt F) (Name := ℕ) (U := UU) where
  st := fun q d c => match q with
    | 0 => bigSep Finset.univ fun i : Fin ((K (F := F)).nSub 0) => goRes X Rtp d (Fin.cast nCore_zero c) (Fin.cast nSub_zero i)
  dn := fun q d c => match q with
    | 0 => bigSep Finset.univ fun i : Fin ((K (F := F)).nSub 0) => tdRes Rpo d (Fin.cast nCore_zero c) (Fin.cast nSub_zero i)
  go := fun q d c i => match q with | 0 => goRes X Rtp d (Fin.cast nCore_zero c) (Fin.cast nSub_zero i)
  td := fun q d c i => match q with | 0 => tdRes Rpo d (Fin.cast nCore_zero c) (Fin.cast nSub_zero i)
  x := fun _ _ => iprop(emp)

instance P_storable : (P (F := F) X Rtp Rpo).IsStorable where
  st q d c := match q with
    | 0 => (inferInstance : BI.Storable (upEmb : UEmb _ 𝕄)
        (bigSep Finset.univ fun i : Fin ((K (F := F)).nSub 0) => goRes X Rtp d (Fin.cast nCore_zero c) (Fin.cast nSub_zero i)))
  dn q d c := match q with
    | 0 => (inferInstance : BI.Storable (upEmb : UEmb _ 𝕄)
        (bigSep Finset.univ fun i : Fin ((K (F := F)).nSub 0) => tdRes Rpo d (Fin.cast nCore_zero c) (Fin.cast nSub_zero i)))
  go q d c i := match q with
    | 0 => (inferInstance : BI.Storable (upEmb : UEmb _ 𝕄) (goRes X Rtp d (Fin.cast nCore_zero c) (Fin.cast nSub_zero i)))
  td q d c i := match q with
    | 0 => (inferInstance : BI.Storable (upEmb : UEmb _ 𝕄) (tdRes Rpo d (Fin.cast nCore_zero c) (Fin.cast nSub_zero i)))

/-- The split of a SparseCore's share among its tasks, and the gathering of their results: the identity. -/
theorem vecSplit : (K (F := F)).VecSplit' (P X Rtp Rpo) 0 := by
  intro d c
  show (bigSep Finset.univ fun i : Fin ((K (F := F)).nSub 0) => goRes X Rtp d (Fin.cast nCore_zero c) (Fin.cast nSub_zero i))
    ⊢ |={Set.univ}=> iprop((bigSep Finset.univ fun i : Fin ((K (F := F)).nSub 0) => goRes X Rtp d (Fin.cast nCore_zero c) (Fin.cast nSub_zero i))
      ∗ ((bigSep Finset.univ fun i : Fin ((K (F := F)).nSub 0) => tdRes Rpo d (Fin.cast nCore_zero c) (Fin.cast nSub_zero i))
        -∗ (bigSep Finset.univ fun i : Fin ((K (F := F)).nSub 0) => tdRes Rpo d (Fin.cast nCore_zero c) (Fin.cast nSub_zero i))))
  iintro Hst
  imodintro
  isplitl [Hst]
  · iexact Hst
  · iintro Htd; iexact Htd

end Cert.Proof.KB

end
-- ==== Proof.Bits.Launch2.lean ====
/-
  The launch element of the ghost state: the handshakes' rounds go to the launch theorem, the two pipelines' staging
  cells are funded once for every device, the transfer counters start at one; no kernel consumes anything of the launch's.
-/
import proofs.«202962_g35424890258148_retrytranche2_417_11_alg».proof.Proof.Bits.Launch1

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (X : (d : Dev nD) → Buf (Elt F) (xLoc d))
variable (Rtp : (d : Dev nD) → Buf (Elt F) (tpLoc d) → Prop)
variable (Rpo : (d : Dev nD) → Fin 2 → Fin 16 → Buf (Elt F) (poLoc d) → Prop)

/-- The launch element: the handshake cells' rounds, the pipelines' staging cells' rounds, the counters' unit. -/
def u₀ : UU := (initOf (K (F := F)).hsCells (K (F := F)).hsToks,
  (initOf (Pipeline.cells (nD := nD) (τ := τ) cfgs cellOf_inj) (Pipeline.launchToks (nD := nD) (τ := τ) cfgs cellOf_inj), 1))

/-- What @main's proof on device `d` starts from beside what the launch deals it: both pipelines' staging cells funded. -/
def G (d : Dev nD) : sProp 𝕄 :=
  iprop((bigSep Finset.univ fun p : Fin 2 => Pipeline.cellsGhost (nD := nD) (τ := τ) cfgs (EP (F := F)) p d)
    ∗ (bigSep Finset.univ fun p : Fin 2 => Pipeline.toksInit (nD := nD) (τ := τ) cfgs (EP (F := F)) p d))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P X Rtp Rpo).x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP0, -⟩
  ihave HP := (Entails.of_eq (show (BI.own (((Emb.inl : Emb UP (UP × Counters)).trans (embR : Emb (UP × Counters) 𝕄))
      (initOf (Pipeline.cells (nD := nD) (τ := τ) cfgs cellOf_inj) (Pipeline.launchToks (nD := nD) (τ := τ) cfgs cellOf_inj))) : sProp 𝕄)
    = BI.own ((EP (F := F)) (initOf (Pipeline.cells (nD := nD) (τ := τ) cfgs cellOf_inj) (Pipeline.launchToks (nD := nD) (τ := τ) cfgs cellOf_inj))) from rfl)) $$ HP0
  imod (Pipeline.fund_ghost (nD := nD) (τ := τ) cfgs (EP (F := F)) cellOf_inj) $$ HP with HG
  icases HG with ⟨Hc, Ht⟩
  imodintro
  isplitl [HH]; · iexact HH
  isplitl [Hc Ht]
  · unfold G
    rw [bigSep_sep']
    isplitl [Hc]; · iexact Hc
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KB

end
-- ==== Proof.Bits.Launch3.lean ====
/-
  The program's run, from the two kernel-specific obligations: one tile's task (`TileObl`) and @main on the
  TensorCore (`hmain`), with what @main leaves (`FIN`) read off the final memory (`hfin`).
-/
import proofs.«202962_g35424890258148_retrytranche2_417_11_alg».proof.Proof.Bits.Launch2

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (X : (d : Dev nD) → Buf (Elt F) (xLoc d))
variable (Rtp : (d : Dev nD) → Buf (Elt F) (tpLoc d) → Prop)
variable (Rpo : (d : Dev nD) → Fin 2 → Fin 16 → Buf (Elt F) (poLoc d) → Prop)

/-- Every weakly fair execution of the device's 35 threads from `m` terminates in a state of `Q'`, given one tile's
    task and @main. -/
theorem run_main_of [∀ e, Nonempty (Elt F e)]
    (m : (ℓ : Loc nD τ sig) → Buf (Elt F) ℓ) (ρ : Dev nD → PrngReg)
    (htile : (K (F := F)).TileObl (D (F := F)) 𝒱 (P X Rtp Rpo) v₀ 0)
    (FIN : Dev nD → sProp 𝕄)
    (hmain : ∀ (κ : GSem nD τ sig → ℕ) (d : Dev nD),
      iprop((K (F := F)).ctx EH (P X Rtp Rpo) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 1 ∗ FIN d))
    (fq : Dev nD → Phys nD τ sig (Elt F) → Prop) (hfin : ∀ d s', iprop(FIN d ∗ SI s') ⊢ (⌜fq d s'⌝ : sProp 𝕄))
    (Q' : PUnit × MemSt nD τ sig (Elt F) → Prop) (hQ : ∀ s', (∀ d, fq d s') → Q' (⟨⟩, s'.mem)) :
    θ_run (Cert.Kernel.defs (F := F)) (Cert.Kernel.threads (F := F)) ⟨m, fun _ => 0, ρ⟩ Q' :=
  SparseCore.Cfg.θ_run_sc (K := K (F := F)) (D := D (F := F)) (𝒱 := 𝒱) (EH := EH) (P := P X Rtp Rpo) facts v₀
    (fun q hq => match q with | 0 => nomatch hq)
    (fun q _ => match q with | 0 => htile)
    (fun q _ => match q with | 0 => SparseCore.Cfg.VecSplit.of_plain (vecSplit X Rtp Rpo))
    m ρ main (G (F := F)) FIN (u₀ (F := F)) (sep_elim_left.trans (hu₀ X Rtp Rpo)) hmain fq hfin Q' hQ

end Cert.Proof.KB

end
-- ==== Proof.Bits.Region.lean ====
/-
  Entering a TensorCore pipeline region of @main from inside the SparseCore program: the region's custom call is the
  lifted call of the pipeline's entry, so the pipeline library's region rule, proved at the pipelines' own signature,
  applies under the lifting; what follows the call continues at the SparseCore program's signature.
-/
import proofs.«202962_g35424890258148_retrytranche2_417_11_alg».proof.Proof.Bits.Launch3

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- No pipeline has a prefetched table. -/
abbrev adm : (p : Fin 2) → (pcfgs (F := F) p).Adm := fun p => (cfgs p).toPCfg_adm

variable (rdats : (p : Fin 2) → (c : Dev nD) → Pipeline.RDat τ (Elt F) (HIx 1) ℕ UU ℕ (Pipeline.pin (pcfgs (F := F)) adm p) c)

set_option backward.isDefEq.respectTransparency.types false in
/-- Region `p` of @main, entered on device `d`'s TensorCore inside the SparseCore program. -/
theorem wp_region [∀ e, Nonempty (Elt F e)] {p : Fin 2}
    (R : Pipeline.RDat.RegionSeg (pcfgs (F := F)) adm rdats (none : HIx 1) defs₀ 𝒱₀ (K (F := F)).L (K (F := F)).lev p) (d : Dev nD)
    (k : PUnit → Prog (TpuEff nD τ sig (Elt F) (SparseCore.Sig (ΛP (F := F)) 1) .tc) PUnit) (Q : PUnit → sProp 𝕄) :
    iprop((iprop(boundary (SparseCore.T d) ∗ R.post d) -∗ wp frame (wpE ((K (F := F)).defs (D (F := F))) 𝒱 (SparseCore.T d) none) Set.univ (k ⟨⟩) Q)
        ∗ boundary (SparseCore.T d) ∗ R.pre d ∗ levAts (K (F := F)).L (K (F := F)).lev
        ∗ Pipeline.cellsGhost (nD := nD) (τ := τ) cfgs (EP (F := F)) p d ∗ Pipeline.toksInit (nD := nD) (τ := τ) cfgs (EP (F := F)) p d)
      ⊢ wp frame (wpE ((K (F := F)).defs (D (F := F))) 𝒱 (SparseCore.T d) none) Set.univ
          (.op (.customCall (SparseCore.inner (Pipeline.entry p)) ()) k) Q := by
  have hreg := Pipeline.RDat.RegionSeg.wp (pcfgs (F := F)) adm rdats (none : HIx 1) cellOf_inj (EP (F := F)) defs₀ 𝒱₀
    (K (F := F)).L (K (F := F)).lev R d none (fun u hu => nomatch hu) (α := PUnit) (fun _ => .ret PUnit.unit)
    (fun _ => iprop(boundary (SparseCore.T d) ∗ R.post d))
  have hlift := (K (F := F)).wp_liftProg (D (F := F)) 𝒱 (SparseCore.T d) Set.univ none
    (α := PUnit) (.op (.customCall (Pipeline.entry p) ()) fun _ => .ret PUnit.unit) (fun _ => iprop(boundary (SparseCore.T d) ∗ R.post d))
  rw [show (Prog.op (.customCall (SparseCore.inner (Pipeline.entry p)) ()) k
        : Prog (TpuEff nD τ sig (Elt F) (SparseCore.Sig (ΛP (F := F)) 1) .tc) PUnit)
      = (SparseCore.liftProg (α := PUnit) (.op (.customCall (Pipeline.entry p) ()) fun _ => .ret PUnit.unit) >>= k) from rfl, wp_bind]
  iintro ⟨Hk, Hb, Hpre, Hlv, Hg, Ht⟩
  iapply (wp_wand_r frame _ Set.univ)
  isplitl [Hb Hpre Hlv Hg Ht]
  · iapply hlift
    iapply hreg
    isplitr
    · iintro H; rw [wp_ret]; imodintro; iexact H
    isplitl [Hb]; · iexact Hb
    isplitl [Hpre]; · iexact Hpre
    isplitl [Hlv]; · iexact Hlv
    isplitl [Hg]; · iexact Hg
    iexact Ht
  · iintro %_ H
    iapply Hk; iexact H

end Cert.Proof.KB

end
-- ==== Proof.Bits.TileSpec.lean ====
/-
  The relations the pieces of the kernel program hand one another, at any float instance.

  * The padded table agrees with the table on its first 70 columns (its other 58 columns are never read).
  * Tile (c, i) is worker `2 i + c`; its 32 rows of the pooled array are batch rows `32 (2 i + c) + r`, and in each
    the first 70 columns hold the sum, taken position by position from the zero word, of the table rows the batch
    row's 50 index words name (the columns beyond are never read).
-/
import proofs.«202962_g35424890258148_retrytranche2_417_11_alg».proof.Proof.Bits.Launch1
import proofs.«202962_g35424890258148_retrytranche2_417_11_alg».proof.Proof.Spec
import Idealize.ShloMosaic.Lib.ValueIdx

noncomputable section

namespace Cert.Proof.KB

open Cert.Kernel Cert.Kernel.Gen

open Idealize.ShloMosaic Idealize.ShloMosaic.ValueIdx
open Idealize.ShloMosaic.SparseCore (S V T)
open Idealize.SL Idealize.SL.Sem

variable {F : FTy → Type} [FloatOps F]

/-- The index array and the table: the first two arguments, as locations of device `d`. -/
abbrev idxLoc (d : Dev nD) : Loc nD τ sig := (SparseCore.T d).loc main_arg0
abbrev tblLoc (d : Dev nD) : Loc nD τ sig := (SparseCore.T d).loc main_arg1

/-- Fifty values added one after the other onto the zero word. -/
def poolF (t : Fin 50 → F .f32) : F .f32 :=
  Fin.foldl 50 (fun acc j => FloatOps.addf acc (t j)) (FloatOps.ofBits .f32 0x00000000#32)

/-- The batch row that is local row `r` of tile `(c, i)`. -/
def brow (c : Fin 2) (i : Fin 16) (r : Fin 32) : Fin 1024 := ⟨(2 * i.val + c.val) * 32 + r.val, by omega⟩

variable (m : (ℓ : Loc nD τ sig) → Buf (Elt F) ℓ)

/-- Entry `(p, e)` of the pooled sums: the table's column `e` summed over the rows batch row `p` names. -/
def pooledF (d : Dev nD) (p : Fin 1024) (e : Fin 70) : F .f32 :=
  poolF fun j : Fin 50 => (m (tblLoc d) : S100000x70.Idx → F .f32) (ix2 (Cert.Spec.row ((m (idxLoc d) : S1024x50.Idx → BitVec 32) (ix2 p j))) e)

/-- The padded table holds the table in its first 70 columns. -/
def Rtp (d : Dev nD) (tp : Buf (Elt F) (tpLoc d)) : Prop :=
  ∀ (r : Fin 100000) (e : Fin 70), (tp : S100000x128.Idx → F .f32) (ix2 r (e.castLE (by decide))) = (m (tblLoc d) : S100000x70.Idx → F .f32) (ix2 r e)

/-- Tile `(c, i)`'s 32 rows of the pooled array hold the pooled sums in their first 70 columns. -/
def Rpo (d : Dev nD) (c : Fin 2) (i : Fin 16) (f : Buf (Elt F) (poLoc d)) : Prop :=
  ∀ (r : Fin 32) (e : Fin 70), (f : S1024x128.Idx → F .f32) (ix2 (brow c i r) (e.castLE (by decide))) = pooledF m d (brow c i r) e

/-- The flat index array is the index array read row-major. -/
def IsFlat (d : Dev nD) (x : Buf (Elt F) (xLoc d)) : Prop :=
  ∀ (p : Fin 1024) (j : Fin 50), (x : S51200.Idx → BitVec 32) (ix1 ⟨p.val * 50 + j.val, by omega⟩) = (m (idxLoc d) : S1024x50.Idx → BitVec 32) (ix2 p j)

/-- Every index word names a table row. -/
def InRange : Prop :=
  ∀ (d : Dev nD) (j : S1024x50.Idx), 0 ≤ ((m (idxLoc d) : S1024x50.Idx → BitVec 32) j).toInt ∧ ((m (idxLoc d) : S1024x50.Idx → BitVec 32) j).toInt ≤ 99999

end Cert.Proof.KB

end
-- ==== Proof.Bits.Reg0Data.lean ====
/-
  The first TensorCore region: the table, transposed to [70, 100000], is read in blocks of 2048 columns and written,
  transposed back, into the first 70 columns of the padded table's blocks of 2048 rows (49 blocks; the last overhangs
  both arrays by 352 and is cut at their ends). The other 58 columns of each staging block are not stored: they go out
  as they happen to stand, so what the padded table ends holding is stated as a relation, not as a function.
-/
import proofs.«202962_g35424890258148_retrytranche2_417_11_alg».proof.Proof.Bits.Region
import proofs.«202962_g35424890258148_retrytranche2_417_11_alg».proof.Proof.Bits.TileSpec
import proofs.«202962_g35424890258148_retrytranche2_417_11_alg».proof.Proof.Gen.Kernel.Points
import Idealize.ShloMosaic.Lib.ValueIdx

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The transposed table and the padded table, as locations of device `d`. -/
abbrev ttLoc (d : Dev nD) : Loc nD τ sig := (SparseCore.T d).loc main_v1

variable (d : Dev nD) (Vv : (b : Ref sig .tc) → Buf (Elt F) ((SparseCore.T d : Thread nD τ).loc b))
  (O : CellTallies nD τ sig (HIx 1)) (Rec : Set (SemLoc sig × HIx 1))

/-- What the output window's staging block must hold after the body at point `t`: on the rows inside the array, in
    the first 70 columns, the transposed table's columns `2048 t + r`. -/
def out0Rel (t : Fin cfg0.N) (X : S2048x128.Idx → F .f32) : Prop :=
  ∀ (r : Fin 2048) (e : Fin 70) (h : 2048 * t.val + r.val < 100000),
    X (ix2 r (e.castLE (by decide))) = (Vv main_v1 : S70x100000.Idx → F .f32) (ix2 e ⟨2048 * t.val + r.val, h⟩)

/-- The region's proof data: the arrays as the region finds them; the input's staging buffer left as found, the
    output's satisfying `out0Rel`; the scoped buffers no window stages as the invariant; the TensorCore's debts to the
    SparseCore launch carried through unchanged. -/
def rd0 : Pipeline.RDat τ (Elt F) (HIx 1) ℕ UU ℕ cfg0 d where
  A w := Vv (Pipeline.arrRef spec0 w)
  after w t Y X := match w with
    | ⟨0, _⟩ => X = Y
    | ⟨1, _⟩ => out0Rel d Vv t X
  Φ _ := Pipeline.scopedRest spec0 d
  q _ := fullShare
  owed _ := O
  recorded _ := Rec

theorem rd0_A0 : (rd0 d Vv O Rec).A 0 = Vv main_v1 := rfl
theorem rd0_A1 : (rd0 d Vv O Rec).A 1 = Vv main_v2 := rfl
theorem rd0_after0 (t : Fin cfg0.N) (Y X) : (rd0 d Vv O Rec).after 0 t Y X = (X = Y) := rfl
theorem rd0_after1 (t : Fin cfg0.N) (Y X) : (rd0 d Vv O Rec).after 1 t Y X = out0Rel d Vv t X := rfl

end Cert.Proof.KB

end
-- ==== Proof.Bits.Reg0Body.lean ====
/-
  The first region's kernel body on whole staging buffers: it loads the input block [70, 2048] whole, transposes it,
  and stores the [2048, 70] result into the leading 70 columns of the output block [2048, 128]. Afterwards the input
  buffer is as it was and the output buffer holds, at row r and column e < 70, the input's entry (e, r); its other
  columns are as they were.
-/
import proofs.«202962_g35424890258148_retrytranche2_417_11_alg».proof.Proof.Bits.Reg0Data
import proofs.«202962_g35424890258148_retrytranche2_417_11_alg».proof.Proof.Gen.Kernel.Skeleton
import Idealize.ShloMosaic.Lib.Tactic
import Idealize.ShloMosaic.Lib.Pipeline.Value
import Idealize.ShloMosaic.Lib.Writes

noncomputable section

namespace Cert.Proof.KB

open Cert.Kernel Cert.Kernel.Gen

open Idealize.ShloMosaic Idealize.ShloMosaic.ValueIdx
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The transposed block, entry by entry. -/
theorem k0_pay1_apply (v0 : Vec F S70x2048 .f32) (r : Fin 2048) (e : Fin 70) :
    k0_pay1 v0 (ix2 r e) = v0 (ix2 e r) := by
  unfold k0_pay1
  rw [transpose_apply _ _ _ (ix2 r e) (ix2 e r) (by
    intro a; match a with | ⟨0, _⟩ => rfl | ⟨1, _⟩ => rfl), shapeCast_self]

/-- The rectangle the body stores through: the leading 70 columns of the output block. -/
abbrev tpRect : Rect S2048x128 := Rect.unit (s := S2048x128) ![0, 0] S2048x70.size inb_S2048x128_S2048x70_0_0

theorem tpRect_emb (r : Fin 2048) (e : Fin 70) : tpRect.emb (ix2 r e : S2048x70.Idx) = (ix2 r (e.castLE (by decide)) : S2048x128.Idx) := by
  funext a
  refine Fin.ext ?_
  match a with
  | ⟨0, _⟩ => rw [Rect.emb_apply]; show 0 + 1 * r.val = r.val; omega
  | ⟨1, _⟩ => rw [Rect.emb_apply]; show 0 + 1 * e.val = e.val; omega

set_option maxHeartbeats 1000000 in
/-- The body's run. -/
theorem tp_body_run (c : Dev nD) (E : Set ℕ) (i : grid0.Coords) (arg1 : Memref sig .tc .vmem S70x2048 .f32) (harg1 : arg1.IsWhole)
    (arg2 : Memref sig .tc .vmem S2048x128 .f32) (harg2 : arg2.IsWhole)
    (x0 : Vec F S70x2048 .f32) (y : Vec F S2048x128 .f32) (Kk : PUnit → sProp 𝕄) :
    iprop(owns (c : Thread nD τ) arg1 fullShare x0 ∗ owns (c : Thread nD τ) arg2 fullShare y
        ∗ (iprop(owns (c : Thread nD τ) arg1 fullShare x0
            ∗ (∃ z : Vec F S2048x128 .f32, ⌜∀ (r : Fin 2048) (e : Fin 70), z (ix2 r (e.castLE (by decide))) = x0 (ix2 e r)⌝
                ∗ owns (c : Thread nD τ) arg2 fullShare z)) -∗ Kk ⟨⟩))
      ⊢ wp frame (wpE (defs₀ (F := F)) Variants.none c none) E (cc0__tp_body i arg1 harg1 arg2 harg2) Kk := by
  simp only [cc0__tp_body_eq_skeleton]; unfold cc0__tp_body_skel
  unfold owns
  iintro ⟨⟨%f0, %hf0, H0⟩, ⟨%f1, %hf1, H1⟩, Hk⟩
  subst hf0 hf1
  sl_exec
  sl_step
  iapply Hk
  isplitl [H0]
  · iexists f0; isplitr; · ipureintro; rfl
    iexact H0
  iexists _; isplitr
  swap
  · iexists _; isplitr
    swap; · iexact H1
    ipureintro; rfl
  ipureintro
  intro r e
  have hz : (![0, 0] : Fin 2 → Nat) = fun _ => 0 := funext fun a => by match a with | ⟨0, _⟩ => rfl | ⟨1, _⟩ => rfl
  rw [← tpRect_emb r e, View.read_writes_cons_emb, k0_pay1_apply, View.readAt_eq_ld, View.ld_unit_zero (S := S70x2048) hz]

end Cert.Proof.KB

end
-- ==== Proof.Bits.Reg0Sched.lean ====
/-
  The first region's schedule in closed form, decided over its 49 grid points: at point `t` the input window's block is
  columns `2048 t ..` of the transposed table and the output window's block is rows `2048 t ..` of the padded table;
  both transfers move `min 2048 (100000 - 2048 t)` of the 2048 (all but the last point: all of them) and every column
  of the other axis; the output window is never fetched and the input window never written back.
-/
import proofs.«202962_g35424890258148_retrytranche2_417_11_alg».proof.Proof.Bits.Reg0Data

noncomputable section

namespace Cert.Proof.KB

open Cert.Kernel Cert.Kernel.Gen

open Idealize.ShloMosaic
open Idealize.SL Idealize.SL.Sem

theorem idx0_0 : ∀ t : Fin cfg0.N, (cfg0.win 0).index t (0 : Fin 2) = 0 ∧ (cfg0.win 0).index t (1 : Fin 2) = t.val :=
  (by decide +kernel : ∀ t : Fin grid0.N, win0_0.index t (0 : Fin 2) = 0 ∧ win0_0.index t (1 : Fin 2) = t.val)
theorem idx0_1 : ∀ t : Fin cfg0.N, (cfg0.win 1).index t (0 : Fin 2) = t.val ∧ (cfg0.win 1).index t (1 : Fin 2) = 0 :=
  (by decide +kernel : ∀ t : Fin grid0.N, win0_1.index t (0 : Fin 2) = t.val ∧ win0_1.index t (1 : Fin 2) = 0)

theorem xs0_0 : ∀ t : Fin cfg0.N, (cfg0.win 0).xsize (cfg0.grid.coords t) (0 : Fin 2) = 70
    ∧ (cfg0.win 0).xsize (cfg0.grid.coords t) (1 : Fin 2) = min 2048 (100000 - 2048 * t.val) :=
  (by decide +kernel : ∀ t : Fin grid0.N, win0_0.xsize (grid0.coords t) (0 : Fin 2) = 70
    ∧ win0_0.xsize (grid0.coords t) (1 : Fin 2) = min 2048 (100000 - 2048 * t.val))
theorem xs0_1 : ∀ t : Fin cfg0.N, (cfg0.win 1).xsize (cfg0.grid.coords t) (0 : Fin 2) = min 2048 (100000 - 2048 * t.val)
    ∧ (cfg0.win 1).xsize (cfg0.grid.coords t) (1 : Fin 2) = 128 :=
  (by decide +kernel : ∀ t : Fin grid0.N, win0_1.xsize (grid0.coords t) (0 : Fin 2) = min 2048 (100000 - 2048 * t.val)
    ∧ win0_1.xsize (grid0.coords t) (1 : Fin 2) = 128)

theorem nofetch0_1 : ∀ t : Fin cfg0.N, (cfg0.win 1).fetch t = false :=
  (by decide +kernel : ∀ t : Fin grid0.N, win0_1.fetch t = false)
theorem noflush0_0 : ∀ t : Fin cfg0.N, (cfg0.win 0).flush t = false :=
  (by decide +kernel : ∀ t : Fin grid0.N, win0_0.flush t = false)

theorem N0_val : cfg0.N = 49 := N_0

end Cert.Proof.KB

end
-- ==== Proof.Bits.Reg0Obl.lean ====
/-
  The first region's body obligation: at every grid point the input window's buffer has just been fetched, so inside
  the array it holds the transposed table's block; the body's transposed store then puts, on the rows inside the array,
  the transposed table's columns into the output buffer's first 70 columns, which is what the proof data asks.
-/
import proofs.«202962_g35424890258148_retrytranche2_417_11_alg».proof.Proof.Bits.Reg0Body
import proofs.«202962_g35424890258148_retrytranche2_417_11_alg».proof.Proof.Bits.Reg0Sched

noncomputable section

namespace Cert.Proof.KB

open Cert.Kernel Cert.Kernel.Gen

open Idealize.ShloMosaic Idealize.ShloMosaic.ValueIdx
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (Vv : (b : Ref sig .tc) → Buf (Elt F) ((SparseCore.T d : Thread nD τ).loc b))
  (O : CellTallies nD τ sig (HIx 1)) (Rec : Set (SemLoc sig × HIx 1))

/-- A just-fetched input buffer holds, at an entry whose column lies inside the array, the transposed table's entry. -/
theorem fetched0 (t : Fin cfg0.N) (dd : (cfg0.win 0).block.Idx → Elt F (cfg0.win 0).elt) (e : Fin 70) (r : Fin 2048)
    (h : 2048 * t.val + r.val < 100000) :
    (rd0 d Vv O Rec).fetched 0 t dd (ix2 e r) = (Vv main_v1 : S70x100000.Idx → F .f32) (ix2 e ⟨2048 * t.val + r.val, h⟩) := by
  have hm : (cfg0.win 0).moved (cfg0.grid.coords t) (ix2 e r) = true := by
    rw [Pipeline.Window.moved_iff]; intro a
    match a with
    | ⟨0, _⟩ =>
      show e.val < (cfg0.win 0).xsize (cfg0.grid.coords t) (0 : Fin 2)
      rw [(xs0_0 t).1]; exact e.isLt
    | ⟨1, _⟩ =>
      show r.val < (cfg0.win 0).xsize (cfg0.grid.coords t) (1 : Fin 2)
      rw [(xs0_0 t).2]; have := r.isLt; omega
  unfold Pipeline.RDat.fetched Pipeline.Window.fill
  rw [dif_pos hm]
  unfold Pipeline.RDat.blockOf
  show (Vv main_v1 : S70x100000.Idx → F .f32) (((cfg0.win 0).blk t).view.emb _) = _
  refine congrArg _ (funext fun a => Fin.ext ?_)
  match a with
  | ⟨0, _⟩ => show (cfg0.win 0).index t (0 : Fin 2) * 70 + 1 * e.val = e.val; rw [(idx0_0 t).1]; omega
  | ⟨1, _⟩ => show (cfg0.win 0).index t (1 : Fin 2) * 2048 + 1 * r.val = 2048 * t.val + r.val; rw [(idx0_0 t).2]; omega

/-- The body obligation at every point. -/
theorem body0 : (rd0 d Vv O Rec).BodyObligation (defs₀ (F := F)) 𝒱₀ (none : HIx 1) Set.univ := by
  intro t Y hY
  rw [bigSep_W0, bigSep_W0]
  obtain ⟨d0, hd0⟩ := ((rd0 d Vv O Rec).finds_of_fetch (fetch0_0 t) (Y 0)).mp (hY 0)
  rw [show (rd0 d Vv O Rec).Φ t.succ = (rd0 d Vv O Rec).Φ t.castSucc from rfl,
    show (rd0 d Vv O Rec).owesAt (none : HIx 1) t.succ = (rd0 d Vv O Rec).owesAt (none : HIx 1) t.castSucc from rfl]
  iintro ⟨HΦ, Ho, H0, H1⟩
  iapply (tp_body_run d Set.univ (grid0.coords t) (win0_0.stage (cfg0.slots t 0)) (hstage0_0 ((cfg0.slots t 0).cast nbuf0_0))
    (win0_1.stage (cfg0.slots t 1)) (hstage0_1 ((cfg0.slots t 1).cast nbuf0_1)) (Y 0) (Y 1) _)
  isplitl [H0]; · iexact H0
  isplitl [H1]; · iexact H1
  iintro ⟨H0, %z, %hz, H1⟩
  isplitl [HΦ]; · iexact HΦ
  isplitl [Ho]; · iexact Ho
  isplitl [H0]
  · iexists (Y 0); isplitr; · ipureintro; rfl
    iexact H0
  iexists z; isplitr
  · ipureintro
    show out0Rel d Vv t z
    intro r e h
    rw [hz r e, hd0, fetched0 d Vv O Rec t d0 e r h]
  iexact H1

end Cert.Proof.KB

end
-- ==== Proof.Bits.Reg0Arr.lean ====
/-
  What the padded table may hold after the first region's write-backs: after the points below `n`, every row below
  `2048 n` (and inside the array) holds the transposed table's column in its first 70 columns. Each write-back
  overwrites exactly the rows of its own block that lie inside the array, with a staging block that satisfies the
  proof data's relation; rows of earlier blocks are not touched.
-/
import proofs.«202962_g35424890258148_retrytranche2_417_11_alg».proof.Proof.Bits.Reg0Obl
import Idealize.ShloMosaic.Lib.Pipeline.Cells
import Idealize.ShloMosaic.Lib.Pipeline.Value

noncomputable section

namespace Cert.Proof.KB

open Cert.Kernel Cert.Kernel.Gen

open Idealize.ShloMosaic Idealize.ShloMosaic.ValueIdx
open Idealize.ShloMosaic.TcCoe
open Idealize.ShloMosaic.SparseCore.Cfg (HIx Pay)
open Idealize.SL Idealize.SL.Sem

variable {F : FTy → Type} [FloatOps F]

variable (d : Dev nD) (Vv : (b : Ref sig .tc) → Buf (Elt F) ((SparseCore.T d : Thread nD τ).loc b))
  (O : CellTallies nD τ sig (HIx 1)) (Rec : Set (SemLoc sig × HIx 1))

/-- Rows below `2048 n` hold the transposed table. -/
def Filled0 (n : ℕ) (Fa : Buf (Elt F) ((SparseCore.T d : Thread nD τ).loc main_v2)) : Prop :=
  ∀ (r : Fin 100000) (e : Fin 70), r.val < 2048 * n →
    (Fa : S100000x128.Idx → F .f32) (ix2 r (e.castLE (by decide))) = (Vv main_v1 : S70x100000.Idx → F .f32) (ix2 e r)

theorem arrAt0_filled : ∀ (n : ℕ), n ≤ cfg0.N → ∀ Fa, (rd0 d Vv O Rec).ArrAt 1 n Fa → Filled0 d Vv n Fa
  | 0, _, Fa, _ => fun r e h => absurd h (by omega)
  | n + 1, hn, Fa, hF => by
    have hlt : n < cfg0.N := hn
    rw [Pipeline.RDat.ArrAt_succ (rd0 d Vv O Rec) 1 ⟨n, hlt⟩, if_pos (flush0_1 ⟨n, hlt⟩)] at hF
    obtain ⟨G₀, X, hG₀, ⟨Y, -, hX⟩, rfl⟩ := hF
    have ih := arrAt0_filled n (Nat.le_of_lt hlt) G₀ hG₀
    have hrel : out0Rel d Vv ⟨n, hlt⟩ X := hX
    intro r e hr
    have hN : cfg0.N = 49 := N0_val
    by_cases hlow : r.val < 2048 * n
    · -- a row of an earlier block: this write-back does not touch it
      rw [View.write_of_not_mem]
      · exact ih r e hlow
      · intro hmem
        rw [View.setOn_univ] at hmem
        obtain ⟨y, hy⟩ := View.exists_emb_of_mem_set _ hmem
        have h0 := congrArg (fun j : S100000x128.Idx => (j 0).val) hy
        have e0 : ((((cfg0.win 1).blk ⟨n, hlt⟩).view.emb y : S100000x128.Idx) 0).val = (cfg0.win 1).index ⟨n, hlt⟩ (0 : Fin 2) * 2048 + 1 * (y 0).val := rfl
        simp only [e0, (idx0_1 ⟨n, hlt⟩).1] at h0
        show False
        have : ((ix2 r (e.castLE (by decide)) : S100000x128.Idx) 0).val = r.val := rfl
        omega
    · -- a row of this block, inside the array
      have hr' : r.val - 2048 * n < 2048 := by omega
      have hx0 : r.val - 2048 * n < (cfg0.win 1).xsize (cfg0.grid.coords ⟨n, hlt⟩) (0 : Fin 2) := by
        rw [(xs0_1 ⟨n, hlt⟩).1]; have := r.isLt; show r.val - 2048 * n < min 2048 (100000 - 2048 * n); omega
      have hx1 : e.val < (cfg0.win 1).xsize (cfg0.grid.coords ⟨n, hlt⟩) (1 : Fin 2) := by
        rw [(xs0_1 ⟨n, hlt⟩).2]; have := e.isLt; omega
      let y : ((cfg0.win 1).xblock (cfg0.grid.coords ⟨n, hlt⟩)).Idx := fun a =>
        match a with
        | ⟨0, _⟩ => ⟨r.val - 2048 * n, hx0⟩
        | ⟨1, _⟩ => ⟨e.val, hx1⟩
      have hemb : (((cfg0.win 1).blk ⟨n, hlt⟩).view.emb y : S100000x128.Idx) = ix2 r (e.castLE (by decide)) := by
        funext a; refine Fin.ext ?_
        match a with
        | ⟨0, _⟩ =>
          show (cfg0.win 1).index ⟨n, hlt⟩ (0 : Fin 2) * 2048 + 1 * (r.val - 2048 * n) = r.val
          rw [(idx0_1 ⟨n, hlt⟩).1]; show n * 2048 + 1 * (r.val - 2048 * n) = r.val; omega
        | ⟨1, _⟩ =>
          show (cfg0.win 1).index ⟨n, hlt⟩ (1 : Fin 2) * 128 + 1 * e.val = e.val
          rw [(idx0_1 ⟨n, hlt⟩).2]; omega
      rw [← hemb, View.write_emb_of_mem _ _ (Finset.mem_univ y)]
      have hxr := hrel ⟨r.val - 2048 * n, hr'⟩ e (by show 2048 * n + (r.val - 2048 * n) < 100000; have := r.isLt; omega)
      show X ((cfg0.win 1).xinj (cfg0.grid.coords ⟨n, hlt⟩) y) = _
      have hxi : (cfg0.win 1).xinj (cfg0.grid.coords ⟨n, hlt⟩) y = (ix2 ⟨r.val - 2048 * n, hr'⟩ (e.castLE (by decide)) : S2048x128.Idx) := by
        funext a; refine Fin.ext ?_
        match a with
        | ⟨0, _⟩ => rfl
        | ⟨1, _⟩ => rfl
      rw [hxi, hxr]
      refine congrArg _ (congrArg (ix2 e) (Fin.ext ?_))
      show 2048 * n + (r.val - 2048 * n) = r.val
      omega

/-- After the whole region the padded table holds the transposed table in its first 70 columns. -/
theorem arrAt0_final (Fa) (hF : (rd0 d Vv O Rec).ArrAt 1 cfg0.N Fa) (r : Fin 100000) (e : Fin 70) :
    (Fa : S100000x128.Idx → F .f32) (ix2 r (e.castLE (by decide))) = (Vv main_v1 : S70x100000.Idx → F .f32) (ix2 e r) :=
  arrAt0_filled d Vv O Rec cfg0.N le_rfl Fa hF r e (by rw [N0_val]; have := r.isLt; omega)

end Cert.Proof.KB

end
-- ==== Proof.Bits.Reg0Seg.lean ====
/-
  The first region as a segment of @main: entered with the two windowed arrays at their entry contents and the
  TensorCore's debts to the SparseCore launch, left with the arrays at what the write-backs made of them and the
  same debts. The kernel has no semaphore of its own; the pipeline's waits on its staging cells sit at the index of
  no call, below everything the TensorCore owes the launch.
-/
import proofs.«202962_g35424890258148_retrytranche2_417_11_alg».proof.Proof.Bits.Reg0Arr

noncomputable section

namespace Cert.Proof.KB

open Cert.Kernel Cert.Kernel.Gen

open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

variable (Vv : (c : Dev nD) → (b : Ref sig .tc) → Buf (Elt F) ((SparseCore.T c : Thread nD τ).loc b))
  (O : Dev nD → CellTallies nD τ sig (HIx 1)) (Rec : Dev nD → Set (SemLoc sig × HIx 1))

/-- The proof data of both pipelines while the first region runs: the first's, and nothing for the second. -/
def fam0 : (p : Fin 2) → (c : Dev nD) → Pipeline.RDat τ (Elt F) (HIx 1) ℕ UU ℕ (Pipeline.pin (pcfgs (F := F)) adm p) c
  | ⟨0, _⟩ => fun c => rd0 c (Vv c) (O c) (Rec c)
  | ⟨1, _⟩ => fun _ => { A := fun _ => Classical.arbitrary _, after := fun _ _ _ _ => True, Φ := fun _ => iprop(emp), q := fun _ => fullShare, owed := fun _ => 0 }

theorem fam0_zero (c : Dev nD) : fam0 Vv O Rec 0 c = rd0 c (Vv c) (O c) (Rec c) := rfl

theorem bigSep_F0 {M : Type} [URA M] (Φ : Fin 0 → sProp M) : bigSep Finset.univ Φ = (BI.emp : sProp M) :=
  bigSep_univ_eq_bigSepL [] (by decide) (by decide) Φ

/-- The first region's segment. -/
def reg0 (hO : ∀ c g, O c g none = 0) :
    Pipeline.RDat.RegionSeg (pcfgs (F := F)) adm (fam0 Vv O Rec) (none : HIx 1) defs₀ 𝒱₀ (K (F := F)).L (K (F := F)).lev 0 where
  win := winFacts0.to₀
  block_pos := block_pos0
  stage_whole := stage_whole0
  K := PEmpty
  osem k := k.elim
  ho := Pipeline.OwnSemFacts.none _
  hbody c := body0 c (Vv c) (O c) (Rec c)
  hwaits c := Pipeline.RDat.cellsWaits_intro (Pipeline.pin (pcfgs (F := F)) adm) (fam0 Vv O Rec) (none : HIx 1) 0 c
    fun w s t => (K (F := F)).mayWait_none _ (hO c)
  pre c := iprop((rd0 c (Vv c) (O c) (Rec c)).arrays (rd0 c (Vv c) (O c) (Rec c)).A ∗ (rd0 c (Vv c) (O c) (Rec c)).owesAt (none : HIx 1) 0)
  post c := iprop((rd0 c (Vv c) (O c) (Rec c)).arraysAt cfg0.N ∗ (rd0 c (Vv c) (O c) (Rec c)).owesAt (none : HIx 1) (Fin.last cfg0.N))
  X _ := iprop(emp)
  Y _ := iprop(emp)
  Z _ := iprop(emp)
  hentry c := by
    rw [Pipeline.ownSems0_none]
    iintro ⟨⟨Ha, Ho⟩, -, -⟩
    imodintro
    isplitl [Ha]; · iexact Ha
    isplitr
    · unfold Pipeline.prefHeld; rw [bigSep_F0]; iempintro
    isplitl [Ho]; · iexact Ho
    isplitr <;> iempintro
  hin c := by
    rw [show (fam0 Vv O Rec 0 c).Φ 0 = Pipeline.scopedRest (Pipeline.pin (pcfgs (F := F)) adm 0).spec c from rfl]
    iintro ⟨-, -, H⟩; iexact H
  hout c := by
    rw [show (fam0 Vv O Rec 0 c).Φ (Fin.last (Pipeline.pin (pcfgs (F := F)) adm 0).N) = Pipeline.scopedRest (Pipeline.pin (pcfgs (F := F)) adm 0).spec c from rfl,
      Pipeline.ownSems0_none]
    iintro H
    isplitr; · iempintro
    isplitr; · iempintro
    iexact H
  hexit c := by
    iintro ⟨Ha, Ho, -, -⟩
    imodintro
    isplitl [Ha]; · iexact Ha
    iexact Ho

end Cert.Proof.KB

end
-- ==== Proof.Bits.Reg2Data.lean ====
/-
  The second TensorCore region: the projection. At grid point `t` (25 points) the body reads the transposed `W`'s
  block of 4096 columns [70, 4096], the whole pooled array [1024, 128] (fetched once, at the first point), the bias's
  block [1, 4096], and writes the output's block of 4096 rows [4096, 1024]: the product of the transposed-`W` block
  (contracted over its 70 rows) with the pooled array's first 70 columns scaled by the named 1/50, plus the bias down the
  rows. The last block overhangs the three moving arrays by 2400 and is cut at their ends.
  At a float instance where the matrix product is opaque nothing can be said of an output entry from the in-array
  data alone, so what an entry must satisfy is a parameter `Ent` (anything, for a frame; the extended-real sum, for the
  value), and the one fact about the body's arithmetic the region needs is the hypothesis `BodyOK2`.
-/
import proofs.«202962_g35424890258148_retrytranche2_417_11_alg».proof.Proof.Bits.Reg0Seg

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (Vv : (b : Ref sig .tc) → Buf (Elt F) ((SparseCore.T d : Thread nD τ).loc b))
  (O : CellTallies nD τ sig (HIx 1)) (Rec : Set (SemLoc sig × HIx 1))
  (Ent : Fin 100000 → Fin 1024 → F .f32 → Prop)

/-- What the output window's staging block must hold after the body at point `t`: on the rows inside the array, every
    entry satisfies `Ent` at its row of the whole output. -/
def out2Rel (t : Fin cfg2.N) (X : S4096x1024.Idx → F .f32) : Prop :=
  ∀ (v : Fin 4096) (b : Fin 1024) (h : 4096 * t.val + v.val < 100000), Ent ⟨4096 * t.val + v.val, h⟩ b (X (ix2 v b))

/-- The region's proof data: the four arrays as the region finds them; the three inputs' staging buffers left as found,
    the output's satisfying `out2Rel`; the scoped buffers no window stages as the invariant; the TensorCore's debts
    carried through unchanged. -/
def rd2 : Pipeline.RDat τ (Elt F) (HIx 1) ℕ UU ℕ cfg2 d where
  A w := Vv (Pipeline.arrRef spec2 w)
  after w t Y X := match w with
    | ⟨0, _⟩ => X = Y
    | ⟨1, _⟩ => X = Y
    | ⟨2, _⟩ => X = Y
    | ⟨3, _⟩ => out2Rel Ent t X
  Φ _ := Pipeline.scopedRest spec2 d
  q _ := fullShare
  owed _ := O
  recorded _ := Rec

theorem rd2_A0 : (rd2 d Vv O Rec Ent).A 0 = Vv main_v4 := rfl
theorem rd2_A1 : (rd2 d Vv O Rec Ent).A 1 = Vv main_v3 := rfl
theorem rd2_A2 : (rd2 d Vv O Rec Ent).A 2 = Vv main_v5 := rfl
theorem rd2_A3 : (rd2 d Vv O Rec Ent).A 3 = Vv main_v6 := rfl

/-- The one fact about the body's arithmetic: whenever the transposed-`W` block and the bias block hold their arrays'
    entries at the columns inside the arrays (whatever they hold beyond), every entry of the body's result on a row
    inside the output satisfies `Ent`. -/
def BodyOK2 : Prop :=
  ∀ (t : Fin cfg2.N) (Y0 : S70x4096.Idx → F .f32) (Y2 : S1x4096.Idx → F .f32),
    (∀ (e : Fin 70) (v : Fin 4096) (h : 4096 * t.val + v.val < 100000),
      Y0 (ix2 e v) = (Vv main_v4 : S70x100000.Idx → F .f32) (ix2 e ⟨4096 * t.val + v.val, h⟩)) →
    (∀ (v : Fin 4096) (h : 4096 * t.val + v.val < 100000),
      Y2 (ix2 0 v) = (Vv main_v5 : S1x100000.Idx → F .f32) (ix2 0 ⟨4096 * t.val + v.val, h⟩)) →
    ∀ (v : Fin 4096) (b : Fin 1024) (h : 4096 * t.val + v.val < 100000),
      Ent ⟨4096 * t.val + v.val, h⟩ b (k2_pay1 (Vv main_v3 : S1024x128.Idx → F .f32) Y0 Y2 (ix2 v b))

end Cert.Proof.KB

end
-- ==== Proof.Bits.Main1.lean ====
/-
  Vocabulary for @main's proof on the TensorCore: its twelve arrays as separate whole-buffer assertions, a host
  operation's two buffers as the set the host rule asks for, and the TensorCore's debts to the SparseCore launch as a
  pipeline region carries them (recorded pairs bounded by a level, which the pipeline's own waits, at the index of no
  call, respect).
-/
import proofs.«202962_g35424890258148_retrytranche2_417_11_alg».proof.Proof.Bits.Reg2Data
import Idealize.ShloMosaic.Lib.StableHlo.Run

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

/-- Array `b` of device `d` whole at `f`. -/
abbrev pt (d : Dev nD) (b : Ref sig .tc) (f : Buf (Elt F) ((SparseCore.T d : Thread nD τ).loc b)) : sProp 𝕄 :=
  (SparseCore.T d : Thread nD τ).loc b ↦{fullShare} f

/-- The TensorCore's unscoped buffers are @main's twelve arrays. -/
theorem unscopedBufs_eq12 (d : Dev nD) (W : (b : Ref sig .tc) → Buf (Elt F) ((d.tc : Thread nD τ).loc b)) :
    (unscopedBufs d W : sProp 𝕄)
      = iprop(pt d main_arg0 (W main_arg0) ∗ pt d main_arg1 (W main_arg1) ∗ pt d main_arg2 (W main_arg2) ∗ pt d main_arg3 (W main_arg3)
          ∗ pt d main_v0 (W main_v0) ∗ pt d main_v1 (W main_v1) ∗ pt d main_v2 (W main_v2) ∗ pt d main_v3 (W main_v3)
          ∗ pt d main_v4 (W main_v4) ∗ pt d main_v5 (W main_v5) ∗ pt d main_v6 (W main_v6) ∗ pt d main_v7 (W main_v7)) := by
  unfold unscopedBufs
  rw [show (Finset.univ.filter fun b : Ref sig .tc => ¬ b.isScoped)
      = {main_arg0, main_arg1, main_arg2, main_arg3, main_v0, main_v1, main_v2, main_v3, main_v4, main_v5, main_v6, main_v7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- A valuation that holds `fx` at `x` and `fy` at `y` (and `m` elsewhere). -/
def val2 (m : (ℓ : Loc nD τ sig) → Buf (Elt F) ℓ) (d : Dev nD) (x y : Ref sig .tc)
    (fx : Buf (Elt F) ((SparseCore.T d : Thread nD τ).loc x)) (fy : Buf (Elt F) ((SparseCore.T d : Thread nD τ).loc y)) : Valuation τ sig (Elt F) :=
  Function.update (Function.update (fun b => m (d, b)) (Proc.devRef .tc x) fx) (Proc.devRef .tc y) fy

theorem val2_y (m : (ℓ : Loc nD τ sig) → Buf (Elt F) ℓ) (d : Dev nD) (x y : Ref sig .tc) (fx fy) :
    val2 m d x y fx fy (Proc.devRef .tc y) = fy := Function.update_self _ _ _
theorem val2_x (m : (ℓ : Loc nD τ sig) → Buf (Elt F) ℓ) (d : Dev nD) (x y : Ref sig .tc) (fx fy)
    (h : (Proc.devRef .tc x : DevRef τ sig) ≠ Proc.devRef .tc y) :
    val2 m d x y fx fy (Proc.devRef .tc x) = fx := by
  unfold val2; rw [Function.update_of_ne h, Function.update_self]

/-- Two distinct arrays held as a set, at a valuation. -/
theorem held_pair (d : Dev nD) (x y : Ref sig .tc) (h : (Proc.devRef .tc x : DevRef τ sig) ≠ Proc.devRef .tc y) (W : Valuation τ sig (Elt F)) :
    (held (SparseCore.T d : Thread nD τ) {Proc.devRef .tc x, Proc.devRef .tc y} W : sProp 𝕄)
      = iprop(pt d x (W (Proc.devRef .tc x)) ∗ pt d y (W (Proc.devRef .tc y))) := by
  unfold held
  rw [SparseCore.bigSep_insert' (by simpa using h), bigSep_singleton]

/-- The pairs a pipeline region may record on the TensorCore of `d` before call `n`: at or below level `8 n`. -/
def recBelow (d : Dev nD) (n : ℕ) : Set (SemLoc sig × HIx 1) := {p | (K (F := F)).lev (SparseCore.T d, p.1) p.2 ≤ 8 * n}

/-- The TensorCore's debts as the launch states them are a pipeline point's, at the bound `recBelow` with the pipeline's own pairs; -/
theorem owesWithin_of_below (cfg : Pipeline.Cfg sig Λ₀) (d : Dev nD) (n : ℕ) (Ot : CellTallies nD τ sig (HIx 1)) :
    iprop(∃ W, ⌜(K (F := F)).WBelow (SparseCore.T d) W (8 * n)⌝ ∗ owes (SparseCore.T d : Thread nD τ) Ot W)
      ⊢ (Pipeline.owesWithin d Ot (recBelow (F := F) d n ∪ cfg.waitPairs (none : HIx 1)) : sProp 𝕄) := by
  iintro ⟨%W, %hW, HO⟩
  iexists W; isplitr
  · ipureintro; exact fun p hp => Or.inl (hW p hp)
  · iexact HO

/-- and back: the pipeline's own waits were recorded at the index of no call, whose level is zero. -/
theorem below_of_owesWithin (cfg : Pipeline.Cfg sig Λ₀) (d : Dev nD) (n : ℕ) (Ot : CellTallies nD τ sig (HIx 1)) :
    (Pipeline.owesWithin d Ot (recBelow (F := F) d n ∪ cfg.waitPairs (none : HIx 1)) : sProp 𝕄)
      ⊢ iprop(∃ W, ⌜(K (F := F)).WBelow (SparseCore.T d) W (8 * n)⌝ ∗ owes (SparseCore.T d : Thread nD τ) Ot W) := by
  iintro ⟨%W, %hW, HO⟩
  iexists W; isplitr
  · ipureintro
    intro p hp
    rcases hW hp with h | ⟨w, s, rfl⟩
    · exact h
    · rw [SparseCore.Cfg.lev_none]; exact Nat.zero_le _
  · iexact HO

end Cert.Proof.KB

end
-- ==== Proof.Bits.Main2.lean ====
/-
  One host operation of @main on the TensorCore inside the SparseCore program: a unary operation or a reshape from one
  array into another, both held whole; the source is unchanged and the target ends at the operation's value.
-/
import proofs.«202962_g35424890258148_retrytranche2_417_11_alg».proof.Proof.Bits.Main1

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ)

/-- A host operation `op` whose buffers are the two distinct arrays `x`, `y` and that writes `y` only. -/
theorem wp_host2 (d : Dev nD) (x y : Ref sig .tc) (op : HloOp τ sig (Elt F))
    (hxy : (Proc.devRef .tc x : DevRef τ sig) ≠ Proc.devRef .tc y)
    (hS : op.bufs ⊆ {Proc.devRef .tc x, Proc.devRef .tc y}) (hf : op.fresh = ∅)
    (hnw : (Proc.devRef .tc x : DevRef τ sig) ∉ op.writes)
    (fx : Buf (Elt F) ((SparseCore.T d : Thread nD τ).loc x)) (fy : Buf (Elt F) ((SparseCore.T d : Thread nD τ).loc y))
    (k : ((b : op.writes) → b.1.ty.Contents (Elt F)) → Prog (TpuEff nD τ sig (Elt F) (SparseCore.Sig (ΛP (F := F)) 1) .tc) PUnit)
    (Q : PUnit → sProp 𝕄) :
    iprop(boundary (SparseCore.T d : Thread nD τ) ∗ pt d x fx ∗ pt d y fy
        ∗ (iprop(boundary (SparseCore.T d : Thread nD τ) ∗ pt d x fx ∗ pt d y (op.result (val2 m d x y fx fy) (Proc.devRef .tc y)))
            -∗ wp frame (wpE ((K (F := F)).defs (D (F := F))) 𝒱 (SparseCore.T d) none) Set.univ (k (op.fn fun b => val2 m d x y fx fy b.1)) Q))
      ⊢ wp frame (wpE ((K (F := F)).defs (D (F := F))) 𝒱 (SparseCore.T d) none) Set.univ (hlo rfl op k) Q := by
  have ex : op.result (val2 m d x y fx fy) (Proc.devRef .tc x) = fx := by
    rw [op.result_of_not_mem _ hnw, val2_x m d x y fx fy hxy]
  have eh : (held (SparseCore.T d : Thread nD τ) {Proc.devRef .tc x, Proc.devRef .tc y} (op.result (val2 m d x y fx fy)) : sProp 𝕄)
      = iprop(pt d x fx ∗ pt d y (op.result (val2 m d x y fx fy) (Proc.devRef .tc y))) := by
    rw [held_pair d x y hxy, ex]
  have eh0 : (held (SparseCore.T d : Thread nD τ) {Proc.devRef .tc x, Proc.devRef .tc y} (val2 m d x y fx fy) : sProp 𝕄)
      = iprop(pt d x fx ∗ pt d y fy) := by
    rw [held_pair d x y hxy, val2_x m d x y fx fy hxy, val2_y]
  iintro ⟨Hb, Hx, Hy, Hk⟩
  iapply (wp_hlo_within 𝒱 (SparseCore.T d) none Set.univ (op := op) (S := {Proc.devRef .tc x, Proc.devRef .tc y}) hS
    (V := val2 m d x y fx fy) hf) $$ [Hb Hx Hy]
  · isplitl [Hb]; · iexact Hb
    iapply (Entails.of_eq eh0.symm)
    isplitl [Hx]; · iexact Hx
    iexact Hy
  iintro ⟨Hb, Hh⟩
  ihave Hh' := (Entails.of_eq eh) $$ Hh
  icases Hh' with ⟨Hx, Hy⟩
  iapply Hk
  isplitl [Hb]; · iexact Hb
  isplitl [Hx]; · iexact Hx
  iexact Hy

end Cert.Proof.KB

end
-- ==== Proof.Bits.Main3.lean ====
/-
  The first region's windowed arrays as @main's named arrays: at entry the transposed table and the padded table at
  the contents the region finds; at exit the transposed table as it was and the padded table at contents that hold the
  table in their first 70 columns.
-/
import proofs.«202962_g35424890258148_retrytranche2_417_11_alg».proof.Proof.Bits.Main2

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (Vv : (b : Ref sig .tc) → Buf (Elt F) ((SparseCore.T d : Thread nD τ).loc b))
  (O : CellTallies nD τ sig (HIx 1)) (Rec : Set (SemLoc sig × HIx 1))

theorem rd0_share (w : Fin cfg0.W) : (rd0 d Vv O Rec).share w = fullShare := by
  unfold Pipeline.RDat.share; split <;> rfl

/-- At entry. -/
theorem arrays0_eq : ((rd0 d Vv O Rec).arrays (rd0 d Vv O Rec).A : sProp 𝕄) = iprop(pt d main_v1 (Vv main_v1) ∗ pt d main_v2 (Vv main_v2)) := by
  unfold Pipeline.RDat.arrays
  rw [bigSep_W0]
  simp only [rd0_share]
  rw [(arr_whole0 0).set_eq_univ, (arr_whole0 1).set_eq_univ]
  rfl

/-- At exit. -/
theorem arraysAt0_elim :
    ((rd0 d Vv O Rec).arraysAt cfg0.N : sProp 𝕄)
      ⊢ iprop(pt d main_v1 (Vv main_v1)
          ∗ ∃ tp : Buf (Elt F) ((SparseCore.T d : Thread nD τ).loc main_v2),
              ⌜∀ (r : Fin 100000) (e : Fin 70), (tp : S100000x128.Idx → F .f32) (ix2 r (e.castLE (by decide))) = (Vv main_v1 : S70x100000.Idx → F .f32) (ix2 e r)⌝
              ∗ pt d main_v2 tp) := by
  unfold Pipeline.RDat.arraysAt
  rw [bigSep_W0]
  simp only [rd0_share]
  rw [(arr_whole0 0).set_eq_univ, (arr_whole0 1).set_eq_univ]
  iintro ⟨⟨%F0, %h0, H0⟩, ⟨%F1, %h1, H1⟩⟩
  have e0 : F0 = Vv main_v1 := by
    have hin := Pipeline.RDat.ArrAt_in (rd0 d Vv O Rec) 0 (show (cfg0.win 0).isOut = false from rfl) cfg0.N
    rw [hin] at h0; exact h0
  subst e0
  isplitl [H0]; · iexact H0
  iexists F1; isplitr
  · ipureintro; exact arrAt0_final d Vv O Rec F1 h1
  · iexact H1

end Cert.Proof.KB

end
-- ==== Proof.Bits.Main4.lean ====
/-
  What @main computes on the TensorCore, step by step: the flat index array, the transposed table, the transposed
  `W` and the bias as a row are the host operations' values of the arguments; the two regions find the arrays at the
  valuations `Vv0` and `Vv2`; what @main leaves for the claim is the four arguments as they were and the result at the
  transpose of a projection output every entry of which satisfies `Ent`.
-/
import proofs.«202962_g35424890258148_retrytranche2_417_11_alg».proof.Proof.Bits.Main3

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- @main's five host operations. -/
abbrev opX : HloOp τ sig (Elt F) := StableHlo.reshape main_arg0 main_v0 rfl shapeCasts_S1024x50_S51200
abbrev opTT : HloOp τ sig (Elt F) := StableHlo.unary main_arg1 main_v1 ((transpose S70x100000 [1, 0] · transposes_S100000x70_S70x100000_1_0) : (⟨S100000x70, .f32⟩ : BufTy).Contents (Elt F) → (⟨S70x100000, .f32⟩ : BufTy).Contents (Elt F))
abbrev opWT : HloOp τ sig (Elt F) := StableHlo.unary main_arg2 main_v4 ((transpose S70x100000 [1, 0] · transposes_S100000x70_S70x100000_1_0) : (⟨S100000x70, .f32⟩ : BufTy).Contents (Elt F) → (⟨S70x100000, .f32⟩ : BufTy).Contents (Elt F))
abbrev opB2 : HloOp τ sig (Elt F) := StableHlo.reshape main_arg3 main_v5 rfl shapeCasts_S100000_S1x100000
abbrev opOut : HloOp τ sig (Elt F) := StableHlo.unary main_v6 main_v7 ((transpose S1024x100000 [1, 0] · transposes_S100000x1024_S1024x100000_1_0) : (⟨S100000x1024, .f32⟩ : BufTy).Contents (Elt F) → (⟨S1024x100000, .f32⟩ : BufTy).Contents (Elt F))

variable (m : (ℓ : Loc nD τ sig) → Buf (Elt F) ℓ)

/-- Array `b` of device `d` at launch. -/
abbrev mAt (d : Dev nD) (b : Ref sig .tc) : Buf (Elt F) ((SparseCore.T d : Thread nD τ).loc b) := m ((SparseCore.T d : Thread nD τ).loc b)

/-- The flat index array, the transposed table, the transposed `W`, the bias as a row: the operations' values. -/
def Xc (d : Dev nD) : Buf (Elt F) (xLoc d) :=
  (opX (F := F)).result (val2 m d main_arg0 main_v0 (mAt m d main_arg0) (mAt m d main_v0)) (Proc.devRef .tc main_v0)
def TTc (d : Dev nD) : Buf (Elt F) (ttLoc d) :=
  (opTT (F := F)).result (val2 m d main_arg1 main_v1 (mAt m d main_arg1) (mAt m d main_v1)) (Proc.devRef .tc main_v1)
def WTc (d : Dev nD) : Buf (Elt F) ((SparseCore.T d : Thread nD τ).loc main_v4) :=
  (opWT (F := F)).result (val2 m d main_arg2 main_v4 (mAt m d main_arg2) (mAt m d main_v4)) (Proc.devRef .tc main_v4)
def B2c (d : Dev nD) : Buf (Elt F) ((SparseCore.T d : Thread nD τ).loc main_v5) :=
  (opB2 (F := F)).result (val2 m d main_arg3 main_v5 (mAt m d main_arg3) (mAt m d main_v5)) (Proc.devRef .tc main_v5)

/-- The arrays as the first region finds them: the transposed table in place, the rest as at launch. -/
def Vv0 (d : Dev nD) : (b : Ref sig .tc) → Buf (Elt F) ((SparseCore.T d : Thread nD τ).loc b) :=
  Function.update (fun b => mAt m d b) main_v1 (TTc m d)

theorem Vv0_v1 (d : Dev nD) : Vv0 m d main_v1 = TTc m d := Function.update_self _ _ _
theorem Vv0_v2 (d : Dev nD) : Vv0 m d main_v2 = mAt m d main_v2 := Function.update_of_ne (by decide) _ _

/-- The arrays as the second region finds them: the transposed `W`, the pooled array at `P`, the bias row, the
    output as at launch. -/
def Vv2 (d : Dev nD) (P : Buf (Elt F) (poLoc d)) : (b : Ref sig .tc) → Buf (Elt F) ((SparseCore.T d : Thread nD τ).loc b) :=
  Function.update (Function.update (Function.update (fun b => mAt m d b) main_v4 (WTc m d)) main_v3 P) main_v5 (B2c m d)

theorem Vv2_v5 (d : Dev nD) (P) : Vv2 m d P main_v5 = B2c m d := Function.update_self _ _ _
theorem Vv2_v3 (d : Dev nD) (P) : Vv2 m d P main_v3 = P := by
  unfold Vv2; rw [Function.update_of_ne (by decide), Function.update_self]
theorem Vv2_v4 (d : Dev nD) (P) : Vv2 m d P main_v4 = WTc m d := by
  unfold Vv2; rw [Function.update_of_ne (by decide), Function.update_of_ne (by decide), Function.update_self]
theorem Vv2_v6 (d : Dev nD) (P) : Vv2 m d P main_v6 = mAt m d main_v6 := by
  unfold Vv2; rw [Function.update_of_ne (by decide), Function.update_of_ne (by decide), Function.update_of_ne (by decide)]

/-- What the TensorCore owes the launch sits at a call's index, never at the index of no call. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this
  omega

variable (Ent : Dev nD → Fin 100000 → Fin 1024 → F .f32 → Prop)

/-- What the result array holds at the end: the transpose of a projection output whose every entry satisfies `Ent`. -/
def ResOK (d : Dev nD) (g : Buf (Elt F) ((SparseCore.T d : Thread nD τ).loc main_v7)) : Prop :=
  ∃ f6 : Buf (Elt F) ((SparseCore.T d : Thread nD τ).loc main_v6),
    (∀ (v : Fin 100000) (b : Fin 1024), Ent d v b ((f6 : S100000x1024.Idx → F .f32) (ix2 v b)))
      ∧ g = (opOut (F := F)).result (val2 m d main_v6 main_v7 f6 (mAt m d main_v7)) (Proc.devRef .tc main_v7)

/-- What @main leaves the claim: the four arguments as at launch, the result satisfying `ResOK`. -/
def FIN (d : Dev nD) : sProp 𝕄 :=
  iprop(pt d main_arg0 (mAt m d main_arg0) ∗ pt d main_arg1 (mAt m d main_arg1) ∗ pt d main_arg2 (mAt m d main_arg2) ∗ pt d main_arg3 (mAt m d main_arg3)
    ∗ ∃ g, ⌜ResOK m Ent d g⌝ ∗ pt d main_v7 g)

end Cert.Proof.KB

end
-- ==== Proof.Bits.DealSets.lean ====
/-
  The tiles' pieces of the flat index array and of the pooled array, as sets of indices.

  Tile `(c, i)` is worker `w = 2 i + c`. Its index slice is the 1600 positions from `1600 w`; its row block is the 32
  rows from `32 w`, every column. Distinct tiles are distinct workers (`c < 2`), so their pieces are disjoint; every
  position `x < 51200` lies in worker `x / 1600`'s slice and every row `r < 1024` in worker `r / 32`'s block, so the
  pieces cover the two arrays. The tile's number `16 c + i` among the 32 is a bijection from the pairs `(c, i)`.
-/
import proofs.«202962_g35424890258148_retrytranche2_417_11_alg».proof.Proof.Bits.TileSpec
import Idealize.ShloMosaic.Lib.Transfers

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

/-- The tile's index slice and row block as sets of indices, by the pair `(c, i)`. -/
abbrev xSet (ci : Fin 2 × Fin 16) : Finset S51200.Idx := (xPiece ci.1 ci.2).view.set
abbrev poSet (ci : Fin 2 × Fin 16) : Finset S1024x128.Idx := (poPiece ci.1 ci.2).view.set

/-- A position lies in tile `(c, i)`'s slice exactly when it is one of the 1600 from `1600 (2 i + c)`. -/
theorem mem_xSet (c : Fin 2) (i : Fin 16) (j : S51200.Idx) :
    j ∈ (xPiece c i).view.set ↔ 1600 * (2 * i.val + c.val) ≤ (j 0).val ∧ (j 0).val < 1600 * (2 * i.val + c.val) + 1600 := by
  show j ∈ ((View.whole (main_v0_scv : Ref sig .scVector)).slice (Rect.unit (s := S51200) (k1_off1 (co c i)) S1600.size (k1_off1_inb (co c i)))).set ↔ _
  rw [View.set_slice, show ∀ t : Finset S51200.Idx, t.map (View.whole (main_v0_scv : Ref sig .scVector)).emb = t from fun _ => Finset.map_refl,
    Rect.mem_set_unit, k1_off1_eq]
  show (∀ a : Fin 1, (![3200 * i.val + 1600 * c.val] : Fin 1 → Nat) a ≤ (j a).val
      ∧ (j a).val < (![3200 * i.val + 1600 * c.val] : Fin 1 → Nat) a + (![1600] : Fin 1 → Nat) a) ↔ _
  rw [Fin.forall_fin_one]
  show (3200 * i.val + 1600 * c.val ≤ (j 0).val ∧ (j 0).val < 3200 * i.val + 1600 * c.val + 1600) ↔ _
  omega

/-- An index lies in tile `(c, i)`'s row block exactly when its row is one of the 32 from `32 (2 i + c)`. -/
theorem mem_poSet (c : Fin 2) (i : Fin 16) (j : S1024x128.Idx) :
    j ∈ (poPiece c i).view.set ↔ 32 * (2 * i.val + c.val) ≤ (j 0).val ∧ (j 0).val < 32 * (2 * i.val + c.val) + 32 := by
  show j ∈ ((View.whole (main_v3_scv : Ref sig .scVector)).slice (Rect.unit (s := S1024x128) (k1_off162 (co c i)) S32x128.size (k1_off162_inb (co c i)))).set ↔ _
  rw [View.set_slice, show ∀ t : Finset S1024x128.Idx, t.map (View.whole (main_v3_scv : Ref sig .scVector)).emb = t from fun _ => Finset.map_refl,
    Rect.mem_set_unit, k1_off162_eq]
  show (∀ a : Fin 2, (![64 * i.val + 32 * c.val, 0] : Fin 2 → Nat) a ≤ (j a).val
      ∧ (j a).val < (![64 * i.val + 32 * c.val, 0] : Fin 2 → Nat) a + (![32, 128] : Fin 2 → Nat) a) ↔ _
  rw [Fin.forall_fin_two]
  have h1 : (j 1).val < 128 := (j 1).isLt
  show ((64 * i.val + 32 * c.val ≤ (j 0).val ∧ (j 0).val < 64 * i.val + 32 * c.val + 32) ∧ (0 ≤ (j 1).val ∧ (j 1).val < 0 + 128)) ↔ _
  omega

theorem xSet_disjoint : ∀ a ∈ (Finset.univ : Finset (Fin 2 × Fin 16)), ∀ b ∈ (Finset.univ : Finset (Fin 2 × Fin 16)),
    a ≠ b → Disjoint (xSet a) (xSet b) := by
  rintro ⟨c, i⟩ - ⟨c', i'⟩ - hne
  refine Finset.disjoint_left.mpr fun j h1 h2 => hne ?_
  have e1 := (mem_xSet c i j).1 h1
  have e2 := (mem_xSet c' i' j).1 h2
  have := c.isLt; have := c'.isLt
  exact Prod.ext (Fin.ext (by show c.val = c'.val; omega)) (Fin.ext (by show i.val = i'.val; omega))

theorem poSet_disjoint : ∀ a ∈ (Finset.univ : Finset (Fin 2 × Fin 16)), ∀ b ∈ (Finset.univ : Finset (Fin 2 × Fin 16)),
    a ≠ b → Disjoint (poSet a) (poSet b) := by
  rintro ⟨c, i⟩ - ⟨c', i'⟩ - hne
  refine Finset.disjoint_left.mpr fun j h1 h2 => hne ?_
  have e1 := (mem_poSet c i j).1 h1
  have e2 := (mem_poSet c' i' j).1 h2
  have := c.isLt; have := c'.isLt
  exact Prod.ext (Fin.ext (by show c.val = c'.val; omega)) (Fin.ext (by show i.val = i'.val; omega))

theorem xSet_cover : (Finset.univ : Finset (Fin 2 × Fin 16)).biUnion xSet = Finset.univ := by
  ext j
  simp only [Finset.mem_biUnion, Finset.mem_univ, true_and, iff_true]
  have hj : (j 0).val < 51200 := (j 0).isLt
  refine ⟨((⟨(j 0).val / 1600 % 2, by omega⟩ : Fin 2), (⟨(j 0).val / 1600 / 2, by omega⟩ : Fin 16)), (mem_xSet _ _ j).2 ?_⟩
  show 1600 * (2 * ((j 0).val / 1600 / 2) + (j 0).val / 1600 % 2) ≤ (j 0).val
    ∧ (j 0).val < 1600 * (2 * ((j 0).val / 1600 / 2) + (j 0).val / 1600 % 2) + 1600
  omega

theorem poSet_cover : (Finset.univ : Finset (Fin 2 × Fin 16)).biUnion poSet = Finset.univ := by
  ext j
  simp only [Finset.mem_biUnion, Finset.mem_univ, true_and, iff_true]
  have hj : (j 0).val < 1024 := (j 0).isLt
  refine ⟨((⟨(j 0).val / 32 % 2, by omega⟩ : Fin 2), (⟨(j 0).val / 32 / 2, by omega⟩ : Fin 16)), (mem_poSet _ _ j).2 ?_⟩
  show 32 * (2 * ((j 0).val / 32 / 2) + (j 0).val / 32 % 2) ≤ (j 0).val
    ∧ (j 0).val < 32 * (2 * ((j 0).val / 32 / 2) + (j 0).val / 32 % 2) + 32
  omega

/-- The tile's number among the 32 is a bijection from the pairs `(c, i)`. -/
def tileEquiv : Fin 2 × Fin 16 ≃ Fin 32 where
  toFun ci := tileNo ci.1 ci.2
  invFun k := (⟨k.val / 16, by have := k.isLt; omega⟩, ⟨k.val % 16, by omega⟩)
  left_inv := by
    rintro ⟨c, i⟩
    have := c.isLt; have := i.isLt
    exact Prod.ext (Fin.ext (by show (c.val * 16 + i.val) / 16 = c.val; omega)) (Fin.ext (by show (c.val * 16 + i.val) % 16 = i.val; omega))
  right_inv := by
    intro k
    exact Fin.ext (by show k.val / 16 * 16 + k.val % 16 = k.val; omega)

end Cert.Proof.KB

end
-- ==== Proof.Bits.DealSplit.lean ====
/-
  The whole arrays as their tiles' pieces, and the padded table as 32 read shares.

  A points-to on a whole array is the separating conjunction of the points-tos on the pieces of a partition of its
  indices; a points-to at the full share splits into a remainder and one read share per tile, and the tiles' numbers
  run over the 32 shares once each.
-/
import proofs.«202962_g35424890258148_retrytranche2_417_11_alg».proof.Proof.Bits.DealSets

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

variable {F : FTy → Type} [FloatOps F]

local notation "𝕄" => MT nD τ sig (HIx 1) (Elt F) ℕ UU ℕ

/-- The flat index array whole is its 32 slices. -/
theorem xPts_pieces (d : Dev nD) (f : Buf (Elt F) (xLoc d)) :
    (xLoc d ↦{fullShare} f : sProp 𝕄) = bigSep Finset.univ fun ci : Fin 2 × Fin 16 => xLoc d ↦[xSet ci]{fullShare} f := by
  rw [← pointsTo_biUnion Finset.univ (ℓ := xLoc d) xSet xSet_disjoint, xSet_cover]; try rfl

/-- The pooled array whole is its 32 row blocks. -/
theorem poPts_pieces (d : Dev nD) (f : Buf (Elt F) (poLoc d)) :
    (poLoc d ↦{fullShare} f : sProp 𝕄) = bigSep Finset.univ fun ci : Fin 2 × Fin 16 => poLoc d ↦[poSet ci]{fullShare} f := by
  rw [← pointsTo_biUnion Finset.univ (ℓ := poLoc d) poSet poSet_disjoint, poSet_cover]; try rfl

/-- A conjunction over the SparseCores of conjunctions over their tiles is one over the pairs `(c, i)`. -/
theorem bigSep_tiles (Φ : Fin 2 → Fin 16 → sProp 𝕄) :
    (bigSep Finset.univ fun c : Fin ((K (F := F)).nCore 0) => bigSep Finset.univ fun i : Fin ((K (F := F)).nSub 0) =>
        Φ (Fin.cast nCore_zero c) (Fin.cast nSub_zero i))
      = bigSep Finset.univ fun ci : Fin 2 × Fin 16 => Φ ci.1 ci.2 :=
  (bigSep_univ_prod (fun ci : Fin 2 × Fin 16 => Φ ci.1 ci.2)).symm

/-- The padded table whole goes out as one read share per tile, each at the same contents. -/
theorem tp_shares (Rtp : (d : Dev nD) → Buf (Elt F) (tpLoc d) → Prop) (d : Dev nD) (tp : Buf (Elt F) (tpLoc d)) (htp : Rtp d tp) :
    (tpLoc d ↦{fullShare} tp : sProp 𝕄)
      ⊢ bigSep Finset.univ fun ci : Fin 2 × Fin 16 => iprop(∃ tp, ⌜Rtp d tp⌝ ∗ tpLoc d ↦{shareTok fullShare 32 (tileNo ci.1 ci.2)} tp) := by
  refine (Transfers.pointsTo_toks_split fullShare 32).trans ?_
  rw [bigSep_univ_equiv tileEquiv (fun k : Fin 32 => (tpLoc d ↦{shareTok fullShare 32 k} tp : sProp 𝕄))]
  refine (show iprop((tpLoc d ↦{Transfers.shareDrop fullShare 32} tp) ∗ bigSep Finset.univ fun ci : Fin 2 × Fin 16 =>
      (tpLoc d ↦{shareTok fullShare 32 (tileEquiv ci)} tp : sProp 𝕄)) ⊢ bigSep Finset.univ fun ci : Fin 2 × Fin 16 =>
      (tpLoc d ↦{shareTok fullShare 32 (tileEquiv ci)} tp : sProp 𝕄) from by iintro ⟨-, H⟩; iexact H).trans ?_
  refine bigSep_mono fun ci _ => ?_
  show (tpLoc d ↦{shareTok fullShare 32 (tileNo ci.1 ci.2)} tp : sProp 𝕄)
    ⊢ iprop(∃ tp', ⌜Rtp d tp'⌝ ∗ tpLoc d ↦{shareTok fullShare 32 (tileNo ci.1 ci.2)} tp')
  iintro H
  iexists tp
  isplitr
  · ipureintro; exact htp
  · iexact H

/-- The pooled array's row blocks, each held at given contents, are each held at some contents. -/
theorem po_blocks_some (d : Dev nD) (f0 : Buf (Elt F) (poLoc d)) :
    (bigSep Finset.univ fun ci : Fin 2 × Fin 16 => (poLoc d ↦[poSet ci]{fullShare} f0 : sProp 𝕄))
      ⊢ bigSep Finset.univ fun ci : Fin 2 × Fin 16 => iprop(∃ f, poLoc d ↦[poSet ci]{fullShare} f) := by
  refine bigSep_mono fun ci _ => ?_
  show (poLoc d ↦[poSet ci]{fullShare} f0 : sProp 𝕄) ⊢ iprop(∃ f, poLoc d ↦[poSet ci]{fullShare} f)
  iintro H
  iexists f0
  iexact H

/-- The row blocks, each at contents of its own with a fact of its own, join into the whole array at contents that agree
    with each block's on that block's indices. -/
theorem po_blocks_join (d : Dev nD) (R : Fin 2 × Fin 16 → Buf (Elt F) (poLoc d) → Prop) :
    (bigSep Finset.univ fun ci : Fin 2 × Fin 16 => iprop(∃ f, ⌜R ci f⌝ ∗ poLoc d ↦[poSet ci]{fullShare} f))
      ⊢ (iprop(∃ (fs : Fin 2 × Fin 16 → Buf (Elt F) (poLoc d)) (g : Buf (Elt F) (poLoc d)),
          ⌜(∀ ci, R ci (fs ci)) ∧ ∀ ci, ∀ j ∈ poSet ci, g j = fs ci j⌝ ∗ poLoc d ↦{fullShare} g) : sProp 𝕄) := by
  refine (bigSep_exists_pi Finset.univ (fun (ci : Fin 2 × Fin 16) (f : Buf (Elt F) (poLoc d)) =>
      iprop(⌜R ci f⌝ ∗ poLoc d ↦[poSet ci]{fullShare} f))).trans ?_
  iintro ⟨%fs, H⟩
  ihave H1 := (bigSep_pure_sep Finset.univ (fun ci : Fin 2 × Fin 16 => R ci (fs ci))
      (fun ci : Fin 2 × Fin 16 => (poLoc d ↦[poSet ci]{fullShare} fs ci : sProp 𝕄))) $$ H
  icases H1 with ⟨%hR, H2⟩
  ihave H3 := (pointsTo_biUnion_join Finset.univ poSet fs (fs (0, 0)) poSet_disjoint) $$ H2
  icases H3 with ⟨%g, %hg, Hg⟩
  rw [poSet_cover]
  iexists fs
  iexists g
  isplitr
  · ipureintro
    exact ⟨fun ci => hR ci (Finset.mem_univ _), fun ci => hg ci (Finset.mem_univ _)⟩
  · iexact Hg

end Cert.Proof.KB

end
-- ==== Proof.Bits.Deal.lean ====
/-
  Dealing the SparseCore call's operands to its 32 tiles and gathering their results.

  The 32 index slices (1600 words each, worker `2 i + c` at offset `1600 (2 i + c)`) partition the flat index array;
  the 32 row blocks (32 rows each, at row `32 (2 i + c)`) partition the pooled array; the padded table is read by every
  tile and goes out as 32 read shares. The tiles' row blocks come back each at contents of its own; they join into one
  array, which satisfies every tile's relation because each relation reads only its own tile's rows.
-/
import proofs.«202962_g35424890258148_retrytranche2_417_11_alg».proof.Proof.Bits.TileSpec
import proofs.«202962_g35424890258148_retrytranche2_417_11_alg».proof.Proof.Bits.DealSplit
import Idealize.ShloMosaic.Lib.Transfers

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (X : (d : Dev nD) → Buf (Elt F) (xLoc d))

/-- The three arrays whole, the padded table holding the table, deal every SparseCore of the call its share. -/
theorem deal (d : Dev nD) (tp : Buf (Elt F) (tpLoc d)) (htp : Rtp m d tp) (f0 : Buf (Elt F) (poLoc d)) :
    iprop((xLoc d ↦{fullShare} X d) ∗ (tpLoc d ↦{fullShare} tp) ∗ (poLoc d ↦{fullShare} f0))
      ⊢ (bigSep Finset.univ fun c : Fin ((K (F := F)).nCore 0) => (P X (Rtp m) (Rpo m)).st 0 d c : sProp 𝕄) := by
  show _ ⊢ (bigSep Finset.univ fun c : Fin ((K (F := F)).nCore 0) => bigSep Finset.univ fun i : Fin ((K (F := F)).nSub 0) =>
      goRes X (Rtp m) d (Fin.cast nCore_zero c) (Fin.cast nSub_zero i))
  rw [bigSep_tiles (F := F) (fun c i => goRes X (Rtp m) d c i)]
  unfold goRes
  rw [bigSep_sep', bigSep_sep', xPts_pieces, poPts_pieces]
  iintro ⟨Hx, Htp, Hpo⟩
  isplitl [Hx]; · iexact Hx
  isplitl [Htp]
  · iapply (tp_shares (F := F) (Rtp m) d tp htp); iexact Htp
  · iapply (po_blocks_some (F := F) d f0); iexact Hpo

/-- What the SparseCores hand back joins into the pooled array whole, at contents satisfying every tile's relation. -/
theorem gather (d : Dev nD) :
    (bigSep Finset.univ fun c : Fin ((K (F := F)).nCore 0) => (P X (Rtp m) (Rpo m)).dn 0 d c : sProp 𝕄)
      ⊢ iprop(∃ g : Buf (Elt F) (poLoc d), ⌜∀ (c : Fin 2) (i : Fin 16), Rpo m d c i g⌝ ∗ poLoc d ↦{fullShare} g) := by
  show (bigSep Finset.univ fun c : Fin ((K (F := F)).nCore 0) => bigSep Finset.univ fun i : Fin ((K (F := F)).nSub 0) =>
      tdRes (Rpo m) d (Fin.cast nCore_zero c) (Fin.cast nSub_zero i)) ⊢ _
  rw [bigSep_tiles (F := F) (fun c i => tdRes (Rpo m) d c i)]
  unfold tdRes
  refine (po_blocks_join (F := F) d (fun ci f => Rpo m d ci.1 ci.2 f)).trans ?_
  iintro ⟨%fs, %g, %h, Hg⟩
  iexists g
  isplitr
  · ipureintro
    intro c i r e
    have hmem : (ix2 (brow c i r) (e.castLE (by decide)) : S1024x128.Idx) ∈ poSet (c, i) := by
      refine (mem_poSet c i _).2 ?_
      have := r.isLt
      show 32 * (2 * i.val + c.val) ≤ (2 * i.val + c.val) * 32 + r.val ∧ (2 * i.val + c.val) * 32 + r.val < 32 * (2 * i.val + c.val) + 32
      omega
    rw [h.2 (c, i) _ hmem]
    exact h.1 (c, i) r e
  · iexact Hg

end Cert.Proof.KB

end
-- ==== Proof.Bits.Reg2Body.lean ====
/-
  The second region's kernel body on whole staging buffers: it loads the pooled array's block [1024, 128], the
  transposed-weights block [70, 4096] and the bias block [1, 4096] whole, loads the output block [4096, 1024] whole
  (the value is not used), and stores the projection of the three loaded blocks into all of the output block.
  Afterwards the three input buffers are as they were and the output buffer holds that projection, entry by entry.
-/
import proofs.«202962_g35424890258148_retrytranche2_417_11_alg».proof.Proof.Bits.Reg2Data
import proofs.«202962_g35424890258148_retrytranche2_417_11_alg».proof.Proof.Gen.Kernel.Skeleton
import Idealize.ShloMosaic.Lib.Tactic
import Idealize.ShloMosaic.Lib.Pipeline.Value
import Idealize.ShloMosaic.Lib.Writes

noncomputable section

namespace Cert.Proof.KB

open Cert.Kernel Cert.Kernel.Gen

open Idealize.ShloMosaic Idealize.ShloMosaic.ValueIdx
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The whole-shape rectangle at zero offsets (however the zeros are spelt) embeds every index as itself. -/
theorem emb_unit_zero {S : Shape} {off : Fin S.rank → Nat} (h : off = fun _ => 0) (inb : ∀ a, off a + S.size a ≤ S.size a)
    (y : S.Idx) : (Rect.unit off S.size inb).emb y = y := by
  subst h; show (Rect.whole S).emb y = y; rw [Rect.emb_whole_apply]

set_option maxHeartbeats 1000000 in
/-- The body's run. -/
theorem mm_body_run (c : Dev nD) (E : Set ℕ) (i : grid2.Coords)
    (arg1 : Memref sig .tc .vmem S70x4096 .f32) (harg1 : arg1.IsWhole)
    (arg2 : Memref sig .tc .vmem S1024x128 .f32) (harg2 : arg2.IsWhole)
    (arg3 : Memref sig .tc .vmem S1x4096 .f32) (harg3 : arg3.IsWhole)
    (arg4 : Memref sig .tc .vmem S4096x1024 .f32) (harg4 : arg4.IsWhole)
    (x0 : Vec F S70x4096 .f32) (x1 : Vec F S1024x128 .f32) (x2 : Vec F S1x4096 .f32) (y : Vec F S4096x1024 .f32)
    (Kk : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare y
        ∗ (iprop(owns (c : Thread nD τ) arg1 fullShare x0 ∗ owns (c : Thread nD τ) arg2 fullShare x1
            ∗ owns (c : Thread nD τ) arg3 fullShare x2
            ∗ owns (c : Thread nD τ) arg4 fullShare (k2_pay1 x1 x0 x2 : Vec F S4096x1024 .f32)) -∗ Kk ⟨⟩))
      ⊢ wp frame (wpE (defs₀ (F := F)) Variants.none c none) E (cc2__mm_body i arg1 harg1 arg2 harg2 arg3 harg3 arg4 harg4) Kk := by
  simp only [cc2__mm_body_eq_skeleton]; unfold cc2__mm_body_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  have hz : (![0, 0] : Fin 2 → Nat) = fun _ => 0 := funext fun a => by match a with | ⟨0, _⟩ => rfl | ⟨1, _⟩ => rfl
  rw [View.readAt_eq_ld, View.readAt_eq_ld, View.readAt_eq_ld, View.ld_unit_zero (S := S1024x128) hz,
    View.ld_unit_zero (S := S70x4096) hz, View.ld_unit_zero (S := S1x4096) hz]
  funext y
  have hy : (Rect.unit (s := S4096x1024) ![0, 0] S4096x1024.size inb_S4096x1024_S4096x1024_0_0).emb y = y :=
    emb_unit_zero hz _ y
  conv_lhs => rw [← hy]
  rw [View.read_writes_cons_emb]

end Cert.Proof.KB

end
-- ==== Proof.Bits.Reg2Sched.lean ====
/-
  The second region's schedule in closed form, decided over its 25 grid points: at point `t` the transposed-weights
  window's block is columns `4096 t ..` of its array, the bias window's block is columns `4096 t ..` of the bias row,
  and the output window's block is rows `4096 t ..` of the output; the three transfers move
  `min 4096 (100000 - 4096 t)` of the 4096 (all but the last point: all of them) and every index of the other axis.
  The pooled array's window is the whole array at every point: block index (0, 0), never cut. The output window is
  never fetched, and no input window is ever written back.
-/
import proofs.«202962_g35424890258148_retrytranche2_417_11_alg».proof.Proof.Bits.Reg2Data

noncomputable section

namespace Cert.Proof.KB

open Cert.Kernel Cert.Kernel.Gen

open Idealize.ShloMosaic
open Idealize.SL Idealize.SL.Sem

theorem idx2_0 : ∀ t : Fin cfg2.N, (cfg2.win 0).index t (0 : Fin 2) = 0 ∧ (cfg2.win 0).index t (1 : Fin 2) = t.val :=
  (by decide +kernel : ∀ t : Fin grid2.N, win2_0.index t (0 : Fin 2) = 0 ∧ win2_0.index t (1 : Fin 2) = t.val)
theorem idx2_1 : ∀ t : Fin cfg2.N, (cfg2.win 1).index t (0 : Fin 2) = 0 ∧ (cfg2.win 1).index t (1 : Fin 2) = 0 :=
  (by decide +kernel : ∀ t : Fin grid2.N, win2_1.index t (0 : Fin 2) = 0 ∧ win2_1.index t (1 : Fin 2) = 0)
theorem idx2_2 : ∀ t : Fin cfg2.N, (cfg2.win 2).index t (0 : Fin 2) = 0 ∧ (cfg2.win 2).index t (1 : Fin 2) = t.val :=
  (by decide +kernel : ∀ t : Fin grid2.N, win2_2.index t (0 : Fin 2) = 0 ∧ win2_2.index t (1 : Fin 2) = t.val)
theorem idx2_3 : ∀ t : Fin cfg2.N, (cfg2.win 3).index t (0 : Fin 2) = t.val ∧ (cfg2.win 3).index t (1 : Fin 2) = 0 :=
  (by decide +kernel : ∀ t : Fin grid2.N, win2_3.index t (0 : Fin 2) = t.val ∧ win2_3.index t (1 : Fin 2) = 0)

theorem xs2_0 : ∀ t : Fin cfg2.N, (cfg2.win 0).xsize (cfg2.grid.coords t) (0 : Fin 2) = 70
    ∧ (cfg2.win 0).xsize (cfg2.grid.coords t) (1 : Fin 2) = min 4096 (100000 - 4096 * t.val) :=
  (by decide +kernel : ∀ t : Fin grid2.N, win2_0.xsize (grid2.coords t) (0 : Fin 2) = 70
    ∧ win2_0.xsize (grid2.coords t) (1 : Fin 2) = min 4096 (100000 - 4096 * t.val))
theorem xs2_1 : ∀ t : Fin cfg2.N, (cfg2.win 1).xsize (cfg2.grid.coords t) (0 : Fin 2) = 1024
    ∧ (cfg2.win 1).xsize (cfg2.grid.coords t) (1 : Fin 2) = 128 :=
  (by decide +kernel : ∀ t : Fin grid2.N, win2_1.xsize (grid2.coords t) (0 : Fin 2) = 1024
    ∧ win2_1.xsize (grid2.coords t) (1 : Fin 2) = 128)
theorem xs2_2 : ∀ t : Fin cfg2.N, (cfg2.win 2).xsize (cfg2.grid.coords t) (0 : Fin 2) = 1
    ∧ (cfg2.win 2).xsize (cfg2.grid.coords t) (1 : Fin 2) = min 4096 (100000 - 4096 * t.val) :=
  (by decide +kernel : ∀ t : Fin grid2.N, win2_2.xsize (grid2.coords t) (0 : Fin 2) = 1
    ∧ win2_2.xsize (grid2.coords t) (1 : Fin 2) = min 4096 (100000 - 4096 * t.val))
theorem xs2_3 : ∀ t : Fin cfg2.N, (cfg2.win 3).xsize (cfg2.grid.coords t) (0 : Fin 2) = min 4096 (100000 - 4096 * t.val)
    ∧ (cfg2.win 3).xsize (cfg2.grid.coords t) (1 : Fin 2) = 1024 :=
  (by decide +kernel : ∀ t : Fin grid2.N, win2_3.xsize (grid2.coords t) (0 : Fin 2) = min 4096 (100000 - 4096 * t.val)
    ∧ win2_3.xsize (grid2.coords t) (1 : Fin 2) = 1024)

theorem nofetch2_3 : ∀ t : Fin cfg2.N, (cfg2.win 3).fetch t = false :=
  (by decide +kernel : ∀ t : Fin grid2.N, win2_3.fetch t = false)
theorem noflush2_0 : ∀ t : Fin cfg2.N, (cfg2.win 0).flush t = false :=
  (by decide +kernel : ∀ t : Fin grid2.N, win2_0.flush t = false)
theorem noflush2_1 : ∀ t : Fin cfg2.N, (cfg2.win 1).flush t = false :=
  (by decide +kernel : ∀ t : Fin grid2.N, win2_1.flush t = false)
theorem noflush2_2 : ∀ t : Fin cfg2.N, (cfg2.win 2).flush t = false :=
  (by decide +kernel : ∀ t : Fin grid2.N, win2_2.flush t = false)

theorem N2_val : cfg2.N = 25 := N_2

/-- The pooled array's window is fetched at the first point and at no other. -/
theorem fetch2_1_zero (t : Fin cfg2.N) (h : t.val = 0) : (cfg2.win 1).fetch t = true :=
  (fetch2_1 t).mpr (by rw [h])
theorem nofetch2_1_pos (t : Fin cfg2.N) (h : t.val ≠ 0) : (cfg2.win 1).fetch t = false := by
  have hN : t.val < 25 := lt_of_lt_of_eq t.isLt N2_val
  cases hf : (cfg2.win 1).fetch t with
  | false => rfl
  | true => exact absurd ((fetch2_1 t).mp hf) (by omega)

end Cert.Proof.KB

end
-- ==== Proof.Bits.Reg2Obl.lean ====
/-
  The second region's body obligation. At every grid point the transposed-weights window's buffer and the bias
  window's buffer have just been fetched, so at the columns inside their arrays they hold the arrays' entries. The
  pooled array's window is fetched at the first point only, whole and uncut, and the body leaves its buffer as it
  finds it, so by induction on the point the buffer holds the whole pooled array at every point. The body's store then
  puts into the output buffer the projection of these three blocks, and the one hypothesis about the body's arithmetic
  says that on the rows inside the output every such entry is as the proof data asks.
-/
import proofs.«202962_g35424890258148_retrytranche2_417_11_alg».proof.Proof.Bits.Reg2Body
import proofs.«202962_g35424890258148_retrytranche2_417_11_alg».proof.Proof.Bits.Reg2Sched

noncomputable section

namespace Cert.Proof.KB

open Cert.Kernel Cert.Kernel.Gen

open Idealize.ShloMosaic Idealize.ShloMosaic.ValueIdx
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (Vv : (b : Ref sig .tc) → Buf (Elt F) ((SparseCore.T d : Thread nD τ).loc b))
  (O : CellTallies nD τ sig (HIx 1)) (Rec : Set (SemLoc sig × HIx 1))
  (Ent : Fin 100000 → Fin 1024 → F .f32 → Prop)

/-- A just-fetched transposed-weights buffer holds, at an entry whose column lies inside the array, the array's entry. -/
theorem fetched2_0 (t : Fin cfg2.N) (dd : (cfg2.win 0).block.Idx → Elt F (cfg2.win 0).elt) (e : Fin 70) (v : Fin 4096)
    (h : 4096 * t.val + v.val < 100000) :
    (rd2 d Vv O Rec Ent).fetched 0 t dd (ix2 e v) = (Vv main_v4 : S70x100000.Idx → F .f32) (ix2 e ⟨4096 * t.val + v.val, h⟩) := by
  have hm : (cfg2.win 0).moved (cfg2.grid.coords t) (ix2 e v) = true := by
    rw [Pipeline.Window.moved_iff]; intro a
    match a with
    | ⟨0, _⟩ =>
      show e.val < (cfg2.win 0).xsize (cfg2.grid.coords t) (0 : Fin 2)
      rw [(xs2_0 t).1]; exact e.isLt
    | ⟨1, _⟩ =>
      show v.val < (cfg2.win 0).xsize (cfg2.grid.coords t) (1 : Fin 2)
      rw [(xs2_0 t).2]; have := v.isLt; omega
  unfold Pipeline.RDat.fetched Pipeline.Window.fill
  rw [dif_pos hm]
  unfold Pipeline.RDat.blockOf
  show (Vv main_v4 : S70x100000.Idx → F .f32) (((cfg2.win 0).blk t).view.emb _) = _
  refine congrArg _ (funext fun a => Fin.ext ?_)
  match a with
  | ⟨0, _⟩ => show (cfg2.win 0).index t (0 : Fin 2) * 70 + 1 * e.val = e.val; rw [(idx2_0 t).1]; omega
  | ⟨1, _⟩ => show (cfg2.win 0).index t (1 : Fin 2) * 4096 + 1 * v.val = 4096 * t.val + v.val; rw [(idx2_0 t).2]; omega

/-- A just-fetched bias buffer holds, at a column inside the array, the bias's entry. -/
theorem fetched2_2 (t : Fin cfg2.N) (dd : (cfg2.win 2).block.Idx → Elt F (cfg2.win 2).elt) (v : Fin 4096)
    (h : 4096 * t.val + v.val < 100000) :
    (rd2 d Vv O Rec Ent).fetched 2 t dd (ix2 0 v) = (Vv main_v5 : S1x100000.Idx → F .f32) (ix2 0 ⟨4096 * t.val + v.val, h⟩) := by
  have hm : (cfg2.win 2).moved (cfg2.grid.coords t) (ix2 0 v) = true := by
    rw [Pipeline.Window.moved_iff]; intro a
    match a with
    | ⟨0, _⟩ =>
      show 0 < (cfg2.win 2).xsize (cfg2.grid.coords t) (0 : Fin 2)
      rw [(xs2_2 t).1]; exact Nat.one_pos
    | ⟨1, _⟩ =>
      show v.val < (cfg2.win 2).xsize (cfg2.grid.coords t) (1 : Fin 2)
      rw [(xs2_2 t).2]; have := v.isLt; omega
  unfold Pipeline.RDat.fetched Pipeline.Window.fill
  rw [dif_pos hm]
  unfold Pipeline.RDat.blockOf
  show (Vv main_v5 : S1x100000.Idx → F .f32) (((cfg2.win 2).blk t).view.emb _) = _
  refine congrArg _ (funext fun a => Fin.ext ?_)
  match a with
  | ⟨0, _⟩ => show (cfg2.win 2).index t (0 : Fin 2) * 1 + 1 * 0 = 0; rw [(idx2_2 t).1]
  | ⟨1, _⟩ => show (cfg2.win 2).index t (1 : Fin 2) * 4096 + 1 * v.val = 4096 * t.val + v.val; rw [(idx2_2 t).2]; omega

/-- A just-fetched pooled-array buffer holds the whole pooled array: the window's block is the array, never cut. -/
theorem fetched2_1 (t : Fin cfg2.N) (dd : (cfg2.win 1).block.Idx → Elt F (cfg2.win 1).elt) (j : S1024x128.Idx) :
    (rd2 d Vv O Rec Ent).fetched 1 t dd j = (Vv main_v3 : S1024x128.Idx → F .f32) j := by
  have hm : (cfg2.win 1).moved (cfg2.grid.coords t) j = true := by
    rw [Pipeline.Window.moved_iff]; intro a
    match a with
    | ⟨0, _⟩ =>
      show (j (0 : Fin 2)).val < (cfg2.win 1).xsize (cfg2.grid.coords t) (0 : Fin 2)
      rw [(xs2_1 t).1]; exact (j (0 : Fin 2)).isLt
    | ⟨1, _⟩ =>
      show (j (1 : Fin 2)).val < (cfg2.win 1).xsize (cfg2.grid.coords t) (1 : Fin 2)
      rw [(xs2_1 t).2]; exact (j (1 : Fin 2)).isLt
  unfold Pipeline.RDat.fetched Pipeline.Window.fill
  rw [dif_pos hm]
  unfold Pipeline.RDat.blockOf
  show (Vv main_v3 : S1024x128.Idx → F .f32) (((cfg2.win 1).blk t).view.emb _) = _
  refine congrArg _ (funext fun a => Fin.ext ?_)
  match a with
  | ⟨0, _⟩ => show (cfg2.win 1).index t (0 : Fin 2) * 1024 + 1 * (j (0 : Fin 2)).val = (j (0 : Fin 2)).val; rw [(idx2_1 t).1]; omega
  | ⟨1, _⟩ => show (cfg2.win 1).index t (1 : Fin 2) * 128 + 1 * (j (1 : Fin 2)).val = (j (1 : Fin 2)).val; rw [(idx2_1 t).2]; omega

/-- The pooled array's buffer holds the whole array at every point: fetched at the first, left as found ever after. -/
theorem finds2_1 : ∀ (n : ℕ) (t : Fin cfg2.N), t.val = n → ∀ Y : S1024x128.Idx → F .f32,
    (rd2 d Vv O Rec Ent).Finds 1 t Y → Y = (Vv main_v3 : S1024x128.Idx → F .f32)
  | 0, t, ht, Y, hY => by
    obtain ⟨dd, rfl⟩ := ((rd2 d Vv O Rec Ent).finds_of_fetch (fetch2_1_zero t ht) Y).mp hY
    exact funext fun j => fetched2_1 d Vv O Rec Ent t dd j
  | n + 1, t, ht, Y, hY => by
    have hne : t.val ≠ 0 := by omega
    rcases ((rd2 d Vv O Rec Ent).finds_of_pos (nofetch2_1_pos t hne) hne Y).mp hY with hfl | ⟨Y', hY', haft⟩
    · rw [noflush2_1] at hfl; exact absurd hfl Bool.false_ne_true
    · have ih := finds2_1 n ⟨t.val - 1, Nat.lt_of_le_of_lt (Nat.sub_le _ _) t.isLt⟩ (by show t.val - 1 = n; omega) Y' hY'
      have e : Y = Y' := haft
      rw [e, ih]

/-- The body obligation at every point. -/
theorem body2 (hOK : BodyOK2 d Vv Ent) : (rd2 d Vv O Rec Ent).BodyObligation (defs₀ (F := F)) 𝒱₀ (none : HIx 1) Set.univ := by
  intro t Y hY
  rw [bigSep_W2, bigSep_W2]
  obtain ⟨d0, hd0⟩ := ((rd2 d Vv O Rec Ent).finds_of_fetch (fetch2_0 t) (Y 0)).mp (hY 0)
  obtain ⟨d2, hd2⟩ := ((rd2 d Vv O Rec Ent).finds_of_fetch (fetch2_2 t) (Y 2)).mp (hY 2)
  have h1 : Y 1 = (Vv main_v3 : S1024x128.Idx → F .f32) := finds2_1 d Vv O Rec Ent t.val t rfl (Y 1) (hY 1)
  rw [show (rd2 d Vv O Rec Ent).Φ t.succ = (rd2 d Vv O Rec Ent).Φ t.castSucc from rfl,
    show (rd2 d Vv O Rec Ent).owesAt (none : HIx 1) t.succ = (rd2 d Vv O Rec Ent).owesAt (none : HIx 1) t.castSucc from rfl]
  iintro ⟨HΦ, Ho, H0, H1, H2, H3⟩
  iapply (mm_body_run d Set.univ (grid2.coords t)
    (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (win2_3.stage (cfg2.slots t 3)) (hstage2_3 ((cfg2.slots t 3).cast nbuf2_3)) (Y 0) (Y 1) (Y 2) (Y 3) _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]
  · iexists (Y 0); isplitr; · ipureintro; rfl
    iexact H0
  isplitl [H1]
  · iexists (Y 1); isplitr; · ipureintro; rfl
    iexact H1
  isplitl [H2]
  · iexists (Y 2); isplitr; · ipureintro; rfl
    iexact H2
  iexists _; isplitr
  swap; · iexact H3
  ipureintro
  show out2Rel Ent t _
  intro v b h
  rw [h1]
  exact hOK t (Y 0) (Y 2) (fun e v h => by rw [hd0, fetched2_0 d Vv O Rec Ent t d0 e v h])
    (fun v h => by rw [hd2, fetched2_2 d Vv O Rec Ent t d2 v h]) v b h

end Cert.Proof.KB

end
-- ==== Proof.Bits.Reg2Arr.lean ====
/-
  What the output may hold after the second region's write-backs: after the points below `n`, every entry on a row
  below `4096 n` (and inside the array) is as the entry predicate asks. Each write-back overwrites exactly the rows of
  its own block that lie inside the array, with a staging block that satisfies the proof data's relation; rows of
  earlier blocks are not touched. After all 25 points every row of the output is below `4096 · 25`.
-/
import proofs.«202962_g35424890258148_retrytranche2_417_11_alg».proof.Proof.Bits.Reg2Obl
import Idealize.ShloMosaic.Lib.Pipeline.Cells
import Idealize.ShloMosaic.Lib.Pipeline.Value

noncomputable section

namespace Cert.Proof.KB

open Cert.Kernel Cert.Kernel.Gen

open Idealize.ShloMosaic Idealize.ShloMosaic.ValueIdx
open Idealize.ShloMosaic.TcCoe
open Idealize.ShloMosaic.SparseCore.Cfg (HIx Pay)
open Idealize.SL Idealize.SL.Sem

variable {F : FTy → Type} [FloatOps F]

variable (d : Dev nD) (Vv : (b : Ref sig .tc) → Buf (Elt F) ((SparseCore.T d : Thread nD τ).loc b))
  (O : CellTallies nD τ sig (HIx 1)) (Rec : Set (SemLoc sig × HIx 1))
  (Ent : Fin 100000 → Fin 1024 → F .f32 → Prop)

/-- Every entry on a row below `4096 n` is as the entry predicate asks. -/
def Filled2 (n : ℕ) (Fa : Buf (Elt F) ((SparseCore.T d : Thread nD τ).loc main_v6)) : Prop :=
  ∀ (v : Fin 100000) (b : Fin 1024), v.val < 4096 * n → Ent v b ((Fa : S100000x1024.Idx → F .f32) (ix2 v b))

theorem arrAt2_filled : ∀ (n : ℕ), n ≤ cfg2.N → ∀ Fa, (rd2 d Vv O Rec Ent).ArrAt 3 n Fa → Filled2 d Ent n Fa
  | 0, _, Fa, _ => fun v b h => absurd h (by omega)
  | n + 1, hn, Fa, hF => by
    have hlt : n < cfg2.N := hn
    rw [Pipeline.RDat.ArrAt_succ (rd2 d Vv O Rec Ent) 3 ⟨n, hlt⟩, if_pos (flush2_3 ⟨n, hlt⟩)] at hF
    obtain ⟨G₀, X, hG₀, ⟨Y, -, hX⟩, rfl⟩ := hF
    have ih := arrAt2_filled n (Nat.le_of_lt hlt) G₀ hG₀
    have hrel : out2Rel Ent ⟨n, hlt⟩ X := hX
    intro v b hv
    have hN : cfg2.N = 25 := N2_val
    by_cases hlow : v.val < 4096 * n
    · -- a row of an earlier block: this write-back does not touch it
      rw [View.write_of_not_mem]
      · exact ih v b hlow
      · intro hmem
        rw [View.setOn_univ] at hmem
        obtain ⟨y, hy⟩ := View.exists_emb_of_mem_set _ hmem
        have h0 := congrArg (fun j : S100000x1024.Idx => (j 0).val) hy
        have e0 : ((((cfg2.win 3).blk ⟨n, hlt⟩).view.emb y : S100000x1024.Idx) 0).val = (cfg2.win 3).index ⟨n, hlt⟩ (0 : Fin 2) * 4096 + 1 * (y 0).val := rfl
        simp only [e0, (idx2_3 ⟨n, hlt⟩).1] at h0
        show False
        have : ((ix2 v b : S100000x1024.Idx) 0).val = v.val := rfl
        omega
    · -- a row of this block, inside the array
      have hv' : v.val - 4096 * n < 4096 := by omega
      have hin : 4096 * n + (v.val - 4096 * n) < 100000 := by have := v.isLt; omega
      have hx0 : v.val - 4096 * n < (cfg2.win 3).xsize (cfg2.grid.coords ⟨n, hlt⟩) (0 : Fin 2) := by
        rw [(xs2_3 ⟨n, hlt⟩).1]; have := v.isLt; show v.val - 4096 * n < min 4096 (100000 - 4096 * n); omega
      have hx1 : b.val < (cfg2.win 3).xsize (cfg2.grid.coords ⟨n, hlt⟩) (1 : Fin 2) := by
        rw [(xs2_3 ⟨n, hlt⟩).2]; exact b.isLt
      let y : ((cfg2.win 3).xblock (cfg2.grid.coords ⟨n, hlt⟩)).Idx := fun a =>
        match a with
        | ⟨0, _⟩ => ⟨v.val - 4096 * n, hx0⟩
        | ⟨1, _⟩ => ⟨b.val, hx1⟩
      have hemb : (((cfg2.win 3).blk ⟨n, hlt⟩).view.emb y : S100000x1024.Idx) = ix2 v b := by
        funext a; refine Fin.ext ?_
        match a with
        | ⟨0, _⟩ =>
          show (cfg2.win 3).index ⟨n, hlt⟩ (0 : Fin 2) * 4096 + 1 * (v.val - 4096 * n) = v.val
          rw [(idx2_3 ⟨n, hlt⟩).1]; show n * 4096 + 1 * (v.val - 4096 * n) = v.val; omega
        | ⟨1, _⟩ =>
          show (cfg2.win 3).index ⟨n, hlt⟩ (1 : Fin 2) * 1024 + 1 * b.val = b.val
          rw [(idx2_3 ⟨n, hlt⟩).2]; omega
      rw [← hemb, View.write_emb_of_mem _ _ (Finset.mem_univ y)]
      have hxr : Ent ⟨4096 * n + (v.val - 4096 * n), hin⟩ b (X (ix2 ⟨v.val - 4096 * n, hv'⟩ b)) :=
        hrel ⟨v.val - 4096 * n, hv'⟩ b hin
      have hve : (⟨4096 * n + (v.val - 4096 * n), hin⟩ : Fin 100000) = v := Fin.ext (by show 4096 * n + (v.val - 4096 * n) = v.val; omega)
      rw [hve] at hxr
      show Ent v b (X ((cfg2.win 3).xinj (cfg2.grid.coords ⟨n, hlt⟩) y))
      have hxi : (cfg2.win 3).xinj (cfg2.grid.coords ⟨n, hlt⟩) y = (ix2 ⟨v.val - 4096 * n, hv'⟩ b : S4096x1024.Idx) := by
        funext a; refine Fin.ext ?_
        match a with
        | ⟨0, _⟩ => rfl
        | ⟨1, _⟩ => rfl
      rw [hxi]
      exact hxr

/-- After the whole region every entry of the output is as the entry predicate asks. -/
theorem arrAt2_final (Fa) (hF : (rd2 d Vv O Rec Ent).ArrAt 3 cfg2.N Fa) (v : Fin 100000) (b : Fin 1024) :
    Ent v b ((Fa : S100000x1024.Idx → F .f32) (ix2 v b)) :=
  arrAt2_filled d Vv O Rec Ent cfg2.N le_rfl Fa hF v b (by rw [N2_val]; have := v.isLt; omega)

end Cert.Proof.KB

end
-- ==== Proof.Bits.Reg2Seg.lean ====
/-
  The second region as a segment of @main: entered with the four windowed arrays at their entry contents and the
  TensorCore's debts to the SparseCore launch, left with the arrays at what the write-backs made of them and the
  same debts. The kernel has no semaphore of its own; the pipeline's waits on its staging cells sit at the index of
  no call, below everything the TensorCore owes the launch.
-/
import proofs.«202962_g35424890258148_retrytranche2_417_11_alg».proof.Proof.Bits.Reg2Arr

noncomputable section

namespace Cert.Proof.KB

open Cert.Kernel Cert.Kernel.Gen

open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

variable (Vv : (c : Dev nD) → (b : Ref sig .tc) → Buf (Elt F) ((SparseCore.T c : Thread nD τ).loc b))
  (O : Dev nD → CellTallies nD τ sig (HIx 1)) (Rec : Dev nD → Set (SemLoc sig × HIx 1))
  (Ent : Dev nD → Fin 100000 → Fin 1024 → F .f32 → Prop)

/-- The proof data of both pipelines while the second region runs: nothing for the first, and the second's. -/
def fam2 : (p : Fin 2) → (c : Dev nD) → Pipeline.RDat τ (Elt F) (HIx 1) ℕ UU ℕ (Pipeline.pin (pcfgs (F := F)) adm p) c
  | ⟨0, _⟩ => fun _ => { A := fun _ => Classical.arbitrary _, after := fun _ _ _ _ => True, Φ := fun _ => iprop(emp), q := fun _ => fullShare, owed := fun _ => 0 }
  | ⟨1, _⟩ => fun c => rd2 c (Vv c) (O c) (Rec c) (Ent c)

theorem fam2_one (c : Dev nD) : fam2 Vv O Rec Ent 1 c = rd2 c (Vv c) (O c) (Rec c) (Ent c) := rfl

/-- The second pipeline's invariant is the scoped buffers none of its windows stages, at every point. -/
theorem fam2_Φ (c : Dev nD) (t : Fin ((Pipeline.pin (pcfgs (F := F)) adm 1).N + 1)) :
    (fam2 Vv O Rec Ent 1 c).Φ t = Pipeline.scopedRest spec2 c := rfl

/-- The second region's segment. -/
def reg2 (hO : ∀ c g, O c g none = 0) (hOK : ∀ c, BodyOK2 c (Vv c) (Ent c)) :
    Pipeline.RDat.RegionSeg (pcfgs (F := F)) adm (fam2 Vv O Rec Ent) (none : HIx 1) defs₀ 𝒱₀ (K (F := F)).L (K (F := F)).lev 1 where
  win := winFacts2.to₀
  block_pos := block_pos2
  stage_whole := stage_whole2
  K := PEmpty
  osem k := k.elim
  ho := Pipeline.OwnSemFacts.none _
  hbody c := body2 c (Vv c) (O c) (Rec c) (Ent c) (hOK c)
  hwaits c := Pipeline.RDat.cellsWaits_intro (Pipeline.pin (pcfgs (F := F)) adm) (fam2 Vv O Rec Ent) (none : HIx 1) 1 c
    fun w s t => (K (F := F)).mayWait_none _ (hO c)
  pre c := iprop((rd2 c (Vv c) (O c) (Rec c) (Ent c)).arrays (rd2 c (Vv c) (O c) (Rec c) (Ent c)).A
    ∗ (rd2 c (Vv c) (O c) (Rec c) (Ent c)).owesAt (none : HIx 1) 0)
  post c := iprop((rd2 c (Vv c) (O c) (Rec c) (Ent c)).arraysAt cfg2.N
    ∗ (rd2 c (Vv c) (O c) (Rec c) (Ent c)).owesAt (none : HIx 1) (Fin.last cfg2.N))
  X _ := iprop(emp)
  Y _ := iprop(emp)
  Z _ := iprop(emp)
  hentry c := by
    rw [Pipeline.ownSems0_none]
    iintro ⟨⟨Ha, Ho⟩, -, -⟩
    imodintro
    isplitl [Ha]; · iexact Ha
    isplitr
    · unfold Pipeline.prefHeld; rw [bigSep_F0]; iempintro
    isplitl [Ho]; · iexact Ho
    isplitr <;> iempintro
  hin c := by
    rw [fam2_Φ Vv O Rec Ent c 0]
    iintro ⟨-, -, H⟩; iexact H
  hout c := by
    rw [fam2_Φ Vv O Rec Ent c (Fin.last (Pipeline.pin (pcfgs (F := F)) adm 1).N), Pipeline.ownSems0_none]
    iintro H
    isplitr; · iempintro
    isplitr; · iempintro
    iexact H
  hexit c := by
    iintro ⟨Ha, Ho, -, -⟩
    imodintro
    isplitl [Ha]; · iexact Ha
    iexact Ho

end Cert.Proof.KB

end
-- ==== Proof.Bits.Reg2Main.lean ====
/-
  The second region's windowed arrays as @main's named arrays: at entry the transposed weights, the pooled array, the
  bias and the output at the contents the region finds; at exit the three inputs as they were and the output at
  contents whose every entry is as the entry predicate asks.
-/
import proofs.«202962_g35424890258148_retrytranche2_417_11_alg».proof.Proof.Bits.Reg2Seg
import proofs.«202962_g35424890258148_retrytranche2_417_11_alg».proof.Proof.Bits.Main3

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (Vv : (b : Ref sig .tc) → Buf (Elt F) ((SparseCore.T d : Thread nD τ).loc b))
  (O : CellTallies nD τ sig (HIx 1)) (Rec : Set (SemLoc sig × HIx 1))
  (Ent : Fin 100000 → Fin 1024 → F .f32 → Prop)

theorem rd2_share (w : Fin cfg2.W) : (rd2 d Vv O Rec Ent).share w = fullShare := by
  unfold Pipeline.RDat.share; split <;> rfl

/-- At entry. -/
theorem arrays2_eq : ((rd2 d Vv O Rec Ent).arrays (rd2 d Vv O Rec Ent).A : sProp 𝕄)
    = iprop(pt d main_v4 (Vv main_v4) ∗ pt d main_v3 (Vv main_v3) ∗ pt d main_v5 (Vv main_v5) ∗ pt d main_v6 (Vv main_v6)) := by
  unfold Pipeline.RDat.arrays
  rw [bigSep_W2]
  simp only [rd2_share]
  rw [(arr_whole2 0).set_eq_univ, (arr_whole2 1).set_eq_univ, (arr_whole2 2).set_eq_univ, (arr_whole2 3).set_eq_univ]
  rfl

/-- At exit. -/
theorem arraysAt2_elim :
    ((rd2 d Vv O Rec Ent).arraysAt cfg2.N : sProp 𝕄)
      ⊢ iprop(pt d main_v4 (Vv main_v4) ∗ pt d main_v3 (Vv main_v3) ∗ pt d main_v5 (Vv main_v5)
          ∗ ∃ f6 : Buf (Elt F) ((SparseCore.T d : Thread nD τ).loc main_v6),
              ⌜∀ (v : Fin 100000) (b : Fin 1024), Ent v b ((f6 : S100000x1024.Idx → F .f32) (ix2 v b))⌝
              ∗ pt d main_v6 f6) := by
  unfold Pipeline.RDat.arraysAt
  rw [bigSep_W2]
  simp only [rd2_share]
  rw [(arr_whole2 0).set_eq_univ, (arr_whole2 1).set_eq_univ, (arr_whole2 2).set_eq_univ, (arr_whole2 3).set_eq_univ]
  iintro ⟨⟨%F0, %h0, H0⟩, ⟨%F1, %h1, H1⟩, ⟨%F2, %h2, H2⟩, ⟨%F3, %h3, H3⟩⟩
  have e0 : F0 = Vv main_v4 := by
    have hin := Pipeline.RDat.ArrAt_in (rd2 d Vv O Rec Ent) 0 (show (cfg2.win 0).isOut = false from rfl) cfg2.N
    rw [hin] at h0; exact h0
  have e1 : F1 = Vv main_v3 := by
    have hin := Pipeline.RDat.ArrAt_in (rd2 d Vv O Rec Ent) 1 (show (cfg2.win 1).isOut = false from rfl) cfg2.N
    rw [hin] at h1; exact h1
  have e2 : F2 = Vv main_v5 := by
    have hin := Pipeline.RDat.ArrAt_in (rd2 d Vv O Rec Ent) 2 (show (cfg2.win 2).isOut = false from rfl) cfg2.N
    rw [hin] at h2; exact h2
  subst e0 e1 e2
  isplitl [H0]; · iexact H0
  isplitl [H1]; · iexact H1
  isplitl [H2]; · iexact H2
  iexists F3; isplitr
  · ipureintro; exact arrAt2_final d Vv O Rec Ent F3 h3
  · iexact H3

end Cert.Proof.KB

end
-- ==== Proof.Bits.Main5.lean ====
/-
  @main on the TensorCore of device `d`, inside the SparseCore program.
-/
import proofs.«202962_g35424890258148_retrytranche2_417_11_alg».proof.Proof.Bits.Main4
import proofs.«202962_g35424890258148_retrytranche2_417_11_alg».proof.Proof.Bits.Deal
import proofs.«202962_g35424890258148_retrytranche2_417_11_alg».proof.Proof.Bits.Reg2Main

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)
variable (Ent : Dev nD → Fin 100000 → Fin 1024 → F .f32 → Prop)

/-- The TensorCore's launch state before call `n` but for its debts: its position on its `done` cell, the sequencers'
    reached rounds, and the later calls' tokens and credit. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_split (d : Dev nD) (n : ℕ) :
    ((K (F := F)).tcSt EH d n : sProp 𝕄)
      = iprop((∃ W, ⌜(K (F := F)).WBelow (SparseCore.T d) W (8 * n)⌝ ∗ owes (SparseCore.T d : Thread nD τ) ((K (F := F)).Otc d n) W) ∗ tcRest (F := F) d n) := by
  unfold SparseCore.Cfg.tcSt tcRest; rfl

section Reg0

variable (Vv : (c : Dev nD) → (b : Ref sig .tc) → Buf (Elt F) ((SparseCore.T c : Thread nD τ).loc b))
  (O : Dev nD → CellTallies nD τ sig (HIx 1)) (Rec : Dev nD → Set (SemLoc sig × HIx 1)) (hO : ∀ c g, O c g none = 0)

theorem reg0_pre (c : Dev nD) : ((reg0 Vv O Rec hO).pre c : sProp 𝕄)
    = iprop((rd0 c (Vv c) (O c) (Rec c)).arrays (rd0 c (Vv c) (O c) (Rec c)).A ∗ (rd0 c (Vv c) (O c) (Rec c)).owesAt (none : HIx 1) 0) := rfl
theorem reg0_post (c : Dev nD) : ((reg0 Vv O Rec hO).post c : sProp 𝕄)
    = iprop((rd0 c (Vv c) (O c) (Rec c)).arraysAt cfg0.N ∗ (rd0 c (Vv c) (O c) (Rec c)).owesAt (none : HIx 1) (Fin.last cfg0.N)) := rfl

end Reg0

section Reg2

variable (Vv : (c : Dev nD) → (b : Ref sig .tc) → Buf (Elt F) ((SparseCore.T c : Thread nD τ).loc b))
  (O : Dev nD → CellTallies nD τ sig (HIx 1)) (Rec : Dev nD → Set (SemLoc sig × HIx 1))
  (Ent : Dev nD → Fin 100000 → Fin 1024 → F .f32 → Prop)
  (hO : ∀ c g, O c g none = 0) (hOK : ∀ c, BodyOK2 c (Vv c) (Ent c))

theorem reg2_pre (c : Dev nD) : ((reg2 Vv O Rec Ent hO hOK).pre c : sProp 𝕄)
    = iprop((rd2 c (Vv c) (O c) (Rec c) (Ent c)).arrays (rd2 c (Vv c) (O c) (Rec c) (Ent c)).A ∗ (rd2 c (Vv c) (O c) (Rec c) (Ent c)).owesAt (none : HIx 1) 0) := rfl
theorem reg2_post (c : Dev nD) : ((reg2 Vv O Rec Ent hO hOK).post c : sProp 𝕄)
    = iprop((rd2 c (Vv c) (O c) (Rec c) (Ent c)).arraysAt cfg2.N ∗ (rd2 c (Vv c) (O c) (Rec c) (Ent c)).owesAt (none : HIx 1) (Fin.last cfg2.N)) := rfl

end Reg2

set_option maxHeartbeats 2000000 in
theorem hmain
    (hOK : ∀ (d : Dev nD) (Pc : Buf (Elt F) (poLoc d)), (∀ c i, Rpo m d c i Pc) → BodyOK2 d (Vv2 m d Pc) (Ent d))
    (hrtp : ∀ (d : Dev nD) (tp : Buf (Elt F) (tpLoc d)),
      (∀ (r : Fin 100000) (e : Fin 70), (tp : S100000x128.Idx → F .f32) (ix2 r (e.castLE (by decide))) = (Vv0 m d main_v1 : S70x100000.Idx → F .f32) (ix2 e r)) → Rtp m d tp)
    (κ : GSem nD τ sig → ℕ) (d : Dev nD) :
    iprop((K (F := F)).ctx EH (P (Xc m) (Rtp m) (Rpo m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m Ent d) := by
  unfold SparseCore.Cfg.tcRes G
  rw [unscopedBufs_eq12]
  simp only [main, wp_bind, wp_pure]
  iintro ⟨#Hctx, Hst, ⟨Hb, ⟨Ha0, Ha1, Ha2, Ha3, Hv0, Hv1, Hv2, Hv3, Hv4, Hv5, Hv6, Hv7⟩, -, -⟩, ⟨Hcg, Htk⟩⟩
  ihave #Hlv := (SparseCore.Cfg.ctx_levAts κ) $$ Hctx
  -- the index array flattened
  iapply (wp_host2 m d main_arg0 main_v0 opX (by decide)
    (show ({Proc.devRef .tc main_arg0, Proc.devRef .tc main_v0} : Finset (DevRef τ sig)) ⊆ {Proc.devRef .tc main_arg0, Proc.devRef .tc main_v0} from Finset.Subset.refl _)
    rfl (show (Proc.devRef .tc main_arg0 : DevRef τ sig) ∉ ({Proc.devRef .tc main_v0} : Finset (DevRef τ sig)) by decide)
    (mAt m d main_arg0) (mAt m d main_v0) _ _)
  isplitl [Hb]; · iexact Hb
  isplitl [Ha0]; · iexact Ha0
  isplitl [Hv0]; · iexact Hv0
  iintro ⟨Hb, Ha0, Hv0⟩
  rw [wp_ret]; imodintro
  -- the table transposed
  iapply (wp_host2 m d main_arg1 main_v1 opTT (by decide)
    (show ({Proc.devRef .tc main_arg1, Proc.devRef .tc main_v1} : Finset (DevRef τ sig)) ⊆ {Proc.devRef .tc main_arg1, Proc.devRef .tc main_v1} from Finset.Subset.refl _)
    rfl (show (Proc.devRef .tc main_arg1 : DevRef τ sig) ∉ ({Proc.devRef .tc main_v1} : Finset (DevRef τ sig)) by decide)
    (mAt m d main_arg1) (mAt m d main_v1) _ _)
  isplitl [Hb]; · iexact Hb
  isplitl [Ha1]; · iexact Ha1
  isplitl [Hv1]; · iexact Hv1
  iintro ⟨Hb, Ha1, Hv1⟩
  rw [wp_ret]; imodintro
  -- the first region: the transposed table laid out, padded, row-major
  ihave Hst' := (Entails.of_eq (tcSt_split (F := F) d 0)) $$ Hst
  icases Hst' with ⟨Hown, Hrest⟩
  ihave Hcg' := (Entails.of_eq (bigSep_W0 (fun p : Fin 2 => Pipeline.cellsGhost (nD := nD) (τ := τ) cfgs (EP (F := F)) p d))) $$ Hcg
  icases Hcg' with ⟨Hcg0, Hcg1⟩
  ihave Htk' := (Entails.of_eq (bigSep_W0 (fun p : Fin 2 => Pipeline.toksInit (nD := nD) (τ := τ) cfgs (EP (F := F)) p d))) $$ Htk
  icases Htk' with ⟨Htk0, Htk1⟩
  iapply (wp_region (fam0 (fun c => Vv0 m c) (fun c => (K (F := F)).Otc c 0) (fun c => recBelow (F := F) c 0))
    (reg0 (fun c => Vv0 m c) (fun c => (K (F := F)).Otc c 0) (fun c => recBelow (F := F) c 0) (fun c g => Otc_none c 0 g)) d (fun _ => .ret ⟨⟩) _)
  isplitr [Hb Hv1 Hv2 Hown Hcg0 Htk0]
  swap
  · isplitl [Hb]; · iexact Hb
    isplitl [Hv1 Hv2 Hown]
    · iapply (Entails.of_eq (reg0_pre (fun c => Vv0 m c) (fun c => (K (F := F)).Otc c 0) (fun c => recBelow (F := F) c 0) (fun c g => Otc_none c 0 g) d).symm)
      isplitl [Hv1 Hv2]
      · iapply (Entails.of_eq (arrays0_eq d (Vv0 m d) ((K (F := F)).Otc d 0) (recBelow (F := F) d 0)).symm)
        isplitl [Hv1]
        · iapply (Entails.of_eq (congrArg (pt d main_v1) (Vv0_v1 m d)).symm); iexact Hv1
        · iapply (Entails.of_eq (congrArg (pt d main_v2) (Vv0_v2 m d)).symm); iexact Hv2
      · iapply (owesWithin_of_below cfg0 d 0 ((K (F := F)).Otc d 0)); iexact Hown
    isplitr; · iexact Hlv
    isplitl [Hcg0]; · iexact Hcg0
    iexact Htk0
  iintro ⟨Hb, Hpost⟩
  rw [wp_ret]; imodintro
  ihave Hpost' := (Entails.of_eq (reg0_post (fun c => Vv0 m c) (fun c => (K (F := F)).Otc c 0) (fun c => recBelow (F := F) c 0) (fun c g => Otc_none c 0 g) d)) $$ Hpost
  icases Hpost' with ⟨Harr, Howes⟩
  ihave Harr' := (arraysAt0_elim d (Vv0 m d) ((K (F := F)).Otc d 0) (recBelow (F := F) d 0)) $$ Harr
  icases Harr' with ⟨Hv1, %tp, %htp, Hv2⟩
  ihave Hown := ((Entails.of_eq (show ((rd0 d (Vv0 m d) ((K (F := F)).Otc d 0) (recBelow (F := F) d 0)).owesAt (none : HIx 1) (Fin.last cfg0.N) : sProp 𝕄)
      = Pipeline.owesWithin d ((K (F := F)).Otc d 0) (recBelow (F := F) d 0 ∪ cfg0.waitPairs (none : HIx 1)) from rfl)).trans
    (below_of_owesWithin cfg0 d 0 ((K (F := F)).Otc d 0))) $$ Howes
  ihave Hst := (Entails.of_eq (tcSt_split (F := F) d 0).symm) $$ [Hown Hrest]
  · isplitl [Hown] <;> iassumption
  -- the SparseCore call: the pooling kernel on the 32 tiles
  iapply ((K (F := F)).wp_run (D (F := F)) 𝒱 (EH := EH) (P := P (Xc m) (Rtp m) (Rpo m)) κ d 0)
  isplitr; · iexact Hctx
  isplitl [Hst]; · iexact Hst
  isplitl [Hv0 Hv2 Hv3]
  · iapply (deal m (Xc m) d tp (hrtp d tp htp) (mAt m d main_v3))
    isplitl [Hv0]; · iexact Hv0
    isplitl [Hv2]; · iexact Hv2
    iexact Hv3
  iintro ⟨Hst, Hdn⟩
  ihave Hg := (gather m (Xc m) d) $$ Hdn
  icases Hg with ⟨%g, %hg, Hv3⟩
  -- `W` transposed
  iapply (wp_host2 m d main_arg2 main_v4 opWT (by decide)
    (show ({Proc.devRef .tc main_arg2, Proc.devRef .tc main_v4} : Finset (DevRef τ sig)) ⊆ {Proc.devRef .tc main_arg2, Proc.devRef .tc main_v4} from Finset.Subset.refl _)
    rfl (show (Proc.devRef .tc main_arg2 : DevRef τ sig) ∉ ({Proc.devRef .tc main_v4} : Finset (DevRef τ sig)) by decide)
    (mAt m d main_arg2) (mAt m d main_v4) _ _)
  isplitl [Hb]; · iexact Hb
  isplitl [Ha2]; · iexact Ha2
  isplitl [Hv4]; · iexact Hv4
  iintro ⟨Hb, Ha2, Hv4⟩
  rw [wp_ret]; imodintro
  -- the bias as a row
  iapply (wp_host2 m d main_arg3 main_v5 opB2 (by decide)
    (show ({Proc.devRef .tc main_arg3, Proc.devRef .tc main_v5} : Finset (DevRef τ sig)) ⊆ {Proc.devRef .tc main_arg3, Proc.devRef .tc main_v5} from Finset.Subset.refl _)
    rfl (show (Proc.devRef .tc main_arg3 : DevRef τ sig) ∉ ({Proc.devRef .tc main_v5} : Finset (DevRef τ sig)) by decide)
    (mAt m d main_arg3) (mAt m d main_v5) _ _)
  isplitl [Hb]; · iexact Hb
  isplitl [Ha3]; · iexact Ha3
  isplitl [Hv5]; · iexact Hv5
  iintro ⟨Hb, Ha3, Hv5⟩
  rw [wp_ret]; imodintro
  -- the second region: the projection, from the pooled array at `g`
  have hsub : ∀ c : Dev nD, c = d := fun c => Subsingleton.elim c d
  let Pall : (c : Dev nD) → Buf (Elt F) (poLoc c) := fun c => (hsub c).symm ▸ g
  have hPd : Pall d = g := rfl
  have hOK' : ∀ c, BodyOK2 c (Vv2 m c (Pall c)) (Ent c) := fun c => by
    obtain rfl := hsub c
    exact hOK c g hg
  ihave Hst' := (Entails.of_eq ((show ((K (F := F)).tcSt EH d ((0 : Fin 1).val + 1) : sProp 𝕄) = (K (F := F)).tcSt EH d 1 from rfl).trans
    (tcSt_split (F := F) d 1))) $$ Hst
  icases Hst' with ⟨Hown, Hrest⟩
  iapply (wp_region (fam2 (fun c => Vv2 m c (Pall c)) (fun c => (K (F := F)).Otc c 1) (fun c => recBelow (F := F) c 1) Ent)
    (reg2 (fun c => Vv2 m c (Pall c)) (fun c => (K (F := F)).Otc c 1) (fun c => recBelow (F := F) c 1) Ent (fun c g' => Otc_none c 1 g') hOK') d (fun _ => .ret ⟨⟩) _)
  isplitr [Hb Hv3 Hv4 Hv5 Hv6 Hown Hcg1 Htk1]
  swap
  · isplitl [Hb]; · iexact Hb
    isplitl [Hv3 Hv4 Hv5 Hv6 Hown]
    · iapply (Entails.of_eq (reg2_pre (fun c => Vv2 m c (Pall c)) (fun c => (K (F := F)).Otc c 1) (fun c => recBelow (F := F) c 1) Ent (fun c g' => Otc_none c 1 g') hOK' d).symm)
      isplitl [Hv3 Hv4 Hv5 Hv6]
      · iapply (Entails.of_eq (arrays2_eq d (Vv2 m d g) ((K (F := F)).Otc d 1) (recBelow (F := F) d 1) (Ent d)).symm)
        isplitl [Hv4]
        · iapply (Entails.of_eq (congrArg (pt d main_v4) (Vv2_v4 m d g)).symm); iexact Hv4
        isplitl [Hv3]
        · iapply (Entails.of_eq (congrArg (pt d main_v3) (Vv2_v3 m d g)).symm); iexact Hv3
        isplitl [Hv5]
        · iapply (Entails.of_eq (congrArg (pt d main_v5) (Vv2_v5 m d g)).symm); iexact Hv5
        · iapply (Entails.of_eq (congrArg (pt d main_v6) (Vv2_v6 m d g)).symm); iexact Hv6
      · iapply (owesWithin_of_below cfg2 d 1 ((K (F := F)).Otc d 1)); iexact Hown
    isplitr; · iexact Hlv
    isplitl [Hcg1]; · iexact Hcg1
    iexact Htk1
  iintro ⟨Hb, Hpost⟩
  rw [wp_ret]; imodintro
  ihave Hpost' := (Entails.of_eq (reg2_post (fun c => Vv2 m c (Pall c)) (fun c => (K (F := F)).Otc c 1) (fun c => recBelow (F := F) c 1) Ent (fun c g' => Otc_none c 1 g') hOK' d)) $$ Hpost
  icases Hpost' with ⟨Harr, Howes⟩
  ihave Harr' := (arraysAt2_elim d (Vv2 m d g) ((K (F := F)).Otc d 1) (recBelow (F := F) d 1) (Ent d)) $$ Harr
  icases Harr' with ⟨Hv4, Hv3, Hv5, %f6, %hf6, Hv6⟩
  ihave Hown := ((Entails.of_eq (show ((rd2 d (Vv2 m d g) ((K (F := F)).Otc d 1) (recBelow (F := F) d 1) (Ent d)).owesAt (none : HIx 1) (Fin.last cfg2.N) : sProp 𝕄)
      = Pipeline.owesWithin d ((K (F := F)).Otc d 1) (recBelow (F := F) d 1 ∪ cfg2.waitPairs (none : HIx 1)) from rfl)).trans
    (below_of_owesWithin cfg2 d 1 ((K (F := F)).Otc d 1))) $$ Howes
  ihave Hst := (Entails.of_eq (tcSt_split (F := F) d 1).symm) $$ [Hown Hrest]
  · isplitl [Hown] <;> iassumption
  -- the output transposed
  iapply (wp_host2 m d main_v6 main_v7 opOut (by decide)
    (show ({Proc.devRef .tc main_v6, Proc.devRef .tc main_v7} : Finset (DevRef τ sig)) ⊆ {Proc.devRef .tc main_v6, Proc.devRef .tc main_v7} from Finset.Subset.refl _)
    rfl (show (Proc.devRef .tc main_v6 : DevRef τ sig) ∉ ({Proc.devRef .tc main_v7} : Finset (DevRef τ sig)) by decide)
    f6 (mAt m d main_v7) _ _)
  isplitl [Hb]; · iexact Hb
  isplitl [Hv6]; · iexact Hv6
  isplitl [Hv7]; · iexact Hv7
  iintro ⟨Hb, Hv6, Hv7⟩
  rw [wp_ret]; imodintro
  isplitl [Hst]; · iexact Hst
  unfold FIN
  isplitl [Ha0]; · iexact Ha0
  isplitl [Ha1]; · iexact Ha1
  isplitl [Ha2]; · iexact Ha2
  isplitl [Ha3]; · iexact Ha3
  iexists _; isplitr
  swap; · iexact Hv7
  ipureintro
  exact ⟨f6, hf6, rfl⟩

end Cert.Proof.KB

end
-- ==== Proof.Bits.Fin.lean ====
/-
  Reading the claim off the final memory: what @main leaves holds the four arguments at their launch contents and the
  result at contents satisfying `ResOK`, so the final memory's arrays are those.
-/
import proofs.«202962_g35424890258148_retrytranche2_417_11_alg».proof.Proof.Bits.Main4

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)
variable (Ent : Dev nD → Fin 100000 → Fin 1024 → F .f32 → Prop)

/-- What is read of device `d` in a final state. -/
def fq (d : Dev nD) (s' : Phys nD τ sig (Elt F)) : Prop :=
  s'.mem.mem ((SparseCore.T d : Thread nD τ).loc main_arg0) = mAt m d main_arg0
    ∧ s'.mem.mem ((SparseCore.T d : Thread nD τ).loc main_arg1) = mAt m d main_arg1
    ∧ s'.mem.mem ((SparseCore.T d : Thread nD τ).loc main_arg2) = mAt m d main_arg2
    ∧ s'.mem.mem ((SparseCore.T d : Thread nD τ).loc main_arg3) = mAt m d main_arg3
    ∧ ResOK m Ent d (s'.mem.mem ((SparseCore.T d : Thread nD τ).loc main_v7))

theorem hfin (d : Dev nD) (s' : Phys nD τ sig (Elt F)) : iprop(FIN m Ent d ∗ SI s') ⊢ (⌜fq m Ent d s'⌝ : sProp 𝕄) := by
  unfold FIN
  iintro ⟨⟨H0, H1, H2, H3, %g, %hg, H7⟩, HSI⟩
  ihave H := (persistent_entails_right (SI_pointsTo_agree (st := s') (ℓ := (SparseCore.T d : Thread nD τ).loc main_arg0) (I := Finset.univ) (q := fullShare) (f := mAt m d main_arg0))) $$ [HSI H0]
  · isplitl [HSI] <;> iassumption
  icases H with ⟨%h0, HSI, -⟩
  ihave H := (persistent_entails_right (SI_pointsTo_agree (st := s') (ℓ := (SparseCore.T d : Thread nD τ).loc main_arg1) (I := Finset.univ) (q := fullShare) (f := mAt m d main_arg1))) $$ [HSI H1]
  · isplitl [HSI] <;> iassumption
  icases H with ⟨%h1, HSI, -⟩
  ihave H := (persistent_entails_right (SI_pointsTo_agree (st := s') (ℓ := (SparseCore.T d : Thread nD τ).loc main_arg2) (I := Finset.univ) (q := fullShare) (f := mAt m d main_arg2))) $$ [HSI H2]
  · isplitl [HSI] <;> iassumption
  icases H with ⟨%h2, HSI, -⟩
  ihave H := (persistent_entails_right (SI_pointsTo_agree (st := s') (ℓ := (SparseCore.T d : Thread nD τ).loc main_arg3) (I := Finset.univ) (q := fullShare) (f := mAt m d main_arg3))) $$ [HSI H3]
  · isplitl [HSI] <;> iassumption
  icases H with ⟨%h3, HSI, -⟩
  ihave H := (SI_pointsTo_agree (st := s') (ℓ := (SparseCore.T d : Thread nD τ).loc main_v7) (I := Finset.univ) (q := fullShare) (f := g)) $$ [HSI H7]
  · isplitl [HSI] <;> iassumption
  icases H with %h7
  ipureintro
  refine ⟨funext fun i => h0 i (Finset.mem_univ i), funext fun i => h1 i (Finset.mem_univ i), funext fun i => h2 i (Finset.mem_univ i),
    funext fun i => h3 i (Finset.mem_univ i), ?_⟩
  have e7 : s'.mem.mem ((SparseCore.T d : Thread nD τ).loc main_v7) = g := funext fun i => h7 i (Finset.mem_univ i)
  rw [e7]; exact hg

/-- The run's post: on every device the arguments unchanged and the result satisfying `ResOK`. -/
def QC : PUnit × MemSt nD τ sig (Elt F) → Prop := fun r => ∀ c : Dev nD,
  r.2.mem ((SparseCore.T c : Thread nD τ).loc main_arg0) = mAt m c main_arg0
    ∧ r.2.mem ((SparseCore.T c : Thread nD τ).loc main_arg1) = mAt m c main_arg1
    ∧ r.2.mem ((SparseCore.T c : Thread nD τ).loc main_arg2) = mAt m c main_arg2
    ∧ r.2.mem ((SparseCore.T c : Thread nD τ).loc main_arg3) = mAt m c main_arg3
    ∧ ResOK m Ent c (r.2.mem ((SparseCore.T c : Thread nD τ).loc main_v7))

end Cert.Proof.KB

end
-- ==== Proof.Bits.TileSum.lean ====
/-
  Sums of fifty words taken one after the other from the zero word, and the accumulators of one batch row's loop.

  A batch row's loop runs fifty trips; trip `k` adds, lane by lane, the sixteen words at row `50 j + k` of buffer
  slot `s` from column `off` on onto each of five accumulators (`off` = 0, 16, 32, 48, 54). After `k` trips a lane
  holds the sum of the first `k` of its fifty words; after fifty, the whole sum, which is the fold the claim names.
-/
import proofs.«202962_g35424890258148_retrytranche2_417_11_alg».proof.Proof.Bits.TileSpec
import Idealize.ShloMosaic.Lib.SparseCore.Ops
import Idealize.ShloMosaic.Lib.Tactic
import Idealize.ShloMosaic.Lib.ValueLayout

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "sB" => (Memref.whole Cert.Kernel.cc1_scratch1 : Memref Cert.Kernel.sig Kind.scVector Space.vmem Cert.Kernel.S2x200x128 EltTy.f32)
local notation "sS" => (Memref.whole Cert.Kernel.cc1_scratch2 : Memref Cert.Kernel.sig Kind.scVector Space.vmem Cert.Kernel.S32x128 EltTy.f32)
local notation "tW" => (Memref.whole Cert.Kernel.main_v2_scv : Memref Cert.Kernel.sig Kind.scVector Space.hbm Cert.Kernel.S100000x128 EltTy.f32)
local notation "sI" => (Memref.whole Cert.Kernel.cc1_scratch0 : Memref Cert.Kernel.sig Kind.scVector Space.vmem Cert.Kernel.S1600 EltTy.i32)

/-! ## Partial sums -/

/-- The first `k` of fifty values added one after the other onto the zero word. -/
def partF (g : Fin 50 → F .f32) : ℕ → F .f32
  | 0 => FloatOps.ofBits .f32 0x00000000#32
  | k + 1 => if h : k < 50 then FloatOps.addf (partF g k) (g ⟨k, h⟩) else partF g k

theorem partF_succ (g : Fin 50 → F .f32) (k : ℕ) (hk : k < 50) : partF g (k + 1) = FloatOps.addf (partF g k) (g ⟨k, hk⟩) := by
  show (if h : k < 50 then FloatOps.addf (partF g k) (g ⟨k, h⟩) else partF g k) = _
  rw [dif_pos hk]

/-- Summing the first `n` values by the fold is the partial sum. -/
theorem foldl_eq_partF (g : Fin 50 → F .f32) : ∀ (n : ℕ) (hn : n ≤ 50),
    Fin.foldl n (fun acc (j : Fin n) => FloatOps.addf acc (g (j.castLE hn))) (FloatOps.ofBits .f32 0x00000000#32) = partF g n
  | 0, _ => by simp [partF]
  | n + 1, hn => by
    rw [Fin.foldl_succ_last, partF_succ g n (by omega)]
    congr 1
    exact foldl_eq_partF g n (by omega)

theorem poolF_eq_partF (g : Fin 50 → F .f32) : poolF g = partF g 50 := foldl_eq_partF g 50 (le_refl _)

/-! ## The accumulators of one batch row's loop -/

/-- One accumulator after `k` trips: lane `l` holds the partial sum of column `off + l` over rows `50 j + ·` of
    buffer slot `s`. -/
def AccOne (B : S2x200x128.Idx → F .f32) (s : Fin 2) (j : Fin 4) (k : ℕ) (off : ℕ) (hoff : off + 16 ≤ 128) (a : FVec F S16 .f32) : Prop :=
  ∀ l : Fin 16, a (ix1 l) = partF (fun t : Fin 50 => B (ix3 s ⟨50 * j.val + t.val, by omega⟩ ⟨off + l.val, by omega⟩)) k

/-- The five accumulators: columns 0.., 16.., 32.., 48.., 54... -/
def AccOK (B : S2x200x128.Idx → F .f32) (s : Fin 2) (j : Fin 4) (k : ℕ)
    (acc : FVec F S16 .f32 × FVec F S16 .f32 × FVec F S16 .f32 × FVec F S16 .f32 × FVec F S16 .f32) : Prop :=
  AccOne B s j k 0 (by omega) acc.1 ∧ AccOne B s j k 16 (by omega) acc.2.1 ∧ AccOne B s j k 32 (by omega) acc.2.2.1
    ∧ AccOne B s j k 48 (by omega) acc.2.2.2.1 ∧ AccOne B s j k 54 (by omega) acc.2.2.2.2

/-- Before the first trip every lane holds the zero word. -/
theorem accOne_zero (B : S2x200x128.Idx → F .f32) (s : Fin 2) (j : Fin 4) (off : ℕ) (hoff : off + 16 ≤ 128) :
    AccOne B s j 0 off hoff (broadcast S16 (FloatOps.ofBits .f32 0x00000000#32 : F .f32)) := fun _ => rfl

/-- A trip adds, lane by lane, the 16 words it loads at `(s, 50 j + k, off ..)`. -/
theorem accOne_step (B : (sB).view.ty.Contents (Elt F)) (s : Fin 2) (j : Fin 4) (off : ℕ) (hoff : off + 16 ≤ 128) (k : ℕ) (hk : k < 50)
    (a : FVec F S16 .f32) (h : AccOne (B : S2x200x128.Idx → F .f32) s j k off hoff a)
    (o : Fin 3 → ℕ) [co : ClosedOff o] (hco : co.form = ![s.val, k + 50 * j.val, off])
    (inb : ∀ a, o a + S1x1x16.size a ≤ S2x200x128.size a) (hc : S1x1x16.ShapeCasts S16) :
    AccOne (B : S2x200x128.Idx → F .f32) s j (k + 1) off hoff
      (addf a (shapeCast S16 ((sB).view.readAt (Elt F) (Rect.unit (s := S2x200x128) o S1x1x16.size inb).toLoadRect B) hc)) := by
  have ho : o = ![s.val, k + 50 * j.val, off] := co.eq.trans hco
  intro l
  show FloatOps.addf (a (ix1 l)) (shapeCast S16 ((sB).view.readAt (Elt F) (Rect.unit (s := S2x200x128) o S1x1x16.size inb).toLoadRect B) hc (ix1 l)) = _
  rw [partF_succ _ k hk, h l]
  congr 1
  rw [shapeCast_apply _ hc (ix1 l) (ix3 (0 : Fin 1) (0 : Fin 1) l) (by
    rw [Shape.rowMajor_val_three, Shape.rowMajor_val_one]
    show (0 * 1 + 0) * 16 + l.val = l.val
    omega)]
  show (B : S2x200x128.Idx → F .f32) ((Rect.unit (s := S2x200x128) o S1x1x16.size inb).toLoadRect.idx (ix3 (0 : Fin 1) (0 : Fin 1) l)) = _
  congr 1
  funext a
  apply Fin.ext
  rw [LoadRect.idx_apply]
  subst ho
  match a with
  | ⟨0, _⟩ => show s.val + 1 * 0 = s.val; omega
  | ⟨1, _⟩ => show k + 50 * j.val + 1 * 0 = 50 * j.val + k; omega
  | ⟨2, _⟩ => show off + 1 * l.val = off + l.val; omega

/-! ## Loads from one slot while the other is lent out -/

/-- A 16-word load in slot `s` of the buffer stays clear of the other slot `s'`. -/
theorem load_sub (s s' : ℕ) (hss : s ≠ s') (o : Fin 3 → ℕ) [co : ClosedOff o] (hco0 : co.form 0 = s) (inb : ∀ a, o a + S1x1x16.size a ≤ S2x200x128.size a)
    (inb' : ∀ a, (![s', 0, 0] : Fin 3 → ℕ) a + S1x200x128.size a ≤ S2x200x128.size a) :
    (sB).view.setOn (Rect.unit (s := S2x200x128) o S1x1x16.size inb).toLoadRect.set
      ⊆ Finset.univ \ ((((sB).slice (Rect.unit (s := S2x200x128) ![s', 0, 0] S1x200x128.size inb') (fun _ => rfl)).squeeze S200x128 squeezes_S1x200x128_S200x128)).view.set := by
  have ho0 : o 0 = s := (congrFun co.eq 0).trans hco0
  intro x hx
  rw [Finset.mem_sdiff]
  refine ⟨Finset.mem_univ _, fun hx' => ?_⟩
  obtain ⟨y, hy, rfl⟩ := Finset.mem_map.mp hx
  have hx'' : (sB).view.emb y ∈ (((sB).view.slice (Rect.unit (s := S2x200x128) ![s', 0, 0] S1x200x128.size inb')).reshape S200x128 squeezes_S1x200x128_S200x128.numel_eq).set := hx'
  rw [View.set_reshape, View.set_slice, Finset.mem_map'] at hx''
  have h1 := (Rect.mem_set_unit.mp hy) 0
  have h2 := (Rect.mem_set_unit.mp hx'') 0
  have e1 : S1x1x16.size 0 = 1 := rfl
  have e2 : S1x200x128.size 0 = 1 := rfl
  have e3 : (![s', 0, 0] : Fin 3 → ℕ) 0 = s' := rfl
  rw [e1] at h1
  rw [e2, e3] at h2
  omega

end Cert.Proof.KB

end
-- ==== Proof.Bits.TileStage.lean ====
/-
  The staging rows: what one 16-word store leaves, and the five stores of one batch row.

  Row `r` of the staging buffer receives five stores of sixteen words, at columns 0, 16, 32, 48 and 54; the last two
  overlap in columns 54..63, where they hold the same values. Read back, the first 70 columns of row `r` are the
  accumulators' lanes, and the rows stored before are untouched.
-/
import proofs.«202962_g35424890258148_retrytranche2_417_11_alg».proof.Proof.Bits.TileSpec
import Idealize.ShloMosaic.Lib.Writes
import Idealize.ShloMosaic.Lib.Tactic
import Idealize.ShloMosaic.Lib.ValueLayout

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "sB" => (Memref.whole Cert.Kernel.cc1_scratch1 : Memref Cert.Kernel.sig Kind.scVector Space.vmem Cert.Kernel.S2x200x128 EltTy.f32)
local notation "sS" => (Memref.whole Cert.Kernel.cc1_scratch2 : Memref Cert.Kernel.sig Kind.scVector Space.vmem Cert.Kernel.S32x128 EltTy.f32)
local notation "tW" => (Memref.whole Cert.Kernel.main_v2_scv : Memref Cert.Kernel.sig Kind.scVector Space.hbm Cert.Kernel.S100000x128 EltTy.f32)
local notation "sI" => (Memref.whole Cert.Kernel.cc1_scratch0 : Memref Cert.Kernel.sig Kind.scVector Space.vmem Cert.Kernel.S1600 EltTy.i32)

/-- One 16-word store at `(r, off ..)` read back: under it the stored lane, elsewhere what was there. -/
theorem writes_cons_apply (St : (sS).view.ty.Contents (Elt F)) (L : List (View.Piece (Elt F) S32x128 .f32)) (r off : ℕ)
    (inb : ∀ a, (![r, off] : Fin 2 → ℕ) a + S1x16.size a ≤ S32x128.size a) (a : FVec F S16 .f32) (hc : S16.ShapeCasts S1x16)
    (r' : Fin 32) (e' : Fin 128) :
    ((sS).view.writes (Elt F) St (⟨Rect.unit (s := S32x128) ![r, off] S1x16.size inb, shapeCast S1x16 a hc⟩ :: L) : S32x128.Idx → F .f32) (ix2 r' e')
      = if h : r'.val = r ∧ off ≤ e'.val ∧ e'.val < off + 16 then a (ix1 ⟨e'.val - off, by omega⟩)
        else ((sS).view.writes (Elt F) St L : S32x128.Idx → F .f32) (ix2 r' e') := by
  split
  · rename_i h
    have hy : ix2 r' e' = (Rect.unit (s := S32x128) ![r, off] S1x16.size inb).emb (ix2 (0 : Fin 1) (⟨e'.val - off, by omega⟩ : Fin 16)) := by
      funext b
      apply Fin.ext
      rw [Rect.emb_apply]
      match b with
      | ⟨0, _⟩ => show r'.val = r + 1 * 0; omega
      | ⟨1, _⟩ => show e'.val = off + 1 * (e'.val - off); omega
    rw [hy]
    refine ((sS).view.read_writes_cons_emb St _ _ L _).trans ?_
    exact shapeCast_a_1a_apply a hc 0 _
  · rename_i h
    have key := View.read_slice_write_of_not_mem (v := (sS).view) (Val := Elt F) (Rect.unit (s := S32x128) ![r, off] S1x16.size inb)
      ((sS).view.writes (Elt F) St L) (shapeCast S1x16 a hc) Finset.univ (y := ix2 r' e')
    refine key ?_
    rw [Rect.map_emb_univ, Rect.mem_set_unit]
    intro hm
    have h0 : r ≤ r'.val ∧ r'.val < r + 1 := hm 0
    have h1 : off ≤ e'.val ∧ e'.val < off + 16 := hm 1
    omega

/-- The lanes of one accumulator that fall in the first 70 columns hold the row's values `G r`. -/
def LaneVal (G : Fin 32 → Fin 70 → F .f32) (r : ℕ) (hr : r < 32) (off : ℕ) (a : FVec F S16 .f32) : Prop :=
  ∀ (l : Fin 16) (h : off + l.val < 70), a (ix1 l) = G ⟨r, hr⟩ ⟨off + l.val, h⟩

/-- The first `n` staging rows hold `G` in their first 70 columns. -/
def StageOK (G : Fin 32 → Fin 70 → F .f32) (St : S32x128.Idx → F .f32) (n : ℕ) : Prop :=
  ∀ r : Fin 32, r.val < n → ∀ e : Fin 70, St (ix2 r (e.castLE (by decide))) = G r e

/-- The five stores of row `r` (at columns 0, 16, 32, 48, 54; the last two overlap and agree) extend the rows done by one. -/
theorem stage_row (G : Fin 32 → Fin 70 → F .f32) (St : (sS).view.ty.Contents (Elt F)) (r : ℕ) (hr : r < 32)
    (a0 a1 a2 a3 a4 : FVec F S16 .f32)
    (h0 : LaneVal G r hr 0 a0) (h1 : LaneVal G r hr 16 a1) (h2 : LaneVal G r hr 32 a2) (h3 : LaneVal G r hr 48 a3) (h4 : LaneVal G r hr 54 a4)
    (hSt : StageOK G (St : S32x128.Idx → F .f32) r)
    (i0 : ∀ a, (![r, 0] : Fin 2 → ℕ) a + S1x16.size a ≤ S32x128.size a) (i1 : ∀ a, (![r, 16] : Fin 2 → ℕ) a + S1x16.size a ≤ S32x128.size a)
    (i2 : ∀ a, (![r, 32] : Fin 2 → ℕ) a + S1x16.size a ≤ S32x128.size a) (i3 : ∀ a, (![r, 48] : Fin 2 → ℕ) a + S1x16.size a ≤ S32x128.size a)
    (i4 : ∀ a, (![r, 54] : Fin 2 → ℕ) a + S1x16.size a ≤ S32x128.size a) (hc : S16.ShapeCasts S1x16) :
    StageOK G (((sS).view.writes (Elt F) St
        [⟨Rect.unit (s := S32x128) ![r, 54] S1x16.size i4, shapeCast S1x16 a4 hc⟩, ⟨Rect.unit (s := S32x128) ![r, 48] S1x16.size i3, shapeCast S1x16 a3 hc⟩,
         ⟨Rect.unit (s := S32x128) ![r, 32] S1x16.size i2, shapeCast S1x16 a2 hc⟩, ⟨Rect.unit (s := S32x128) ![r, 16] S1x16.size i1, shapeCast S1x16 a1 hc⟩,
         ⟨Rect.unit (s := S32x128) ![r, 0] S1x16.size i0, shapeCast S1x16 a0 hc⟩]) : S32x128.Idx → F .f32) (r + 1) := by
  intro r' hr' e
  have he : (e.castLE (by decide) : Fin 128).val = e.val := rfl
  have hlt := e.isLt
  rw [writes_cons_apply, writes_cons_apply, writes_cons_apply, writes_cons_apply, writes_cons_apply]
  split_ifs with c4 c3 c2 c1 c0
  · obtain ⟨hrr, hlo, hhi⟩ := c4
    obtain rfl : r' = ⟨r, hr⟩ := Fin.ext hrr
    exact (h4 _ (by rw [he] at hlo; show 54 + (e.val - 54) < 70; omega)).trans (congrArg (G _) (Fin.ext (by show 54 + ((e.castLE _ : Fin 128).val - 54) = e.val; omega)))
  · obtain ⟨hrr, hlo, hhi⟩ := c3
    obtain rfl : r' = ⟨r, hr⟩ := Fin.ext hrr
    exact (h3 _ (by rw [he] at hlo; show 48 + (e.val - 48) < 70; omega)).trans (congrArg (G _) (Fin.ext (by show 48 + ((e.castLE _ : Fin 128).val - 48) = e.val; omega)))
  · obtain ⟨hrr, hlo, hhi⟩ := c2
    obtain rfl : r' = ⟨r, hr⟩ := Fin.ext hrr
    exact (h2 _ (by rw [he] at hlo; show 32 + (e.val - 32) < 70; omega)).trans (congrArg (G _) (Fin.ext (by show 32 + ((e.castLE _ : Fin 128).val - 32) = e.val; omega)))
  · obtain ⟨hrr, hlo, hhi⟩ := c1
    obtain rfl : r' = ⟨r, hr⟩ := Fin.ext hrr
    exact (h1 _ (by rw [he] at hlo; show 16 + (e.val - 16) < 70; omega)).trans (congrArg (G _) (Fin.ext (by show 16 + ((e.castLE _ : Fin 128).val - 16) = e.val; omega)))
  · obtain ⟨hrr, hlo, hhi⟩ := c0
    obtain rfl : r' = ⟨r, hr⟩ := Fin.ext hrr
    exact (h0 _ (by rw [he] at hlo; show 0 + (e.val - 0) < 70; omega)).trans (congrArg (G _) (Fin.ext (by show 0 + ((e.castLE _ : Fin 128).val - 0) = e.val; omega)))
  · by_cases hrr : r'.val = r
    · exfalso
      rw [he] at c4 c3 c2 c1 c0
      omega
    · exact hSt r' (by omega) e

end Cert.Proof.KB

end
-- ==== Proof.Bits.TileGather.lean ====
/-
  What a buffer slot holds after a gather, and from there the value of a batch row's accumulators.

  Gather `g` copies, for `k < 200`, the padded table's row named by the tile's index word `200 g + k` into row `k`
  of slot `g mod 2`. The tile's index word `n` is word `1600 (2 i + c) + n` of the flat index array, which is position
  `n mod 50` of batch row `32 (2 i + c) + n / 50`; the padded table agrees with the table on its first 70 columns; an
  index word in range names the row of its own value. So a lane of an accumulator of batch row `4 g + j`, after its
  fifty trips, is the pooled sum of that batch row at the lane's column.
-/
import proofs.«202962_g35424890258148_retrytranche2_417_11_alg».proof.Proof.Bits.TileSum
import proofs.«202962_g35424890258148_retrytranche2_417_11_alg».proof.Proof.Bits.TileStage
import Idealize.ShloMosaic.Lib.SparseCore.Stream

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "sB" => (Memref.whole Cert.Kernel.cc1_scratch1 : Memref Cert.Kernel.sig Kind.scVector Space.vmem Cert.Kernel.S2x200x128 EltTy.f32)
local notation "sS" => (Memref.whole Cert.Kernel.cc1_scratch2 : Memref Cert.Kernel.sig Kind.scVector Space.vmem Cert.Kernel.S32x128 EltTy.f32)
local notation "tW" => (Memref.whole Cert.Kernel.main_v2_scv : Memref Cert.Kernel.sig Kind.scVector Space.hbm Cert.Kernel.S100000x128 EltTy.f32)
local notation "sI" => (Memref.whole Cert.Kernel.cc1_scratch0 : Memref Cert.Kernel.sig Kind.scVector Space.vmem Cert.Kernel.S1600 EltTy.i32)

/-- Slot `s` of the buffer, as the kernel slices and squeezes it. -/
abbrev slotM (s : ℕ) (inb : ∀ a, (![s, 0, 0] : Fin 3 → ℕ) a + S1x200x128.size a ≤ S2x200x128.size a) : Memref sig .scVector .vmem S200x128 .f32 :=
  ((sB).slice (Rect.unit (s := S2x200x128) ![s, 0, 0] S1x200x128.size inb) (fun _ => rfl)).squeeze S200x128 squeezes_S1x200x128_S200x128

/-- The slot's view places `(k, e)` at `(s, k, e)`. -/
theorem slot_emb (s : ℕ) (hs : s < 2) (inb : ∀ a, (![s, 0, 0] : Fin 3 → ℕ) a + S1x200x128.size a ≤ S2x200x128.size a) (k : Fin 200) (e : Fin 128) :
    ((slotM s inb).view.emb (ix2 k e) : S2x200x128.Idx) = ix3 (⟨s, hs⟩ : Fin 2) k e := by
  show (sB).view.emb ((Rect.unit (s := S2x200x128) ![s, 0, 0] S1x200x128.size inb).emb
    (Shape.reshapeEquiv squeezes_S1x200x128_S200x128.numel_eq (ix2 k e))) = _
  rw [reshapeEquiv_ix2_1ab]
  funext b
  apply Fin.ext
  show ((Rect.unit (s := S2x200x128) ![s, 0, 0] S1x200x128.size inb).emb (ix3 (⟨0, Nat.one_pos⟩ : Fin 1) k e) b).val = _
  rw [Rect.emb_apply]
  match b with
  | ⟨0, _⟩ => show s + 1 * 0 = s; omega
  | ⟨1, _⟩ => show 0 + 1 * k.val = k.val; omega
  | ⟨2, _⟩ => show 0 + 1 * e.val = e.val; omega

/-- A gather into slot `s` leaves its payload there: slot `s` at `(k, e)` holds the payload at `(k, e)`. -/
theorem slot_after1 (s : ℕ) (hs : s < 2) (inb : ∀ a, (![s, 0, 0] : Fin 3 → ℕ) a + S1x200x128.size a ≤ S2x200x128.size a)
    (Bp : (sB).view.ty.Contents (Elt F)) (pay : S200x128.Idx → F .f32) (k : Fin 200) (e : Fin 128) :
    ((slotM s inb).view.write (Elt F) Bp pay Finset.univ : S2x200x128.Idx → F .f32) (ix3 (⟨s, hs⟩ : Fin 2) k e) = pay (ix2 k e) := by
  rw [← slot_emb s hs inb k e]
  exact (View.write_emb_of_mem (v := (slotM s inb).view) Bp pay (Finset.mem_univ _)).trans (cast_eq _ _)

/-- A gather into the other slot `s'` afterwards does not disturb slot `s`: it still holds the earlier payload. -/
theorem slot_after2 (s s' : ℕ) (hs : s < 2) (hs' : s' < 2) (hne : s ≠ s')
    (inb : ∀ a, (![s, 0, 0] : Fin 3 → ℕ) a + S1x200x128.size a ≤ S2x200x128.size a)
    (inb' : ∀ a, (![s', 0, 0] : Fin 3 → ℕ) a + S1x200x128.size a ≤ S2x200x128.size a)
    (Bp : (sB).view.ty.Contents (Elt F)) (pay pay' : S200x128.Idx → F .f32) (k : Fin 200) (e : Fin 128) :
    ((slotM s' inb').view.write (Elt F) ((slotM s inb).view.write (Elt F) Bp pay Finset.univ) pay' Finset.univ : S2x200x128.Idx → F .f32)
        (ix3 (⟨s, hs⟩ : Fin 2) k e) = pay (ix2 k e) := by
  have hnot : (ix3 (⟨s, hs⟩ : Fin 2) k e : S2x200x128.Idx) ∉ (slotM s' inb').view.setOn Finset.univ := by
    intro hm
    obtain ⟨y, -, hy⟩ := Finset.mem_map.mp hm
    have hy' : y = ix2 (y 0) (y 1) := by
      funext b
      match b with
      | ⟨0, _⟩ => rfl
      | ⟨1, _⟩ => rfl
    have hy2 : ((slotM s' inb').view.emb y : S2x200x128.Idx) = ix3 (⟨s', hs'⟩ : Fin 2) (y 0) (y 1) :=
      (congrArg (fun z => ((slotM s' inb').view.emb z : S2x200x128.Idx)) hy').trans (slot_emb s' hs' inb' (y 0) (y 1))
    have h0 : s' = s := congrArg (fun z : S2x200x128.Idx => (z 0).val) (hy2.symm.trans hy)
    exact hne h0.symm
  refine (View.write_of_not_mem (v := (slotM s' inb').view) (Val := Elt F) _ pay' Finset.univ hnot).trans ?_
  exact slot_after1 s hs inb Bp pay k e

open Idealize.ShloMosaic.SparseCore (gatherPayload rows)

/-- The gather's source index for destination `(k, e)`: row `r k`, column `e`. -/
theorem gather_idx (r : Fin (S200x128.size gathers_S100000x128_S200x128.axis') → Fin (S100000x128.size gathers_S100000x128_S200x128.axis))
    (k : Fin 200) (e : Fin 128) :
    (gathers_S100000x128_S200x128.idx r (ix2 k e) : S100000x128.Idx) = ix2 (r k) e := by
  funext b
  match b with
  | ⟨0, _⟩ => exact Shape.Gathers.idx_axis gathers_S100000x128_S200x128 r (ix2 k e)
  | ⟨1, h1⟩ => exact Fin.ext (Shape.Gathers.idx_of_ne gathers_S100000x128_S200x128 r (ix2 k e) ⟨1, h1⟩ (by show (1 : ℕ) ≠ 0; omega))

/-- What gather `o / 200` delivers at `(k, e)`: column `e` of the table row the index word `o + k` names. -/
theorem gather_val (tp : (tW).view.ty.Contents (Elt F)) (xsv : (sI).view.ty.Contents (Elt F)) (o : ℕ) (ho : o + 200 ≤ 1600)
    (inb : ∀ a, (![o] : Fin 1 → ℕ) a + S200.size a ≤ S1600.size a)
    (inbT : ∀ a, (![0, 0] : Fin 2 → ℕ) a + S100000x128.size a ≤ S100000x128.size a)
    (hn : S200.numel = S200x128.size gathers_S100000x128_S200x128.axis')
    (hin : ∀ x, ((((sI).slice (Rect.unit (s := S1600) ![o] S200.size inb) (fun _ => rfl)).view.read (Elt F) xsv x) : BitVec 32).toNat
      < S100000x128.size gathers_S100000x128_S200x128.axis)
    (k : Fin 200) (e : Fin 128) (ρ : Fin 100000) (hρ : ρ.val = ((xsv : S1600.Idx → BitVec 32) (ix1 ⟨o + k.val, by omega⟩)).toNat) :
    gatherPayload gathers_S100000x128_S200x128 (((tW).slice (Rect.unit (s := S100000x128) ![0, 0] S100000x128.size inbT) (fun _ => rfl)).view.read (Elt F) tp)
        (rows (((sI).slice (Rect.unit (s := S1600) ![o] S200.size inb) (fun _ => rfl)).view.read (Elt F) xsv) hn hin) (ix2 k e)
      = (tp : S100000x128.Idx → F .f32) (ix2 ρ e) := by
  show (((tW).slice (Rect.unit (s := S100000x128) ![0, 0] S100000x128.size inbT) (fun _ => rfl)).view.read (Elt F) tp)
    (gathers_S100000x128_S200x128.idx _ (ix2 k e)) = _
  rw [gather_idx]
  have hk : S200.rowMajor.symm (k.cast hn.symm) = ix1 k :=
    (Equiv.symm_apply_eq _).mpr (Fin.ext (by rw [Shape.rowMajor_val_one]; rfl))
  show (tp : S100000x128.Idx → F .f32) ((Rect.unit (s := S100000x128) ![0, 0] S100000x128.size inbT).emb (ix2 _ e)) = _
  congr 1
  funext b
  apply Fin.ext
  rw [Rect.emb_apply]
  match b with
  | ⟨0, _⟩ =>
    show 0 + 1 * ((((sI).slice (Rect.unit (s := S1600) ![o] S200.size inb) (fun _ => rfl)).view.read (Elt F) xsv
      (S200.rowMajor.symm (k.cast hn.symm)) : BitVec 32)).toNat = ρ.val
    rw [hk, hρ, Nat.zero_add, Nat.one_mul]
    show ((xsv : S1600.Idx → BitVec 32) ((Rect.unit (s := S1600) ![o] S200.size inb).emb (ix1 k))).toNat = _
    congr 2
    funext b'
    obtain rfl : b' = 0 := Subsingleton.elim _ _
    apply Fin.ext
    rw [Rect.emb_apply]
    show o + 1 * k.val = o + k.val
    omega
  | ⟨1, _⟩ => show 0 + 1 * e.val = e.val; omega

/-! ## From the accumulators to the pooled sums -/

section Values

variable (m : (ℓ : Loc nD τ sig) → Buf (Elt F) ℓ) (X : (d : Dev nD) → Buf (Elt F) (xLoc d)) (d : Dev nD) (c : Fin 2) (i : Fin 16)

/-- The tile's index words: its 1600 words of the flat index array. -/
abbrev xsOf : S1600.Idx → BitVec 32 := (xPiece c i).view.read (Elt F) (X d)

/-- Word `n` of the tile is word `1600 (2 i + c) + n` of the flat array. -/
theorem xsOf_val (n : Fin 1600) :
    xsOf X d c i (ix1 n) = (X d : S51200.Idx → BitVec 32) (ix1 ⟨1600 * (2 * i.val + c.val) + n.val, by omega⟩) := by
  show (X d : S51200.Idx → BitVec 32) ((Rect.unit (s := S51200) (k1_off1 (co c i)) S1600.size (k1_off1_inb (co c i))).emb (ix1 n)) = _
  congr 1
  funext b
  obtain rfl : b = 0 := Subsingleton.elim _ _
  apply Fin.ext
  rw [Rect.emb_apply]
  have h1 : (k1_off1 (co c i)) 0 = 3200 * i.val + 1600 * c.val := congrFun (k1_off1_eq (co c i)) 0
  show (k1_off1 (co c i)) 0 + 1 * n.val = 1600 * (2 * i.val + c.val) + n.val
  rw [h1]
  omega

/-- Slot `s` holds the table rows the 200 index words from `o` on name. -/
def SlotRows (tp : S100000x128.Idx → F .f32) (xsv : S1600.Idx → BitVec 32) (B : S2x200x128.Idx → F .f32) (s : Fin 2) (o : ℕ) (ho : o + 200 ≤ 1600) : Prop :=
  ∀ (k : Fin 200) (e : Fin 128) (ρ : Fin 100000), ρ.val = (xsv (ix1 ⟨o + k.val, by omega⟩)).toNat → B (ix3 s k e) = tp (ix2 ρ e)

/-- The values the tile's row `r` is to hold. -/
def Gof (r : Fin 32) (e : Fin 70) : F .f32 := pooledF m d (brow c i r) e

/-- The row's value as a partial sum carried to its end. -/
theorem Gof_eq (r : Fin 32) (e : Fin 70) :
    Gof m d c i r e = partF (fun t : Fin 50 => (m (tblLoc d) : S100000x70.Idx → F .f32)
      (ix2 (Cert.Spec.row ((m (idxLoc d) : S1024x50.Idx → BitVec 32) (ix2 (brow c i r) t))) e)) 50 :=
  poolF_eq_partF (fun t : Fin 50 => (m (tblLoc d) : S100000x70.Idx → F .f32)
      (ix2 (Cert.Spec.row ((m (idxLoc d) : S1024x50.Idx → BitVec 32) (ix2 (brow c i r) t))) e))

/-- Index word `200 g + 50 j + t` of the tile is position `t` of its batch row `4 g + j`. -/
theorem xsOf_flat (hX : IsFlat m d (X d)) (j : Fin 4) (g : ℕ) (hg : g < 8) (t : Fin 50) :
    xsOf X d c i (ix1 ⟨200 * g + (50 * j.val + t.val), by omega⟩)
      = (m (idxLoc d) : S1024x50.Idx → BitVec 32) (ix2 (brow c i ⟨4 * g + j.val, by omega⟩) t) :=
  (xsOf_val X d c i ⟨200 * g + (50 * j.val + t.val), by omega⟩).trans
    ((congrArg (X d : S51200.Idx → BitVec 32) (congrArg ix1 (Fin.ext (by
      show 1600 * (2 * i.val + c.val) + (200 * g + (50 * j.val + t.val)) = ((2 * i.val + c.val) * 32 + (4 * g + j.val)) * 50 + t.val
      omega)))).trans (hX (brow c i ⟨4 * g + j.val, by omega⟩) t))

/-- After its fifty trips, an accumulator's lanes within the first 70 columns hold the pooled sums of the batch row. -/
theorem lane_val (hX : IsFlat m d (X d)) (hr : InRange m) (tp : Buf (Elt F) (tpLoc d)) (htp : Rtp m d tp)
    (B : S2x200x128.Idx → F .f32) (s : Fin 2) (j : Fin 4) (g : ℕ) (hg : g < 8)
    (hrows : SlotRows (tp : S100000x128.Idx → F .f32) (xsOf X d c i) B s (200 * g) (by omega))
    (off : ℕ) (hoff : off + 16 ≤ 128) (a : FVec F S16 .f32) (hacc : AccOne B s j 50 off hoff a) :
    LaneVal (Gof m d c i) (4 * g + j.val) (by omega) off a := by
  intro l h
  refine (hacc l).trans ?_
  refine Eq.trans ?_ (Gof_eq m d c i ⟨4 * g + j.val, by omega⟩ ⟨off + l.val, h⟩).symm
  refine congrArg (fun f => partF f 50) (funext fun t => ?_)
  obtain ⟨h0, h1⟩ := hr d (ix2 (brow c i ⟨4 * g + j.val, by omega⟩) t)
  have hρ := (Cert.Spec.row_val_of_range h0 h1).trans (congrArg BitVec.toNat (xsOf_flat m X d c i hX j g hg t).symm)
  exact (hrows ⟨50 * j.val + t.val, by omega⟩ ⟨off + l.val, by omega⟩ _ hρ).trans (htp _ ⟨off + l.val, h⟩)

/-- The five accumulators after the fifty trips. -/
theorem acc_vals (hX : IsFlat m d (X d)) (hr : InRange m) (tp : Buf (Elt F) (tpLoc d)) (htp : Rtp m d tp)
    (B : S2x200x128.Idx → F .f32) (s : Fin 2) (j : Fin 4) (g : ℕ) (hg : g < 8)
    (hrows : SlotRows (tp : S100000x128.Idx → F .f32) (xsOf X d c i) B s (200 * g) (by omega))
    (acc : FVec F S16 .f32 × FVec F S16 .f32 × FVec F S16 .f32 × FVec F S16 .f32 × FVec F S16 .f32) (hacc : AccOK B s j 50 acc) :
    LaneVal (Gof m d c i) (4 * g + j.val) (by omega) 0 acc.1 ∧ LaneVal (Gof m d c i) (4 * g + j.val) (by omega) 16 acc.2.1
      ∧ LaneVal (Gof m d c i) (4 * g + j.val) (by omega) 32 acc.2.2.1 ∧ LaneVal (Gof m d c i) (4 * g + j.val) (by omega) 48 acc.2.2.2.1
      ∧ LaneVal (Gof m d c i) (4 * g + j.val) (by omega) 54 acc.2.2.2.2 :=
  ⟨lane_val m X d c i hX hr tp htp B s j g hg hrows 0 _ _ hacc.1, lane_val m X d c i hX hr tp htp B s j g hg hrows 16 _ _ hacc.2.1,
    lane_val m X d c i hX hr tp htp B s j g hg hrows 32 _ _ hacc.2.2.1, lane_val m X d c i hX hr tp htp B s j g hg hrows 48 _ _ hacc.2.2.2.1,
    lane_val m X d c i hX hr tp htp B s j g hg hrows 54 _ _ hacc.2.2.2.2⟩

/-- After a gather into slot `s` over the index words from `o` on, and a gather into the other slot afterwards, slot `s` holds the table rows those words name. -/
theorem slot_rows2 (tp : (tW).view.ty.Contents (Elt F)) (xsv : (sI).view.ty.Contents (Elt F)) (s s' : ℕ) (hs : s < 2) (hs' : s' < 2) (hne : s ≠ s')
    (inb : ∀ a, (![s, 0, 0] : Fin 3 → ℕ) a + S1x200x128.size a ≤ S2x200x128.size a)
    (inb' : ∀ a, (![s', 0, 0] : Fin 3 → ℕ) a + S1x200x128.size a ≤ S2x200x128.size a)
    (Bp : (sB).view.ty.Contents (Elt F)) (o : ℕ) (ho : o + 200 ≤ 1600)
    (inbO : ∀ a, (![o] : Fin 1 → ℕ) a + S200.size a ≤ S1600.size a)
    (inbT : ∀ a, (![0, 0] : Fin 2 → ℕ) a + S100000x128.size a ≤ S100000x128.size a)
    (hn : S200.numel = S200x128.size gathers_S100000x128_S200x128.axis')
    (hin : ∀ x, ((((sI).slice (Rect.unit (s := S1600) ![o] S200.size inbO) (fun _ => rfl)).view.read (Elt F) xsv x) : BitVec 32).toNat
      < S100000x128.size gathers_S100000x128_S200x128.axis)
    (pay' : S200x128.Idx → F .f32) :
    SlotRows (tp : S100000x128.Idx → F .f32) (xsv : S1600.Idx → BitVec 32)
      ((slotM s' inb').view.write (Elt F) ((slotM s inb).view.write (Elt F) Bp
        (gatherPayload gathers_S100000x128_S200x128 (((tW).slice (Rect.unit (s := S100000x128) ![0, 0] S100000x128.size inbT) (fun _ => rfl)).view.read (Elt F) tp)
          (rows (((sI).slice (Rect.unit (s := S1600) ![o] S200.size inbO) (fun _ => rfl)).view.read (Elt F) xsv) hn hin)) Finset.univ) pay' Finset.univ : S2x200x128.Idx → F .f32)
      ⟨s, hs⟩ o ho :=
  fun k e ρ hρ => (slot_after2 s s' hs hs' hne inb inb' Bp _ pay' k e).trans (gather_val tp xsv o ho inbO inbT hn hin k e ρ hρ)

/-- After a gather into slot `s` over the index words from `o` on (nothing gathered since), slot `s` holds the table rows those words name. -/
theorem slot_rows1 (tp : (tW).view.ty.Contents (Elt F)) (xsv : (sI).view.ty.Contents (Elt F)) (s : ℕ) (hs : s < 2)
    (inb : ∀ a, (![s, 0, 0] : Fin 3 → ℕ) a + S1x200x128.size a ≤ S2x200x128.size a)
    (Bp : (sB).view.ty.Contents (Elt F)) (o : ℕ) (ho : o + 200 ≤ 1600)
    (inbO : ∀ a, (![o] : Fin 1 → ℕ) a + S200.size a ≤ S1600.size a)
    (inbT : ∀ a, (![0, 0] : Fin 2 → ℕ) a + S100000x128.size a ≤ S100000x128.size a)
    (hn : S200.numel = S200x128.size gathers_S100000x128_S200x128.axis')
    (hin : ∀ x, ((((sI).slice (Rect.unit (s := S1600) ![o] S200.size inbO) (fun _ => rfl)).view.read (Elt F) xsv x) : BitVec 32).toNat
      < S100000x128.size gathers_S100000x128_S200x128.axis) :
    SlotRows (tp : S100000x128.Idx → F .f32) (xsv : S1600.Idx → BitVec 32)
      ((slotM s inb).view.write (Elt F) Bp
        (gatherPayload gathers_S100000x128_S200x128 (((tW).slice (Rect.unit (s := S100000x128) ![0, 0] S100000x128.size inbT) (fun _ => rfl)).view.read (Elt F) tp)
          (rows (((sI).slice (Rect.unit (s := S1600) ![o] S200.size inbO) (fun _ => rfl)).view.read (Elt F) xsv) hn hin)) Finset.univ : S2x200x128.Idx → F .f32)
      ⟨s, hs⟩ o ho :=
  fun k e ρ hρ => (slot_after1 s hs inb Bp _ k e).trans (gather_val tp xsv o ho inbO inbT hn hin k e ρ hρ)

end Values

end Cert.Proof.KB

end
-- ==== Proof.Bits.TileOut.lean ====
/-
  The copy-out of the staging rows: the tile's 32 rows of the pooled array then hold, in their first 70 columns,
  the pooled sums of batch rows `32 (2 i + c) ..`.
-/
import proofs.«202962_g35424890258148_retrytranche2_417_11_alg».proof.Proof.Bits.TileGather
import Idealize.ShloMosaic.Lib.Writes

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
local notation "sB" => (Memref.whole Cert.Kernel.cc1_scratch1 : Memref Cert.Kernel.sig Kind.scVector Space.vmem Cert.Kernel.S2x200x128 EltTy.f32)
local notation "sS" => (Memref.whole Cert.Kernel.cc1_scratch2 : Memref Cert.Kernel.sig Kind.scVector Space.vmem Cert.Kernel.S32x128 EltTy.f32)
local notation "tW" => (Memref.whole Cert.Kernel.main_v2_scv : Memref Cert.Kernel.sig Kind.scVector Space.hbm Cert.Kernel.S100000x128 EltTy.f32)
local notation "sI" => (Memref.whole Cert.Kernel.cc1_scratch0 : Memref Cert.Kernel.sig Kind.scVector Space.vmem Cert.Kernel.S1600 EltTy.i32)

/-! ## The copy-out -/

section Out

variable (m : (ℓ : Loc nD τ sig) → Buf (Elt F) ℓ) (d : Dev nD) (c : Fin 2) (i : Fin 16)

/-- The tile's piece of the pooled array places its row `r` at batch row `32 (2 i + c) + r`. -/
theorem po_emb (r : Fin 32) (e : Fin 128) : ((poPiece c i).view.emb (ix2 r e) : S1024x128.Idx) = ix2 (brow c i r) e := by
  show (Rect.unit (s := S1024x128) (k1_off162 (co c i)) S32x128.size (k1_off162_inb (co c i))).emb (ix2 r e) = _
  funext b
  apply Fin.ext
  rw [Rect.emb_apply]
  have h1 := congrFun (k1_off162_eq (co c i))
  match b with
  | ⟨0, _⟩ =>
    show (k1_off162 (co c i)) 0 + 1 * r.val = (2 * i.val + c.val) * 32 + r.val
    rw [h1 0]
    show 64 * i.val + 32 * c.val + 1 * r.val = (2 * i.val + c.val) * 32 + r.val
    omega
  | ⟨1, _⟩ =>
    show (k1_off162 (co c i)) 1 + 1 * e.val = e.val
    rw [h1 1]
    show 0 + 1 * e.val = e.val
    omega

/-- The staging rows copied out over the tile's rows of the pooled array: those rows then hold the pooled sums. -/
theorem rpo_of_stage (fp : Buf (Elt F) (poLoc d)) (St : (sS).view.ty.Contents (Elt F))
    (hSt : StageOK (Gof m d c i) (St : S32x128.Idx → F .f32) 32) :
    Rpo m d c i ((poPiece c i).view.write (Elt F) fp ((sS).view.read (Elt F) St) Finset.univ) := by
  intro r e
  show (((poPiece c i).view.write (Elt F) fp ((sS).view.read (Elt F) St) Finset.univ) : S1024x128.Idx → F .f32) (ix2 (brow c i r) (e.castLE (by decide)))
    = Gof m d c i r e
  rw [← po_emb c i r (e.castLE (by decide))]
  exact (View.write_emb_of_mem (v := (poPiece c i).view) (Val := Elt F) fp _ (Finset.mem_univ _)).trans ((cast_eq _ _).trans (hSt r r.isLt e))

end Out

section OutW

variable (m : (ℓ : Loc nD τ sig) → Buf (Elt F) ℓ) (d : Dev nD) (c : Fin 2) (i : Fin 16)

/-- The same with the copy-out stated as one whole-rectangle piece written through the tile's rows. -/
theorem rpo_of_stage_w (fp : Buf (Elt F) (poLoc d)) (St : (sS).view.ty.Contents (Elt F))
    (hSt : StageOK (Gof m d c i) (St : S32x128.Idx → F .f32) 32) :
    Rpo m d c i ((poPiece c i).view.writes (Elt F) fp [⟨Rect.whole S32x128, (sS).view.read (Elt F) St⟩]) := by
  intro r e
  have hx : (Rect.whole S32x128).emb (ix2 r (e.castLE (by decide))) = ix2 r (e.castLE (by decide)) := by
    funext b
    apply Fin.ext
    rw [Rect.emb_apply]
    match b with
    | ⟨0, _⟩ => show 0 + 1 * r.val = r.val; omega
    | ⟨1, _⟩ => show 0 + 1 * e.val = e.val; omega
  have key := View.read_writes_cons_emb (v := (poPiece c i).view) (Val := Elt F) fp (Rect.whole S32x128) ((sS).view.read (Elt F) St) []
    (ix2 r (e.castLE (by decide)))
  rw [hx] at key
  show (((poPiece c i).view.writes (Elt F) fp [⟨Rect.whole S32x128, (sS).view.read (Elt F) St⟩]) : S1024x128.Idx → F .f32)
      (ix2 (brow c i r) (e.castLE (by decide))) = Gof m d c i r e
  rw [← po_emb c i r (e.castLE (by decide))]
  exact key.trans (hSt r r.isLt e)

end OutW

end Cert.Proof.KB

end
-- ==== Proof.Bits.TileRun.lean ====
/-
  One tile's task of the pooling kernel, run from the resources it is handed to those it hands back.

  The tile copies its 1600 index words in, then for each of its 8 groups of 4 batch rows gathers the 200 table rows the
  group's words name into one of two buffer slots while the previous group's slot is being read: gather `g` is waited
  for, then gather `g + 1` issued into the other slot, so one gather at most is outstanding and never into the slot
  read. Each batch row's loop runs by one invariant: after `k` trips each accumulator lane holds the sum of the first
  `k` of its fifty words (TileSum). The slot read holds the table rows named by the group's index words (TileGather),
  so after fifty trips the lanes are the pooled sums; the row's five stores put them in the staging row (TileStage),
  and the copy-out puts the 32 staging rows in the tile's rows of the pooled array (TileOut). Every gathered index
  names a table row because every word of the flat index array is a word of the index array, which is in range.
-/
import proofs.«202962_g35424890258148_retrytranche2_417_11_alg».proof.Proof.Bits.TileOut
import proofs.«202962_g35424890258148_retrytranche2_417_11_alg».proof.Proof.Gen.Kernel.Skeleton
import Idealize.ShloMosaic.Lib.SparseCore.Ops
import Idealize.ShloMosaic.Lib.Tactic

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok)

variable {F : FTy → Type} [FloatOps F]

local notation "𝕄" => MT nD τ sig (HIx 1) (Elt F) ℕ UU ℕ

/-! ## The tile's thread, its scratches and its semaphores -/

abbrev cV (c : Fin 2) (i : Fin 16) : Fin τ.nSC := ((co c i) 0).castLE hcore1
abbrev jV (c : Fin 2) (i : Fin 16) : Fin τ.nSub := ((co c i) 1).castLE hsub1
abbrev thr (d : Dev nD) (c : Fin 2) (i : Fin 16) : Thread nD τ := V d (cV c i) (jV c i)

local notation "xW" => (Memref.whole Cert.Kernel.main_v0_scv : Memref Cert.Kernel.sig Kind.scVector Space.hbm Cert.Kernel.S51200 EltTy.i32)
local notation "tW" => (Memref.whole Cert.Kernel.main_v2_scv : Memref Cert.Kernel.sig Kind.scVector Space.hbm Cert.Kernel.S100000x128 EltTy.f32)
local notation "pW" => (Memref.whole Cert.Kernel.main_v3_scv : Memref Cert.Kernel.sig Kind.scVector Space.hbm Cert.Kernel.S1024x128 EltTy.f32)
local notation "sI" => (Memref.whole Cert.Kernel.cc1_scratch0 : Memref Cert.Kernel.sig Kind.scVector Space.vmem Cert.Kernel.S1600 EltTy.i32)
local notation "sB" => (Memref.whole Cert.Kernel.cc1_scratch1 : Memref Cert.Kernel.sig Kind.scVector Space.vmem Cert.Kernel.S2x200x128 EltTy.f32)
local notation "sS" => (Memref.whole Cert.Kernel.cc1_scratch2 : Memref Cert.Kernel.sig Kind.scVector Space.vmem Cert.Kernel.S32x128 EltTy.f32)

variable (d : Dev nD) (c : Fin 2) (i : Fin 16)

abbrev cA : GSem nD τ sig := (thr d c i, .dma cc1_scratch3.sem)
abbrev cB : GSem nD τ sig := (thr d c i, .dma cc1_scratch4.sem)
abbrev cX : GSem nD τ sig := (thr d c i, .dma cc1_scoped0.sem)
abbrev cY : GSem nD τ sig := (thr d c i, .dma cc1_scoped1.sem)

theorem ownSems0_V :
    (ownSems0 (thr d c i) : sProp 𝕄)
      = iprop(semVal (cA d c i) 0 ∗ semVal (cB d c i) 0 ∗ semVal (cX d c i) 0 ∗ semVal (cY d c i) 0
          ∗ bigSep (((((ownCells (thr d c i)).erase (cA d c i)).erase (cB d c i)).erase (cX d c i)).erase (cY d c i)) fun g => semVal g 0) := by
  unfold SparseCore.Cfg.ownSems0
  rw [SparseCore.bigSep_erase' ((mem_ownCells (g := cA d c i)).mpr ⟨rfl, by
      show (SemLoc.dma cc1_scratch3.sem : SemLoc sig).isScoped .scVector = true; decide⟩),
    SparseCore.bigSep_erase' (Finset.mem_erase.mpr ⟨by simp [cA, cB]; decide, (mem_ownCells (g := cB d c i)).mpr ⟨rfl, by
      show (SemLoc.dma cc1_scratch4.sem : SemLoc sig).isScoped .scVector = true; decide⟩⟩),
    SparseCore.bigSep_erase' (Finset.mem_erase.mpr ⟨by simp [cB, cX]; decide, Finset.mem_erase.mpr ⟨by simp [cA, cX]; decide,
      (mem_ownCells (g := cX d c i)).mpr ⟨rfl, by show (SemLoc.dma cc1_scoped0.sem : SemLoc sig).isScoped .scVector = true; decide⟩⟩⟩),
    SparseCore.bigSep_erase' (Finset.mem_erase.mpr ⟨by simp [cX, cY]; decide, Finset.mem_erase.mpr ⟨by simp [cB, cY]; decide, Finset.mem_erase.mpr ⟨by simp [cA, cY]; decide,
      (mem_ownCells (g := cY d c i)).mpr ⟨rfl, by show (SemLoc.dma cc1_scoped1.sem : SemLoc sig).isScoped .scVector = true; decide⟩⟩⟩⟩)]

theorem ownBufs_V :
    (ownBufs (thr d c i) : sProp 𝕄)
      = iprop((∃ f, (thr d c i).loc cc1_scratch0 ↦{fullShare} f) ∗ (∃ f, (thr d c i).loc cc1_scratch1 ↦{fullShare} f)
          ∗ (∃ f, (thr d c i).loc cc1_scratch2 ↦{fullShare} f)
          ∗ bigSep ((((ownRefs (τ := τ) (.scVector (cV c i) (jV c i))).erase ((Proc.scVector (cV c i) (jV c i)).devRef cc1_scratch0)).erase
              ((Proc.scVector (cV c i) (jV c i)).devRef cc1_scratch1)).erase ((Proc.scVector (cV c i) (jV c i)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV c i) (jV c i))
    (b := (Proc.scVector (cV c i) (jV c i)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV c i) (jV c i)) (b := (Proc.scVector (cV c i) (jV c i)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV c i) (jV c i)) (b := (Proc.scVector (cV c i) (jV c i)).devRef cc1_scratch2) rfl⟩⟩)]

variable (m : (ℓ : Loc nD τ sig) → Buf (Elt F) ℓ) (X : (d : Dev nD) → Buf (Elt F) (xLoc d))

/-! ## The index words -/

/-- Every word of the flat index array names a table row. -/
theorem X_range (hX : ∀ d, IsFlat m d (X d)) (hr : InRange m) (d : Dev nD) (j : S51200.Idx) :
    ((X d : S51200.Idx → BitVec 32) j).toNat < 100000 := by
  have hn : (j 0).val < 51200 := (j 0).isLt
  have hj : j = ix1 ⟨(⟨(j 0).val / 50, by omega⟩ : Fin 1024).val * 50 + (⟨(j 0).val % 50, Nat.mod_lt _ (by omega)⟩ : Fin 50).val, by
      show (j 0).val / 50 * 50 + (j 0).val % 50 < 51200; omega⟩ := by
    funext a
    obtain rfl : a = 0 := Subsingleton.elim _ _
    apply Fin.ext
    show (j 0).val = (j 0).val / 50 * 50 + (j 0).val % 50
    omega
  rw [hj, hX d]
  obtain ⟨h0, h1⟩ := hr d (ix2 ⟨(j 0).val / 50, by omega⟩ ⟨(j 0).val % 50, Nat.mod_lt _ (by omega)⟩)
  rw [← Cert.Spec.row_val_of_range h0 h1]
  exact (Cert.Spec.row _).isLt

/-- The tile's index words, as its scratch holds them after the fetch. -/
abbrev xs : Buf (Elt F) ((thr d c i).loc cc1_scratch0) := (xPiece c i).view.read (Elt F) (X d)

theorem pts_respell {ℓ : Loc nD τ sig} {S : Finset (Idx ℓ)} {q : PosShare TreeShare} {f g : Buf (Elt F) ℓ} (h : f = g) :
    (ℓ ↦[S]{q} f : sProp 𝕄) ⊢ ℓ ↦[S]{q} g := h ▸ .rfl

theorem hin_slice (hXr : ∀ j, ((X d : S51200.Idx → BitVec 32) j).toNat < 100000) (o : Fin 1 → Nat) (ho : ∀ a, o a + S200.size a ≤ S1600.size a)
    (x : S200.Idx) :
    ((((sI).slice (Rect.unit (s := S1600) o S200.size ho) (fun _ => rfl)).view.read (Elt F) (xs d c i X) x) : BitVec 32).toNat < 100000 :=
  hXr _

/-- Slot `s` of the gather buffer, as the kernel slices and squeezes it. -/
abbrev slot0 : Memref sig .scVector .vmem S200x128 .f32 :=
  (((sB).slice (Rect.unit (s := S2x200x128) ![0, 0, 0] S1x200x128.size inb_S2x200x128_S1x200x128_0_0_0) (fun _ => rfl)).squeeze S200x128 squeezes_S1x200x128_S200x128)
abbrev slot1 : Memref sig .scVector .vmem S200x128 .f32 :=
  (((sB).slice (Rect.unit (s := S2x200x128) ![1, 0, 0] S1x200x128.size inb_S2x200x128_S1x200x128_1_0_0) (fun _ => rfl)).squeeze S200x128 squeezes_S1x200x128_S200x128)
/-- What of the buffer stays in hand while a gather into slot 1 (slot 0) is outstanding. -/
abbrev off1 (d : Dev nD) (c : Fin 2) (i : Fin 16) : Finset (Idx ((sB).view.loc (thr d c i))) := Finset.univ \ (slot1).view.set
abbrev in1 (d : Dev nD) (c : Fin 2) (i : Fin 16) : Finset (Idx ((sB).view.loc (thr d c i))) := (slot1).view.set
abbrev in0 (d : Dev nD) (c : Fin 2) (i : Fin 16) : Finset (Idx ((sB).view.loc (thr d c i))) := (slot0).view.set
abbrev off0 (d : Dev nD) (c : Fin 2) (i : Fin 16) : Finset (Idx ((sB).view.loc (thr d c i))) := Finset.univ \ (slot0).view.set

/-- The loop's invariant: the buffer as it is held, and the accumulators at the partial sums of its contents. -/
def LInv (Sb : Finset (Idx ((sB).view.loc (thr d c i)))) (B : Buf (Elt F) ((sB).view.loc (thr d c i))) (s : Fin 2) (j : Fin 4) (k : ℕ)
    (acc : FVec F S16 .f32 × FVec F S16 .f32 × FVec F S16 .f32 × FVec F S16 .f32 × FVec F S16 .f32) : sProp 𝕄 :=
  iprop(((sB).view.loc (thr d c i) ↦[Sb]{fullShare} B) ∗ ⌜AccOK (B : S2x200x128.Idx → F .f32) s j k acc⌝)

theorem pts_name {ℓ : Loc nD τ sig} {S : Finset (Idx ℓ)} {q : PosShare TreeShare} {f : Buf (Elt F) ℓ} :
    (ℓ ↦[S]{q} f : sProp 𝕄) ⊢ iprop(∃ g, ⌜g = f⌝ ∗ ℓ ↦[S]{q} g) := by
  iintro H; iexists f; isplitr; · ipureintro; rfl
  iexact H

/-- Two pieces of a buffer at the same contents, a set and its complement, are the buffer whole. -/
theorem pts_join {ℓ : Loc nD τ sig} (A : Finset (Idx ℓ)) {q : PosShare TreeShare} {f : Buf (Elt F) ℓ} :
    iprop((ℓ ↦[A]{q} f) ∗ ℓ ↦[Finset.univ \ A]{q} f) ⊢ (ℓ ↦{q} f : sProp 𝕄) :=
  (pointsTo_split_subset (Finset.subset_univ A)).2

theorem ret_bind' {E : Type → Type} {α β : Type} (a : α) (k : α → Prog E β) : (Prog.ret a).bind k = k a := rfl

/-- A wait at the kernels' own index added to the recorded waits keeps them among the waits allowed. -/
theorem waits_ok {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/- One trip of a batch row's loop: five 16-word loads from the slot being read (held on the set `S`, within which the
   loads fall by `sub`), each added lane by lane onto its accumulator; the accumulators' invariant advances by one. -/
set_option hygiene false in
local macro "loop_trip " S:term:max sub:term:max abs:ident s:num jj:num : tactic => `(tactic| (
  intro k acc
  unfold LInv
  iintro ⟨Hb, %hacc⟩
  simp only [Prog.bind_lift, Prog.pure_eq_ret]
  iapply (wp_load 𝒱₀ (thr d c i) none Set.univ (m := sB) (S := $S) $sub) $$ Hb; iintro Hb
  iapply (wp_load 𝒱₀ (thr d c i) none Set.univ (m := sB) (S := $S) $sub) $$ Hb; iintro Hb
  iapply (wp_load 𝒱₀ (thr d c i) none Set.univ (m := sB) (S := $S) $sub) $$ Hb; iintro Hb
  iapply (wp_load 𝒱₀ (thr d c i) none Set.univ (m := sB) (S := $S) $sub) $$ Hb; iintro Hb
  iapply (wp_load 𝒱₀ (thr d c i) none Set.univ (m := sB) (S := $S) $sub) $$ Hb; iintro Hb
  simp only [ret_bind', Prog.pure_eq_ret]
  rw [wp_ret]; imodintro
  isplitl [Hb]; · iexact Hb
  ipureintro
  have hk : k.val < 50 := Nat.lt_of_lt_of_le k.isLt ($abs).2.1
  obtain ⟨h0, h1, h2, h3, h4⟩ := hacc
  exact ⟨accOne_step B $s $jj 0 _ k.val hk _ h0 _ (co := by infer_instance) rfl _ _,
    accOne_step B $s $jj 16 _ k.val hk _ h1 _ (co := by infer_instance) rfl _ _,
    accOne_step B $s $jj 32 _ k.val hk _ h2 _ (co := by infer_instance) rfl _ _,
    accOne_step B $s $jj 48 _ k.val hk _ h3 _ (co := by infer_instance) rfl _ _,
    accOne_step B $s $jj 54 _ k.val hk _ h4 _ (co := by infer_instance) rfl _ _⟩))

/- A batch row's loop: the slot read holds the table rows its group's index words name (`rowsL`); the loop runs by the
   accumulators' invariant from the zero words; after its fifty trips the lanes hold the pooled sums of batch row
   `4 g + jj`. -/
set_option hygiene false in
local macro "loop_site " S:term:max sub:term:max abs:ident s:num jj:num g:num rowsL:term:max : tactic => `(tactic| (
  ihave Hn := pts_name $$ Hb'
  icases Hn with ⟨%B, %hB, Hb'⟩
  have hrows : SlotRows (tp : S100000x128.Idx → F .f32) (xsOf X d c i) (B : S2x200x128.Idx → F .f32) $s (200 * $g) (by omega) := by
    rw [hB]; exact $rowsL
  sl_for (LInv d c i $S B $s $jj) $$ [Hb']
  case region => loop_trip $S $sub $abs $s $jj
  · unfold LInv
    isplitl [Hb']; · iexact Hb'
    ipureintro
    exact ⟨fun _ => rfl, fun _ => rfl, fun _ => rfl, fun _ => rfl, fun _ => rfl⟩
  iintro %acc HI
  unfold LInv
  icases HI with ⟨Hb', %hacc⟩
  have hv := acc_vals m X d c i (hX d) hr tp htp (B : S2x200x128.Idx → F .f32) $s $jj $g (by omega) hrows acc hacc
  clear hacc hrows
  subst hB))

/- The five stores of batch row `r`: the staging rows `0 .. r` then hold the pooled sums in their first 70 columns. -/
set_option hygiene false in
local macro "stage_site " r:num : tactic => `(tactic| (
  ihave Hn := pts_name $$ Hc'
  icases Hn with ⟨%St', %hSt, Hc'⟩
  have hok' : StageOK (Gof m d c i) (St' : S32x128.Idx → F .f32) ($r + 1) := by
    rw [hSt]
    exact stage_row (Gof m d c i) _ $r (by omega) _ _ _ _ _ hv.1 hv.2.1 hv.2.2.1 hv.2.2.2.1 hv.2.2.2.2 hok _ _ _ _ _ _
  clear hSt hv hok
  have hok := hok'
  clear hok'))

set_option maxHeartbeats 4000000 in
theorem tile_body (hX : ∀ d, IsFlat m d (X d)) (hr : InRange m) (O : CellTallies nD τ sig (HIx 1)) (W : Waits sig (HIx 1)) (hO : ∀ g, O g none = 0) :
    iprop(levAts (K (F := F)).L (K (F := F)).lev ∗ emp ∗ goRes X (Rtp m) d c i
        ∗ scopedBufs (thr d c i) ∗ scopedSems0 (thr d c i) ∗ owes (thr d c i) O W)
      ⊢ wp frame (wpE (defs₀ (F := F)) 𝒱₀ (thr d c i) none) Set.univ
          (cc1_pool (co c i) xW (Memref.isWhole_whole _) tW (Memref.isWhole_whole _) pW (Memref.isWhole_whole _)
            sI (Memref.isWhole_whole _) sB (Memref.isWhole_whole _) sS (Memref.isWhole_whole _) cc1_scratch3 cc1_scratch4 cc1_scoped0 cc1_scoped1)
          fun _ => iprop(tdRes (Rpo m) d c i ∗ scopedBufs (thr d c i) ∗ scopedSems0 (thr d c i)
            ∗ ∃ W', ⌜∀ p ∈ W', p ∈ W ∨ p.2 = none⌝ ∗ owes (thr d c i) O W') := by
  simp only [cc1_pool_eq_skeleton]; unfold cc1_pool_skel
  rw [(K (F := F)).scopedBufs_V facts d (cV c i) (jV c i), SparseCore.Cfg.scopedSems0_V (Val := Elt F) d (cV c i) (jV c i), ownSems0_V, ownBufs_V]
  unfold goRes
  iintro ⟨#Hlv, -, ⟨Hx, ⟨%tp, %htp, Ht⟩, ⟨%fp, Hp⟩⟩, ⟨⟨%fs, Hs⟩, ⟨%fb, Hb⟩, ⟨%fc, Hc⟩, Hbufs⟩, ⟨HsemA, HsemB, HsemX, HsemY, Hsems⟩, HO⟩
  ihave Hmw := ((K (F := F)).mayWaits_none (thr := thr d c i) hO) $$ Hlv
  ihave Hx' := (Entails.of_eq (show (xLoc d ↦[(xPiece c i).view.set]{fullShare} X d : sProp 𝕄) = ((xPiece c i).view.loc (thr d c i) ↦[(xPiece c i).view.set]{fullShare} X d) from rfl)) $$ Hx
  ihave Ht' := (Entails.of_eq (show (tpLoc d ↦{shareTok fullShare 32 (tileNo c i)} tp : sProp 𝕄) = ((tW).view.loc (thr d c i) ↦{shareTok fullShare 32 (tileNo c i)} tp) from rfl)) $$ Ht
  ihave Hp' := (Entails.of_eq (show (poLoc d ↦[(poPiece c i).view.set]{fullShare} fp : sProp 𝕄) = ((poPiece c i).view.loc (thr d c i) ↦[(poPiece c i).view.set]{fullShare} fp) from rfl)) $$ Hp
  ihave Hs' := (Entails.of_eq (show ((thr d c i).loc cc1_scratch0 ↦{fullShare} fs : sProp 𝕄) = ((sI).view.loc (thr d c i) ↦{fullShare} fs) from rfl)) $$ Hs
  ihave Hb' := (Entails.of_eq (show ((thr d c i).loc cc1_scratch1 ↦{fullShare} fb : sProp 𝕄) = ((sB).view.loc (thr d c i) ↦{fullShare} fb) from rfl)) $$ Hb
  ihave Hc' := (Entails.of_eq (show ((thr d c i).loc cc1_scratch2 ↦{fullShare} fc : sProp 𝕄) = ((sS).view.loc (thr d c i) ↦{fullShare} fc) from rfl)) $$ Hc
  sl_exec_parts
  have hxs : View.write (Elt F) (sI).view fs ((xPiece c i).view.read (Elt F) (X d)) Finset.univ = xs d c i X := View.write_whole_univ _ _ _
  ihave Hs2 := (pts_respell hxs) $$ Hs'
  have hXr := X_range m X hX hr d
  have hin0 : ∀ x, (((sI).slice (Rect.unit (s := S1600) ![0] S200.size inb_S1600_S200_0) (fun _ => rfl)).view.read (Elt F) (xs d c i X) x).toNat < S100000x128.size gathers_S100000x128_S200x128.axis :=
    fun x => hin_slice d c i X hXr _ _ x
  have hin1 : ∀ x, (((sI).slice (Rect.unit (s := S1600) ![200] S200.size inb_S1600_S200_200) (fun _ => rfl)).view.read (Elt F) (xs d c i X) x).toNat < S100000x128.size gathers_S100000x128_S200x128.axis :=
    fun x => hin_slice d c i X hXr _ _ x
  have hin2 : ∀ x, (((sI).slice (Rect.unit (s := S1600) ![400] S200.size inb_S1600_S200_400) (fun _ => rfl)).view.read (Elt F) (xs d c i X) x).toNat < S100000x128.size gathers_S100000x128_S200x128.axis :=
    fun x => hin_slice d c i X hXr _ _ x
  have hin3 : ∀ x, (((sI).slice (Rect.unit (s := S1600) ![600] S200.size inb_S1600_S200_600) (fun _ => rfl)).view.read (Elt F) (xs d c i X) x).toNat < S100000x128.size gathers_S100000x128_S200x128.axis :=
    fun x => hin_slice d c i X hXr _ _ x
  have hin4 : ∀ x, (((sI).slice (Rect.unit (s := S1600) ![800] S200.size inb_S1600_S200_800) (fun _ => rfl)).view.read (Elt F) (xs d c i X) x).toNat < S100000x128.size gathers_S100000x128_S200x128.axis :=
    fun x => hin_slice d c i X hXr _ _ x
  have hin5 : ∀ x, (((sI).slice (Rect.unit (s := S1600) ![1000] S200.size inb_S1600_S200_1000) (fun _ => rfl)).view.read (Elt F) (xs d c i X) x).toNat < S100000x128.size gathers_S100000x128_S200x128.axis :=
    fun x => hin_slice d c i X hXr _ _ x
  have hin6 : ∀ x, (((sI).slice (Rect.unit (s := S1600) ![1200] S200.size inb_S1600_S200_1200) (fun _ => rfl)).view.read (Elt F) (xs d c i X) x).toNat < S100000x128.size gathers_S100000x128_S200x128.axis :=
    fun x => hin_slice d c i X hXr _ _ x
  have hin7 : ∀ x, (((sI).slice (Rect.unit (s := S1600) ![1400] S200.size inb_S1600_S200_1400) (fun _ => rfl)).view.read (Elt F) (xs d c i X) x).toNat < S100000x128.size gathers_S100000x128_S200x128.axis :=
    fun x => hin_slice d c i X hXr _ _ x
  sl_exec_parts
  have hok : StageOK (Gof m d c i) (fc : S32x128.Idx → F .f32) 0 := fun r h => absurd h (Nat.not_lt_zero _)
  loop_site (off1 d c i) (load_sub 0 1 (by decide) _ (co := by infer_instance) rfl _ _) k1_t1_abs 0 0 0 (slot_rows2 _ _ 0 1 (by omega) (by omega) (by omega) _ _ _ _ (by omega) _ _ _ _ _)
  sl_exec_parts
  stage_site 0
  loop_site (off1 d c i) (load_sub 0 1 (by decide) _ (co := by infer_instance) rfl _ _) k1_t2_abs 0 1 0 (slot_rows2 _ _ 0 1 (by omega) (by omega) (by omega) _ _ _ _ (by omega) _ _ _ _ _)
  sl_exec_parts
  stage_site 1
  loop_site (off1 d c i) (load_sub 0 1 (by decide) _ (co := by infer_instance) rfl _ _) k1_t3_abs 0 2 0 (slot_rows2 _ _ 0 1 (by omega) (by omega) (by omega) _ _ _ _ (by omega) _ _ _ _ _)
  sl_exec_parts
  stage_site 2
  loop_site (off1 d c i) (load_sub 0 1 (by decide) _ (co := by infer_instance) rfl _ _) k1_t4_abs 0 3 0 (slot_rows2 _ _ 0 1 (by omega) (by omega) (by omega) _ _ _ _ (by omega) _ _ _ _ _)
  sl_exec_parts
  stage_site 3
  ihave Hb' := (pts_join (ℓ := (sB).view.loc (thr d c i)) (in1 d c i)) $$ [Hb'_2 Hb']
  · isplitl [Hb'_2] <;> iassumption
  sl_exec_parts
  loop_site (off0 d c i) (load_sub 1 0 (by decide) _ (co := by infer_instance) rfl _ _) k1_t5_abs 1 0 1 (slot_rows2 _ _ 1 0 (by omega) (by omega) (by omega) _ _ _ _ (by omega) _ _ _ _ _)
  sl_exec_parts
  stage_site 4
  loop_site (off0 d c i) (load_sub 1 0 (by decide) _ (co := by infer_instance) rfl _ _) k1_t6_abs 1 1 1 (slot_rows2 _ _ 1 0 (by omega) (by omega) (by omega) _ _ _ _ (by omega) _ _ _ _ _)
  sl_exec_parts
  stage_site 5
  loop_site (off0 d c i) (load_sub 1 0 (by decide) _ (co := by infer_instance) rfl _ _) k1_t7_abs 1 2 1 (slot_rows2 _ _ 1 0 (by omega) (by omega) (by omega) _ _ _ _ (by omega) _ _ _ _ _)
  sl_exec_parts
  stage_site 6
  loop_site (off0 d c i) (load_sub 1 0 (by decide) _ (co := by infer_instance) rfl _ _) k1_t8_abs 1 3 1 (slot_rows2 _ _ 1 0 (by omega) (by omega) (by omega) _ _ _ _ (by omega) _ _ _ _ _)
  sl_exec_parts
  stage_site 7
  ihave Hb' := (pts_join (ℓ := (sB).view.loc (thr d c i)) (in0 d c i)) $$ [Hb'_2 Hb']
  · isplitl [Hb'_2] <;> iassumption
  sl_exec_parts
  loop_site (off1 d c i) (load_sub 0 1 (by decide) _ (co := by infer_instance) rfl _ _) k1_t9_abs 0 0 2 (slot_rows2 _ _ 0 1 (by omega) (by omega) (by omega) _ _ _ _ (by omega) _ _ _ _ _)
  sl_exec_parts
  stage_site 8
  loop_site (off1 d c i) (load_sub 0 1 (by decide) _ (co := by infer_instance) rfl _ _) k1_t10_abs 0 1 2 (slot_rows2 _ _ 0 1 (by omega) (by omega) (by omega) _ _ _ _ (by omega) _ _ _ _ _)
  sl_exec_parts
  stage_site 9
  loop_site (off1 d c i) (load_sub 0 1 (by decide) _ (co := by infer_instance) rfl _ _) k1_t11_abs 0 2 2 (slot_rows2 _ _ 0 1 (by omega) (by omega) (by omega) _ _ _ _ (by omega) _ _ _ _ _)
  sl_exec_parts
  stage_site 10
  loop_site (off1 d c i) (load_sub 0 1 (by decide) _ (co := by infer_instance) rfl _ _) k1_t12_abs 0 3 2 (slot_rows2 _ _ 0 1 (by omega) (by omega) (by omega) _ _ _ _ (by omega) _ _ _ _ _)
  sl_exec_parts
  stage_site 11
  ihave Hb' := (pts_join (ℓ := (sB).view.loc (thr d c i)) (in1 d c i)) $$ [Hb'_2 Hb']
  · isplitl [Hb'_2] <;> iassumption
  sl_exec_parts
  loop_site (off0 d c i) (load_sub 1 0 (by decide) _ (co := by infer_instance) rfl _ _) k1_t13_abs 1 0 3 (slot_rows2 _ _ 1 0 (by omega) (by omega) (by omega) _ _ _ _ (by omega) _ _ _ _ _)
  sl_exec_parts
  stage_site 12
  loop_site (off0 d c i) (load_sub 1 0 (by decide) _ (co := by infer_instance) rfl _ _) k1_t14_abs 1 1 3 (slot_rows2 _ _ 1 0 (by omega) (by omega) (by omega) _ _ _ _ (by omega) _ _ _ _ _)
  sl_exec_parts
  stage_site 13
  loop_site (off0 d c i) (load_sub 1 0 (by decide) _ (co := by infer_instance) rfl _ _) k1_t15_abs 1 2 3 (slot_rows2 _ _ 1 0 (by omega) (by omega) (by omega) _ _ _ _ (by omega) _ _ _ _ _)
  sl_exec_parts
  stage_site 14
  loop_site (off0 d c i) (load_sub 1 0 (by decide) _ (co := by infer_instance) rfl _ _) k1_t16_abs 1 3 3 (slot_rows2 _ _ 1 0 (by omega) (by omega) (by omega) _ _ _ _ (by omega) _ _ _ _ _)
  sl_exec_parts
  stage_site 15
  ihave Hb' := (pts_join (ℓ := (sB).view.loc (thr d c i)) (in0 d c i)) $$ [Hb'_2 Hb']
  · isplitl [Hb'_2] <;> iassumption
  sl_exec_parts
  loop_site (off1 d c i) (load_sub 0 1 (by decide) _ (co := by infer_instance) rfl _ _) k1_t17_abs 0 0 4 (slot_rows2 _ _ 0 1 (by omega) (by omega) (by omega) _ _ _ _ (by omega) _ _ _ _ _)
  sl_exec_parts
  stage_site 16
  loop_site (off1 d c i) (load_sub 0 1 (by decide) _ (co := by infer_instance) rfl _ _) k1_t18_abs 0 1 4 (slot_rows2 _ _ 0 1 (by omega) (by omega) (by omega) _ _ _ _ (by omega) _ _ _ _ _)
  sl_exec_parts
  stage_site 17
  loop_site (off1 d c i) (load_sub 0 1 (by decide) _ (co := by infer_instance) rfl _ _) k1_t19_abs 0 2 4 (slot_rows2 _ _ 0 1 (by omega) (by omega) (by omega) _ _ _ _ (by omega) _ _ _ _ _)
  sl_exec_parts
  stage_site 18
  loop_site (off1 d c i) (load_sub 0 1 (by decide) _ (co := by infer_instance) rfl _ _) k1_t20_abs 0 3 4 (slot_rows2 _ _ 0 1 (by omega) (by omega) (by omega) _ _ _ _ (by omega) _ _ _ _ _)
  sl_exec_parts
  stage_site 19
  ihave Hb' := (pts_join (ℓ := (sB).view.loc (thr d c i)) (in1 d c i)) $$ [Hb'_2 Hb']
  · isplitl [Hb'_2] <;> iassumption
  sl_exec_parts
  loop_site (off0 d c i) (load_sub 1 0 (by decide) _ (co := by infer_instance) rfl _ _) k1_t21_abs 1 0 5 (slot_rows2 _ _ 1 0 (by omega) (by omega) (by omega) _ _ _ _ (by omega) _ _ _ _ _)
  sl_exec_parts
  stage_site 20
  loop_site (off0 d c i) (load_sub 1 0 (by decide) _ (co := by infer_instance) rfl _ _) k1_t22_abs 1 1 5 (slot_rows2 _ _ 1 0 (by omega) (by omega) (by omega) _ _ _ _ (by omega) _ _ _ _ _)
  sl_exec_parts
  stage_site 21
  loop_site (off0 d c i) (load_sub 1 0 (by decide) _ (co := by infer_instance) rfl _ _) k1_t23_abs 1 2 5 (slot_rows2 _ _ 1 0 (by omega) (by omega) (by omega) _ _ _ _ (by omega) _ _ _ _ _)
  sl_exec_parts
  stage_site 22
  loop_site (off0 d c i) (load_sub 1 0 (by decide) _ (co := by infer_instance) rfl _ _) k1_t24_abs 1 3 5 (slot_rows2 _ _ 1 0 (by omega) (by omega) (by omega) _ _ _ _ (by omega) _ _ _ _ _)
  sl_exec_parts
  stage_site 23
  ihave Hb' := (pts_join (ℓ := (sB).view.loc (thr d c i)) (in0 d c i)) $$ [Hb'_2 Hb']
  · isplitl [Hb'_2] <;> iassumption
  sl_exec_parts
  loop_site (off1 d c i) (load_sub 0 1 (by decide) _ (co := by infer_instance) rfl _ _) k1_t25_abs 0 0 6 (slot_rows2 _ _ 0 1 (by omega) (by omega) (by omega) _ _ _ _ (by omega) _ _ _ _ _)
  sl_exec_parts
  stage_site 24
  loop_site (off1 d c i) (load_sub 0 1 (by decide) _ (co := by infer_instance) rfl _ _) k1_t26_abs 0 1 6 (slot_rows2 _ _ 0 1 (by omega) (by omega) (by omega) _ _ _ _ (by omega) _ _ _ _ _)
  sl_exec_parts
  stage_site 25
  loop_site (off1 d c i) (load_sub 0 1 (by decide) _ (co := by infer_instance) rfl _ _) k1_t27_abs 0 2 6 (slot_rows2 _ _ 0 1 (by omega) (by omega) (by omega) _ _ _ _ (by omega) _ _ _ _ _)
  sl_exec_parts
  stage_site 26
  loop_site (off1 d c i) (load_sub 0 1 (by decide) _ (co := by infer_instance) rfl _ _) k1_t28_abs 0 3 6 (slot_rows2 _ _ 0 1 (by omega) (by omega) (by omega) _ _ _ _ (by omega) _ _ _ _ _)
  sl_exec_parts
  stage_site 27
  ihave Hb' := (pts_join (ℓ := (sB).view.loc (thr d c i)) (in1 d c i)) $$ [Hb'_2 Hb']
  · isplitl [Hb'_2] <;> iassumption
  loop_site (Finset.univ) (Finset.subset_univ _) k1_t29_abs 1 0 7 (slot_rows1 _ _ 1 (by omega) _ _ _ (by omega) _ _ _ _)
  sl_exec_parts
  stage_site 28
  loop_site (Finset.univ) (Finset.subset_univ _) k1_t30_abs 1 1 7 (slot_rows1 _ _ 1 (by omega) _ _ _ (by omega) _ _ _ _)
  sl_exec_parts
  stage_site 29
  loop_site (Finset.univ) (Finset.subset_univ _) k1_t31_abs 1 2 7 (slot_rows1 _ _ 1 (by omega) _ _ _ (by omega) _ _ _ _)
  sl_exec_parts
  stage_site 30
  loop_site (Finset.univ) (Finset.subset_univ _) k1_t32_abs 1 3 7 (slot_rows1 _ _ 1 (by omega) _ _ _ (by omega) _ _ _ _)
  sl_exec_parts
  sl_step
  isplitl [Hp']
  · unfold tdRes
    iexists _
    isplitr
    rotate_left
    · iexact Hp'
    · ipureintro
      refine rpo_of_stage_w m d c i fp _ ?_
      exact stage_row (Gof m d c i) _ 31 (by omega) _ _ _ _ _ hv.1 hv.2.1 hv.2.2.1 hv.2.2.2.1 hv.2.2.2.2 hok _ _ _ _ _ _
  isplitl [Hs2 Hb' Hc' Hbufs]
  · isplitl [Hs2]; · iexists _; iexact Hs2
    isplitl [Hb']; · iexists _; iexact Hb'
    isplitl [Hc']; · iexists _; iexact Hc'
    iexact Hbufs
  isplitl [HsemA HsemB HsemX HsemY Hsems]
  · isplitl [HsemA]; · iexact HsemA
    isplitl [HsemB]; · iexact HsemB
    isplitl [HsemX]; · iexact HsemX
    isplitl [HsemY]; · iexact HsemY
    iexact Hsems
  iexists _; isplitr
  rotate_left
  · iexact HO
  · ipureintro
    repeat (apply waits_ok)
    exact fun p hp => Or.inl hp

end Cert.Proof.KB

end
-- ==== Proof.Bits.Tile.lean ====
/-
  One tile's task of the pooling kernel.

  Tile (c, i), worker `w = 2 i + c`, copies its 1600 index words into its own memory, gathers for each of its 8 groups
  the 200 table rows the group's index words name (two buffers in turn, one copy outstanding on each buffer's own
  semaphore), adds for each of the group's 4 batch rows the 50 gathered rows position by position from the zero word
  (five 16-lane chunks covering columns 0..69), stores the sums into its staging rows, and copies the 32 staging rows
  out to its rows of the pooled array. The task's run is `tile_body` (TileRun); here it is stated as the launch
  theorem's obligation for a vector-subcore kernel.
-/
import proofs.«202962_g35424890258148_retrytranche2_417_11_alg».proof.Proof.Bits.TileRun

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xW" => (Memref.whole Cert.Kernel.main_v0_scv : Memref Cert.Kernel.sig Kind.scVector Space.hbm Cert.Kernel.S51200 EltTy.i32)
local notation "tW" => (Memref.whole Cert.Kernel.main_v2_scv : Memref Cert.Kernel.sig Kind.scVector Space.hbm Cert.Kernel.S100000x128 EltTy.f32)
local notation "pW" => (Memref.whole Cert.Kernel.main_v3_scv : Memref Cert.Kernel.sig Kind.scVector Space.hbm Cert.Kernel.S1024x128 EltTy.f32)
local notation "sI" => (Memref.whole Cert.Kernel.cc1_scratch0 : Memref Cert.Kernel.sig Kind.scVector Space.vmem Cert.Kernel.S1600 EltTy.i32)
local notation "sB" => (Memref.whole Cert.Kernel.cc1_scratch1 : Memref Cert.Kernel.sig Kind.scVector Space.vmem Cert.Kernel.S2x200x128 EltTy.f32)
local notation "sS" => (Memref.whole Cert.Kernel.cc1_scratch2 : Memref Cert.Kernel.sig Kind.scVector Space.vmem Cert.Kernel.S32x128 EltTy.f32)

variable (m : (ℓ : Loc nD τ sig) → Buf (Elt F) ℓ) (X : (d : Dev nD) → Buf (Elt F) (xLoc d))

/-! ## The launch theorem's obligation -/

theorem defs₀_vector (cc : Fin τ.nSC) (ss : Fin τ.nSub) :
    defs₀ (F := F) (.scVector cc ss) 1 ⟨⟩
      = SparseCore.onTile hcore1 hsub1 (fun c s => cc1_pool (co c s) xW (Memref.isWhole_whole _) tW (Memref.isWhole_whole _) pW (Memref.isWhole_whole _)
          sI (Memref.isWhole_whole _) sB (Memref.isWhole_whole _) sS (Memref.isWhole_whole _) cc1_scratch3 cc1_scratch4 cc1_scoped0 cc1_scoped1) ⟨⟩ cc ss := rfl

/-- The waits a task records at the kernels' own index are among those its obligation allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of every tile: from its index words, a read share of a padded table that holds the table, and its rows
    of the pooled array, to those rows holding the pooled sums. -/
theorem tileObl (hX : ∀ d, IsFlat m d (X d)) (hr : InRange m) :
    (K (F := F)).TileObl (D (F := F)) 𝒱 (P X (Rtp m) (Rpo m)) v₀ 0 := by
  intro d c i O W hO _ _
  simp only [show (P (F := F) X (Rtp m) (Rpo m)).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d ⟨_, hc.1⟩ ⟨_, hc.2⟩ m X hX hr O W hO).trans (wp_mono frame _ _ fun _ => obl_post)

end Cert.Proof.KB

end
-- ==== Proof.Bits.HostVals.lean ====
/-
  The host operations' values, entry by entry.

  The flat index array is the index array read row-major (position `50 p + j` holds entry `(p, j)`); the transposed
  table and the transposed `W` hold at `(e, r)` their argument's entry `(r, e)`; the bias as a row holds at `(0, v)`
  the bias's entry `v`; the result is the transpose of the projection's output; and a padded table that agrees with the
  transposed table, entry `(r, e)` against `(e, r)`, holds the table in its first 70 columns.
-/
import proofs.«202962_g35424890258148_retrytranche2_417_11_alg».proof.Proof.Bits.Main4
import Idealize.ShloMosaic.Lib.Pipeline.Value

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok)

variable {F : FTy → Type} [FloatOps F]

variable (m : (ℓ : Loc nD τ sig) → Buf (Elt F) ℓ)

/-- The flat index array is the index array read row-major. -/
theorem Xc_flat (d : Dev nD) : IsFlat m d (Xc m d) := by
  intro p j
  have e : Xc m d = fun i => shapeCast S51200
      ((val2 m d main_arg0 main_v0 (mAt m d main_arg0) (mAt m d main_v0)) (Proc.devRef .tc main_arg0)) shapeCasts_S1024x50_S51200 i :=
    StableHlo.reshape_result main_arg0 main_v0 rfl shapeCasts_S1024x50_S51200 _ _ _
  rw [e, val2_x m d main_arg0 main_v0 _ _ (by decide)]
  refine shapeCast_apply _ _ _ (ix2 p j) ?_
  rw [Shape.rowMajor_val_two, Shape.rowMajor_val_one]
  rfl

/-- The transposed table at `(e, r)` is the table at `(r, e)`. -/
theorem TTc_apply (d : Dev nD) (e : Fin 70) (r : Fin 100000) :
    (TTc m d : S70x100000.Idx → F .f32) (ix2 e r) = (mAt m d main_arg1 : S100000x70.Idx → F .f32) (ix2 r e) := by
  have h : TTc m d = transpose S70x100000 [1, 0]
      ((val2 m d main_arg1 main_v1 (mAt m d main_arg1) (mAt m d main_v1)) (Proc.devRef .tc main_arg1)) transposes_S100000x70_S70x100000_1_0 :=
    StableHlo.unary_result main_arg1 main_v1 _ _ _ _
  rw [h, val2_x m d main_arg1 main_v1 _ _ (by decide)]
  refine transpose_apply _ _ _ _ (ix2 r e) ?_
  intro c
  match c with
  | ⟨0, _⟩ => rfl
  | ⟨1, _⟩ => rfl

/-- The transposed `W` at `(e, v)` is `W` at `(v, e)`. -/
theorem WTc_apply (d : Dev nD) (e : Fin 70) (v : Fin 100000) :
    (WTc m d : S70x100000.Idx → F .f32) (ix2 e v) = (mAt m d main_arg2 : S100000x70.Idx → F .f32) (ix2 v e) := by
  have h : WTc m d = transpose S70x100000 [1, 0]
      ((val2 m d main_arg2 main_v4 (mAt m d main_arg2) (mAt m d main_v4)) (Proc.devRef .tc main_arg2)) transposes_S100000x70_S70x100000_1_0 :=
    StableHlo.unary_result main_arg2 main_v4 _ _ _ _
  rw [h, val2_x m d main_arg2 main_v4 _ _ (by decide)]
  refine transpose_apply _ _ _ _ (ix2 v e) ?_
  intro c
  match c with
  | ⟨0, _⟩ => rfl
  | ⟨1, _⟩ => rfl

/-- The bias as a row at `(0, v)` is the bias at `v`. -/
theorem B2c_apply (d : Dev nD) (v : Fin 100000) :
    (B2c m d : S1x100000.Idx → F .f32) (ix2 0 v) = (mAt m d main_arg3 : S100000.Idx → F .f32) (ix1 v) := by
  have e : B2c m d = fun i => shapeCast S1x100000
      ((val2 m d main_arg3 main_v5 (mAt m d main_arg3) (mAt m d main_v5)) (Proc.devRef .tc main_arg3)) shapeCasts_S100000_S1x100000 i :=
    StableHlo.reshape_result main_arg3 main_v5 rfl shapeCasts_S100000_S1x100000 _ _ _
  rw [e, val2_x m d main_arg3 main_v5 _ _ (by decide)]
  refine shapeCast_apply _ _ _ (ix1 v) ?_
  rw [Shape.rowMajor_val_two, Shape.rowMajor_val_one]
  show v.val = 0 * 100000 + v.val
  omega

/-- The result at `(b, v)` is the projection's output at `(v, b)`. -/
theorem out_apply (d : Dev nD) (f6 : Buf (Elt F) ((SparseCore.T d : Thread nD τ).loc main_v6)) (b : Fin 1024) (v : Fin 100000) :
    ((opOut (F := F)).result (val2 m d main_v6 main_v7 f6 (mAt m d main_v7)) (Proc.devRef .tc main_v7) : S1024x100000.Idx → F .f32) (ix2 b v)
      = (f6 : S100000x1024.Idx → F .f32) (ix2 v b) := by
  have h : (opOut (F := F)).result (val2 m d main_v6 main_v7 f6 (mAt m d main_v7)) (Proc.devRef .tc main_v7)
      = transpose S1024x100000 [1, 0] ((val2 m d main_v6 main_v7 f6 (mAt m d main_v7)) (Proc.devRef .tc main_v6)) transposes_S100000x1024_S1024x100000_1_0 :=
    StableHlo.unary_result main_v6 main_v7 _ _ _ _
  rw [h, val2_x m d main_v6 main_v7 _ _ (by decide)]
  refine transpose_apply _ _ _ _ (ix2 v b) ?_
  intro c
  match c with
  | ⟨0, _⟩ => rfl
  | ⟨1, _⟩ => rfl

/-- A padded table that agrees with the transposed table holds the table in its first 70 columns. -/
theorem rtp_of_rel (d : Dev nD) (tp : Buf (Elt F) (tpLoc d))
    (h : ∀ (r : Fin 100000) (e : Fin 70), (tp : S100000x128.Idx → F .f32) (ix2 r (e.castLE (by decide)))
      = (Vv0 m d main_v1 : S70x100000.Idx → F .f32) (ix2 e r)) : Rtp m d tp := by
  intro r e
  rw [h r e, Vv0_v1, TTc_apply]

end Cert.Proof.KB

end
-- ==== Proof.Bits.Assemble.lean ====
/-
  The kernel program's run assembled from its pieces, and the claims about it: the run's post holds the arguments
  unchanged and the result's entries satisfying `Ent`; with no demand on the entries it is the frame, at any float
  instance; at the extended reals, with `Ent` the projection's sum, the result is the specification.
-/
import proofs.«202962_g35424890258148_retrytranche2_417_11_alg».proof.Proof.Bits.Main5
import proofs.«202962_g35424890258148_retrytranche2_417_11_alg».proof.Proof.Bits.Fin
import proofs.«202962_g35424890258148_retrytranche2_417_11_alg».proof.Proof.Bits.Tile
import proofs.«202962_g35424890258148_retrytranche2_417_11_alg».proof.Proof.Bits.HostVals
import proofs.«202962_g35424890258148_retrytranche2_417_11_alg».proof.Proof.RefRange

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.Sem

variable {F : FTy → Type} [FloatOps F] [∀ e, Nonempty (Elt F e)]

variable (m : (ℓ : Loc nD τ sig) → Buf (Elt F) ℓ) (ρ : Dev nD → PrngReg)
variable (Ent : Dev nD → Fin 100000 → Fin 1024 → F .f32 → Prop)

/-- The run: every weakly fair execution of the device's threads from `m` terminates with the arguments unchanged and
    the result satisfying `ResOK`, when every index word names a table row and the projection's arithmetic meets `Ent`. -/
theorem run_main (hr : InRange m)
    (hOK : ∀ (d : Dev nD) (Pc : Buf (Elt F) (poLoc d)), (∀ c i, Rpo m d c i Pc) → BodyOK2 d (Vv2 m d Pc) (Ent d)) :
    θ_run (Cert.Kernel.defs (F := F)) (Cert.Kernel.threads (F := F)) ⟨m, fun _ => 0, ρ⟩ (QC m Ent) :=
  run_main_of (Xc m) (Rtp m) (Rpo m) m ρ (tileObl m (Xc m) (fun d => Xc_flat m d) hr) (FIN m Ent)
    (hmain m ρ Ent hOK (fun d tp h => rtp_of_rel m d tp h)) (fq m Ent) (hfin m Ent) (QC m Ent) (fun _ h => h)

/-- The frame, from the index range alone: nothing is asked of the result. -/
theorem frame_of_range (hr : InRange m) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (Cert.Kernel.defs (F := F)) _ _).mono (fun _ h c => ⟨(h c).1, (h c).2.1, (h c).2.2.1, (h c).2.2.2.1⟩)
    (run_main m ρ (fun _ _ _ _ => True) hr (fun _ _ _ _ _ _ _ _ _ _ _ => trivial))

/-- The precondition's integer conjunct: every index word names a table row. -/
theorem inRange_of_pre [Cert.Pre_input_domain.Facts]
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) = fun _ => 1#1) : InRange m :=
  fun d j => Cert.RefRange.range_of_pre _ _ _ _ (h d) j

end Cert.Proof.KB

end
-- ==== Proof.AssembleBits.lean ====
/-
  The claim about the program as printed, at the word-level float instance: it runs, faults nowhere, and leaves its
  arguments unchanged. Nothing is asked of its result here; the proof is the instance-generic run with no demand on the
  projection's entries.
-/
import proofs.«202962_g35424890258148_retrytranche2_417_11_alg».proof.Proof.Bits.Assemble

noncomputable section

namespace Cert.Proof.KB

open Idealize.ShloMosaic Idealize.SL Idealize.SL.Sem

theorem frame_k : Cert.frame_Kernel := fun m ρ hpre =>
  frame_of_range (F := Bits) m ρ (inRange_of_pre m hpre)

end Cert.Proof.KB

end
-- ==== Proof.lean ====
/-
  The certificate of an embedding-mean-projection kernel against its reference.

  Both programs compute, for batch row p and vocabulary entry q,
      out[p, q] = (∑ d < 70, ((∑ i < 50, table[x[p, i], d]) · (1/50)) · W[q, d]) + bias[q].
  The kernel does it in three launches: a TensorCore call lays the table out padded to 128 columns; a SparseCore
  call has each of 32 tiles gather the table rows its 32 batch rows name and add them position by position; a second
  TensorCore call scales the sums by the constant the source writes as 1/50, multiplies by the transposed `W` and adds
  the bias. The reference looks the rows up, takes the mean by dividing the sum by 50, and projects.

  The claims: each of the three programs runs to the end from any memory satisfying the precondition (float inputs
  finite, index words in [0, 99999]), faults nowhere and leaves its arguments unchanged; the constant the ideal pass
  named `inv_50` is 1/50 on the extended reals; and from memories agreeing on the arguments the idealized kernel and
  the idealized reference end with equal results. The last holds because the quotient by 50 is the product with 1/50 on
  every extended real and products commute; sums are taken over the same index sets in both programs, so no finiteness
  is used. The index range is used twice: every gathered index names a table row (without it the kernel's indirect
  copies do not complete), and the reference's negative-index wrap and out-of-range mask are inactive.

  The proof: `Spec` states the function; `RefSide` reads the reference's run back as it; `Launch0`-`Launch3` apply the
  SparseCore launch theorem, `Region` enters a TensorCore region from inside that program, `Reg0*` and `Reg2*` are the
  two regions, `Tile*` one tile's task, `Deal*` the split of the arrays among the tiles, `Main1`-`Main5` the main
  program on the TensorCore, `Assemble*` and `FinalIdeal` the claims. The modules under `Bits/` are the same text over
  the program as printed.
-/
import proofs.«202962_g35424890258148_retrytranche2_417_11_alg».proof.Defs
import proofs.«202962_g35424890258148_retrytranche2_417_11_alg».proof.Proof.Gen.Kernel
import proofs.«202962_g35424890258148_retrytranche2_417_11_alg».proof.Proof.Gen.Kernel.Skeleton
import proofs.«202962_g35424890258148_retrytranche2_417_11_alg».proof.Proof.Gen.Kernel.Launch
import proofs.«202962_g35424890258148_retrytranche2_417_11_alg».proof.Proof.Gen.Kernel.Regions
import proofs.«202962_g35424890258148_retrytranche2_417_11_alg».proof.Proof.Gen.Kernel.Points
import proofs.«202962_g35424890258148_retrytranche2_417_11_alg».proof.Proof.Gen.KernelIdeal
import proofs.«202962_g35424890258148_retrytranche2_417_11_alg».proof.Proof.Gen.KernelIdeal.Skeleton
import proofs.«202962_g35424890258148_retrytranche2_417_11_alg».proof.Proof.Gen.KernelIdeal.Launch
import proofs.«202962_g35424890258148_retrytranche2_417_11_alg».proof.Proof.Gen.KernelIdeal.Regions
import proofs.«202962_g35424890258148_retrytranche2_417_11_alg».proof.Proof.Gen.KernelIdeal.Points
import proofs.«202962_g35424890258148_retrytranche2_417_11_alg».proof.Proof.Gen.ReferenceIdeal
import proofs.«202962_g35424890258148_retrytranche2_417_11_alg».proof.Proof.Gen.Pre_input_domain
import proofs.«202962_g35424890258148_retrytranche2_417_11_alg».proof.Proof.AssembleIdeal
import proofs.«202962_g35424890258148_retrytranche2_417_11_alg».proof.Proof.AssembleBits
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Cert.Proof.KB.frame_k, Cert.Proof.KI.frame_ki, Cert.Proof.KI.frame_ri, Cert.Proof.KI.preserves, Cert.Proof.KI.algebraic⟩

end Cert.Proof

end
